-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S16384 : Shape := ⟨1, ![16384]⟩
abbrev S4 : Shape := ⟨1, ![4]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S4 : S_.BroadcastsInDim S4 (![] : Fin 0 → Fin S4.rank)
  reducesTo_S4_S_d0 : S4.ReducesTo [0] S_
  reducesTo_S_S_d : S_.ReducesTo [] S_
  bcast_S_S16384x200 : S_.BroadcastsInDim S16384x200 (![] : Fin 0 → Fin S16384x200.rank)
  reducesTo_S16384x200_S_d0_1 : S16384x200.ReducesTo [0, 1] S_

variable [Facts]

def fn_part1 {F : FTy → Type} [FloatOps F] (main_arg0 : IVec S16384x200 32) (main_v12 : IVec S_ 1) (main_v14 : IVec S16384x200 1) (main_v15 : IVec S16384x200 32) : IVec S_ 1 :=
  let main_v16 : IVec S16384x200 1 := cmpi .sle main_arg0 main_v15
  let main_v17 : IVec S16384x200 1 := andi main_v14 main_v16
  let main_c_6 : IVec S_ 1 := constantI S_ 1 1#1
  let main_v18 : IVec S_ 1 := (fun x v => Host.reduce IntOp.andi x v reducesTo_S16384x200_S_d0_1 h_S_) main_v17 main_c_6
  let main_v19 : IVec S_ 1 := andi main_v12 main_v18
  main_v19

def fn {F : FTy → Type} [FloatOps F] (main_arg0 : IVec S16384x200 32) (main_arg1 : FVec F S16384 .f32) (main_arg2 : FVec F S4 .f32) (main_arg3 : FVec F S_ .f32) : IVec S_ 1 :=
  let main_v0 : FVec F S16384 .f32 := Host.absf main_arg1
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S16384x200 32 := broadcastInDim S16384x200 ![] bcast_S_S16384x200 main_c_4
  let main_v14 : IVec S16384x200 1 := cmpi .sge main_arg0 main_v13
  let main_c_5 : IVec S_ 32 := constantI S_ 32 3#32
  let main_v15 : IVec S16384x200 32 := broadcastInDim S16384x200 ![] bcast_S_S16384x200 main_c_5
  fn_part1 (F := F) main_arg0 main_v12 main_v14 main_v15
-- ==== Kernel.lean ====
abbrev S16384x200 : Shape := ⟨2, ![16384, 200]⟩
abbrev S16384 : Shape := ⟨1, ![16384]⟩
abbrev S4 : Shape := ⟨1, ![4]⟩
abbrev S_ : Shape := ⟨0, ![]⟩
abbrev S16 : Shape := ⟨1, ![16]⟩
abbrev S128x200 : Shape := ⟨2, ![128, 200]⟩
abbrev S512 : Shape := ⟨1, ![512]⟩
abbrev S2176 : Shape := ⟨1, ![2176]⟩
abbrev S128 : Shape := ⟨1, ![128]⟩
abbrev S1 : Shape := ⟨1, ![1]⟩
abbrev S1x16 : Shape := ⟨2, ![1, 16]⟩

abbrev nBuf : Table → Nat
  | .hbm => 6
  | .local .scVector .vmem => 9
  | _ => 0

abbrev bufTy : (tb : Table) → Fin (nBuf tb) → BufTy
  | .hbm, ⟨0, _⟩ => ⟨S16384x200, .i32⟩
  | .hbm, ⟨1, _⟩ => ⟨S16384, .f32⟩
  | .hbm, ⟨2, _⟩ => ⟨S4, .f32⟩
  | .hbm, ⟨3, _⟩ => ⟨S_, .f32⟩
  | .hbm, ⟨4, _⟩ => ⟨S16, .f32⟩
  | .hbm, ⟨5, _⟩ => ⟨S16384, .f32⟩
  | .local .scVector .vmem, ⟨0, _⟩ => ⟨S128x200, .i32⟩
  | .local .scVector .vmem, ⟨1, _⟩ => ⟨S128x200, .i32⟩
  | .local .scVector .vmem, ⟨2, _⟩ => ⟨S512, .f32⟩
  | .local .scVector .vmem, ⟨3, _⟩ => ⟨S512, .f32⟩
  | .local .scVector .vmem, ⟨4, _⟩ => ⟨S2176, .i32⟩
  | .local .scVector .vmem, ⟨5, _⟩ => ⟨S2176, .i32⟩
  | .local .scVector .vmem, ⟨6, _⟩ => ⟨S2176, .i32⟩
  | .local .scVector .vmem, ⟨7, _⟩ => ⟨S128, .f32⟩
  | .local .scVector .vmem, ⟨8, _⟩ => ⟨S16, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off3 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v27 : BitVec 32 := Scalar.addi v2 c128_i32
  let c0_i32_4 : BitVec 32 := 0#32
  ![v27.toNat, 0]
@[reducible] def k0_t1_loop : Scf.Loop 32 :=
  let c0_i32_8 : BitVec 32 := 0#32
  let c128_i32_9 : BitVec 32 := 128#32
  let v32 : BitVec 32 := Scalar.addi c0_i32_8 c128_i32_9
  let c1_i32 : BitVec 32 := 1#32
  ⟨c0_i32_8, v32, c1_i32⟩
def k0_off4 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v52 : Index := Scalar.indexCast arg18
  let c0_49 : Index := 0#32
  ![v52.toNat, 0]
def k0_off5 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v60 : Index := Scalar.indexCast arg18
  let c16 : Index := 16#32
  ![v60.toNat, 16]
def k0_off6 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v68 : Index := Scalar.indexCast arg18
  let c32 : Index := 32#32
  ![v68.toNat, 32]
def k0_off7 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v76 : Index := Scalar.indexCast arg18
  let c48 : Index := 48#32
  ![v76.toNat, 48]
def k0_off8 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v84 : Index := Scalar.indexCast arg18
  let c64 : Index := 64#32
  ![v84.toNat, 64]
def k0_off9 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v92 : Index := Scalar.indexCast arg18
  let c80 : Index := 80#32
  ![v92.toNat, 80]
def k0_off10 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v100 : Index := Scalar.indexCast arg18
  let c96 : Index := 96#32
  ![v100.toNat, 96]
def k0_off11 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v108 : Index := Scalar.indexCast arg18
  let c112 : Index := 112#32
  ![v108.toNat, 112]
def k0_off12 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v116 : Index := Scalar.indexCast arg18
  let c128 : Index := 128#32
  ![v116.toNat, 128]
def k0_off13 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v124 : Index := Scalar.indexCast arg18
  let c144 : Index := 144#32
  ![v124.toNat, 144]
def k0_off14 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v132 : Index := Scalar.indexCast arg18
  let c160 : Index := 160#32
  ![v132.toNat, 160]
def k0_off15 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v140 : Index := Scalar.indexCast arg18
  let c176 : Index := 176#32
  ![v140.toNat, 176]
def k0_off16 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let v148 : Index := Scalar.indexCast arg18
  let c184 : Index := 184#32
  ![v148.toNat, 184]
def k0_off17 (k0_t1 : Fin k0_t1_loop.trips) : Fin 1 → Nat :=
  let c0_i32_8 : BitVec 32 := 0#32
  let c1_i32 : BitVec 32 := 1#32
  let arg18 : BitVec 32 := Scf.iv c0_i32_8 c1_i32 k0_t1
  let c17_i32 : BitVec 32 := 17#32
  let v157 : BitVec 32 := Scalar.muli arg18 c17_i32
  let v158 : Index := Scalar.indexCast v157
  ![v158.toNat]
@[reducible] def k0_t2_loop : Scf.Loop 32 :=
  let c0_i32_11 : BitVec 32 := 0#32
  let c8_i32_12 : BitVec 32 := 8#32
  let v33 : BitVec 32 := Scalar.addi c0_i32_11 c8_i32_12
  let c1_i32_13 : BitVec 32 := 1#32
  ⟨c0_i32_11, v33, c1_i32_13⟩

def k0_chk1 (v58 : IVec S16 32) : Prop :=
  (∀ a x, ((![v58] : Fin 1 → IVec S16 32) a x).toNat < S2176.size a)
instance k0_chk1.dec : ∀ (v58 : IVec S16 32), Decidable (k0_chk1 v58) := fun v58 => decidable_of_iff' _ (Iff.of_eq (k0_chk1.eq_1 v58))
theorem k0_idx1_inb : ∀ (v58 : IVec S16 32) (k0_hw1 : k0_chk1 v58), ∀ a x, ((![v58] : Fin 1 → IVec S16 32) a x).toNat < S2176.size a := fun v58 k0_hw1 => k0_hw1

def k0_chk2 (v62 : IVec S16 32) : Prop :=
  (∀ a x, ((![v62] : Fin 1 → IVec S16 32) a x).toNat < S2176.size a)
instance k0_chk2.dec : ∀ (v62 : IVec S16 32), Decidable (k0_chk2 v62) := fun v62 => decidable_of_iff' _ (Iff.of_eq (k0_chk2.eq_1 v62))
theorem k0_idx2_inb : ∀ (v62 : IVec S16 32) (k0_hw2 : k0_chk2 v62), ∀ a x, ((![v62] : Fin 1 → IVec S16 32) a x).toNat < S2176.size a := fun v62 k0_hw2 => k0_hw2

def k0_chk3 (v66 : IVec S16 32) : Prop :=
  (∀ a x, ((![v66] : Fin 1 → IVec S16 32) a x).toNat < S2176.size a)
instance k0_chk3.dec : ∀ (v66 : IVec S16 32), Decidable (k0_chk3 v66) := fun v66 => decidable_of_iff' _ (Iff.of_eq (k0_chk3.eq_1 v66))
theorem k0_idx3_inb : ∀ (v66 : IVec S16 32) (k0_hw3 : k0_chk3 v66), ∀ a x, ((![v66] : Fin 1 → IVec S16 32) a x).toNat < S2176.size a := fun v66 k0_hw3 => k0_hw3

def k0_chk4 (v70 : IVec S16 32) : Prop :=
  (∀ a x, ((![v70] : Fin 1 → IVec S16 32) a x).toNat < S2176.size a)
instance k0_chk4.dec : ∀ (v70 : IVec S16 32), Decidable (k0_chk4 v70) := fun v70 => decidable_of_iff' _ (Iff.of_eq (k0_chk4.eq_1 v70))
theorem k0_idx4_inb : ∀ (v70 : IVec S16 32) (k0_hw4 : k0_chk4 v70), ∀ a x, ((![v70] : Fin 1 → IVec S16 32) a x).toNat < S2176.size a := fun v70 k0_hw4 => k0_hw4

def k0_chk5 (v74 : IVec S16 32) : Prop :=
  (∀ a x, ((![v74] : Fin 1 → IVec S16 32) a x).toNat < S2176.size a)
instance k0_chk5.dec : ∀ (v74 : IVec S16 32), Decidable (k0_chk5 v74) := fun v74 => decidable_of_iff' _ (Iff.of_eq (k0_chk5.eq_1 v74))
theorem k0_idx5_inb : ∀ (v74 : IVec S16 32) (k0_hw5 : k0_chk5 v74), ∀ a x, ((![v74] : Fin 1 → IVec S16 32) a x).toNat < S2176.size a := fun v74 k0_hw5 => k0_hw5

def k0_chk6 (v78 : IVec S16 32) : Prop :=
  (∀ a x, ((![v78] : Fin 1 → IVec S16 32) a x).toNat < S2176.size a)
instance k0_chk6.dec : ∀ (v78 : IVec S16 32), Decidable (k0_chk6 v78) := fun v78 => decidable_of_iff' _ (Iff.of_eq (k0_chk6.eq_1 v78))
theorem k0_idx6_inb : ∀ (v78 : IVec S16 32) (k0_hw6 : k0_chk6 v78), ∀ a x, ((![v78] : Fin 1 → IVec S16 32) a x).toNat < S2176.size a := fun v78 k0_hw6 => k0_hw6

def k0_chk7 (v82 : IVec S16 32) : Prop :=
  (∀ a x, ((![v82] : Fin 1 → IVec S16 32) a x).toNat < S2176.size a)
instance k0_chk7.dec : ∀ (v82 : IVec S16 32), Decidable (k0_chk7 v82) := fun v82 => decidable_of_iff' _ (Iff.of_eq (k0_chk7.eq_1 v82))
theorem k0_idx7_inb : ∀ (v82 : IVec S16 32) (k0_hw7 : k0_chk7 v82), ∀ a x, ((![v82] : Fin 1 → IVec S16 32) a x).toNat < S2176.size a := fun v82 k0_hw7 => k0_hw7

def k0_chk8 (v86 : IVec S16 32) : Prop :=
  (∀ a x, ((![v86] : Fin 1 → IVec S16 32) a x).toNat < S2176.size a)
instance k0_chk8.dec : ∀ (v86 : IVec S16 32), Decidable (k0_chk8 v86) := fun v86 => decidable_of_iff' _ (Iff.of_eq (k0_chk8.eq_1 v86))
theorem k0_idx8_inb : ∀ (v86 : IVec S16 32) (k0_hw8 : k0_chk8 v86), ∀ a x, ((![v86] : Fin 1 → IVec S16 32) a x).toNat < S2176.size a := fun v86 k0_hw8 => k0_hw8

def k0_chk9 (v90 : IVec S16 32) : Prop :=
  (∀ a x, ((![v90] : Fin 1 → IVec S16 32) a x).toNat < S2176.size a)
instance k0_chk9.dec : ∀ (v90 : IVec S16 32), Decidable (k0_chk9 v90) := fun v90 => decidable_of_iff' _ (Iff.of_eq (k0_chk9.eq_1 v90))
theorem k0_idx9_inb : ∀ (v90 : IVec S16 32) (k0_hw9 : k0_chk9 v90), ∀ a x, ((![v90] : Fin 1 → IVec S16 32) a x).toNat < S2176.size a := fun v90 k0_hw9 => k0_hw9

def k0_chk10 (v94 : IVec S16 32) : Prop :=
  (∀ a x, ((![v94] : Fin 1 → IVec S16 32) a x).toNat < S2176.size a)
instance k0_chk10.dec : ∀ (v94 : IVec S16 32), Decidable (k0_chk10 v94) := fun v94 => decidable_of_iff' _ (Iff.of_eq (k0_chk10.eq_1 v94))
theorem k0_idx10_inb : ∀ (v94 : IVec S16 32) (k0_hw10 : k0_chk10 v94), ∀ a x, ((![v94] : Fin 1 → IVec S16 32) a x).toNat < S2176.size a := fun v94 k0_hw10 => k0_hw10

def k0_chk11 (v98 : IVec S16 32) : Prop :=
  (∀ a x, ((![v98] : Fin 1 → IVec S16 32) a x).toNat < S2176.size a)
instance k0_chk11.dec : ∀ (v98 : IVec S16 32), Decidable (k0_chk11 v98) := fun v98 => decidable_of_iff' _ (Iff.of_eq (k0_chk11.eq_1 v98))
theorem k0_idx11_inb : ∀ (v98 : IVec S16 32) (k0_hw11 : k0_chk11 v98), ∀ a x, ((![v98] : Fin 1 → IVec S16 32) a x).toNat < S2176.size a := fun v98 k0_hw11 => k0_hw11

def k0_chk12 (v102 : IVec S16 32) : Prop :=
  (∀ a x, ((![v102] : Fin 1 → IVec S16 32) a x).toNat < S2176.size a)
instance k0_chk12.dec : ∀ (v102 : IVec S16 32), Decidable (k0_chk12 v102) := fun v102 => decidable_of_iff' _ (Iff.of_eq (k0_chk12.eq_1 v102))
theorem k0_idx12_inb : ∀ (v102 : IVec S16 32) (k0_hw12 : k0_chk12 v102), ∀ a x, ((![v102] : Fin 1 → IVec S16 32) a x).toNat < S2176.size a := fun v102 k0_hw12 => k0_hw12

def k0_chk13 (v106 : IVec S16 32) : Prop :=
  (∀ a x, ((![v106] : Fin 1 → IVec S16 32) a x).toNat < S2176.size a)
instance k0_chk13.dec : ∀ (v106 : IVec S16 32), Decidable (k0_chk13 v106) := fun v106 => decidable_of_iff' _ (Iff.of_eq (k0_chk13.eq_1 v106))
theorem k0_idx13_inb : ∀ (v106 : IVec S16 32) (k0_hw13 : k0_chk13 v106), ∀ a x, ((![v106] : Fin 1 → IVec S16 32) a x).toNat < S2176.size a := fun v106 k0_hw13 => k0_hw13

def k0_chk14 (v110 : IVec S16 32) : Prop :=
  (∀ a x, ((![v110] : Fin 1 → IVec S16 32) a x).toNat < S2176.size a)
instance k0_chk14.dec : ∀ (v110 : IVec S16 32), Decidable (k0_chk14 v110) := fun v110 => decidable_of_iff' _ (Iff.of_eq (k0_chk14.eq_1 v110))
theorem k0_idx14_inb : ∀ (v110 : IVec S16 32) (k0_hw14 : k0_chk14 v110), ∀ a x, ((![v110] : Fin 1 → IVec S16 32) a x).toNat < S2176.size a := fun v110 k0_hw14 => k0_hw14

def k0_chk15 (v114 : IVec S16 32) : Prop :=
  (∀ a x, ((![v114] : Fin 1 → IVec S16 32) a x).toNat < S2176.size a)
instance k0_chk15.dec : ∀ (v114 : IVec S16 32), Decidable (k0_chk15 v114) := fun v114 => decidable_of_iff' _ (Iff.of_eq (k0_chk15.eq_1 v114))
theorem k0_idx15_inb : ∀ (v114 : IVec S16 32) (k0_hw15 : k0_chk15 v114), ∀ a x, ((![v114] : Fin 1 → IVec S16 32) a x).toNat < S2176.size a := fun v114 k0_hw15 => k0_hw15

def k0_chk16 (v118 : IVec S16 32) : Prop :=
  (∀ a x, ((![v118] : Fin 1 → IVec S16 32) a x).toNat < S2176.size a)
instance k0_chk16.dec : ∀ (v118 : IVec S16 32), Decidable (k0_chk16 v118) := fun v118 => decidable_of_iff' _ (Iff.of_eq (k0_chk16.eq_1 v118))
theorem k0_idx16_inb : ∀ (v118 : IVec S16 32) (k0_hw16 : k0_chk16 v118), ∀ a x, ((![v118] : Fin 1 → IVec S16 32) a x).toNat < S2176.size a := fun v118 k0_hw16 => k0_hw16

def k0_chk17 (v122 : IVec S16 32) : Prop :=
  (∀ a x, ((![v122] : Fin 1 → IVec S16 32) a x).toNat < S2176.size a)
instance k0_chk17.dec : ∀ (v122 : IVec S16 32), Decidable (k0_chk17 v122) := fun v122 => decidable_of_iff' _ (Iff.of_eq (k0_chk17.eq_1 v122))
theorem k0_idx17_inb : ∀ (v122 : IVec S16 32) (k0_hw17 : k0_chk17 v122), ∀ a x, ((![v122] : Fin 1 → IVec S16 32) a x).toNat < S2176.size a := fun v122 k0_hw17 => k0_hw17

def k0_chk18 (v126 : IVec S16 32) : Prop :=
  (∀ a x, ((![v126] : Fin 1 → IVec S16 32) a x).toNat < S2176.size a)
instance k0_chk18.dec : ∀ (v126 : IVec S16 32), Decidable (k0_chk18 v126) := fun v126 => decidable_of_iff' _ (Iff.of_eq (k0_chk18.eq_1 v126))
theorem k0_idx18_inb : ∀ (v126 : IVec S16 32) (k0_hw18 : k0_chk18 v126), ∀ a x, ((![v126] : Fin 1 → IVec S16 32) a x).toNat < S2176.size a := fun v126 k0_hw18 => k0_hw18

def k0_chk19 (v130 : IVec S16 32) : Prop :=
  (∀ a x, ((![v130] : Fin 1 → IVec S16 32) a x).toNat < S2176.size a)
instance k0_chk19.dec : ∀ (v130 : IVec S16 32), Decidable (k0_chk19 v130) := fun v130 => decidable_of_iff' _ (Iff.of_eq (k0_chk19.eq_1 v130))
theorem k0_idx19_inb : ∀ (v130 : IVec S16 32) (k0_hw19 : k0_chk19 v130), ∀ a x, ((![v130] : Fin 1 → IVec S16 32) a x).toNat < S2176.size a := fun v130 k0_hw19 => k0_hw19

def k0_chk20 (v134 : IVec S16 32) : Prop :=
  (∀ a x, ((![v134] : Fin 1 → IVec S16 32) a x).toNat < S2176.size a)
instance k0_chk20.dec : ∀ (v134 : IVec S16 32), Decidable (k0_chk20 v134) := fun v134 => decidable_of_iff' _ (Iff.of_eq (k0_chk20.eq_1 v134))
theorem k0_idx20_inb : ∀ (v134 : IVec S16 32) (k0_hw20 : k0_chk20 v134), ∀ a x, ((![v134] : Fin 1 → IVec S16 32) a x).toNat < S2176.size a := fun v134 k0_hw20 => k0_hw20

def k0_chk21 (v138 : IVec S16 32) : Prop :=
  (∀ a x, ((![v138] : Fin 1 → IVec S16 32) a x).toNat < S2176.size a)
instance k0_chk21.dec : ∀ (v138 : IVec S16 32), Decidable (k0_chk21 v138) := fun v138 => decidable_of_iff' _ (Iff.of_eq (k0_chk21.eq_1 v138))
theorem k0_idx21_inb : ∀ (v138 : IVec S16 32) (k0_hw21 : k0_chk21 v138), ∀ a x, ((![v138] : Fin 1 → IVec S16 32) a x).toNat < S2176.size a := fun v138 k0_hw21 => k0_hw21

def k0_chk22 (v142 : IVec S16 32) : Prop :=
  (∀ a x, ((![v142] : Fin 1 → IVec S16 32) a x).toNat < S2176.size a)
instance k0_chk22.dec : ∀ (v142 : IVec S16 32), Decidable (k0_chk22 v142) := fun v142 => decidable_of_iff' _ (Iff.of_eq (k0_chk22.eq_1 v142))
theorem k0_idx22_inb : ∀ (v142 : IVec S16 32) (k0_hw22 : k0_chk22 v142), ∀ a x, ((![v142] : Fin 1 → IVec S16 32) a x).toNat < S2176.size a := fun v142 k0_hw22 => k0_hw22

def k0_chk23 (v146 : IVec S16 32) : Prop :=
  (∀ a x, ((![v146] : Fin 1 → IVec S16 32) a x).toNat < S2176.size a)
instance k0_chk23.dec : ∀ (v146 : IVec S16 32), Decidable (k0_chk23 v146) := fun v146 => decidable_of_iff' _ (Iff.of_eq (k0_chk23.eq_1 v146))
theorem k0_idx23_inb : ∀ (v146 : IVec S16 32) (k0_hw23 : k0_chk23 v146), ∀ a x, ((![v146] : Fin 1 → IVec S16 32) a x).toNat < S2176.size a := fun v146 k0_hw23 => k0_hw23

def k0_chk24 (v150 : IVec S16 32) : Prop :=
  (∀ a x, ((![v150] : Fin 1 → IVec S16 32) a x).toNat < S2176.size a)
instance k0_chk24.dec : ∀ (v150 : IVec S16 32), Decidable (k0_chk24 v150) := fun v150 => decidable_of_iff' _ (Iff.of_eq (k0_chk24.eq_1 v150))
theorem k0_idx24_inb : ∀ (v150 : IVec S16 32) (k0_hw24 : k0_chk24 v150), ∀ a x, ((![v150] : Fin 1 → IVec S16 32) a x).toNat < S2176.size a := fun v150 k0_hw24 => k0_hw24

def k0_chk25 (v154 : IVec S16 32) : Prop :=
  (∀ a x, ((![v154] : Fin 1 → IVec S16 32) a x).toNat < S2176.size a)
instance k0_chk25.dec : ∀ (v154 : IVec S16 32), Decidable (k0_chk25 v154) := fun v154 => decidable_of_iff' _ (Iff.of_eq (k0_chk25.eq_1 v154))
theorem k0_idx25_inb : ∀ (v154 : IVec S16 32) (k0_hw25 : k0_chk25 v154), ∀ a x, ((![v154] : Fin 1 → IVec S16 32) a x).toNat < S2176.size a := fun v154 k0_hw25 => k0_hw25

def k0_chk26 (v158 : IVec S16 32) : Prop :=
  (∀ a x, ((![v158] : Fin 1 → IVec S16 32) a x).toNat < S2176.size a)
instance k0_chk26.dec : ∀ (v158 : IVec S16 32), Decidable (k0_chk26 v158) := fun v158 => decidable_of_iff' _ (Iff.of_eq (k0_chk26.eq_1 v158))
theorem k0_idx26_inb : ∀ (v158 : IVec S16 32) (k0_hw26 : k0_chk26 v158), ∀ a x, ((![v158] : Fin 1 → IVec S16 32) a x).toNat < S2176.size a := fun v158 k0_hw26 => k0_hw26

def k0_chk27 (v162 : IVec S16 32) : Prop :=
  (∀ a x, ((![v162] : Fin 1 → IVec S16 32) a x).toNat < S2176.size a)
instance k0_chk27.dec : ∀ (v162 : IVec S16 32), Decidable (k0_chk27 v162) := fun v162 => decidable_of_iff' _ (Iff.of_eq (k0_chk27.eq_1 v162))
theorem k0_idx27_inb : ∀ (v162 : IVec S16 32) (k0_hw27 : k0_chk27 v162), ∀ a x, ((![v162] : Fin 1 → IVec S16 32) a x).toNat < S2176.size a := fun v162 k0_hw27 => k0_hw27

def k0_chk28 (v166 : IVec S16 32) : Prop :=
  (∀ a x, ((![v166] : Fin 1 → IVec S16 32) a x).toNat < S2176.size a)
instance k0_chk28.dec : ∀ (v166 : IVec S16 32), Decidable (k0_chk28 v166) := fun v166 => decidable_of_iff' _ (Iff.of_eq (k0_chk28.eq_1 v166))
theorem k0_idx28_inb : ∀ (v166 : IVec S16 32) (k0_hw28 : k0_chk28 v166), ∀ a x, ((![v166] : Fin 1 → IVec S16 32) a x).toNat < S2176.size a := fun v166 k0_hw28 => k0_hw28

def k0_chk29 (v170 : IVec S16 32) : Prop :=
  (∀ a x, ((![v170] : Fin 1 → IVec S16 32) a x).toNat < S2176.size a)
instance k0_chk29.dec : ∀ (v170 : IVec S16 32), Decidable (k0_chk29 v170) := fun v170 => decidable_of_iff' _ (Iff.of_eq (k0_chk29.eq_1 v170))
theorem k0_idx29_inb : ∀ (v170 : IVec S16 32) (k0_hw29 : k0_chk29 v170), ∀ a x, ((![v170] : Fin 1 → IVec S16 32) a x).toNat < S2176.size a := fun v170 k0_hw29 => k0_hw29

def k0_chk30 (v174 : IVec S16 32) : Prop :=
  (∀ a x, ((![v174] : Fin 1 → IVec S16 32) a x).toNat < S2176.size a)
instance k0_chk30.dec : ∀ (v174 : IVec S16 32), Decidable (k0_chk30 v174) := fun v174 => decidable_of_iff' _ (Iff.of_eq (k0_chk30.eq_1 v174))
theorem k0_idx30_inb : ∀ (v174 : IVec S16 32) (k0_hw30 : k0_chk30 v174), ∀ a x, ((![v174] : Fin 1 → IVec S16 32) a x).toNat < S2176.size a := fun v174 k0_hw30 => k0_hw30

def k0_chk31 (v178 : IVec S16 32) : Prop :=
  (∀ a x, ((![v178] : Fin 1 → IVec S16 32) a x).toNat < S2176.size a)
instance k0_chk31.dec : ∀ (v178 : IVec S16 32), Decidable (k0_chk31 v178) := fun v178 => decidable_of_iff' _ (Iff.of_eq (k0_chk31.eq_1 v178))
theorem k0_idx31_inb : ∀ (v178 : IVec S16 32) (k0_hw31 : k0_chk31 v178), ∀ a x, ((![v178] : Fin 1 → IVec S16 32) a x).toNat < S2176.size a := fun v178 k0_hw31 => k0_hw31

def k0_chk32 (v182 : IVec S16 32) : Prop :=
  (∀ a x, ((![v182] : Fin 1 → IVec S16 32) a x).toNat < S2176.size a)
instance k0_chk32.dec : ∀ (v182 : IVec S16 32), Decidable (k0_chk32 v182) := fun v182 => decidable_of_iff' _ (Iff.of_eq (k0_chk32.eq_1 v182))
theorem k0_idx32_inb : ∀ (v182 : IVec S16 32) (k0_hw32 : k0_chk32 v182), ∀ a x, ((![v182] : Fin 1 → IVec S16 32) a x).toNat < S2176.size a := fun v182 k0_hw32 => k0_hw32

def k0_chk33 (v186 : IVec S16 32) : Prop :=
  (∀ a x, ((![v186] : Fin 1 → IVec S16 32) a x).toNat < S2176.size a)
instance k0_chk33.dec : ∀ (v186 : IVec S16 32), Decidable (k0_chk33 v186) := fun v186 => decidable_of_iff' _ (Iff.of_eq (k0_chk33.eq_1 v186))
theorem k0_idx33_inb : ∀ (v186 : IVec S16 32) (k0_hw33 : k0_chk33 v186), ∀ a x, ((![v186] : Fin 1 → IVec S16 32) a x).toNat < S2176.size a := fun v186 k0_hw33 => k0_hw33

def k0_chk34 (v190 : IVec S16 32) : Prop :=
  (∀ a x, ((![v190] : Fin 1 → IVec S16 32) a x).toNat < S2176.size a)
instance k0_chk34.dec : ∀ (v190 : IVec S16 32), Decidable (k0_chk34 v190) := fun v190 => decidable_of_iff' _ (Iff.of_eq (k0_chk34.eq_1 v190))
theorem k0_idx34_inb : ∀ (v190 : IVec S16 32) (k0_hw34 : k0_chk34 v190), ∀ a x, ((![v190] : Fin 1 → IVec S16 32) a x).toNat < S2176.size a := fun v190 k0_hw34 => k0_hw34

def k0_chk35 (v194 : IVec S16 32) : Prop :=
  (∀ a x, ((![v194] : Fin 1 → IVec S16 32) a x).toNat < S2176.size a)
instance k0_chk35.dec : ∀ (v194 : IVec S16 32), Decidable (k0_chk35 v194) := fun v194 => decidable_of_iff' _ (Iff.of_eq (k0_chk35.eq_1 v194))
theorem k0_idx35_inb : ∀ (v194 : IVec S16 32) (k0_hw35 : k0_chk35 v194), ∀ a x, ((![v194] : Fin 1 → IVec S16 32) a x).toNat < S2176.size a := fun v194 k0_hw35 => k0_hw35

def k0_chk36 (v198 : IVec S16 32) : Prop :=
  (∀ a x, ((![v198] : Fin 1 → IVec S16 32) a x).toNat < S2176.size a)
instance k0_chk36.dec : ∀ (v198 : IVec S16 32), Decidable (k0_chk36 v198) := fun v198 => decidable_of_iff' _ (Iff.of_eq (k0_chk36.eq_1 v198))
theorem k0_idx36_inb : ∀ (v198 : IVec S16 32) (k0_hw36 : k0_chk36 v198), ∀ a x, ((![v198] : Fin 1 → IVec S16 32) a x).toNat < S2176.size a := fun v198 k0_hw36 => k0_hw36

def k0_chk37 (v202 : IVec S16 32) : Prop :=
  (∀ a x, ((![v202] : Fin 1 → IVec S16 32) a x).toNat < S2176.size a)
instance k0_chk37.dec : ∀ (v202 : IVec S16 32), Decidable (k0_chk37 v202) := fun v202 => decidable_of_iff' _ (Iff.of_eq (k0_chk37.eq_1 v202))
theorem k0_idx37_inb : ∀ (v202 : IVec S16 32) (k0_hw37 : k0_chk37 v202), ∀ a x, ((![v202] : Fin 1 → IVec S16 32) a x).toNat < S2176.size a := fun v202 k0_hw37 => k0_hw37

def k0_chk38 (v206 : IVec S16 32) : Prop :=
  (∀ a x, ((![v206] : Fin 1 → IVec S16 32) a x).toNat < S2176.size a)
instance k0_chk38.dec : ∀ (v206 : IVec S16 32), Decidable (k0_chk38 v206) := fun v206 => decidable_of_iff' _ (Iff.of_eq (k0_chk38.eq_1 v206))
theorem k0_idx38_inb : ∀ (v206 : IVec S16 32) (k0_hw38 : k0_chk38 v206), ∀ a x, ((![v206] : Fin 1 → IVec S16 32) a x).toNat < S2176.size a := fun v206 k0_hw38 => k0_hw38

def k0_chk39 (v210 : IVec S16 32) : Prop :=
  (∀ a x, ((![v210] : Fin 1 → IVec S16 32) a x).toNat < S2176.size a)
instance k0_chk39.dec : ∀ (v210 : IVec S16 32), Decidable (k0_chk39 v210) := fun v210 => decidable_of_iff' _ (Iff.of_eq (k0_chk39.eq_1 v210))
theorem k0_idx39_inb : ∀ (v210 : IVec S16 32) (k0_hw39 : k0_chk39 v210), ∀ a x, ((![v210] : Fin 1 → IVec S16 32) a x).toNat < S2176.size a := fun v210 k0_hw39 => k0_hw39

def k0_chk40 (v214 : IVec S16 32) : Prop :=
  (∀ a x, ((![v214] : Fin 1 → IVec S16 32) a x).toNat < S2176.size a)
instance k0_chk40.dec : ∀ (v214 : IVec S16 32), Decidable (k0_chk40 v214) := fun v214 => decidable_of_iff' _ (Iff.of_eq (k0_chk40.eq_1 v214))
theorem k0_idx40_inb : ∀ (v214 : IVec S16 32) (k0_hw40 : k0_chk40 v214), ∀ a x, ((![v214] : Fin 1 → IVec S16 32) a x).toNat < S2176.size a := fun v214 k0_hw40 => k0_hw40

def k0_chk41 (v218 : IVec S16 32) : Prop :=
  (∀ a x, ((![v218] : Fin 1 → IVec S16 32) a x).toNat < S2176.size a)
instance k0_chk41.dec : ∀ (v218 : IVec S16 32), Decidable (k0_chk41 v218) := fun v218 => decidable_of_iff' _ (Iff.of_eq (k0_chk41.eq_1 v218))
theorem k0_idx41_inb : ∀ (v218 : IVec S16 32) (k0_hw41 : k0_chk41 v218), ∀ a x, ((![v218] : Fin 1 → IVec S16 32) a x).toNat < S2176.size a := fun v218 k0_hw41 => k0_hw41

def k0_chk42 (v222 : IVec S16 32) : Prop :=
  (∀ a x, ((![v222] : Fin 1 → IVec S16 32) a x).toNat < S2176.size a)
instance k0_chk42.dec : ∀ (v222 : IVec S16 32), Decidable (k0_chk42 v222) := fun v222 => decidable_of_iff' _ (Iff.of_eq (k0_chk42.eq_1 v222))
theorem k0_idx42_inb : ∀ (v222 : IVec S16 32) (k0_hw42 : k0_chk42 v222), ∀ a x, ((![v222] : Fin 1 → IVec S16 32) a x).toNat < S2176.size a := fun v222 k0_hw42 => k0_hw42

def k0_chk43 (v226 : IVec S16 32) : Prop :=
  (∀ a x, ((![v226] : Fin 1 → IVec S16 32) a x).toNat < S2176.size a)
instance k0_chk43.dec : ∀ (v226 : IVec S16 32), Decidable (k0_chk43 v226) := fun v226 => decidable_of_iff' _ (Iff.of_eq (k0_chk43.eq_1 v226))
theorem k0_idx43_inb : ∀ (v226 : IVec S16 32) (k0_hw43 : k0_chk43 v226), ∀ a x, ((![v226] : Fin 1 → IVec S16 32) a x).toNat < S2176.size a := fun v226 k0_hw43 => k0_hw43

def k0_chk44 (v230 : IVec S16 32) : Prop :=
  (∀ a x, ((![v230] : Fin 1 → IVec S16 32) a x).toNat < S2176.size a)
instance k0_chk44.dec : ∀ (v230 : IVec S16 32), Decidable (k0_chk44 v230) := fun v230 => decidable_of_iff' _ (Iff.of_eq (k0_chk44.eq_1 v230))
theorem k0_idx44_inb : ∀ (v230 : IVec S16 32) (k0_hw44 : k0_chk44 v230), ∀ a x, ((![v230] : Fin 1 → IVec S16 32) a x).toNat < S2176.size a := fun v230 k0_hw44 => k0_hw44

def k0_chk45 (v234 : IVec S16 32) : Prop :=
  (∀ a x, ((![v234] : Fin 1 → IVec S16 32) a x).toNat < S2176.size a)
instance k0_chk45.dec : ∀ (v234 : IVec S16 32), Decidable (k0_chk45 v234) := fun v234 => decidable_of_iff' _ (Iff.of_eq (k0_chk45.eq_1 v234))
theorem k0_idx45_inb : ∀ (v234 : IVec S16 32) (k0_hw45 : k0_chk45 v234), ∀ a x, ((![v234] : Fin 1 → IVec S16 32) a x).toNat < S2176.size a := fun v234 k0_hw45 => k0_hw45

def k0_chk46 (v238 : IVec S16 32) : Prop :=
  (∀ a x, ((![v238] : Fin 1 → IVec S16 32) a x).toNat < S2176.size a)
instance k0_chk46.dec : ∀ (v238 : IVec S16 32), Decidable (k0_chk46 v238) := fun v238 => decidable_of_iff' _ (Iff.of_eq (k0_chk46.eq_1 v238))
theorem k0_idx46_inb : ∀ (v238 : IVec S16 32) (k0_hw46 : k0_chk46 v238), ∀ a x, ((![v238] : Fin 1 → IVec S16 32) a x).toNat < S2176.size a := fun v238 k0_hw46 => k0_hw46

def k0_chk47 (v242 : IVec S16 32) : Prop :=
  (∀ a x, ((![v242] : Fin 1 → IVec S16 32) a x).toNat < S2176.size a)
instance k0_chk47.dec : ∀ (v242 : IVec S16 32), Decidable (k0_chk47 v242) := fun v242 => decidable_of_iff' _ (Iff.of_eq (k0_chk47.eq_1 v242))
theorem k0_idx47_inb : ∀ (v242 : IVec S16 32) (k0_hw47 : k0_chk47 v242), ∀ a x, ((![v242] : Fin 1 → IVec S16 32) a x).toNat < S2176.size a := fun v242 k0_hw47 => k0_hw47

def k0_chk48 (v246 : IVec S16 32) : Prop :=
  (∀ a x, ((![v246] : Fin 1 → IVec S16 32) a x).toNat < S2176.size a)
instance k0_chk48.dec : ∀ (v246 : IVec S16 32), Decidable (k0_chk48 v246) := fun v246 => decidable_of_iff' _ (Iff.of_eq (k0_chk48.eq_1 v246))
theorem k0_idx48_inb : ∀ (v246 : IVec S16 32) (k0_hw48 : k0_chk48 v246), ∀ a x, ((![v246] : Fin 1 → IVec S16 32) a x).toNat < S2176.size a := fun v246 k0_hw48 => k0_hw48
def k0_off18 (k0_t2 : Fin k0_t2_loop.trips) : Fin 1 → Nat :=
  let c0_i32_86 : BitVec 32 := 0#32
  let c0_i32_11 : BitVec 32 := 0#32
  let c1_i32_13 : BitVec 32 := 1#32
  let arg18 : BitVec 32 := Scf.iv c0_i32_11 c1_i32_13 k0_t2
  let c16_i32_85 : BitVec 32 := 16#32
  let v262 : BitVec 32 := Scalar.muli arg18 c16_i32_85
  let v263 : BitVec 32 := Scalar.addi c0_i32_86 v262
  let v264 : Index := Scalar.indexCast v263
  ![v264.toNat]
@[reducible] def k0_t3_loop : Scf.Loop 32 :=
  let c0_i32_19 : BitVec 32 := 0#32
  let c128_i32_20 : BitVec 32 := 128#32
  let v39 : BitVec 32 := Scalar.addi c0_i32_19 c128_i32_20
  let c1_i32_21 : BitVec 32 := 1#32
  ⟨c0_i32_19, v39, c1_i32_21⟩
def k0_off19 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v52 : Index := Scalar.indexCast arg18
  let c0_49 : Index := 0#32
  ![v52.toNat, 0]
def k0_off20 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v60 : Index := Scalar.indexCast arg18
  let c16 : Index := 16#32
  ![v60.toNat, 16]
def k0_off21 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v68 : Index := Scalar.indexCast arg18
  let c32 : Index := 32#32
  ![v68.toNat, 32]
def k0_off22 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v76 : Index := Scalar.indexCast arg18
  let c48 : Index := 48#32
  ![v76.toNat, 48]
def k0_off23 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v84 : Index := Scalar.indexCast arg18
  let c64 : Index := 64#32
  ![v84.toNat, 64]
def k0_off24 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v92 : Index := Scalar.indexCast arg18
  let c80 : Index := 80#32
  ![v92.toNat, 80]
def k0_off25 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v100 : Index := Scalar.indexCast arg18
  let c96 : Index := 96#32
  ![v100.toNat, 96]
def k0_off26 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v108 : Index := Scalar.indexCast arg18
  let c112 : Index := 112#32
  ![v108.toNat, 112]
def k0_off27 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v116 : Index := Scalar.indexCast arg18
  let c128 : Index := 128#32
  ![v116.toNat, 128]
def k0_off28 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v124 : Index := Scalar.indexCast arg18
  let c144 : Index := 144#32
  ![v124.toNat, 144]
def k0_off29 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v132 : Index := Scalar.indexCast arg18
  let c160 : Index := 160#32
  ![v132.toNat, 160]
def k0_off30 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v140 : Index := Scalar.indexCast arg18
  let c176 : Index := 176#32
  ![v140.toNat, 176]
def k0_off31 (k0_t3 : Fin k0_t3_loop.trips) : Fin 2 → Nat :=
  let c0_i32_19 : BitVec 32 := 0#32
  let c1_i32_21 : BitVec 32 := 1#32
  let arg18 : BitVec 32 := Scf.iv c0_i32_19 c1_i32_21 k0_t3
  let v148 : Index := Scalar.indexCast arg18
  let c184 : Index := 184#32
  ![v148.toNat, 184]
def k0_off32 (k0_t3 : Fin k0_t3_loop.trips) : Fin 1 → Nat :=
  let c0_i32_19 : BitVec 32 := 0#32
  let c1_i32_21 : BitVec 32 := 1#32
  let arg18 : BitVec 32 := Scf.iv c0_i32_19 c1_i32_21 k0_t3
  let c17_i32 : BitVec 32 := 17#32
  let v157 : BitVec 32 := Scalar.muli arg18 c17_i32
  let v158 : Index := Scalar.indexCast v157
  ![v158.toNat]
@[reducible] def k0_t4_loop : Scf.Loop 32 :=
  let c0_i32_23 : BitVec 32 := 0#32
  let c8_i32_24 : BitVec 32 := 8#32
  let v40 : BitVec 32 := Scalar.addi c0_i32_23 c8_i32_24
  let c1_i32_25 : BitVec 32 := 1#32
  ⟨c0_i32_23, v40, c1_i32_25⟩

def k0_chk49 (v58 : IVec S16 32) : Prop :=
  (∀ a x, ((![v58] : Fin 1 → IVec S16 32) a x).toNat < S2176.size a)
instance k0_chk49.dec : ∀ (v58 : IVec S16 32), Decidable (k0_chk49 v58) := fun v58 => decidable_of_iff' _ (Iff.of_eq (k0_chk49.eq_1 v58))
theorem k0_idx49_inb : ∀ (v58 : IVec S16 32) (k0_hw49 : k0_chk49 v58), ∀ a x, ((![v58] : Fin 1 → IVec S16 32) a x).toNat < S2176.size a := fun v58 k0_hw49 => k0_hw49

def k0_chk50 (v62 : IVec S16 32) : Prop :=
  (∀ a x, ((![v62] : Fin 1 → IVec S16 32) a x).toNat < S2176.size a)
instance k0_chk50.dec : ∀ (v62 : IVec S16 32), Decidable (k0_chk50 v62) := fun v62 => decidable_of_iff' _ (Iff.of_eq (k0_chk50.eq_1 v62))
theorem k0_idx50_inb : ∀ (v62 : IVec S16 32) (k0_hw50 : k0_chk50 v62), ∀ a x, ((![v62] : Fin 1 → IVec S16 32) a x).toNat < S2176.size a := fun v62 k0_hw50 => k0_hw50

def k0_chk51 (v66 : IVec S16 32) : Prop :=
  (∀ a x, ((![v66] : Fin 1 → IVec S16 32) a x).toNat < S2176.size a)
instance k0_chk51.dec : ∀ (v66 : IVec S16 32), Decidable (k0_chk51 v66) := fun v66 => decidable_of_iff' _ (Iff.of_eq (k0_chk51.eq_1 v66))
theorem k0_idx51_inb : ∀ (v66 : IVec S16 32) (k0_hw51 : k0_chk51 v66), ∀ a x, ((![v66] : Fin 1 → IVec S16 32) a x).toNat < S2176.size a := fun v66 k0_hw51 => k0_hw51

def k0_chk52 (v70 : IVec S16 32) : Prop :=
  (∀ a x, ((![v70] : Fin 1 → IVec S16 32) a x).toNat < S2176.size a)
instance k0_chk52.dec : ∀ (v70 : IVec S16 32), Decidable (k0_chk52 v70) := fun v70 => decidable_of_iff' _ (Iff.of_eq (k0_chk52.eq_1 v70))
theorem k0_idx52_inb : ∀ (v70 : IVec S16 32) (k0_hw52 : k0_chk52 v70), ∀ a x, ((![v70] : Fin 1 → IVec S16 32) a x).toNat < S2176.size a := fun v70 k0_hw52 => k0_hw52

def k0_chk53 (v74 : IVec S16 32) : Prop :=
  (∀ a x, ((![v74] : Fin 1 → IVec S16 32) a x).toNat < S2176.size a)
instance k0_chk53.dec : ∀ (v74 : IVec S16 32), Decidable (k0_chk53 v74) := fun v74 => decidable_of_iff' _ (Iff.of_eq (k0_chk53.eq_1 v74))
theorem k0_idx53_inb : ∀ (v74 : IVec S16 32) (k0_hw53 : k0_chk53 v74), ∀ a x, ((![v74] : Fin 1 → IVec S16 32) a x).toNat < S2176.size a := fun v74 k0_hw53 => k0_hw53

def k0_chk54 (v78 : IVec S16 32) : Prop :=
  (∀ a x, ((![v78] : Fin 1 → IVec S16 32) a x).toNat < S2176.size a)
instance k0_chk54.dec : ∀ (v78 : IVec S16 32), Decidable (k0_chk54 v78) := fun v78 => decidable_of_iff' _ (Iff.of_eq (k0_chk54.eq_1 v78))
theorem k0_idx54_inb : ∀ (v78 : IVec S16 32) (k0_hw54 : k0_chk54 v78), ∀ a x, ((![v78] : Fin 1 → IVec S16 32) a x).toNat < S2176.size a := fun v78 k0_hw54 => k0_hw54

def k0_chk55 (v82 : IVec S16 32) : Prop :=
  (∀ a x, ((![v82] : Fin 1 → IVec S16 32) a x).toNat < S2176.size a)
instance k0_chk55.dec : ∀ (v82 : IVec S16 32), Decidable (k0_chk55 v82) := fun v82 => decidable_of_iff' _ (Iff.of_eq (k0_chk55.eq_1 v82))
theorem k0_idx55_inb : ∀ (v82 : IVec S16 32) (k0_hw55 : k0_chk55 v82), ∀ a x, ((![v82] : Fin 1 → IVec S16 32) a x).toNat < S2176.size a := fun v82 k0_hw55 => k0_hw55

def k0_chk56 (v86 : IVec S16 32) : Prop :=
  (∀ a x, ((![v86] : Fin 1 → IVec S16 32) a x).toNat < S2176.size a)
instance k0_chk56.dec : ∀ (v86 : IVec S16 32), Decidable (k0_chk56 v86) := fun v86 => decidable_of_iff' _ (Iff.of_eq (k0_chk56.eq_1 v86))
theorem k0_idx56_inb : ∀ (v86 : IVec S16 32) (k0_hw56 : k0_chk56 v86), ∀ a x, ((![v86] : Fin 1 → IVec S16 32) a x).toNat < S2176.size a := fun v86 k0_hw56 => k0_hw56

def k0_chk57 (v90 : IVec S16 32) : Prop :=
  (∀ a x, ((![v90] : Fin 1 → IVec S16 32) a x).toNat < S2176.size a)
instance k0_chk57.dec : ∀ (v90 : IVec S16 32), Decidable (k0_chk57 v90) := fun v90 => decidable_of_iff' _ (Iff.of_eq (k0_chk57.eq_1 v90))
theorem k0_idx57_inb : ∀ (v90 : IVec S16 32) (k0_hw57 : k0_chk57 v90), ∀ a x, ((![v90] : Fin 1 → IVec S16 32) a x).toNat < S2176.size a := fun v90 k0_hw57 => k0_hw57

def k0_chk58 (v94 : IVec S16 32) : Prop :=
  (∀ a x, ((![v94] : Fin 1 → IVec S16 32) a x).toNat < S2176.size a)
instance k0_chk58.dec : ∀ (v94 : IVec S16 32), Decidable (k0_chk58 v94) := fun v94 => decidable_of_iff' _ (Iff.of_eq (k0_chk58.eq_1 v94))
theorem k0_idx58_inb : ∀ (v94 : IVec S16 32) (k0_hw58 : k0_chk58 v94), ∀ a x, ((![v94] : Fin 1 → IVec S16 32) a x).toNat < S2176.size a := fun v94 k0_hw58 => k0_hw58

def k0_chk59 (v98 : IVec S16 32) : Prop :=
  (∀ a x, ((![v98] : Fin 1 → IVec S16 32) a x).toNat < S2176.size a)
instance k0_chk59.dec : ∀ (v98 : IVec S16 32), Decidable (k0_chk59 v98) := fun v98 => decidable_of_iff' _ (Iff.of_eq (k0_chk59.eq_1 v98))
theorem k0_idx59_inb : ∀ (v98 : IVec S16 32) (k0_hw59 : k0_chk59 v98), ∀ a x, ((![v98] : Fin 1 → IVec S16 32) a x).toNat < S2176.size a := fun v98 k0_hw59 => k0_hw59

def k0_chk60 (v102 : IVec S16 32) : Prop :=
  (∀ a x, ((![v102] : Fin 1 → IVec S16 32) a x).toNat < S2176.size a)
instance k0_chk60.dec : ∀ (v102 : IVec S16 32), Decidable (k0_chk60 v102) := fun v102 => decidable_of_iff' _ (Iff.of_eq (k0_chk60.eq_1 v102))
theorem k0_idx60_inb : ∀ (v102 : IVec S16 32) (k0_hw60 : k0_chk60 v102), ∀ a x, ((![v102] : Fin 1 → IVec S16 32) a x).toNat < S2176.size a := fun v102 k0_hw60 => k0_hw60

def k0_chk61 (v106 : IVec S16 32) : Prop :=
  (∀ a x, ((![v106] : Fin 1 → IVec S16 32) a x).toNat < S2176.size a)
instance k0_chk61.dec : ∀ (v106 : IVec S16 32), Decidable (k0_chk61 v106) := fun v106 => decidable_of_iff' _ (Iff.of_eq (k0_chk61.eq_1 v106))
theorem k0_idx61_inb : ∀ (v106 : IVec S16 32) (k0_hw61 : k0_chk61 v106), ∀ a x, ((![v106] : Fin 1 → IVec S16 32) a x).toNat < S2176.size a := fun v106 k0_hw61 => k0_hw61

def k0_chk62 (v110 : IVec S16 32) : Prop :=
  (∀ a x, ((![v110] : Fin 1 → IVec S16 32) a x).toNat < S2176.size a)
instance k0_chk62.dec : ∀ (v110 : IVec S16 32), Decidable (k0_chk62 v110) := fun v110 => decidable_of_iff' _ (Iff.of_eq (k0_chk62.eq_1 v110))
theorem k0_idx62_inb : ∀ (v110 : IVec S16 32) (k0_hw62 : k0_chk62 v110), ∀ a x, ((![v110] : Fin 1 → IVec S16 32) a x).toNat < S2176.size a := fun v110 k0_hw62 => k0_hw62

def k0_chk63 (v114 : IVec S16 32) : Prop :=
  (∀ a x, ((![v114] : Fin 1 → IVec S16 32) a x).toNat < S2176.size a)
instance k0_chk63.dec : ∀ (v114 : IVec S16 32), Decidable (k0_chk63 v114) := fun v114 => decidable_of_iff' _ (Iff.of_eq (k0_chk63.eq_1 v114))
theorem k0_idx63_inb : ∀ (v114 : IVec S16 32) (k0_hw63 : k0_chk63 v114), ∀ a x, ((![v114] : Fin 1 → IVec S16 32) a x).toNat < S2176.size a := fun v114 k0_hw63 => k0_hw63

def k0_chk64 (v118 : IVec S16 32) : Prop :=
  (∀ a x, ((![v118] : Fin 1 → IVec S16 32) a x).toNat < S2176.size a)
instance k0_chk64.dec : ∀ (v118 : IVec S16 32), Decidable (k0_chk64 v118) := fun v118 => decidable_of_iff' _ (Iff.of_eq (k0_chk64.eq_1 v118))
theorem k0_idx64_inb : ∀ (v118 : IVec S16 32) (k0_hw64 : k0_chk64 v118), ∀ a x, ((![v118] : Fin 1 → IVec S16 32) a x).toNat < S2176.size a := fun v118 k0_hw64 => k0_hw64

def k0_chk65 (v122 : IVec S16 32) : Prop :=
  (∀ a x, ((![v122] : Fin 1 → IVec S16 32) a x).toNat < S2176.size a)
instance k0_chk65.dec : ∀ (v122 : IVec S16 32), Decidable (k0_chk65 v122) := fun v122 => decidable_of_iff' _ (Iff.of_eq (k0_chk65.eq_1 v122))
theorem k0_idx65_inb : ∀ (v122 : IVec S16 32) (k0_hw65 : k0_chk65 v122), ∀ a x, ((![v122] : Fin 1 → IVec S16 32) a x).toNat < S2176.size a := fun v122 k0_hw65 => k0_hw65

def k0_chk66 (v126 : IVec S16 32) : Prop :=
  (∀ a x, ((![v126] : Fin 1 → IVec S16 32) a x).toNat < S2176.size a)
instance k0_chk66.dec : ∀ (v126 : IVec S16 32), Decidable (k0_chk66 v126) := fun v126 => decidable_of_iff' _ (Iff.of_eq (k0_chk66.eq_1 v126))
theorem k0_idx66_inb : ∀ (v126 : IVec S16 32) (k0_hw66 : k0_chk66 v126), ∀ a x, ((![v126] : Fin 1 → IVec S16 32) a x).toNat < S2176.size a := fun v126 k0_hw66 => k0_hw66

def k0_chk67 (v130 : IVec S16 32) : Prop :=
  (∀ a x, ((![v130] : Fin 1 → IVec S16 32) a x).toNat < S2176.size a)
instance k0_chk67.dec : ∀ (v130 : IVec S16 32), Decidable (k0_chk67 v130) := fun v130 => decidable_of_iff' _ (Iff.of_eq (k0_chk67.eq_1 v130))
theorem k0_idx67_inb : ∀ (v130 : IVec S16 32) (k0_hw67 : k0_chk67 v130), ∀ a x, ((![v130] : Fin 1 → IVec S16 32) a x).toNat < S2176.size a := fun v130 k0_hw67 => k0_hw67

def k0_chk68 (v134 : IVec S16 32) : Prop :=
  (∀ a x, ((![v134] : Fin 1 → IVec S16 32) a x).toNat < S2176.size a)
instance k0_chk68.dec : ∀ (v134 : IVec S16 32), Decidable (k0_chk68 v134) := fun v134 => decidable_of_iff' _ (Iff.of_eq (k0_chk68.eq_1 v134))
theorem k0_idx68_inb : ∀ (v134 : IVec S16 32) (k0_hw68 : k0_chk68 v134), ∀ a x, ((![v134] : Fin 1 → IVec S16 32) a x).toNat < S2176.size a := fun v134 k0_hw68 => k0_hw68

def k0_chk69 (v138 : IVec S16 32) : Prop :=
  (∀ a x, ((![v138] : Fin 1 → IVec S16 32) a x).toNat < S2176.size a)
instance k0_chk69.dec : ∀ (v138 : IVec S16 32), Decidable (k0_chk69 v138) := fun v138 => decidable_of_iff' _ (Iff.of_eq (k0_chk69.eq_1 v138))
theorem k0_idx69_inb : ∀ (v138 : IVec S16 32) (k0_hw69 : k0_chk69 v138), ∀ a x, ((![v138] : Fin 1 → IVec S16 32) a x).toNat < S2176.size a := fun v138 k0_hw69 => k0_hw69

def k0_chk70 (v142 : IVec S16 32) : Prop :=
  (∀ a x, ((![v142] : Fin 1 → IVec S16 32) a x).toNat < S2176.size a)
instance k0_chk70.dec : ∀ (v142 : IVec S16 32), Decidable (k0_chk70 v142) := fun v142 => decidable_of_iff' _ (Iff.of_eq (k0_chk70.eq_1 v142))
theorem k0_idx70_inb : ∀ (v142 : IVec S16 32) (k0_hw70 : k0_chk70 v142), ∀ a x, ((![v142] : Fin 1 → IVec S16 32) a x).toNat < S2176.size a := fun v142 k0_hw70 => k0_hw70

def k0_chk71 (v146 : IVec S16 32) : Prop :=
  (∀ a x, ((![v146] : Fin 1 → IVec S16 32) a x).toNat < S2176.size a)
instance k0_chk71.dec : ∀ (v146 : IVec S16 32), Decidable (k0_chk71 v146) := fun v146 => decidable_of_iff' _ (Iff.of_eq (k0_chk71.eq_1 v146))
theorem k0_idx71_inb : ∀ (v146 : IVec S16 32) (k0_hw71 : k0_chk71 v146), ∀ a x, ((![v146] : Fin 1 → IVec S16 32) a x).toNat < S2176.size a := fun v146 k0_hw71 => k0_hw71

def k0_chk72 (v150 : IVec S16 32) : Prop :=
  (∀ a x, ((![v150] : Fin 1 → IVec S16 32) a x).toNat < S2176.size a)
instance k0_chk72.dec : ∀ (v150 : IVec S16 32), Decidable (k0_chk72 v150) := fun v150 => decidable_of_iff' _ (Iff.of_eq (k0_chk72.eq_1 v150))
theorem k0_idx72_inb : ∀ (v150 : IVec S16 32) (k0_hw72 : k0_chk72 v150), ∀ a x, ((![v150] : Fin 1 → IVec S16 32) a x).toNat < S2176.size a := fun v150 k0_hw72 => k0_hw72

def k0_chk73 (v154 : IVec S16 32) : Prop :=
  (∀ a x, ((![v154] : Fin 1 → IVec S16 32) a x).toNat < S2176.size a)
instance k0_chk73.dec : ∀ (v154 : IVec S16 32), Decidable (k0_chk73 v154) := fun v154 => decidable_of_iff' _ (Iff.of_eq (k0_chk73.eq_1 v154))
theorem k0_idx73_inb : ∀ (v154 : IVec S16 32) (k0_hw73 : k0_chk73 v154), ∀ a x, ((![v154] : Fin 1 → IVec S16 32) a x).toNat < S2176.size a := fun v154 k0_hw73 => k0_hw73

def k0_chk74 (v158 : IVec S16 32) : Prop :=
  (∀ a x, ((![v158] : Fin 1 → IVec S16 32) a x).toNat < S2176.size a)
instance k0_chk74.dec : ∀ (v158 : IVec S16 32), Decidable (k0_chk74 v158) := fun v158 => decidable_of_iff' _ (Iff.of_eq (k0_chk74.eq_1 v158))
theorem k0_idx74_inb : ∀ (v158 : IVec S16 32) (k0_hw74 : k0_chk74 v158), ∀ a x, ((![v158] : Fin 1 → IVec S16 32) a x).toNat < S2176.size a := fun v158 k0_hw74 => k0_hw74

def k0_chk75 (v162 : IVec S16 32) : Prop :=
  (∀ a x, ((![v162] : Fin 1 → IVec S16 32) a x).toNat < S2176.size a)
instance k0_chk75.dec : ∀ (v162 : IVec S16 32), Decidable (k0_chk75 v162) := fun v162 => decidable_of_iff' _ (Iff.of_eq (k0_chk75.eq_1 v162))
theorem k0_idx75_inb : ∀ (v162 : IVec S16 32) (k0_hw75 : k0_chk75 v162), ∀ a x, ((![v162] : Fin 1 → IVec S16 32) a x).toNat < S2176.size a := fun v162 k0_hw75 => k0_hw75

def k0_chk76 (v166 : IVec S16 32) : Prop :=
  (∀ a x, ((![v166] : Fin 1 → IVec S16 32) a x).toNat < S2176.size a)
instance k0_chk76.dec : ∀ (v166 : IVec S16 32), Decidable (k0_chk76 v166) := fun v166 => decidable_of_iff' _ (Iff.of_eq (k0_chk76.eq_1 v166))
theorem k0_idx76_inb : ∀ (v166 : IVec S16 32) (k0_hw76 : k0_chk76 v166), ∀ a x, ((![v166] : Fin 1 → IVec S16 32) a x).toNat < S2176.size a := fun v166 k0_hw76 => k0_hw76

def k0_chk77 (v170 : IVec S16 32) : Prop :=
  (∀ a x, ((![v170] : Fin 1 → IVec S16 32) a x).toNat < S2176.size a)
instance k0_chk77.dec : ∀ (v170 : IVec S16 32), Decidable (k0_chk77 v170) := fun v170 => decidable_of_iff' _ (Iff.of_eq (k0_chk77.eq_1 v170))
theorem k0_idx77_inb : ∀ (v170 : IVec S16 32) (k0_hw77 : k0_chk77 v170), ∀ a x, ((![v170] : Fin 1 → IVec S16 32) a x).toNat < S2176.size a := fun v170 k0_hw77 => k0_hw77

def k0_chk78 (v174 : IVec S16 32) : Prop :=
  (∀ a x, ((![v174] : Fin 1 → IVec S16 32) a x).toNat < S2176.size a)
instance k0_chk78.dec : ∀ (v174 : IVec S16 32), Decidable (k0_chk78 v174) := fun v174 => decidable_of_iff' _ (Iff.of_eq (k0_chk78.eq_1 v174))
theorem k0_idx78_inb : ∀ (v174 : IVec S16 32) (k0_hw78 : k0_chk78 v174), ∀ a x, ((![v174] : Fin 1 → IVec S16 32) a x).toNat < S2176.size a := fun v174 k0_hw78 => k0_hw78

def k0_chk79 (v178 : IVec S16 32) : Prop :=
  (∀ a x, ((![v178] : Fin 1 → IVec S16 32) a x).toNat < S2176.size a)
instance k0_chk79.dec : ∀ (v178 : IVec S16 32), Decidable (k0_chk79 v178) := fun v178 => decidable_of_iff' _ (Iff.of_eq (k0_chk79.eq_1 v178))
theorem k0_idx79_inb : ∀ (v178 : IVec S16 32) (k0_hw79 : k0_chk79 v178), ∀ a x, ((![v178] : Fin 1 → IVec S16 32) a x).toNat < S2176.size a := fun v178 k0_hw79 => k0_hw79

def k0_chk80 (v182 : IVec S16 32) : Prop :=
  (∀ a x, ((![v182] : Fin 1 → IVec S16 32) a x).toNat < S2176.size a)
instance k0_chk80.dec : ∀ (v182 : IVec S16 32), Decidable (k0_chk80 v182) := fun v182 => decidable_of_iff' _ (Iff.of_eq (k0_chk80.eq_1 v182))
theorem k0_idx80_inb : ∀ (v182 : IVec S16 32) (k0_hw80 : k0_chk80 v182), ∀ a x, ((![v182] : Fin 1 → IVec S16 32) a x).toNat < S2176.size a := fun v182 k0_hw80 => k0_hw80

def k0_chk81 (v186 : IVec S16 32) : Prop :=
  (∀ a x, ((![v186] : Fin 1 → IVec S16 32) a x).toNat < S2176.size a)
instance k0_chk81.dec : ∀ (v186 : IVec S16 32), Decidable (k0_chk81 v186) := fun v186 => decidable_of_iff' _ (Iff.of_eq (k0_chk81.eq_1 v186))
theorem k0_idx81_inb : ∀ (v186 : IVec S16 32) (k0_hw81 : k0_chk81 v186), ∀ a x, ((![v186] : Fin 1 → IVec S16 32) a x).toNat < S2176.size a := fun v186 k0_hw81 => k0_hw81

def k0_chk82 (v190 : IVec S16 32) : Prop :=
  (∀ a x, ((![v190] : Fin 1 → IVec S16 32) a x).toNat < S2176.size a)
instance k0_chk82.dec : ∀ (v190 : IVec S16 32), Decidable (k0_chk82 v190) := fun v190 => decidable_of_iff' _ (Iff.of_eq (k0_chk82.eq_1 v190))
theorem k0_idx82_inb : ∀ (v190 : IVec S16 32) (k0_hw82 : k0_chk82 v190), ∀ a x, ((![v190] : Fin 1 → IVec S16 32) a x).toNat < S2176.size a := fun v190 k0_hw82 => k0_hw82

def k0_chk83 (v194 : IVec S16 32) : Prop :=
  (∀ a x, ((![v194] : Fin 1 → IVec S16 32) a x).toNat < S2176.size a)
instance k0_chk83.dec : ∀ (v194 : IVec S16 32), Decidable (k0_chk83 v194) := fun v194 => decidable_of_iff' _ (Iff.of_eq (k0_chk83.eq_1 v194))
theorem k0_idx83_inb : ∀ (v194 : IVec S16 32) (k0_hw83 : k0_chk83 v194), ∀ a x, ((![v194] : Fin 1 → IVec S16 32) a x).toNat < S2176.size a := fun v194 k0_hw83 => k0_hw83

def k0_chk84 (v198 : IVec S16 32) : Prop :=
  (∀ a x, ((![v198] : Fin 1 → IVec S16 32) a x).toNat < S2176.size a)
instance k0_chk84.dec : ∀ (v198 : IVec S16 32), Decidable (k0_chk84 v198) := fun v198 => decidable_of_iff' _ (Iff.of_eq (k0_chk84.eq_1 v198))
theorem k0_idx84_inb : ∀ (v198 : IVec S16 32) (k0_hw84 : k0_chk84 v198), ∀ a x, ((![v198] : Fin 1 → IVec S16 32) a x).toNat < S2176.size a := fun v198 k0_hw84 => k0_hw84

def k0_chk85 (v202 : IVec S16 32) : Prop :=
  (∀ a x, ((![v202] : Fin 1 → IVec S16 32) a x).toNat < S2176.size a)
instance k0_chk85.dec : ∀ (v202 : IVec S16 32), Decidable (k0_chk85 v202) := fun v202 => decidable_of_iff' _ (Iff.of_eq (k0_chk85.eq_1 v202))
theorem k0_idx85_inb : ∀ (v202 : IVec S16 32) (k0_hw85 : k0_chk85 v202), ∀ a x, ((![v202] : Fin 1 → IVec S16 32) a x).toNat < S2176.size a := fun v202 k0_hw85 => k0_hw85

def k0_chk86 (v206 : IVec S16 32) : Prop :=
  (∀ a x, ((![v206] : Fin 1 → IVec S16 32) a x).toNat < S2176.size a)
instance k0_chk86.dec : ∀ (v206 : IVec S16 32), Decidable (k0_chk86 v206) := fun v206 => decidable_of_iff' _ (Iff.of_eq (k0_chk86.eq_1 v206))
theorem k0_idx86_inb : ∀ (v206 : IVec S16 32) (k0_hw86 : k0_chk86 v206), ∀ a x, ((![v206] : Fin 1 → IVec S16 32) a x).toNat < S2176.size a := fun v206 k0_hw86 => k0_hw86

def k0_chk87 (v210 : IVec S16 32) : Prop :=
  (∀ a x, ((![v210] : Fin 1 → IVec S16 32) a x).toNat < S2176.size a)
instance k0_chk87.dec : ∀ (v210 : IVec S16 32), Decidable (k0_chk87 v210) := fun v210 => decidable_of_iff' _ (Iff.of_eq (k0_chk87.eq_1 v210))
theorem k0_idx87_inb : ∀ (v210 : IVec S16 32) (k0_hw87 : k0_chk87 v210), ∀ a x, ((![v210] : Fin 1 → IVec S16 32) a x).toNat < S2176.size a := fun v210 k0_hw87 => k0_hw87

def k0_chk88 (v214 : IVec S16 32) : Prop :=
  (∀ a x, ((![v214] : Fin 1 → IVec S16 32) a x).toNat < S2176.size a)
instance k0_chk88.dec : ∀ (v214 : IVec S16 32), Decidable (k0_chk88 v214) := fun v214 => decidable_of_iff' _ (Iff.of_eq (k0_chk88.eq_1 v214))
theorem k0_idx88_inb : ∀ (v214 : IVec S16 32) (k0_hw88 : k0_chk88 v214), ∀ a x, ((![v214] : Fin 1 → IVec S16 32) a x).toNat < S2176.size a := fun v214 k0_hw88 => k0_hw88

def k0_chk89 (v218 : IVec S16 32) : Prop :=
  (∀ a x, ((![v218] : Fin 1 → IVec S16 32) a x).toNat < S2176.size a)
instance k0_chk89.dec : ∀ (v218 : IVec S16 32), Decidable (k0_chk89 v218) := fun v218 => decidable_of_iff' _ (Iff.of_eq (k0_chk89.eq_1 v218))
theorem k0_idx89_inb : ∀ (v218 : IVec S16 32) (k0_hw89 : k0_chk89 v218), ∀ a x, ((![v218] : Fin 1 → IVec S16 32) a x).toNat < S2176.size a := fun v218 k0_hw89 => k0_hw89

def k0_chk90 (v222 : IVec S16 32) : Prop :=
  (∀ a x, ((![v222] : Fin 1 → IVec S16 32) a x).toNat < S2176.size a)
instance k0_chk90.dec : ∀ (v222 : IVec S16 32), Decidable (k0_chk90 v222) := fun v222 => decidable_of_iff' _ (Iff.of_eq (k0_chk90.eq_1 v222))
theorem k0_idx90_inb : ∀ (v222 : IVec S16 32) (k0_hw90 : k0_chk90 v222), ∀ a x, ((![v222] : Fin 1 → IVec S16 32) a x).toNat < S2176.size a := fun v222 k0_hw90 => k0_hw90

def k0_chk91 (v226 : IVec S16 32) : Prop :=
  (∀ a x, ((![v226] : Fin 1 → IVec S16 32) a x).toNat < S2176.size a)
instance k0_chk91.dec : ∀ (v226 : IVec S16 32), Decidable (k0_chk91 v226) := fun v226 => decidable_of_iff' _ (Iff.of_eq (k0_chk91.eq_1 v226))
theorem k0_idx91_inb : ∀ (v226 : IVec S16 32) (k0_hw91 : k0_chk91 v226), ∀ a x, ((![v226] : Fin 1 → IVec S16 32) a x).toNat < S2176.size a := fun v226 k0_hw91 => k0_hw91

def k0_chk92 (v230 : IVec S16 32) : Prop :=
  (∀ a x, ((![v230] : Fin 1 → IVec S16 32) a x).toNat < S2176.size a)
instance k0_chk92.dec : ∀ (v230 : IVec S16 32), Decidable (k0_chk92 v230) := fun v230 => decidable_of_iff' _ (Iff.of_eq (k0_chk92.eq_1 v230))
theorem k0_idx92_inb : ∀ (v230 : IVec S16 32) (k0_hw92 : k0_chk92 v230), ∀ a x, ((![v230] : Fin 1 → IVec S16 32) a x).toNat < S2176.size a := fun v230 k0_hw92 => k0_hw92

def k0_chk93 (v234 : IVec S16 32) : Prop :=
  (∀ a x, ((![v234] : Fin 1 → IVec S16 32) a x).toNat < S2176.size a)
instance k0_chk93.dec : ∀ (v234 : IVec S16 32), Decidable (k0_chk93 v234) := fun v234 => decidable_of_iff' _ (Iff.of_eq (k0_chk93.eq_1 v234))
theorem k0_idx93_inb : ∀ (v234 : IVec S16 32) (k0_hw93 : k0_chk93 v234), ∀ a x, ((![v234] : Fin 1 → IVec S16 32) a x).toNat < S2176.size a := fun v234 k0_hw93 => k0_hw93

def k0_chk94 (v238 : IVec S16 32) : Prop :=
  (∀ a x, ((![v238] : Fin 1 → IVec S16 32) a x).toNat < S2176.size a)
instance k0_chk94.dec : ∀ (v238 : IVec S16 32), Decidable (k0_chk94 v238) := fun v238 => decidable_of_iff' _ (Iff.of_eq (k0_chk94.eq_1 v238))
theorem k0_idx94_inb : ∀ (v238 : IVec S16 32) (k0_hw94 : k0_chk94 v238), ∀ a x, ((![v238] : Fin 1 → IVec S16 32) a x).toNat < S2176.size a := fun v238 k0_hw94 => k0_hw94

def k0_chk95 (v242 : IVec S16 32) : Prop :=
  (∀ a x, ((![v242] : Fin 1 → IVec S16 32) a x).toNat < S2176.size a)
instance k0_chk95.dec : ∀ (v242 : IVec S16 32), Decidable (k0_chk95 v242) := fun v242 => decidable_of_iff' _ (Iff.of_eq (k0_chk95.eq_1 v242))
theorem k0_idx95_inb : ∀ (v242 : IVec S16 32) (k0_hw95 : k0_chk95 v242), ∀ a x, ((![v242] : Fin 1 → IVec S16 32) a x).toNat < S2176.size a := fun v242 k0_hw95 => k0_hw95

def k0_chk96 (v246 : IVec S16 32) : Prop :=
  (∀ a x, ((![v246] : Fin 1 → IVec S16 32) a x).toNat < S2176.size a)
instance k0_chk96.dec : ∀ (v246 : IVec S16 32), Decidable (k0_chk96 v246) := fun v246 => decidable_of_iff' _ (Iff.of_eq (k0_chk96.eq_1 v246))
theorem k0_idx96_inb : ∀ (v246 : IVec S16 32) (k0_hw96 : k0_chk96 v246), ∀ a x, ((![v246] : Fin 1 → IVec S16 32) a x).toNat < S2176.size a := fun v246 k0_hw96 => k0_hw96
def k0_off33 (k0_t4 : Fin k0_t4_loop.trips) : Fin 1 → Nat :=
  let c128_i32_86 : BitVec 32 := 128#32
  let c0_i32_23 : BitVec 32 := 0#32
  let c1_i32_25 : BitVec 32 := 1#32
  let arg18 : BitVec 32 := Scf.iv c0_i32_23 c1_i32_25 k0_t4
  let c16_i32_85 : BitVec 32 := 16#32
  let v262 : BitVec 32 := Scalar.muli arg18 c16_i32_85
  let v263 : BitVec 32 := Scalar.addi c128_i32_86 v262
  let v264 : Index := Scalar.indexCast v263
  ![v264.toNat]
@[reducible] def k0_t5_loop : Scf.Loop 32 :=
  let c0_i32_31 : BitVec 32 := 0#32
  let c128_i32_32 : BitVec 32 := 128#32
  let v46 : BitVec 32 := Scalar.addi c0_i32_31 c128_i32_32
  let c1_i32_33 : BitVec 32 := 1#32
  ⟨c0_i32_31, v46, c1_i32_33⟩
def k0_off34 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v52 : Index := Scalar.indexCast arg18
  let c0_49 : Index := 0#32
  ![v52.toNat, 0]
def k0_off35 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v60 : Index := Scalar.indexCast arg18
  let c16 : Index := 16#32
  ![v60.toNat, 16]
def k0_off36 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v68 : Index := Scalar.indexCast arg18
  let c32 : Index := 32#32
  ![v68.toNat, 32]
def k0_off37 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v76 : Index := Scalar.indexCast arg18
  let c48 : Index := 48#32
  ![v76.toNat, 48]
def k0_off38 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v84 : Index := Scalar.indexCast arg18
  let c64 : Index := 64#32
  ![v84.toNat, 64]
def k0_off39 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v92 : Index := Scalar.indexCast arg18
  let c80 : Index := 80#32
  ![v92.toNat, 80]
def k0_off40 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v100 : Index := Scalar.indexCast arg18
  let c96 : Index := 96#32
  ![v100.toNat, 96]
def k0_off41 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v108 : Index := Scalar.indexCast arg18
  let c112 : Index := 112#32
  ![v108.toNat, 112]
def k0_off42 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v116 : Index := Scalar.indexCast arg18
  let c128 : Index := 128#32
  ![v116.toNat, 128]
def k0_off43 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v124 : Index := Scalar.indexCast arg18
  let c144 : Index := 144#32
  ![v124.toNat, 144]
def k0_off44 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v132 : Index := Scalar.indexCast arg18
  let c160 : Index := 160#32
  ![v132.toNat, 160]
def k0_off45 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v140 : Index := Scalar.indexCast arg18
  let c176 : Index := 176#32
  ![v140.toNat, 176]
def k0_off46 (k0_t5 : Fin k0_t5_loop.trips) : Fin 2 → Nat :=
  let c0_i32_31 : BitVec 32 := 0#32
  let c1_i32_33 : BitVec 32 := 1#32
  let arg18 : BitVec 32 := Scf.iv c0_i32_31 c1_i32_33 k0_t5
  let v148 : Index := Scalar.indexCast arg18
  let c184 : Index := 184#32
  ![v148.toNat, 184]
def k0_off47 (k0_t5 : Fin k0_t5_loop.trips) : Fin 1 → Nat :=
  let c0_i32_31 : BitVec 32 := 0#32
  let c1_i32_33 : BitVec 32 := 1#32
  let arg18 : BitVec 32 := Scf.iv c0_i32_31 c1_i32_33 k0_t5
  let c17_i32 : BitVec 32 := 17#32
  let v157 : BitVec 32 := Scalar.muli arg18 c17_i32
  let v158 : Index := Scalar.indexCast v157
  ![v158.toNat]
@[reducible] def k0_t6_loop : Scf.Loop 32 :=
  let c0_i32_35 : BitVec 32 := 0#32
  let c8_i32_36 : BitVec 32 := 8#32
  let v47 : BitVec 32 := Scalar.addi c0_i32_35 c8_i32_36
  let c1_i32_37 : BitVec 32 := 1#32
  ⟨c0_i32_35, v47, c1_i32_37⟩

def k0_chk97 (v58 : IVec S16 32) : Prop :=
  (∀ a x, ((![v58] : Fin 1 → IVec S16 32) a x).toNat < S2176.size a)
instance k0_chk97.dec : ∀ (v58 : IVec S16 32), Decidable (k0_chk97 v58) := fun v58 => decidable_of_iff' _ (Iff.of_eq (k0_chk97.eq_1 v58))
theorem k0_idx97_inb : ∀ (v58 : IVec S16 32) (k0_hw97 : k0_chk97 v58), ∀ a x, ((![v58] : Fin 1 → IVec S16 32) a x).toNat < S2176.size a := fun v58 k0_hw97 => k0_hw97

def k0_chk98 (v62 : IVec S16 32) : Prop :=
  (∀ a x, ((![v62] : Fin 1 → IVec S16 32) a x).toNat < S2176.size a)
instance k0_chk98.dec : ∀ (v62 : IVec S16 32), Decidable (k0_chk98 v62) := fun v62 => decidable_of_iff' _ (Iff.of_eq (k0_chk98.eq_1 v62))
theorem k0_idx98_inb : ∀ (v62 : IVec S16 32) (k0_hw98 : k0_chk98 v62), ∀ a x, ((![v62] : Fin 1 → IVec S16 32) a x).toNat < S2176.size a := fun v62 k0_hw98 => k0_hw98

def k0_chk99 (v66 : IVec S16 32) : Prop :=
  (∀ a x, ((![v66] : Fin 1 → IVec S16 32) a x).toNat < S2176.size a)
instance k0_chk99.dec : ∀ (v66 : IVec S16 32), Decidable (k0_chk99 v66) := fun v66 => decidable_of_iff' _ (Iff.of_eq (k0_chk99.eq_1 v66))
theorem k0_idx99_inb : ∀ (v66 : IVec S16 32) (k0_hw99 : k0_chk99 v66), ∀ a x, ((![v66] : Fin 1 → IVec S16 32) a x).toNat < S2176.size a := fun v66 k0_hw99 => k0_hw99

def k0_chk100 (v70 : IVec S16 32) : Prop :=
  (∀ a x, ((![v70] : Fin 1 → IVec S16 32) a x).toNat < S2176.size a)
instance k0_chk100.dec : ∀ (v70 : IVec S16 32), Decidable (k0_chk100 v70) := fun v70 => decidable_of_iff' _ (Iff.of_eq (k0_chk100.eq_1 v70))
theorem k0_idx100_inb : ∀ (v70 : IVec S16 32) (k0_hw100 : k0_chk100 v70), ∀ a x, ((![v70] : Fin 1 → IVec S16 32) a x).toNat < S2176.size a := fun v70 k0_hw100 => k0_hw100

def k0_chk101 (v74 : IVec S16 32) : Prop :=
  (∀ a x, ((![v74] : Fin 1 → IVec S16 32) a x).toNat < S2176.size a)
instance k0_chk101.dec : ∀ (v74 : IVec S16 32), Decidable (k0_chk101 v74) := fun v74 => decidable_of_iff' _ (Iff.of_eq (k0_chk101.eq_1 v74))
theorem k0_idx101_inb : ∀ (v74 : IVec S16 32) (k0_hw101 : k0_chk101 v74), ∀ a x, ((![v74] : Fin 1 → IVec S16 32) a x).toNat < S2176.size a := fun v74 k0_hw101 => k0_hw101

def k0_chk102 (v78 : IVec S16 32) : Prop :=
  (∀ a x, ((![v78] : Fin 1 → IVec S16 32) a x).toNat < S2176.size a)
instance k0_chk102.dec : ∀ (v78 : IVec S16 32), Decidable (k0_chk102 v78) := fun v78 => decidable_of_iff' _ (Iff.of_eq (k0_chk102.eq_1 v78))
theorem k0_idx102_inb : ∀ (v78 : IVec S16 32) (k0_hw102 : k0_chk102 v78), ∀ a x, ((![v78] : Fin 1 → IVec S16 32) a x).toNat < S2176.size a := fun v78 k0_hw102 => k0_hw102

def k0_chk103 (v82 : IVec S16 32) : Prop :=
  (∀ a x, ((![v82] : Fin 1 → IVec S16 32) a x).toNat < S2176.size a)
instance k0_chk103.dec : ∀ (v82 : IVec S16 32), Decidable (k0_chk103 v82) := fun v82 => decidable_of_iff' _ (Iff.of_eq (k0_chk103.eq_1 v82))
theorem k0_idx103_inb : ∀ (v82 : IVec S16 32) (k0_hw103 : k0_chk103 v82), ∀ a x, ((![v82] : Fin 1 → IVec S16 32) a x).toNat < S2176.size a := fun v82 k0_hw103 => k0_hw103

def k0_chk104 (v86 : IVec S16 32) : Prop :=
  (∀ a x, ((![v86] : Fin 1 → IVec S16 32) a x).toNat < S2176.size a)
instance k0_chk104.dec : ∀ (v86 : IVec S16 32), Decidable (k0_chk104 v86) := fun v86 => decidable_of_iff' _ (Iff.of_eq (k0_chk104.eq_1 v86))
theorem k0_idx104_inb : ∀ (v86 : IVec S16 32) (k0_hw104 : k0_chk104 v86), ∀ a x, ((![v86] : Fin 1 → IVec S16 32) a x).toNat < S2176.size a := fun v86 k0_hw104 => k0_hw104

def k0_chk105 (v90 : IVec S16 32) : Prop :=
  (∀ a x, ((![v90] : Fin 1 → IVec S16 32) a x).toNat < S2176.size a)
instance k0_chk105.dec : ∀ (v90 : IVec S16 32), Decidable (k0_chk105 v90) := fun v90 => decidable_of_iff' _ (Iff.of_eq (k0_chk105.eq_1 v90))
theorem k0_idx105_inb : ∀ (v90 : IVec S16 32) (k0_hw105 : k0_chk105 v90), ∀ a x, ((![v90] : Fin 1 → IVec S16 32) a x).toNat < S2176.size a := fun v90 k0_hw105 => k0_hw105

def k0_chk106 (v94 : IVec S16 32) : Prop :=
  (∀ a x, ((![v94] : Fin 1 → IVec S16 32) a x).toNat < S2176.size a)
instance k0_chk106.dec : ∀ (v94 : IVec S16 32), Decidable (k0_chk106 v94) := fun v94 => decidable_of_iff' _ (Iff.of_eq (k0_chk106.eq_1 v94))
theorem k0_idx106_inb : ∀ (v94 : IVec S16 32) (k0_hw106 : k0_chk106 v94), ∀ a x, ((![v94] : Fin 1 → IVec S16 32) a x).toNat < S2176.size a := fun v94 k0_hw106 => k0_hw106

def k0_chk107 (v98 : IVec S16 32) : Prop :=
  (∀ a x, ((![v98] : Fin 1 → IVec S16 32) a x).toNat < S2176.size a)
instance k0_chk107.dec : ∀ (v98 : IVec S16 32), Decidable (k0_chk107 v98) := fun v98 => decidable_of_iff' _ (Iff.of_eq (k0_chk107.eq_1 v98))
theorem k0_idx107_inb : ∀ (v98 : IVec S16 32) (k0_hw107 : k0_chk107 v98), ∀ a x, ((![v98] : Fin 1 → IVec S16 32) a x).toNat < S2176.size a := fun v98 k0_hw107 => k0_hw107

def k0_chk108 (v102 : IVec S16 32) : Prop :=
  (∀ a x, ((![v102] : Fin 1 → IVec S16 32) a x).toNat < S2176.size a)
instance k0_chk108.dec : ∀ (v102 : IVec S16 32), Decidable (k0_chk108 v102) := fun v102 => decidable_of_iff' _ (Iff.of_eq (k0_chk108.eq_1 v102))
theorem k0_idx108_inb : ∀ (v102 : IVec S16 32) (k0_hw108 : k0_chk108 v102), ∀ a x, ((![v102] : Fin 1 → IVec S16 32) a x).toNat < S2176.size a := fun v102 k0_hw108 => k0_hw108

def k0_chk109 (v106 : IVec S16 32) : Prop :=
  (∀ a x, ((![v106] : Fin 1 → IVec S16 32) a x).toNat < S2176.size a)
instance k0_chk109.dec : ∀ (v106 : IVec S16 32), Decidable (k0_chk109 v106) := fun v106 => decidable_of_iff' _ (Iff.of_eq (k0_chk109.eq_1 v106))
theorem k0_idx109_inb : ∀ (v106 : IVec S16 32) (k0_hw109 : k0_chk109 v106), ∀ a x, ((![v106] : Fin 1 → IVec S16 32) a x).toNat < S2176.size a := fun v106 k0_hw109 => k0_hw109

def k0_chk110 (v110 : IVec S16 32) : Prop :=
  (∀ a x, ((![v110] : Fin 1 → IVec S16 32) a x).toNat < S2176.size a)
instance k0_chk110.dec : ∀ (v110 : IVec S16 32), Decidable (k0_chk110 v110) := fun v110 => decidable_of_iff' _ (Iff.of_eq (k0_chk110.eq_1 v110))
theorem k0_idx110_inb : ∀ (v110 : IVec S16 32) (k0_hw110 : k0_chk110 v110), ∀ a x, ((![v110] : Fin 1 → IVec S16 32) a x).toNat < S2176.size a := fun v110 k0_hw110 => k0_hw110

def k0_chk111 (v114 : IVec S16 32) : Prop :=
  (∀ a x, ((![v114] : Fin 1 → IVec S16 32) a x).toNat < S2176.size a)
instance k0_chk111.dec : ∀ (v114 : IVec S16 32), Decidable (k0_chk111 v114) := fun v114 => decidable_of_iff' _ (Iff.of_eq (k0_chk111.eq_1 v114))
theorem k0_idx111_inb : ∀ (v114 : IVec S16 32) (k0_hw111 : k0_chk111 v114), ∀ a x, ((![v114] : Fin 1 → IVec S16 32) a x).toNat < S2176.size a := fun v114 k0_hw111 => k0_hw111

def k0_chk112 (v118 : IVec S16 32) : Prop :=
  (∀ a x, ((![v118] : Fin 1 → IVec S16 32) a x).toNat < S2176.size a)
instance k0_chk112.dec : ∀ (v118 : IVec S16 32), Decidable (k0_chk112 v118) := fun v118 => decidable_of_iff' _ (Iff.of_eq (k0_chk112.eq_1 v118))
theorem k0_idx112_inb : ∀ (v118 : IVec S16 32) (k0_hw112 : k0_chk112 v118), ∀ a x, ((![v118] : Fin 1 → IVec S16 32) a x).toNat < S2176.size a := fun v118 k0_hw112 => k0_hw112

def k0_chk113 (v122 : IVec S16 32) : Prop :=
  (∀ a x, ((![v122] : Fin 1 → IVec S16 32) a x).toNat < S2176.size a)
instance k0_chk113.dec : ∀ (v122 : IVec S16 32), Decidable (k0_chk113 v122) := fun v122 => decidable_of_iff' _ (Iff.of_eq (k0_chk113.eq_1 v122))
theorem k0_idx113_inb : ∀ (v122 : IVec S16 32) (k0_hw113 : k0_chk113 v122), ∀ a x, ((![v122] : Fin 1 → IVec S16 32) a x).toNat < S2176.size a := fun v122 k0_hw113 => k0_hw113

def k0_chk114 (v126 : IVec S16 32) : Prop :=
  (∀ a x, ((![v126] : Fin 1 → IVec S16 32) a x).toNat < S2176.size a)
instance k0_chk114.dec : ∀ (v126 : IVec S16 32), Decidable (k0_chk114 v126) := fun v126 => decidable_of_iff' _ (Iff.of_eq (k0_chk114.eq_1 v126))
theorem k0_idx114_inb : ∀ (v126 : IVec S16 32) (k0_hw114 : k0_chk114 v126), ∀ a x, ((![v126] : Fin 1 → IVec S16 32) a x).toNat < S2176.size a := fun v126 k0_hw114 => k0_hw114

def k0_chk115 (v130 : IVec S16 32) : Prop :=
  (∀ a x, ((![v130] : Fin 1 → IVec S16 32) a x).toNat < S2176.size a)
instance k0_chk115.dec : ∀ (v130 : IVec S16 32), Decidable (k0_chk115 v130) := fun v130 => decidable_of_iff' _ (Iff.of_eq (k0_chk115.eq_1 v130))
theorem k0_idx115_inb : ∀ (v130 : IVec S16 32) (k0_hw115 : k0_chk115 v130), ∀ a x, ((![v130] : Fin 1 → IVec S16 32) a x).toNat < S2176.size a := fun v130 k0_hw115 => k0_hw115

def k0_chk116 (v134 : IVec S16 32) : Prop :=
  (∀ a x, ((![v134] : Fin 1 → IVec S16 32) a x).toNat < S2176.size a)
instance k0_chk116.dec : ∀ (v134 : IVec S16 32), Decidable (k0_chk116 v134) := fun v134 => decidable_of_iff' _ (Iff.of_eq (k0_chk116.eq_1 v134))
theorem k0_idx116_inb : ∀ (v134 : IVec S16 32) (k0_hw116 : k0_chk116 v134), ∀ a x, ((![v134] : Fin 1 → IVec S16 32) a x).toNat < S2176.size a := fun v134 k0_hw116 => k0_hw116

def k0_chk117 (v138 : IVec S16 32) : Prop :=
  (∀ a x, ((![v138] : Fin 1 → IVec S16 32) a x).toNat < S2176.size a)
instance k0_chk117.dec : ∀ (v138 : IVec S16 32), Decidable (k0_chk117 v138) := fun v138 => decidable_of_iff' _ (Iff.of_eq (k0_chk117.eq_1 v138))
theorem k0_idx117_inb : ∀ (v138 : IVec S16 32) (k0_hw117 : k0_chk117 v138), ∀ a x, ((![v138] : Fin 1 → IVec S16 32) a x).toNat < S2176.size a := fun v138 k0_hw117 => k0_hw117

def k0_chk118 (v142 : IVec S16 32) : Prop :=
  (∀ a x, ((![v142] : Fin 1 → IVec S16 32) a x).toNat < S2176.size a)
instance k0_chk118.dec : ∀ (v142 : IVec S16 32), Decidable (k0_chk118 v142) := fun v142 => decidable_of_iff' _ (Iff.of_eq (k0_chk118.eq_1 v142))
theorem k0_idx118_inb : ∀ (v142 : IVec S16 32) (k0_hw118 : k0_chk118 v142), ∀ a x, ((![v142] : Fin 1 → IVec S16 32) a x).toNat < S2176.size a := fun v142 k0_hw118 => k0_hw118

def k0_chk119 (v146 : IVec S16 32) : Prop :=
  (∀ a x, ((![v146] : Fin 1 → IVec S16 32) a x).toNat < S2176.size a)
instance k0_chk119.dec : ∀ (v146 : IVec S16 32), Decidable (k0_chk119 v146) := fun v146 => decidable_of_iff' _ (Iff.of_eq (k0_chk119.eq_1 v146))
theorem k0_idx119_inb : ∀ (v146 : IVec S16 32) (k0_hw119 : k0_chk119 v146), ∀ a x, ((![v146] : Fin 1 → IVec S16 32) a x).toNat < S2176.size a := fun v146 k0_hw119 => k0_hw119

def k0_chk120 (v150 : IVec S16 32) : Prop :=
  (∀ a x, ((![v150] : Fin 1 → IVec S16 32) a x).toNat < S2176.size a)
instance k0_chk120.dec : ∀ (v150 : IVec S16 32), Decidable (k0_chk120 v150) := fun v150 => decidable_of_iff' _ (Iff.of_eq (k0_chk120.eq_1 v150))
theorem k0_idx120_inb : ∀ (v150 : IVec S16 32) (k0_hw120 : k0_chk120 v150), ∀ a x, ((![v150] : Fin 1 → IVec S16 32) a x).toNat < S2176.size a := fun v150 k0_hw120 => k0_hw120

def k0_chk121 (v154 : IVec S16 32) : Prop :=
  (∀ a x, ((![v154] : Fin 1 → IVec S16 32) a x).toNat < S2176.size a)
instance k0_chk121.dec : ∀ (v154 : IVec S16 32), Decidable (k0_chk121 v154) := fun v154 => decidable_of_iff' _ (Iff.of_eq (k0_chk121.eq_1 v154))
theorem k0_idx121_inb : ∀ (v154 : IVec S16 32) (k0_hw121 : k0_chk121 v154), ∀ a x, ((![v154] : Fin 1 → IVec S16 32) a x).toNat < S2176.size a := fun v154 k0_hw121 => k0_hw121

def k0_chk122 (v158 : IVec S16 32) : Prop :=
  (∀ a x, ((![v158] : Fin 1 → IVec S16 32) a x).toNat < S2176.size a)
instance k0_chk122.dec : ∀ (v158 : IVec S16 32), Decidable (k0_chk122 v158) := fun v158 => decidable_of_iff' _ (Iff.of_eq (k0_chk122.eq_1 v158))
theorem k0_idx122_inb : ∀ (v158 : IVec S16 32) (k0_hw122 : k0_chk122 v158), ∀ a x, ((![v158] : Fin 1 → IVec S16 32) a x).toNat < S2176.size a := fun v158 k0_hw122 => k0_hw122

def k0_chk123 (v162 : IVec S16 32) : Prop :=
  (∀ a x, ((![v162] : Fin 1 → IVec S16 32) a x).toNat < S2176.size a)
instance k0_chk123.dec : ∀ (v162 : IVec S16 32), Decidable (k0_chk123 v162) := fun v162 => decidable_of_iff' _ (Iff.of_eq (k0_chk123.eq_1 v162))
theorem k0_idx123_inb : ∀ (v162 : IVec S16 32) (k0_hw123 : k0_chk123 v162), ∀ a x, ((![v162] : Fin 1 → IVec S16 32) a x).toNat < S2176.size a := fun v162 k0_hw123 => k0_hw123

def k0_chk124 (v166 : IVec S16 32) : Prop :=
  (∀ a x, ((![v166] : Fin 1 → IVec S16 32) a x).toNat < S2176.size a)
instance k0_chk124.dec : ∀ (v166 : IVec S16 32), Decidable (k0_chk124 v166) := fun v166 => decidable_of_iff' _ (Iff.of_eq (k0_chk124.eq_1 v166))
theorem k0_idx124_inb : ∀ (v166 : IVec S16 32) (k0_hw124 : k0_chk124 v166), ∀ a x, ((![v166] : Fin 1 → IVec S16 32) a x).toNat < S2176.size a := fun v166 k0_hw124 => k0_hw124

def k0_chk125 (v170 : IVec S16 32) : Prop :=
  (∀ a x, ((![v170] : Fin 1 → IVec S16 32) a x).toNat < S2176.size a)
instance k0_chk125.dec : ∀ (v170 : IVec S16 32), Decidable (k0_chk125 v170) := fun v170 => decidable_of_iff' _ (Iff.of_eq (k0_chk125.eq_1 v170))
theorem k0_idx125_inb : ∀ (v170 : IVec S16 32) (k0_hw125 : k0_chk125 v170), ∀ a x, ((![v170] : Fin 1 → IVec S16 32) a x).toNat < S2176.size a := fun v170 k0_hw125 => k0_hw125

def k0_chk126 (v174 : IVec S16 32) : Prop :=
  (∀ a x, ((![v174] : Fin 1 → IVec S16 32) a x).toNat < S2176.size a)
instance k0_chk126.dec : ∀ (v174 : IVec S16 32), Decidable (k0_chk126 v174) := fun v174 => decidable_of_iff' _ (Iff.of_eq (k0_chk126.eq_1 v174))
theorem k0_idx126_inb : ∀ (v174 : IVec S16 32) (k0_hw126 : k0_chk126 v174), ∀ a x, ((![v174] : Fin 1 → IVec S16 32) a x).toNat < S2176.size a := fun v174 k0_hw126 => k0_hw126

def k0_chk127 (v178 : IVec S16 32) : Prop :=
  (∀ a x, ((![v178] : Fin 1 → IVec S16 32) a x).toNat < S2176.size a)
instance k0_chk127.dec : ∀ (v178 : IVec S16 32), Decidable (k0_chk127 v178) := fun v178 => decidable_of_iff' _ (Iff.of_eq (k0_chk127.eq_1 v178))
theorem k0_idx127_inb : ∀ (v178 : IVec S16 32) (k0_hw127 : k0_chk127 v178), ∀ a x, ((![v178] : Fin 1 → IVec S16 32) a x).toNat < S2176.size a := fun v178 k0_hw127 => k0_hw127

def k0_chk128 (v182 : IVec S16 32) : Prop :=
  (∀ a x, ((![v182] : Fin 1 → IVec S16 32) a x).toNat < S2176.size a)
instance k0_chk128.dec : ∀ (v182 : IVec S16 32), Decidable (k0_chk128 v182) := fun v182 => decidable_of_iff' _ (Iff.of_eq (k0_chk128.eq_1 v182))
theorem k0_idx128_inb : ∀ (v182 : IVec S16 32) (k0_hw128 : k0_chk128 v182), ∀ a x, ((![v182] : Fin 1 → IVec S16 32) a x).toNat < S2176.size a := fun v182 k0_hw128 => k0_hw128

def k0_chk129 (v186 : IVec S16 32) : Prop :=
  (∀ a x, ((![v186] : Fin 1 → IVec S16 32) a x).toNat < S2176.size a)
instance k0_chk129.dec : ∀ (v186 : IVec S16 32), Decidable (k0_chk129 v186) := fun v186 => decidable_of_iff' _ (Iff.of_eq (k0_chk129.eq_1 v186))
theorem k0_idx129_inb : ∀ (v186 : IVec S16 32) (k0_hw129 : k0_chk129 v186), ∀ a x, ((![v186] : Fin 1 → IVec S16 32) a x).toNat < S2176.size a := fun v186 k0_hw129 => k0_hw129

def k0_chk130 (v190 : IVec S16 32) : Prop :=
  (∀ a x, ((![v190] : Fin 1 → IVec S16 32) a x).toNat < S2176.size a)
instance k0_chk130.dec : ∀ (v190 : IVec S16 32), Decidable (k0_chk130 v190) := fun v190 => decidable_of_iff' _ (Iff.of_eq (k0_chk130.eq_1 v190))
theorem k0_idx130_inb : ∀ (v190 : IVec S16 32) (k0_hw130 : k0_chk130 v190), ∀ a x, ((![v190] : Fin 1 → IVec S16 32) a x).toNat < S2176.size a := fun v190 k0_hw130 => k0_hw130

def k0_chk131 (v194 : IVec S16 32) : Prop :=
  (∀ a x, ((![v194] : Fin 1 → IVec S16 32) a x).toNat < S2176.size a)
instance k0_chk131.dec : ∀ (v194 : IVec S16 32), Decidable (k0_chk131 v194) := fun v194 => decidable_of_iff' _ (Iff.of_eq (k0_chk131.eq_1 v194))
theorem k0_idx131_inb : ∀ (v194 : IVec S16 32) (k0_hw131 : k0_chk131 v194), ∀ a x, ((![v194] : Fin 1 → IVec S16 32) a x).toNat < S2176.size a := fun v194 k0_hw131 => k0_hw131

def k0_chk132 (v198 : IVec S16 32) : Prop :=
  (∀ a x, ((![v198] : Fin 1 → IVec S16 32) a x).toNat < S2176.size a)
instance k0_chk132.dec : ∀ (v198 : IVec S16 32), Decidable (k0_chk132 v198) := fun v198 => decidable_of_iff' _ (Iff.of_eq (k0_chk132.eq_1 v198))
theorem k0_idx132_inb : ∀ (v198 : IVec S16 32) (k0_hw132 : k0_chk132 v198), ∀ a x, ((![v198] : Fin 1 → IVec S16 32) a x).toNat < S2176.size a := fun v198 k0_hw132 => k0_hw132

def k0_chk133 (v202 : IVec S16 32) : Prop :=
  (∀ a x, ((![v202] : Fin 1 → IVec S16 32) a x).toNat < S2176.size a)
instance k0_chk133.dec : ∀ (v202 : IVec S16 32), Decidable (k0_chk133 v202) := fun v202 => decidable_of_iff' _ (Iff.of_eq (k0_chk133.eq_1 v202))
theorem k0_idx133_inb : ∀ (v202 : IVec S16 32) (k0_hw133 : k0_chk133 v202), ∀ a x, ((![v202] : Fin 1 → IVec S16 32) a x).toNat < S2176.size a := fun v202 k0_hw133 => k0_hw133

def k0_chk134 (v206 : IVec S16 32) : Prop :=
  (∀ a x, ((![v206] : Fin 1 → IVec S16 32) a x).toNat < S2176.size a)
instance k0_chk134.dec : ∀ (v206 : IVec S16 32), Decidable (k0_chk134 v206) := fun v206 => decidable_of_iff' _ (Iff.of_eq (k0_chk134.eq_1 v206))
theorem k0_idx134_inb : ∀ (v206 : IVec S16 32) (k0_hw134 : k0_chk134 v206), ∀ a x, ((![v206] : Fin 1 → IVec S16 32) a x).toNat < S2176.size a := fun v206 k0_hw134 => k0_hw134

def k0_chk135 (v210 : IVec S16 32) : Prop :=
  (∀ a x, ((![v210] : Fin 1 → IVec S16 32) a x).toNat < S2176.size a)
instance k0_chk135.dec : ∀ (v210 : IVec S16 32), Decidable (k0_chk135 v210) := fun v210 => decidable_of_iff' _ (Iff.of_eq (k0_chk135.eq_1 v210))
theorem k0_idx135_inb : ∀ (v210 : IVec S16 32) (k0_hw135 : k0_chk135 v210), ∀ a x, ((![v210] : Fin 1 → IVec S16 32) a x).toNat < S2176.size a := fun v210 k0_hw135 => k0_hw135

def k0_chk136 (v214 : IVec S16 32) : Prop :=
  (∀ a x, ((![v214] : Fin 1 → IVec S16 32) a x).toNat < S2176.size a)
instance k0_chk136.dec : ∀ (v214 : IVec S16 32), Decidable (k0_chk136 v214) := fun v214 => decidable_of_iff' _ (Iff.of_eq (k0_chk136.eq_1 v214))
theorem k0_idx136_inb : ∀ (v214 : IVec S16 32) (k0_hw136 : k0_chk136 v214), ∀ a x, ((![v214] : Fin 1 → IVec S16 32) a x).toNat < S2176.size a := fun v214 k0_hw136 => k0_hw136

def k0_chk137 (v218 : IVec S16 32) : Prop :=
  (∀ a x, ((![v218] : Fin 1 → IVec S16 32) a x).toNat < S2176.size a)
instance k0_chk137.dec : ∀ (v218 : IVec S16 32), Decidable (k0_chk137 v218) := fun v218 => decidable_of_iff' _ (Iff.of_eq (k0_chk137.eq_1 v218))
theorem k0_idx137_inb : ∀ (v218 : IVec S16 32) (k0_hw137 : k0_chk137 v218), ∀ a x, ((![v218] : Fin 1 → IVec S16 32) a x).toNat < S2176.size a := fun v218 k0_hw137 => k0_hw137

def k0_chk138 (v222 : IVec S16 32) : Prop :=
  (∀ a x, ((![v222] : Fin 1 → IVec S16 32) a x).toNat < S2176.size a)
instance k0_chk138.dec : ∀ (v222 : IVec S16 32), Decidable (k0_chk138 v222) := fun v222 => decidable_of_iff' _ (Iff.of_eq (k0_chk138.eq_1 v222))
theorem k0_idx138_inb : ∀ (v222 : IVec S16 32) (k0_hw138 : k0_chk138 v222), ∀ a x, ((![v222] : Fin 1 → IVec S16 32) a x).toNat < S2176.size a := fun v222 k0_hw138 => k0_hw138

def k0_chk139 (v226 : IVec S16 32) : Prop :=
  (∀ a x, ((![v226] : Fin 1 → IVec S16 32) a x).toNat < S2176.size a)
instance k0_chk139.dec : ∀ (v226 : IVec S16 32), Decidable (k0_chk139 v226) := fun v226 => decidable_of_iff' _ (Iff.of_eq (k0_chk139.eq_1 v226))
theorem k0_idx139_inb : ∀ (v226 : IVec S16 32) (k0_hw139 : k0_chk139 v226), ∀ a x, ((![v226] : Fin 1 → IVec S16 32) a x).toNat < S2176.size a := fun v226 k0_hw139 => k0_hw139

def k0_chk140 (v230 : IVec S16 32) : Prop :=
  (∀ a x, ((![v230] : Fin 1 → IVec S16 32) a x).toNat < S2176.size a)
instance k0_chk140.dec : ∀ (v230 : IVec S16 32), Decidable (k0_chk140 v230) := fun v230 => decidable_of_iff' _ (Iff.of_eq (k0_chk140.eq_1 v230))
theorem k0_idx140_inb : ∀ (v230 : IVec S16 32) (k0_hw140 : k0_chk140 v230), ∀ a x, ((![v230] : Fin 1 → IVec S16 32) a x).toNat < S2176.size a := fun v230 k0_hw140 => k0_hw140

def k0_chk141 (v234 : IVec S16 32) : Prop :=
  (∀ a x, ((![v234] : Fin 1 → IVec S16 32) a x).toNat < S2176.size a)
instance k0_chk141.dec : ∀ (v234 : IVec S16 32), Decidable (k0_chk141 v234) := fun v234 => decidable_of_iff' _ (Iff.of_eq (k0_chk141.eq_1 v234))
theorem k0_idx141_inb : ∀ (v234 : IVec S16 32) (k0_hw141 : k0_chk141 v234), ∀ a x, ((![v234] : Fin 1 → IVec S16 32) a x).toNat < S2176.size a := fun v234 k0_hw141 => k0_hw141

def k0_chk142 (v238 : IVec S16 32) : Prop :=
  (∀ a x, ((![v238] : Fin 1 → IVec S16 32) a x).toNat < S2176.size a)
instance k0_chk142.dec : ∀ (v238 : IVec S16 32), Decidable (k0_chk142 v238) := fun v238 => decidable_of_iff' _ (Iff.of_eq (k0_chk142.eq_1 v238))
theorem k0_idx142_inb : ∀ (v238 : IVec S16 32) (k0_hw142 : k0_chk142 v238), ∀ a x, ((![v238] : Fin 1 → IVec S16 32) a x).toNat < S2176.size a := fun v238 k0_hw142 => k0_hw142

def k0_chk143 (v242 : IVec S16 32) : Prop :=
  (∀ a x, ((![v242] : Fin 1 → IVec S16 32) a x).toNat < S2176.size a)
instance k0_chk143.dec : ∀ (v242 : IVec S16 32), Decidable (k0_chk143 v242) := fun v242 => decidable_of_iff' _ (Iff.of_eq (k0_chk143.eq_1 v242))
theorem k0_idx143_inb : ∀ (v242 : IVec S16 32) (k0_hw143 : k0_chk143 v242), ∀ a x, ((![v242] : Fin 1 → IVec S16 32) a x).toNat < S2176.size a := fun v242 k0_hw143 => k0_hw143

def k0_chk144 (v246 : IVec S16 32) : Prop :=
  (∀ a x, ((![v246] : Fin 1 → IVec S16 32) a x).toNat < S2176.size a)
instance k0_chk144.dec : ∀ (v246 : IVec S16 32), Decidable (k0_chk144 v246) := fun v246 => decidable_of_iff' _ (Iff.of_eq (k0_chk144.eq_1 v246))
theorem k0_idx144_inb : ∀ (v246 : IVec S16 32) (k0_hw144 : k0_chk144 v246), ∀ a x, ((![v246] : Fin 1 → IVec S16 32) a x).toNat < S2176.size a := fun v246 k0_hw144 => k0_hw144
def k0_off48 (k0_t6 : Fin k0_t6_loop.trips) : Fin 1 → Nat :=
  let c256_i32_86 : BitVec 32 := 256#32
  let c0_i32_35 : BitVec 32 := 0#32
  let c1_i32_37 : BitVec 32 := 1#32
  let arg18 : BitVec 32 := Scf.iv c0_i32_35 c1_i32_37 k0_t6
  let c16_i32_85 : BitVec 32 := 16#32
  let v262 : BitVec 32 := Scalar.muli arg18 c16_i32_85
  let v263 : BitVec 32 := Scalar.addi c256_i32_86 v262
  let v264 : Index := Scalar.indexCast v263
  ![v264.toNat]
@[reducible] def k0_t7_loop : Scf.Loop 32 :=
  let c0_i32_41 : BitVec 32 := 0#32
  let c128_i32_42 : BitVec 32 := 128#32
  let v50 : BitVec 32 := Scalar.addi c0_i32_41 c128_i32_42
  let c1_i32_43 : BitVec 32 := 1#32
  ⟨c0_i32_41, v50, c1_i32_43⟩
def k0_off49 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v52 : Index := Scalar.indexCast arg18
  let c0_49 : Index := 0#32
  ![v52.toNat, 0]
def k0_off50 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v60 : Index := Scalar.indexCast arg18
  let c16 : Index := 16#32
  ![v60.toNat, 16]
def k0_off51 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v68 : Index := Scalar.indexCast arg18
  let c32 : Index := 32#32
  ![v68.toNat, 32]
def k0_off52 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v76 : Index := Scalar.indexCast arg18
  let c48 : Index := 48#32
  ![v76.toNat, 48]
def k0_off53 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v84 : Index := Scalar.indexCast arg18
  let c64 : Index := 64#32
  ![v84.toNat, 64]
def k0_off54 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v92 : Index := Scalar.indexCast arg18
  let c80 : Index := 80#32
  ![v92.toNat, 80]
def k0_off55 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v100 : Index := Scalar.indexCast arg18
  let c96 : Index := 96#32
  ![v100.toNat, 96]
def k0_off56 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v108 : Index := Scalar.indexCast arg18
  let c112 : Index := 112#32
  ![v108.toNat, 112]
def k0_off57 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v116 : Index := Scalar.indexCast arg18
  let c128 : Index := 128#32
  ![v116.toNat, 128]
def k0_off58 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v124 : Index := Scalar.indexCast arg18
  let c144 : Index := 144#32
  ![v124.toNat, 144]
def k0_off59 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v132 : Index := Scalar.indexCast arg18
  let c160 : Index := 160#32
  ![v132.toNat, 160]
def k0_off60 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v140 : Index := Scalar.indexCast arg18
  let c176 : Index := 176#32
  ![v140.toNat, 176]
def k0_off61 (k0_t7 : Fin k0_t7_loop.trips) : Fin 2 → Nat :=
  let c0_i32_41 : BitVec 32 := 0#32
  let c1_i32_43 : BitVec 32 := 1#32
  let arg18 : BitVec 32 := Scf.iv c0_i32_41 c1_i32_43 k0_t7
  let v148 : Index := Scalar.indexCast arg18
  let c184 : Index := 184#32
  ![v148.toNat, 184]
def k0_off62 (k0_t7 : Fin k0_t7_loop.trips) : Fin 1 → Nat :=
  let c0_i32_41 : BitVec 32 := 0#32
  let c1_i32_43 : BitVec 32 := 1#32
  let arg18 : BitVec 32 := Scf.iv c0_i32_41 c1_i32_43 k0_t7
  let c17_i32 : BitVec 32 := 17#32
  let v157 : BitVec 32 := Scalar.muli arg18 c17_i32
  let v158 : Index := Scalar.indexCast v157
  ![v158.toNat]
@[reducible] def k0_t8_loop : Scf.Loop 32 :=
  let c0_i32_45 : BitVec 32 := 0#32
  let c8_i32_46 : BitVec 32 := 8#32
  let v51 : BitVec 32 := Scalar.addi c0_i32_45 c8_i32_46
  let c1_i32_47 : BitVec 32 := 1#32
  ⟨c0_i32_45, v51, c1_i32_47⟩

def k0_chk145 (v58 : IVec S16 32) : Prop :=
  (∀ a x, ((![v58] : Fin 1 → IVec S16 32) a x).toNat < S2176.size a)
instance k0_chk145.dec : ∀ (v58 : IVec S16 32), Decidable (k0_chk145 v58) := fun v58 => decidable_of_iff' _ (Iff.of_eq (k0_chk145.eq_1 v58))
theorem k0_idx145_inb : ∀ (v58 : IVec S16 32) (k0_hw145 : k0_chk145 v58), ∀ a x, ((![v58] : Fin 1 → IVec S16 32) a x).toNat < S2176.size a := fun v58 k0_hw145 => k0_hw145

def k0_chk146 (v62 : IVec S16 32) : Prop :=
  (∀ a x, ((![v62] : Fin 1 → IVec S16 32) a x).toNat < S2176.size a)
instance k0_chk146.dec : ∀ (v62 : IVec S16 32), Decidable (k0_chk146 v62) := fun v62 => decidable_of_iff' _ (Iff.of_eq (k0_chk146.eq_1 v62))
theorem k0_idx146_inb : ∀ (v62 : IVec S16 32) (k0_hw146 : k0_chk146 v62), ∀ a x, ((![v62] : Fin 1 → IVec S16 32) a x).toNat < S2176.size a := fun v62 k0_hw146 => k0_hw146

def k0_chk147 (v66 : IVec S16 32) : Prop :=
  (∀ a x, ((![v66] : Fin 1 → IVec S16 32) a x).toNat < S2176.size a)
instance k0_chk147.dec : ∀ (v66 : IVec S16 32), Decidable (k0_chk147 v66) := fun v66 => decidable_of_iff' _ (Iff.of_eq (k0_chk147.eq_1 v66))
theorem k0_idx147_inb : ∀ (v66 : IVec S16 32) (k0_hw147 : k0_chk147 v66), ∀ a x, ((![v66] : Fin 1 → IVec S16 32) a x).toNat < S2176.size a := fun v66 k0_hw147 => k0_hw147

def k0_chk148 (v70 : IVec S16 32) : Prop :=
  (∀ a x, ((![v70] : Fin 1 → IVec S16 32) a x).toNat < S2176.size a)
instance k0_chk148.dec : ∀ (v70 : IVec S16 32), Decidable (k0_chk148 v70) := fun v70 => decidable_of_iff' _ (Iff.of_eq (k0_chk148.eq_1 v70))
theorem k0_idx148_inb : ∀ (v70 : IVec S16 32) (k0_hw148 : k0_chk148 v70), ∀ a x, ((![v70] : Fin 1 → IVec S16 32) a x).toNat < S2176.size a := fun v70 k0_hw148 => k0_hw148

def k0_chk149 (v74 : IVec S16 32) : Prop :=
  (∀ a x, ((![v74] : Fin 1 → IVec S16 32) a x).toNat < S2176.size a)
instance k0_chk149.dec : ∀ (v74 : IVec S16 32), Decidable (k0_chk149 v74) := fun v74 => decidable_of_iff' _ (Iff.of_eq (k0_chk149.eq_1 v74))
theorem k0_idx149_inb : ∀ (v74 : IVec S16 32) (k0_hw149 : k0_chk149 v74), ∀ a x, ((![v74] : Fin 1 → IVec S16 32) a x).toNat < S2176.size a := fun v74 k0_hw149 => k0_hw149

def k0_chk150 (v78 : IVec S16 32) : Prop :=
  (∀ a x, ((![v78] : Fin 1 → IVec S16 32) a x).toNat < S2176.size a)
instance k0_chk150.dec : ∀ (v78 : IVec S16 32), Decidable (k0_chk150 v78) := fun v78 => decidable_of_iff' _ (Iff.of_eq (k0_chk150.eq_1 v78))
theorem k0_idx150_inb : ∀ (v78 : IVec S16 32) (k0_hw150 : k0_chk150 v78), ∀ a x, ((![v78] : Fin 1 → IVec S16 32) a x).toNat < S2176.size a := fun v78 k0_hw150 => k0_hw150

def k0_chk151 (v82 : IVec S16 32) : Prop :=
  (∀ a x, ((![v82] : Fin 1 → IVec S16 32) a x).toNat < S2176.size a)
instance k0_chk151.dec : ∀ (v82 : IVec S16 32), Decidable (k0_chk151 v82) := fun v82 => decidable_of_iff' _ (Iff.of_eq (k0_chk151.eq_1 v82))
theorem k0_idx151_inb : ∀ (v82 : IVec S16 32) (k0_hw151 : k0_chk151 v82), ∀ a x, ((![v82] : Fin 1 → IVec S16 32) a x).toNat < S2176.size a := fun v82 k0_hw151 => k0_hw151

def k0_chk152 (v86 : IVec S16 32) : Prop :=
  (∀ a x, ((![v86] : Fin 1 → IVec S16 32) a x).toNat < S2176.size a)
instance k0_chk152.dec : ∀ (v86 : IVec S16 32), Decidable (k0_chk152 v86) := fun v86 => decidable_of_iff' _ (Iff.of_eq (k0_chk152.eq_1 v86))
theorem k0_idx152_inb : ∀ (v86 : IVec S16 32) (k0_hw152 : k0_chk152 v86), ∀ a x, ((![v86] : Fin 1 → IVec S16 32) a x).toNat < S2176.size a := fun v86 k0_hw152 => k0_hw152

def k0_chk153 (v90 : IVec S16 32) : Prop :=
  (∀ a x, ((![v90] : Fin 1 → IVec S16 32) a x).toNat < S2176.size a)
instance k0_chk153.dec : ∀ (v90 : IVec S16 32), Decidable (k0_chk153 v90) := fun v90 => decidable_of_iff' _ (Iff.of_eq (k0_chk153.eq_1 v90))
theorem k0_idx153_inb : ∀ (v90 : IVec S16 32) (k0_hw153 : k0_chk153 v90), ∀ a x, ((![v90] : Fin 1 → IVec S16 32) a x).toNat < S2176.size a := fun v90 k0_hw153 => k0_hw153

def k0_chk154 (v94 : IVec S16 32) : Prop :=
  (∀ a x, ((![v94] : Fin 1 → IVec S16 32) a x).toNat < S2176.size a)
instance k0_chk154.dec : ∀ (v94 : IVec S16 32), Decidable (k0_chk154 v94) := fun v94 => decidable_of_iff' _ (Iff.of_eq (k0_chk154.eq_1 v94))
theorem k0_idx154_inb : ∀ (v94 : IVec S16 32) (k0_hw154 : k0_chk154 v94), ∀ a x, ((![v94] : Fin 1 → IVec S16 32) a x).toNat < S2176.size a := fun v94 k0_hw154 => k0_hw154

def k0_chk155 (v98 : IVec S16 32) : Prop :=
  (∀ a x, ((![v98] : Fin 1 → IVec S16 32) a x).toNat < S2176.size a)
instance k0_chk155.dec : ∀ (v98 : IVec S16 32), Decidable (k0_chk155 v98) := fun v98 => decidable_of_iff' _ (Iff.of_eq (k0_chk155.eq_1 v98))
theorem k0_idx155_inb : ∀ (v98 : IVec S16 32) (k0_hw155 : k0_chk155 v98), ∀ a x, ((![v98] : Fin 1 → IVec S16 32) a x).toNat < S2176.size a := fun v98 k0_hw155 => k0_hw155

def k0_chk156 (v102 : IVec S16 32) : Prop :=
  (∀ a x, ((![v102] : Fin 1 → IVec S16 32) a x).toNat < S2176.size a)
instance k0_chk156.dec : ∀ (v102 : IVec S16 32), Decidable (k0_chk156 v102) := fun v102 => decidable_of_iff' _ (Iff.of_eq (k0_chk156.eq_1 v102))
theorem k0_idx156_inb : ∀ (v102 : IVec S16 32) (k0_hw156 : k0_chk156 v102), ∀ a x, ((![v102] : Fin 1 → IVec S16 32) a x).toNat < S2176.size a := fun v102 k0_hw156 => k0_hw156

def k0_chk157 (v106 : IVec S16 32) : Prop :=
  (∀ a x, ((![v106] : Fin 1 → IVec S16 32) a x).toNat < S2176.size a)
instance k0_chk157.dec : ∀ (v106 : IVec S16 32), Decidable (k0_chk157 v106) := fun v106 => decidable_of_iff' _ (Iff.of_eq (k0_chk157.eq_1 v106))
theorem k0_idx157_inb : ∀ (v106 : IVec S16 32) (k0_hw157 : k0_chk157 v106), ∀ a x, ((![v106] : Fin 1 → IVec S16 32) a x).toNat < S2176.size a := fun v106 k0_hw157 => k0_hw157

def k0_chk158 (v110 : IVec S16 32) : Prop :=
  (∀ a x, ((![v110] : Fin 1 → IVec S16 32) a x).toNat < S2176.size a)
instance k0_chk158.dec : ∀ (v110 : IVec S16 32), Decidable (k0_chk158 v110) := fun v110 => decidable_of_iff' _ (Iff.of_eq (k0_chk158.eq_1 v110))
theorem k0_idx158_inb : ∀ (v110 : IVec S16 32) (k0_hw158 : k0_chk158 v110), ∀ a x, ((![v110] : Fin 1 → IVec S16 32) a x).toNat < S2176.size a := fun v110 k0_hw158 => k0_hw158

def k0_chk159 (v114 : IVec S16 32) : Prop :=
  (∀ a x, ((![v114] : Fin 1 → IVec S16 32) a x).toNat < S2176.size a)
instance k0_chk159.dec : ∀ (v114 : IVec S16 32), Decidable (k0_chk159 v114) := fun v114 => decidable_of_iff' _ (Iff.of_eq (k0_chk159.eq_1 v114))
theorem k0_idx159_inb : ∀ (v114 : IVec S16 32) (k0_hw159 : k0_chk159 v114), ∀ a x, ((![v114] : Fin 1 → IVec S16 32) a x).toNat < S2176.size a := fun v114 k0_hw159 => k0_hw159

def k0_chk160 (v118 : IVec S16 32) : Prop :=
  (∀ a x, ((![v118] : Fin 1 → IVec S16 32) a x).toNat < S2176.size a)
instance k0_chk160.dec : ∀ (v118 : IVec S16 32), Decidable (k0_chk160 v118) := fun v118 => decidable_of_iff' _ (Iff.of_eq (k0_chk160.eq_1 v118))
theorem k0_idx160_inb : ∀ (v118 : IVec S16 32) (k0_hw160 : k0_chk160 v118), ∀ a x, ((![v118] : Fin 1 → IVec S16 32) a x).toNat < S2176.size a := fun v118 k0_hw160 => k0_hw160

def k0_chk161 (v122 : IVec S16 32) : Prop :=
  (∀ a x, ((![v122] : Fin 1 → IVec S16 32) a x).toNat < S2176.size a)
instance k0_chk161.dec : ∀ (v122 : IVec S16 32), Decidable (k0_chk161 v122) := fun v122 => decidable_of_iff' _ (Iff.of_eq (k0_chk161.eq_1 v122))
theorem k0_idx161_inb : ∀ (v122 : IVec S16 32) (k0_hw161 : k0_chk161 v122), ∀ a x, ((![v122] : Fin 1 → IVec S16 32) a x).toNat < S2176.size a := fun v122 k0_hw161 => k0_hw161

def k0_chk162 (v126 : IVec S16 32) : Prop :=
  (∀ a x, ((![v126] : Fin 1 → IVec S16 32) a x).toNat < S2176.size a)
instance k0_chk162.dec : ∀ (v126 : IVec S16 32), Decidable (k0_chk162 v126) := fun v126 => decidable_of_iff' _ (Iff.of_eq (k0_chk162.eq_1 v126))
theorem k0_idx162_inb : ∀ (v126 : IVec S16 32) (k0_hw162 : k0_chk162 v126), ∀ a x, ((![v126] : Fin 1 → IVec S16 32) a x).toNat < S2176.size a := fun v126 k0_hw162 => k0_hw162

def k0_chk163 (v130 : IVec S16 32) : Prop :=
  (∀ a x, ((![v130] : Fin 1 → IVec S16 32) a x).toNat < S2176.size a)
instance k0_chk163.dec : ∀ (v130 : IVec S16 32), Decidable (k0_chk163 v130) := fun v130 => decidable_of_iff' _ (Iff.of_eq (k0_chk163.eq_1 v130))
theorem k0_idx163_inb : ∀ (v130 : IVec S16 32) (k0_hw163 : k0_chk163 v130), ∀ a x, ((![v130] : Fin 1 → IVec S16 32) a x).toNat < S2176.size a := fun v130 k0_hw163 => k0_hw163

def k0_chk164 (v134 : IVec S16 32) : Prop :=
  (∀ a x, ((![v134] : Fin 1 → IVec S16 32) a x).toNat < S2176.size a)
instance k0_chk164.dec : ∀ (v134 : IVec S16 32), Decidable (k0_chk164 v134) := fun v134 => decidable_of_iff' _ (Iff.of_eq (k0_chk164.eq_1 v134))
theorem k0_idx164_inb : ∀ (v134 : IVec S16 32) (k0_hw164 : k0_chk164 v134), ∀ a x, ((![v134] : Fin 1 → IVec S16 32) a x).toNat < S2176.size a := fun v134 k0_hw164 => k0_hw164

def k0_chk165 (v138 : IVec S16 32) : Prop :=
  (∀ a x, ((![v138] : Fin 1 → IVec S16 32) a x).toNat < S2176.size a)
instance k0_chk165.dec : ∀ (v138 : IVec S16 32), Decidable (k0_chk165 v138) := fun v138 => decidable_of_iff' _ (Iff.of_eq (k0_chk165.eq_1 v138))
theorem k0_idx165_inb : ∀ (v138 : IVec S16 32) (k0_hw165 : k0_chk165 v138), ∀ a x, ((![v138] : Fin 1 → IVec S16 32) a x).toNat < S2176.size a := fun v138 k0_hw165 => k0_hw165

def k0_chk166 (v142 : IVec S16 32) : Prop :=
  (∀ a x, ((![v142] : Fin 1 → IVec S16 32) a x).toNat < S2176.size a)
instance k0_chk166.dec : ∀ (v142 : IVec S16 32), Decidable (k0_chk166 v142) := fun v142 => decidable_of_iff' _ (Iff.of_eq (k0_chk166.eq_1 v142))
theorem k0_idx166_inb : ∀ (v142 : IVec S16 32) (k0_hw166 : k0_chk166 v142), ∀ a x, ((![v142] : Fin 1 → IVec S16 32) a x).toNat < S2176.size a := fun v142 k0_hw166 => k0_hw166

def k0_chk167 (v146 : IVec S16 32) : Prop :=
  (∀ a x, ((![v146] : Fin 1 → IVec S16 32) a x).toNat < S2176.size a)
instance k0_chk167.dec : ∀ (v146 : IVec S16 32), Decidable (k0_chk167 v146) := fun v146 => decidable_of_iff' _ (Iff.of_eq (k0_chk167.eq_1 v146))
theorem k0_idx167_inb : ∀ (v146 : IVec S16 32) (k0_hw167 : k0_chk167 v146), ∀ a x, ((![v146] : Fin 1 → IVec S16 32) a x).toNat < S2176.size a := fun v146 k0_hw167 => k0_hw167

def k0_chk168 (v150 : IVec S16 32) : Prop :=
  (∀ a x, ((![v150] : Fin 1 → IVec S16 32) a x).toNat < S2176.size a)
instance k0_chk168.dec : ∀ (v150 : IVec S16 32), Decidable (k0_chk168 v150) := fun v150 => decidable_of_iff' _ (Iff.of_eq (k0_chk168.eq_1 v150))
theorem k0_idx168_inb : ∀ (v150 : IVec S16 32) (k0_hw168 : k0_chk168 v150), ∀ a x, ((![v150] : Fin 1 → IVec S16 32) a x).toNat < S2176.size a := fun v150 k0_hw168 => k0_hw168

def k0_chk169 (v154 : IVec S16 32) : Prop :=
  (∀ a x, ((![v154] : Fin 1 → IVec S16 32) a x).toNat < S2176.size a)
instance k0_chk169.dec : ∀ (v154 : IVec S16 32), Decidable (k0_chk169 v154) := fun v154 => decidable_of_iff' _ (Iff.of_eq (k0_chk169.eq_1 v154))
theorem k0_idx169_inb : ∀ (v154 : IVec S16 32) (k0_hw169 : k0_chk169 v154), ∀ a x, ((![v154] : Fin 1 → IVec S16 32) a x).toNat < S2176.size a := fun v154 k0_hw169 => k0_hw169

def k0_chk170 (v158 : IVec S16 32) : Prop :=
  (∀ a x, ((![v158] : Fin 1 → IVec S16 32) a x).toNat < S2176.size a)
instance k0_chk170.dec : ∀ (v158 : IVec S16 32), Decidable (k0_chk170 v158) := fun v158 => decidable_of_iff' _ (Iff.of_eq (k0_chk170.eq_1 v158))
theorem k0_idx170_inb : ∀ (v158 : IVec S16 32) (k0_hw170 : k0_chk170 v158), ∀ a x, ((![v158] : Fin 1 → IVec S16 32) a x).toNat < S2176.size a := fun v158 k0_hw170 => k0_hw170

def k0_chk171 (v162 : IVec S16 32) : Prop :=
  (∀ a x, ((![v162] : Fin 1 → IVec S16 32) a x).toNat < S2176.size a)
instance k0_chk171.dec : ∀ (v162 : IVec S16 32), Decidable (k0_chk171 v162) := fun v162 => decidable_of_iff' _ (Iff.of_eq (k0_chk171.eq_1 v162))
theorem k0_idx171_inb : ∀ (v162 : IVec S16 32) (k0_hw171 : k0_chk171 v162), ∀ a x, ((![v162] : Fin 1 → IVec S16 32) a x).toNat < S2176.size a := fun v162 k0_hw171 => k0_hw171

def k0_chk172 (v166 : IVec S16 32) : Prop :=
  (∀ a x, ((![v166] : Fin 1 → IVec S16 32) a x).toNat < S2176.size a)
instance k0_chk172.dec : ∀ (v166 : IVec S16 32), Decidable (k0_chk172 v166) := fun v166 => decidable_of_iff' _ (Iff.of_eq (k0_chk172.eq_1 v166))
theorem k0_idx172_inb : ∀ (v166 : IVec S16 32) (k0_hw172 : k0_chk172 v166), ∀ a x, ((![v166] : Fin 1 → IVec S16 32) a x).toNat < S2176.size a := fun v166 k0_hw172 => k0_hw172

def k0_chk173 (v170 : IVec S16 32) : Prop :=
  (∀ a x, ((![v170] : Fin 1 → IVec S16 32) a x).toNat < S2176.size a)
instance k0_chk173.dec : ∀ (v170 : IVec S16 32), Decidable (k0_chk173 v170) := fun v170 => decidable_of_iff' _ (Iff.of_eq (k0_chk173.eq_1 v170))
theorem k0_idx173_inb : ∀ (v170 : IVec S16 32) (k0_hw173 : k0_chk173 v170), ∀ a x, ((![v170] : Fin 1 → IVec S16 32) a x).toNat < S2176.size a := fun v170 k0_hw173 => k0_hw173

def k0_chk174 (v174 : IVec S16 32) : Prop :=
  (∀ a x, ((![v174] : Fin 1 → IVec S16 32) a x).toNat < S2176.size a)
instance k0_chk174.dec : ∀ (v174 : IVec S16 32), Decidable (k0_chk174 v174) := fun v174 => decidable_of_iff' _ (Iff.of_eq (k0_chk174.eq_1 v174))
theorem k0_idx174_inb : ∀ (v174 : IVec S16 32) (k0_hw174 : k0_chk174 v174), ∀ a x, ((![v174] : Fin 1 → IVec S16 32) a x).toNat < S2176.size a := fun v174 k0_hw174 => k0_hw174

def k0_chk175 (v178 : IVec S16 32) : Prop :=
  (∀ a x, ((![v178] : Fin 1 → IVec S16 32) a x).toNat < S2176.size a)
instance k0_chk175.dec : ∀ (v178 : IVec S16 32), Decidable (k0_chk175 v178) := fun v178 => decidable_of_iff' _ (Iff.of_eq (k0_chk175.eq_1 v178))
theorem k0_idx175_inb : ∀ (v178 : IVec S16 32) (k0_hw175 : k0_chk175 v178), ∀ a x, ((![v178] : Fin 1 → IVec S16 32) a x).toNat < S2176.size a := fun v178 k0_hw175 => k0_hw175

def k0_chk176 (v182 : IVec S16 32) : Prop :=
  (∀ a x, ((![v182] : Fin 1 → IVec S16 32) a x).toNat < S2176.size a)
instance k0_chk176.dec : ∀ (v182 : IVec S16 32), Decidable (k0_chk176 v182) := fun v182 => decidable_of_iff' _ (Iff.of_eq (k0_chk176.eq_1 v182))
theorem k0_idx176_inb : ∀ (v182 : IVec S16 32) (k0_hw176 : k0_chk176 v182), ∀ a x, ((![v182] : Fin 1 → IVec S16 32) a x).toNat < S2176.size a := fun v182 k0_hw176 => k0_hw176

def k0_chk177 (v186 : IVec S16 32) : Prop :=
  (∀ a x, ((![v186] : Fin 1 → IVec S16 32) a x).toNat < S2176.size a)
instance k0_chk177.dec : ∀ (v186 : IVec S16 32), Decidable (k0_chk177 v186) := fun v186 => decidable_of_iff' _ (Iff.of_eq (k0_chk177.eq_1 v186))
theorem k0_idx177_inb : ∀ (v186 : IVec S16 32) (k0_hw177 : k0_chk177 v186), ∀ a x, ((![v186] : Fin 1 → IVec S16 32) a x).toNat < S2176.size a := fun v186 k0_hw177 => k0_hw177

def k0_chk178 (v190 : IVec S16 32) : Prop :=
  (∀ a x, ((![v190] : Fin 1 → IVec S16 32) a x).toNat < S2176.size a)
instance k0_chk178.dec : ∀ (v190 : IVec S16 32), Decidable (k0_chk178 v190) := fun v190 => decidable_of_iff' _ (Iff.of_eq (k0_chk178.eq_1 v190))
theorem k0_idx178_inb : ∀ (v190 : IVec S16 32) (k0_hw178 : k0_chk178 v190), ∀ a x, ((![v190] : Fin 1 → IVec S16 32) a x).toNat < S2176.size a := fun v190 k0_hw178 => k0_hw178

def k0_chk179 (v194 : IVec S16 32) : Prop :=
  (∀ a x, ((![v194] : Fin 1 → IVec S16 32) a x).toNat < S2176.size a)
instance k0_chk179.dec : ∀ (v194 : IVec S16 32), Decidable (k0_chk179 v194) := fun v194 => decidable_of_iff' _ (Iff.of_eq (k0_chk179.eq_1 v194))
theorem k0_idx179_inb : ∀ (v194 : IVec S16 32) (k0_hw179 : k0_chk179 v194), ∀ a x, ((![v194] : Fin 1 → IVec S16 32) a x).toNat < S2176.size a := fun v194 k0_hw179 => k0_hw179

def k0_chk180 (v198 : IVec S16 32) : Prop :=
  (∀ a x, ((![v198] : Fin 1 → IVec S16 32) a x).toNat < S2176.size a)
instance k0_chk180.dec : ∀ (v198 : IVec S16 32), Decidable (k0_chk180 v198) := fun v198 => decidable_of_iff' _ (Iff.of_eq (k0_chk180.eq_1 v198))
theorem k0_idx180_inb : ∀ (v198 : IVec S16 32) (k0_hw180 : k0_chk180 v198), ∀ a x, ((![v198] : Fin 1 → IVec S16 32) a x).toNat < S2176.size a := fun v198 k0_hw180 => k0_hw180

def k0_chk181 (v202 : IVec S16 32) : Prop :=
  (∀ a x, ((![v202] : Fin 1 → IVec S16 32) a x).toNat < S2176.size a)
instance k0_chk181.dec : ∀ (v202 : IVec S16 32), Decidable (k0_chk181 v202) := fun v202 => decidable_of_iff' _ (Iff.of_eq (k0_chk181.eq_1 v202))
theorem k0_idx181_inb : ∀ (v202 : IVec S16 32) (k0_hw181 : k0_chk181 v202), ∀ a x, ((![v202] : Fin 1 → IVec S16 32) a x).toNat < S2176.size a := fun v202 k0_hw181 => k0_hw181

def k0_chk182 (v206 : IVec S16 32) : Prop :=
  (∀ a x, ((![v206] : Fin 1 → IVec S16 32) a x).toNat < S2176.size a)
instance k0_chk182.dec : ∀ (v206 : IVec S16 32), Decidable (k0_chk182 v206) := fun v206 => decidable_of_iff' _ (Iff.of_eq (k0_chk182.eq_1 v206))
theorem k0_idx182_inb : ∀ (v206 : IVec S16 32) (k0_hw182 : k0_chk182 v206), ∀ a x, ((![v206] : Fin 1 → IVec S16 32) a x).toNat < S2176.size a := fun v206 k0_hw182 => k0_hw182

def k0_chk183 (v210 : IVec S16 32) : Prop :=
  (∀ a x, ((![v210] : Fin 1 → IVec S16 32) a x).toNat < S2176.size a)
instance k0_chk183.dec : ∀ (v210 : IVec S16 32), Decidable (k0_chk183 v210) := fun v210 => decidable_of_iff' _ (Iff.of_eq (k0_chk183.eq_1 v210))
theorem k0_idx183_inb : ∀ (v210 : IVec S16 32) (k0_hw183 : k0_chk183 v210), ∀ a x, ((![v210] : Fin 1 → IVec S16 32) a x).toNat < S2176.size a := fun v210 k0_hw183 => k0_hw183

def k0_chk184 (v214 : IVec S16 32) : Prop :=
  (∀ a x, ((![v214] : Fin 1 → IVec S16 32) a x).toNat < S2176.size a)
instance k0_chk184.dec : ∀ (v214 : IVec S16 32), Decidable (k0_chk184 v214) := fun v214 => decidable_of_iff' _ (Iff.of_eq (k0_chk184.eq_1 v214))
theorem k0_idx184_inb : ∀ (v214 : IVec S16 32) (k0_hw184 : k0_chk184 v214), ∀ a x, ((![v214] : Fin 1 → IVec S16 32) a x).toNat < S2176.size a := fun v214 k0_hw184 => k0_hw184

def k0_chk185 (v218 : IVec S16 32) : Prop :=
  (∀ a x, ((![v218] : Fin 1 → IVec S16 32) a x).toNat < S2176.size a)
instance k0_chk185.dec : ∀ (v218 : IVec S16 32), Decidable (k0_chk185 v218) := fun v218 => decidable_of_iff' _ (Iff.of_eq (k0_chk185.eq_1 v218))
theorem k0_idx185_inb : ∀ (v218 : IVec S16 32) (k0_hw185 : k0_chk185 v218), ∀ a x, ((![v218] : Fin 1 → IVec S16 32) a x).toNat < S2176.size a := fun v218 k0_hw185 => k0_hw185

def k0_chk186 (v222 : IVec S16 32) : Prop :=
  (∀ a x, ((![v222] : Fin 1 → IVec S16 32) a x).toNat < S2176.size a)
instance k0_chk186.dec : ∀ (v222 : IVec S16 32), Decidable (k0_chk186 v222) := fun v222 => decidable_of_iff' _ (Iff.of_eq (k0_chk186.eq_1 v222))
theorem k0_idx186_inb : ∀ (v222 : IVec S16 32) (k0_hw186 : k0_chk186 v222), ∀ a x, ((![v222] : Fin 1 → IVec S16 32) a x).toNat < S2176.size a := fun v222 k0_hw186 => k0_hw186

def k0_chk187 (v226 : IVec S16 32) : Prop :=
  (∀ a x, ((![v226] : Fin 1 → IVec S16 32) a x).toNat < S2176.size a)
instance k0_chk187.dec : ∀ (v226 : IVec S16 32), Decidable (k0_chk187 v226) := fun v226 => decidable_of_iff' _ (Iff.of_eq (k0_chk187.eq_1 v226))
theorem k0_idx187_inb : ∀ (v226 : IVec S16 32) (k0_hw187 : k0_chk187 v226), ∀ a x, ((![v226] : Fin 1 → IVec S16 32) a x).toNat < S2176.size a := fun v226 k0_hw187 => k0_hw187

def k0_chk188 (v230 : IVec S16 32) : Prop :=
  (∀ a x, ((![v230] : Fin 1 → IVec S16 32) a x).toNat < S2176.size a)
instance k0_chk188.dec : ∀ (v230 : IVec S16 32), Decidable (k0_chk188 v230) := fun v230 => decidable_of_iff' _ (Iff.of_eq (k0_chk188.eq_1 v230))
theorem k0_idx188_inb : ∀ (v230 : IVec S16 32) (k0_hw188 : k0_chk188 v230), ∀ a x, ((![v230] : Fin 1 → IVec S16 32) a x).toNat < S2176.size a := fun v230 k0_hw188 => k0_hw188

def k0_chk189 (v234 : IVec S16 32) : Prop :=
  (∀ a x, ((![v234] : Fin 1 → IVec S16 32) a x).toNat < S2176.size a)
instance k0_chk189.dec : ∀ (v234 : IVec S16 32), Decidable (k0_chk189 v234) := fun v234 => decidable_of_iff' _ (Iff.of_eq (k0_chk189.eq_1 v234))
theorem k0_idx189_inb : ∀ (v234 : IVec S16 32) (k0_hw189 : k0_chk189 v234), ∀ a x, ((![v234] : Fin 1 → IVec S16 32) a x).toNat < S2176.size a := fun v234 k0_hw189 => k0_hw189

def k0_chk190 (v238 : IVec S16 32) : Prop :=
  (∀ a x, ((![v238] : Fin 1 → IVec S16 32) a x).toNat < S2176.size a)
instance k0_chk190.dec : ∀ (v238 : IVec S16 32), Decidable (k0_chk190 v238) := fun v238 => decidable_of_iff' _ (Iff.of_eq (k0_chk190.eq_1 v238))
theorem k0_idx190_inb : ∀ (v238 : IVec S16 32) (k0_hw190 : k0_chk190 v238), ∀ a x, ((![v238] : Fin 1 → IVec S16 32) a x).toNat < S2176.size a := fun v238 k0_hw190 => k0_hw190

def k0_chk191 (v242 : IVec S16 32) : Prop :=
  (∀ a x, ((![v242] : Fin 1 → IVec S16 32) a x).toNat < S2176.size a)
instance k0_chk191.dec : ∀ (v242 : IVec S16 32), Decidable (k0_chk191 v242) := fun v242 => decidable_of_iff' _ (Iff.of_eq (k0_chk191.eq_1 v242))
theorem k0_idx191_inb : ∀ (v242 : IVec S16 32) (k0_hw191 : k0_chk191 v242), ∀ a x, ((![v242] : Fin 1 → IVec S16 32) a x).toNat < S2176.size a := fun v242 k0_hw191 => k0_hw191

def k0_chk192 (v246 : IVec S16 32) : Prop :=
  (∀ a x, ((![v246] : Fin 1 → IVec S16 32) a x).toNat < S2176.size a)
instance k0_chk192.dec : ∀ (v246 : IVec S16 32), Decidable (k0_chk192 v246) := fun v246 => decidable_of_iff' _ (Iff.of_eq (k0_chk192.eq_1 v246))
theorem k0_idx192_inb : ∀ (v246 : IVec S16 32) (k0_hw192 : k0_chk192 v246), ∀ a x, ((![v246] : Fin 1 → IVec S16 32) a x).toNat < S2176.size a := fun v246 k0_hw192 => k0_hw192
def k0_off63 (k0_t8 : Fin k0_t8_loop.trips) : Fin 1 → Nat :=
  let c384_i32_86 : BitVec 32 := 384#32
  let c0_i32_45 : BitVec 32 := 0#32
  let c1_i32_47 : BitVec 32 := 1#32
  let arg18 : BitVec 32 := Scf.iv c0_i32_45 c1_i32_47 k0_t8
  let c16_i32_85 : BitVec 32 := 16#32
  let v262 : BitVec 32 := Scalar.muli arg18 c16_i32_85
  let v263 : BitVec 32 := Scalar.addi c384_i32_86 v262
  let v264 : Index := Scalar.indexCast v263
  ![v264.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S16 : S_.BroadcastsInDim S16 (![] : Fin 0 → Fin S16.rank)
  inb_S128_S4_0 : ∀ a, (![0] : Fin 1 → Nat) a + S4.size a ≤ S128.size a
  inb_S16_S16_0 : ∀ a, (![0] : Fin 1 → Nat) a + S16.size a ≤ S16.size a
  h_S16 : 0 < S16.numel
  iota_S16_d0_w32_scVector : S16.Iotas .scVector 32 [0]
  inb_S128_S16_0 : ∀ a, (![0] : Fin 1 → Nat) a + S16.size a ≤ S128.size a
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  h_S1x16 : 0 < S1x16.numel
  shapeCasts_S1x16_S16 : S1x16.ShapeCasts S16
  h_S2176 : 0 < S2176.numel
  hcc0_scratch9 : 0 + S_.numel ≤ 6
  hcc0_scratch10 : 1 + S_.numel ≤ 6
  hcc0_scoped0 : 2 + S_.numel ≤ 6
  hcc0_scoped1 : 3 + S_.numel ≤ 6
  hcc0_scoped2 : 4 + S_.numel ≤ 6
  hcc0_scoped3 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x200.size a ≤ S16384x200.size a
  k0_off2_inb : ∀ i : grid0.Coords, ∀ a, (k0_off2 i) a + S512.size a ≤ S16384.size a
  k0_off3_inb : ∀ i : grid0.Coords, ∀ (r : Fin 3), ∀ a, (k0_off3 i (BitVec.ofNat 32 (128 + 128 * r.val))) a + S128x200.size a ≤ S16384x200.size a
  k0_t1_ok : k0_t1_loop.OK
  k0_off4_inb : ∀ k0_t1 : Fin k0_t1_loop.trips, ∀ a, (k0_off4 k0_t1) a + S1x16.size a ≤ S128x200.size a
  k0_off5_inb : ∀ k0_t1 : Fin k0_t1_loop.trips, ∀ a, (k0_off5 k0_t1) a + S1x16.size a ≤ S128x200.size a
  k0_off6_inb : ∀ k0_t1 : Fin k0_t1_loop.trips, ∀ a, (k0_off6 k0_t1) a + S1x16.size a ≤ S128x200.size a
  k0_off7_inb : ∀ k0_t1 : Fin k0_t1_loop.trips, ∀ a, (k0_off7 k0_t1) a + S1x16.size a ≤ S128x200.size a
  k0_off8_inb : ∀ k0_t1 : Fin k0_t1_loop.trips, ∀ a, (k0_off8 k0_t1) a + S1x16.size a ≤ S128x200.size a
  k0_off9_inb : ∀ k0_t1 : Fin k0_t1_loop.trips, ∀ a, (k0_off9 k0_t1) a + S1x16.size a ≤ S128x200.size a
  k0_off10_inb : ∀ k0_t1 : Fin k0_t1_loop.trips, ∀ a, (k0_off10 k0_t1) a + S1x16.size a ≤ S128x200.size a
  k0_off11_inb : ∀ k0_t1 : Fin k0_t1_loop.trips, ∀ a, (k0_off11 k0_t1) a + S1x16.size a ≤ S128x200.size a
  k0_off12_inb : ∀ k0_t1 : Fin k0_t1_loop.trips, ∀ a, (k0_off12 k0_t1) a + S1x16.size a ≤ S128x200.size a
  k0_off13_inb : ∀ k0_t1 : Fin k0_t1_loop.trips, ∀ a, (k0_off13 k0_t1) a + S1x16.size a ≤ S128x200.size a
  k0_off14_inb : ∀ k0_t1 : Fin k0_t1_loop.trips, ∀ a, (k0_off14 k0_t1) a + S1x16.size a ≤ S128x200.size a
  k0_off15_inb : ∀ k0_t1 : Fin k0_t1_loop.trips, ∀ a, (k0_off15 k0_t1) a + S1x16.size a ≤ S128x200.size a
  k0_off16_inb : ∀ k0_t1 : Fin k0_t1_loop.trips, ∀ a, (k0_off16 k0_t1) a + S1x16.size a ≤ S128x200.size a
  k0_off17_inb : ∀ k0_t1 : Fin k0_t1_loop.trips, ∀ a, (k0_off17 k0_t1) a + S16.size a ≤ S2176.size a
  k0_t2_ok : k0_t2_loop.OK
  k0_off18_inb : ∀ k0_t2 : Fin k0_t2_loop.trips, ∀ a, (k0_off18 k0_t2) a + S16.size a ≤ S512.size a
  k0_t3_ok : k0_t3_loop.OK
  k0_off19_inb : ∀ k0_t3 : Fin k0_t3_loop.trips, ∀ a, (k0_off19 k0_t3) a + S1x16.size a ≤ S128x200.size a
  k0_off20_inb : ∀ k0_t3 : Fin k0_t3_loop.trips, ∀ a, (k0_off20 k0_t3) a + S1x16.size a ≤ S128x200.size a
  k0_off21_inb : ∀ k0_t3 : Fin k0_t3_loop.trips, ∀ a, (k0_off21 k0_t3) a + S1x16.size a ≤ S128x200.size a
  k0_off22_inb : ∀ k0_t3 : Fin k0_t3_loop.trips, ∀ a, (k0_off22 k0_t3) a + S1x16.size a ≤ S128x200.size a
  k0_off23_inb : ∀ k0_t3 : Fin k0_t3_loop.trips, ∀ a, (k0_off23 k0_t3) a + S1x16.size a ≤ S128x200.size a
  k0_off24_inb : ∀ k0_t3 : Fin k0_t3_loop.trips, ∀ a, (k0_off24 k0_t3) a + S1x16.size a ≤ S128x200.size a
  k0_off25_inb : ∀ k0_t3 : Fin k0_t3_loop.trips, ∀ a, (k0_off25 k0_t3) a + S1x16.size a ≤ S128x200.size a
  k0_off26_inb : ∀ k0_t3 : Fin k0_t3_loop.trips, ∀ a, (k0_off26 k0_t3) a + S1x16.size a ≤ S128x200.size a
  k0_off27_inb : ∀ k0_t3 : Fin k0_t3_loop.trips, ∀ a, (k0_off27 k0_t3) a + S1x16.size a ≤ S128x200.size a
  k0_off28_inb : ∀ k0_t3 : Fin k0_t3_loop.trips, ∀ a, (k0_off28 k0_t3) a + S1x16.size a ≤ S128x200.size a
  k0_off29_inb : ∀ k0_t3 : Fin k0_t3_loop.trips, ∀ a, (k0_off29 k0_t3) a + S1x16.size a ≤ S128x200.size a
  k0_off30_inb : ∀ k0_t3 : Fin k0_t3_loop.trips, ∀ a, (k0_off30 k0_t3) a + S1x16.size a ≤ S128x200.size a
  k0_off31_inb : ∀ k0_t3 : Fin k0_t3_loop.trips, ∀ a, (k0_off31 k0_t3) a + S1x16.size a ≤ S128x200.size a
  k0_off32_inb : ∀ k0_t3 : Fin k0_t3_loop.trips, ∀ a, (k0_off32 k0_t3) a + S16.size a ≤ S2176.size a
  k0_t4_ok : k0_t4_loop.OK
  k0_off33_inb : ∀ k0_t4 : Fin k0_t4_loop.trips, ∀ a, (k0_off33 k0_t4) a + S16.size a ≤ S512.size a
  k0_t5_ok : k0_t5_loop.OK
  k0_off34_inb : ∀ k0_t5 : Fin k0_t5_loop.trips, ∀ a, (k0_off34 k0_t5) a + S1x16.size a ≤ S128x200.size a
  k0_off35_inb : ∀ k0_t5 : Fin k0_t5_loop.trips, ∀ a, (k0_off35 k0_t5) a + S1x16.size a ≤ S128x200.size a
  k0_off36_inb : ∀ k0_t5 : Fin k0_t5_loop.trips, ∀ a, (k0_off36 k0_t5) a + S1x16.size a ≤ S128x200.size a
  k0_off37_inb : ∀ k0_t5 : Fin k0_t5_loop.trips, ∀ a, (k0_off37 k0_t5) a + S1x16.size a ≤ S128x200.size a
  k0_off38_inb : ∀ k0_t5 : Fin k0_t5_loop.trips, ∀ a, (k0_off38 k0_t5) a + S1x16.size a ≤ S128x200.size a
  k0_off39_inb : ∀ k0_t5 : Fin k0_t5_loop.trips, ∀ a, (k0_off39 k0_t5) a + S1x16.size a ≤ S128x200.size a
  k0_off40_inb : ∀ k0_t5 : Fin k0_t5_loop.trips, ∀ a, (k0_off40 k0_t5) a + S1x16.size a ≤ S128x200.size a
  k0_off41_inb : ∀ k0_t5 : Fin k0_t5_loop.trips, ∀ a, (k0_off41 k0_t5) a + S1x16.size a ≤ S128x200.size a
  k0_off42_inb : ∀ k0_t5 : Fin k0_t5_loop.trips, ∀ a, (k0_off42 k0_t5) a + S1x16.size a ≤ S128x200.size a
  k0_off43_inb : ∀ k0_t5 : Fin k0_t5_loop.trips, ∀ a, (k0_off43 k0_t5) a + S1x16.size a ≤ S128x200.size a
  k0_off44_inb : ∀ k0_t5 : Fin k0_t5_loop.trips, ∀ a, (k0_off44 k0_t5) a + S1x16.size a ≤ S128x200.size a
  k0_off45_inb : ∀ k0_t5 : Fin k0_t5_loop.trips, ∀ a, (k0_off45 k0_t5) a + S1x16.size a ≤ S128x200.size a
  k0_off46_inb : ∀ k0_t5 : Fin k0_t5_loop.trips, ∀ a, (k0_off46 k0_t5) a + S1x16.size a ≤ S128x200.size a
  k0_off47_inb : ∀ k0_t5 : Fin k0_t5_loop.trips, ∀ a, (k0_off47 k0_t5) a + S16.size a ≤ S2176.size a
  k0_t6_ok : k0_t6_loop.OK
  k0_off48_inb : ∀ k0_t6 : Fin k0_t6_loop.trips, ∀ a, (k0_off48 k0_t6) a + S16.size a ≤ S512.size a
  k0_t7_ok : k0_t7_loop.OK
  k0_off49_inb : ∀ k0_t7 : Fin k0_t7_loop.trips, ∀ a, (k0_off49 k0_t7) a + S1x16.size a ≤ S128x200.size a
  k0_off50_inb : ∀ k0_t7 : Fin k0_t7_loop.trips, ∀ a, (k0_off50 k0_t7) a + S1x16.size a ≤ S128x200.size a
  k0_off51_inb : ∀ k0_t7 : Fin k0_t7_loop.trips, ∀ a, (k0_off51 k0_t7) a + S1x16.size a ≤ S128x200.size a
  k0_off52_inb : ∀ k0_t7 : Fin k0_t7_loop.trips, ∀ a, (k0_off52 k0_t7) a + S1x16.size a ≤ S128x200.size a
  k0_off53_inb : ∀ k0_t7 : Fin k0_t7_loop.trips, ∀ a, (k0_off53 k0_t7) a + S1x16.size a ≤ S128x200.size a
  k0_off54_inb : ∀ k0_t7 : Fin k0_t7_loop.trips, ∀ a, (k0_off54 k0_t7) a + S1x16.size a ≤ S128x200.size a
  k0_off55_inb : ∀ k0_t7 : Fin k0_t7_loop.trips, ∀ a, (k0_off55 k0_t7) a + S1x16.size a ≤ S128x200.size a
  k0_off56_inb : ∀ k0_t7 : Fin k0_t7_loop.trips, ∀ a, (k0_off56 k0_t7) a + S1x16.size a ≤ S128x200.size a
  k0_off57_inb : ∀ k0_t7 : Fin k0_t7_loop.trips, ∀ a, (k0_off57 k0_t7) a + S1x16.size a ≤ S128x200.size a
  k0_off58_inb : ∀ k0_t7 : Fin k0_t7_loop.trips, ∀ a, (k0_off58 k0_t7) a + S1x16.size a ≤ S128x200.size a
  k0_off59_inb : ∀ k0_t7 : Fin k0_t7_loop.trips, ∀ a, (k0_off59 k0_t7) a + S1x16.size a ≤ S128x200.size a
  k0_off60_inb : ∀ k0_t7 : Fin k0_t7_loop.trips, ∀ a, (k0_off60 k0_t7) a + S1x16.size a ≤ S128x200.size a
  k0_off61_inb : ∀ k0_t7 : Fin k0_t7_loop.trips, ∀ a, (k0_off61 k0_t7) a + S1x16.size a ≤ S128x200.size a
  k0_off62_inb : ∀ k0_t7 : Fin k0_t7_loop.trips, ∀ a, (k0_off62 k0_t7) a + S16.size a ≤ S2176.size a
  k0_t8_ok : k0_t8_loop.OK
  k0_off63_inb : ∀ k0_t8 : Fin k0_t8_loop.trips, ∀ a, (k0_off63 k0_t8) a + S16.size a ≤ S512.size a

variable [Facts₀]

abbrev cc0_scratch9 : DmaSems sig S_ := SemArray.consecutive 0 S_ hcc0_scratch9
abbrev cc0_scratch10 : DmaSems sig S_ := SemArray.consecutive 1 S_ hcc0_scratch10
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

class Facts : Prop extends Facts₀ where

variable [Facts]
-- ==== ReferenceIdeal.lean ====
abbrev S16384x200 : Shape := ⟨2, ![16384, 200]⟩
abbrev S16384 : Shape := ⟨1, ![16384]⟩
abbrev S4 : Shape := ⟨1, ![4]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .f32⟩
  | .hbm, ⟨2, _⟩ => ⟨S4, .f32⟩
  | .hbm, ⟨3, _⟩ => ⟨S_, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x200, .i32⟩
  | .hbm, ⟨8, _⟩ => ⟨S16384x200, .i32⟩
  | .hbm, ⟨9, _⟩ => ⟨S_, .i32⟩
  | .hbm, ⟨10, _⟩ => ⟨S16384x200, .i32⟩
  | .hbm, ⟨11, _⟩ => ⟨S16384x200, .i32⟩
  | .hbm, ⟨12, _⟩ => ⟨S_, .i32⟩
  | .hbm, ⟨13, _⟩ => ⟨S16384x200, .i32⟩
  | .hbm, ⟨14, _⟩ => ⟨S16384x200, .i1⟩
  | .hbm, ⟨15, _⟩ => ⟨S_, .i32⟩
  | .hbm, ⟨16, _⟩ => ⟨S16384x200, .i32⟩
  | .hbm, ⟨17, _⟩ => ⟨S16384x200, .i32⟩
  | .hbm, ⟨18, _⟩ => ⟨S16384x200, .i32⟩
  | .hbm, ⟨19, _⟩ => ⟨S16384x200x1, .i32⟩
  | .hbm, ⟨20, _⟩ => ⟨S1, .i32⟩
  | .hbm, ⟨21, _⟩ => ⟨S_, .i32⟩
  | .hbm, ⟨22, _⟩ => ⟨S16384x200x1, .i32⟩
  | .hbm, ⟨23, _⟩ => ⟨S16384x200x1, .i1⟩
  | .hbm, ⟨24, _⟩ => ⟨S1x1x1, .i32⟩
  | .hbm, ⟨25, _⟩ => ⟨S16384x200x1, .i32⟩
  | .hbm, ⟨26, _⟩ => ⟨S16384x200x1, .i1⟩
  | .hbm, ⟨27, _⟩ => ⟨S16384x200x1, .i1⟩
  | .hbm, ⟨28, _⟩ => ⟨S_, .i1⟩
  | .hbm, ⟨29, _⟩ => ⟨S16384x200, .i1⟩
  | .hbm, ⟨30, _⟩ => ⟨S16384x200, .f32⟩
  | .hbm, ⟨31, _⟩ => ⟨S_, .f32⟩
  | .hbm, ⟨32, _⟩ => ⟨S16384x200, .f32⟩
  | .hbm, ⟨33, _⟩ => ⟨S16384x200, .f32⟩
  | .hbm, ⟨34, _⟩ => ⟨S_, .i32⟩
  | .hbm, ⟨35, _⟩ => ⟨S16384x200, .i32⟩
  | .hbm, ⟨36, _⟩ => ⟨S16384x200, .i1⟩
  | .hbm, ⟨37, _⟩ => ⟨S_, .f32⟩
  | .hbm, ⟨38, _⟩ => ⟨S16384x200, .f32⟩
  | .hbm, ⟨39, _⟩ => ⟨S16384x200, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v1 : Ref sig .tc := ⟨.hbm, 33, rfl⟩
abbrev main_c_1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_call2_v0 : Ref sig .tc := ⟨.hbm, 38, rfl⟩
abbrev main_v4 : Ref sig .tc := ⟨.hbm, 39, rfl⟩
abbrev main_cst_2 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  reducesTo_S16384x200_S16384_d1 : S16384x200.ReducesTo [1] S16384
  bcast_S_S16384 : S_.BroadcastsInDim S16384 (![] : Fin 0 → Fin S16384.rank)
  gather_S4_S16384x200x1_S16384x200_n_0_n_n_0_2_1_wf : GatherDims.WF S4 S16384x200x1 S16384x200 [] [0] [] [0] [] 2 ![1]

variable [Facts₀]

def gather_S4_S16384x200x1_S16384x200_n_0_n_n_0_2_1 : GatherDims S4 S16384x200x1 S16384x200 where
  offsetDims := []
  collapsedSliceDims := [0]
  operandBatchingDims := []
  startIndicesBatchingDims := []
  startIndexMap := [0]
  indexVectorDim := 2
  sliceSizes := ![1]
  wf := gather_S4_S16384x200x1_S16384x200_n_0_n_n_0_2_1_wf

class Facts : Prop extends Facts₀ where

variable [Facts]
-- ==== Proof.KISetup.lean ====
/-
  The energy adder on the SparseCore: what its launch and its tile bodies are stated over.

  One vector-subcore call runs on 2 SparseCores × 16 vector subcores. Tile (c, s) has number w = 2 s + c and owns rows
  [512 w, 512 w + 512) of the species array, of the energies and of the result. Every tile reads the table of four self
  energies and the sixteen copies of the intercept whole. The read-only arrays go to the tiles as read shares of the
  whole arrays, one share per tile; the result goes as its 32 blocks of 512 entries, block w to tile w.
-/
import proofs.«206979_g57535381897292_cont_9to1_m_841_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206979_g57535381897292_cont_9to1_m_841_24_alg».proof.Proof.Gen.KernelIdeal
import proofs.«206979_g57535381897292_cont_9to1_m_841_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev spLoc (d : Dev nD) : Loc nD τ sig := (SparseCore.T d).loc main_arg0
abbrev enLoc (d : Dev nD) : Loc nD τ sig := (SparseCore.T d).loc main_arg1
abbrev tbLoc (d : Dev nD) : Loc nD τ sig := (SparseCore.T d).loc main_arg2
abbrev icLoc (d : Dev nD) : Loc nD τ sig := (SparseCore.T d).loc main_arg3
abbrev i16Loc (d : Dev nD) : Loc nD τ sig := (SparseCore.T d).loc main_v0
abbrev oLoc (d : Dev nD) : Loc nD τ sig := (SparseCore.T d).loc main_v1

/-- The read share tile number `w` of 32 is handed of each read-only array. -/
abbrev qTok (w : Fin 32) : PosShare TreeShare := Transfers.shareTok fullShare 32 w

theorem hdiv32 : 32 ∣ S16384.size 0 := ⟨512, rfl⟩
/-- Block `w` of the result: entries [512 w, 512 w + 512). -/
abbrev oRect (w : Fin 32) : Rect S16384 := Rect.part (s := S16384) (a₀ := 0) hdiv32 w
abbrev oSet (w : Fin 32) : Finset S16384.Idx := ((Memref.whole main_v1_scv : Memref sig .scVector .hbm S16384 .f32).view.slice (oRect w)).set

/-- Tile (c, s) has number 2 s + c. -/
def wid (c : Fin 2) (s : Fin 16) : Fin 32 := ⟨2 * s.val + c.val, by omega⟩

end Cert.Proof.KI

end
-- ==== Proof.KIBase.lean ====
/-
  One tile of the energy adder: its memrefs, its scratch and semaphores among what the launch deals it,
  the bound on the gathers' index vectors, and a buffer filled piece by piece over a loop's trips.
-/
import proofs.«206979_g57535381897292_cont_9to1_m_841_24_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The kernel's memrefs, as the body table passes them -/

abbrev spW : Memref sig .scVector .hbm S16384x200 .i32 := Memref.whole main_arg0_scv
abbrev enW : Memref sig .scVector .hbm S16384 .f32 := Memref.whole main_arg1_scv
abbrev tbW : Memref sig .scVector .hbm S4 .f32 := Memref.whole main_arg2_scv
abbrev i16W : Memref sig .scVector .hbm S16 .f32 := Memref.whole main_v0_scv
abbrev oW : Memref sig .scVector .hbm S16384 .f32 := Memref.whole main_v1_scv
abbrev s0 : Memref sig .scVector .vmem S128x200 .i32 := Memref.whole cc0_scratch0
abbrev s1 : Memref sig .scVector .vmem S128x200 .i32 := Memref.whole cc0_scratch1
abbrev s2 : Memref sig .scVector .vmem S512 .f32 := Memref.whole cc0_scratch2
abbrev s3 : Memref sig .scVector .vmem S512 .f32 := Memref.whole cc0_scratch3
abbrev s4 : Memref sig .scVector .vmem S2176 .i32 := Memref.whole cc0_scratch4
abbrev s5 : Memref sig .scVector .vmem S2176 .i32 := Memref.whole cc0_scratch5
abbrev s6 : Memref sig .scVector .vmem S2176 .i32 := Memref.whole cc0_scratch6
abbrev s7 : Memref sig .scVector .vmem S128 .f32 := Memref.whole cc0_scratch7
abbrev s8 : Memref sig .scVector .vmem S16 .f32 := Memref.whole cc0_scratch8

section Tile

variable (d : Dev nD) (L : grid0.Coords)

abbrev cV (L : grid0.Coords) : Fin τ.nSC := (L 0).castLE hcore0
abbrev jV (L : grid0.Coords) : Fin τ.nSub := (L 1).castLE hsub0
abbrev cellV (d : Dev nD) (L : grid0.Coords) (sm : DmaSems sig S_) : GSem nD τ sig := (V d (cV L) (jV L), .dma sm.sem)

/-- The tile's block of the result, as the kernel slices it for its write-out. -/
abbrev oSl (L : grid0.Coords) : Memref sig .scVector .hbm S512 .f32 :=
  (oW).slice (Rect.unit (s := S16384) (k0_off2 L) S512.size (k0_off2_inb L)) (fun _ => rfl)

omit [FloatOps F] in
theorem ownSems0_V :
    (ownSems0 (V d (cV L) (jV L)) : sProp 𝕄)
      = iprop(semVal (cellV d L cc0_scratch9) 0 ∗ semVal (cellV d L cc0_scratch10) 0 ∗ semVal (cellV d L cc0_scoped0) 0 ∗ semVal (cellV d L cc0_scoped1) 0 ∗ semVal (cellV d L cc0_scoped2) 0 ∗ semVal (cellV d L cc0_scoped3) 0
          ∗ bigSep (((((((ownCells (V d (cV L) (jV L))).erase (cellV d L cc0_scratch9)).erase (cellV d L cc0_scratch10)).erase (cellV d L cc0_scoped0)).erase (cellV d L cc0_scoped1)).erase (cellV d L cc0_scoped2)).erase (cellV d L cc0_scoped3)) fun g => semVal g 0) := by
  unfold SparseCore.Cfg.ownSems0
  rw [SparseCore.bigSep_erase' ((mem_ownCells (g := (cellV d L cc0_scratch9))).mpr ⟨rfl, by show (SemLoc.dma cc0_scratch9.sem : SemLoc sig).isScoped .scVector = true; decide⟩),
    SparseCore.bigSep_erase' (Finset.mem_erase.mpr ⟨fun e => absurd (Prod.mk.inj e).2 (by decide), (mem_ownCells (g := (cellV d L cc0_scratch10))).mpr ⟨rfl, by show (SemLoc.dma cc0_scratch10.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cellV d L cc0_scoped0))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped1))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped2))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped3))).mpr ⟨rfl, by show (SemLoc.dma cc0_scoped3.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

/-! The arrays as a tile's memrefs address them are the device's arrays; a scratch memref's elements are its buffer. -/
omit [FloatOps F] in
theorem pts_sp (q : PosShare TreeShare) (f : Buf (Elt F) (spLoc d)) :
    ((spW).view.loc (V d (cV L) (jV L)) ↦{q} f : sProp 𝕄) = spLoc d ↦{q} f := rfl
omit [FloatOps F] in
theorem pts_en (q : PosShare TreeShare) (f : Buf (Elt F) (enLoc d)) :
    ((enW).view.loc (V d (cV L) (jV L)) ↦{q} f : sProp 𝕄) = enLoc d ↦{q} f := rfl
omit [FloatOps F] in
theorem pts_tb (q : PosShare TreeShare) (f : Buf (Elt F) (tbLoc d)) :
    ((tbW).view.loc (V d (cV L) (jV L)) ↦{q} f : sProp 𝕄) = tbLoc d ↦{q} f := rfl
omit [FloatOps F] in
theorem pts_i16 (q : PosShare TreeShare) (f : Buf (Elt F) (i16Loc d)) :
    ((i16W).view.loc (V d (cV L) (jV L)) ↦{q} f : sProp 𝕄) = i16Loc d ↦{q} f := rfl
omit [FloatOps F] in
theorem pts_o (f : Buf (Elt F) (oLoc d)) :
    ((oSl L).view.loc (V d (cV L) (jV L)) ↦[(oSl L).view.set]{fullShare} f : sProp 𝕄) = oLoc d ↦[(oSl L).view.set]{fullShare} f := rfl
omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4).view.loc (V d (cV L) (jV L)) ↦{fullShare} f : sProp 𝕄) = (V d (cV L) (jV L)).loc cc0_scratch4 ↦{fullShare} f := rfl
omit [FloatOps F] in
theorem pts_s5 (f : Buf (Elt F) ((V d (cV L) (jV L)).loc cc0_scratch5)) :
    ((s5).view.loc (V d (cV L) (jV L)) ↦{fullShare} f : sProp 𝕄) = (V d (cV L) (jV L)).loc cc0_scratch5 ↦{fullShare} f := rfl
omit [FloatOps F] in
theorem pts_s6 (f : Buf (Elt F) ((V d (cV L) (jV L)).loc cc0_scratch6)) :
    ((s6).view.loc (V d (cV L) (jV L)) ↦{fullShare} f : sProp 𝕄) = (V d (cV L) (jV L)).loc cc0_scratch6 ↦{fullShare} f := rfl
omit [FloatOps F] in
theorem pts_s7 (f : Buf (Elt F) ((V d (cV L) (jV L)).loc cc0_scratch7)) :
    ((s7).view.loc (V d (cV L) (jV L)) ↦{fullShare} f : sProp 𝕄) = (V d (cV L) (jV L)).loc cc0_scratch7 ↦{fullShare} f := rfl
omit [FloatOps F] in
theorem pts_s8 (f : Buf (Elt F) ((V d (cV L) (jV L)).loc cc0_scratch8)) :
    ((s8).view.loc (V d (cV L) (jV L)) ↦{fullShare} f : sProp 𝕄) = (V d (cV L) (jV L)).loc cc0_scratch8 ↦{fullShare} f := rfl

end Tile

/-! ## The gathers' range checks -/

/-- A range check of one index vector into a 2176-word scratch is a bound on its lanes. -/
theorem chk_of_bound (v : IVec S16 32) (h : ∀ x, (v x).toNat < 2176) :
    ∀ a x, ((![v] : Fin 1 → IVec S16 32) a x).toNat < S2176.size a := by
  intro a x; obtain rfl : a = 0 := Subsingleton.elim _ _; exact h x

/-- Lane l of the index vector of group k at offset j: ((16 k + l) * 17) + j, as 32-bit words. -/
def colv (v6 : IVec S16 32) (k : Nat) (j : BitVec 32) : IVec S16 32 :=
  addi (muli (addi (broadcast S16 (Scalar.muli (Scf.iv 0#32 1#32 k) 16#32)) v6) (broadcast S16 17#32)) (broadcast S16 j)

theorem colv_apply (v6 : IVec S16 32) (k : Nat) (j : BitVec 32) (x : S16.Idx) :
    colv v6 k j x = ((Scf.iv 0#32 1#32 k) * 16#32 + v6 x) * 17#32 + j := rfl

theorem iv01_toNat (k : Nat) (hk : k < 4294967296) : (Scf.iv 0#32 1#32 k).toNat = k := by
  unfold Scf.iv
  have hk' : (BitVec.ofNat 32 k).toNat = k := by rw [BitVec.toNat_ofNat]; exact Nat.mod_eq_of_lt (by omega)
  have h0 : (0#32 : BitVec 32).toNat = 0 := rfl
  have h1 : (1#32 : BitVec 32).toNat = 1 := rfl
  rw [BitVec.toNat_add, BitVec.toNat_mul, hk', h1, h0]
  simp only [Nat.reducePow]
  omega

/-- With lanes below 16, group below 8 and offset below 16 no product or sum wraps, and the word is
    17 (16 k + l) + j < 2176. -/
theorem colv_toNat (v6 : IVec S16 32) (hv6 : ∀ x, (v6 x).toNat < 16) (k : Nat) (hk : k < 8) (j : BitVec 32) (hj : j.toNat < 16) (x : S16.Idx) :
    (colv v6 k j x).toNat = 17 * (16 * k + (v6 x).toNat) + j.toNat := by
  rw [colv_apply]
  have h6 := hv6 x
  have hiv := iv01_toNat k (by omega)
  have c16 : (16#32 : BitVec 32).toNat = 16 := rfl
  have c17 : (17#32 : BitVec 32).toNat = 17 := rfl
  have h1 : ((Scf.iv 0#32 1#32 k) * 16#32).toNat = 16 * k := by rw [BitVec.toNat_mul, hiv, c16]; omega
  have h2 : ((Scf.iv 0#32 1#32 k) * 16#32 + v6 x).toNat = 16 * k + (v6 x).toNat := by rw [BitVec.toNat_add, h1]; omega
  have h3 : (((Scf.iv 0#32 1#32 k) * 16#32 + v6 x) * 17#32).toNat = 17 * (16 * k + (v6 x).toNat) := by rw [BitVec.toNat_mul, h2, c17]; omega
  rw [BitVec.toNat_add, h3]; omega

theorem colv_lt (v6 : IVec S16 32) (hv6 : ∀ x, (v6 x).toNat < 16) (k : Nat) (hk : k < 8) (j : BitVec 32) (hj : j.toNat < 16) :
    ∀ x, (colv v6 k j x).toNat < 2176 := by
  intro x; rw [colv_toNat v6 hv6 k hk j hj x]; have := hv6 x; omega

/-! ## A scratch written piece by piece over the trips of a loop -/

/-- The contents of a buffer after the first k trips of a loop each wrote one piece through a view of it:
    trip i's piece over what the trips before it left. -/
def fillW {κ : Kind} {sp : Space} {s : Shape} {e : EltTy} (v : View sig κ sp s e) {n : Nat}
    (pc : Fin n → View.Piece (Elt F) s e) (f : v.ty.Contents (Elt F)) : Nat → v.ty.Contents (Elt F)
  | 0 => f
  | k + 1 => if h : k < n then v.writes (Elt F) (fillW v pc f k) [pc ⟨k, h⟩] else fillW v pc f k

omit [FloatOps F] in
theorem fillW_zero {κ : Kind} {sp : Space} {s : Shape} {e : EltTy} (v : View sig κ sp s e) {n : Nat}
    (pc : Fin n → View.Piece (Elt F) s e) (f : v.ty.Contents (Elt F)) : fillW v pc f 0 = f := rfl

omit [FloatOps F] in
theorem fillW_succ {κ : Kind} {sp : Space} {s : Shape} {e : EltTy} (v : View sig κ sp s e) {n : Nat}
    (pc : Fin n → View.Piece (Elt F) s e) (f : v.ty.Contents (Elt F)) (k : Fin n) :
    fillW v pc f (k.val + 1) = v.writes (Elt F) (fillW v pc f k.val) [pc k] := by
  rw [fillW]; exact dif_pos k.isLt

end Cert.Proof.KI

end
-- ==== Proof.KIRow1.lean ====
/-
  Trip k of the row loop over chunk 0 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 0: the pieces it stores into the three partial-sum scratches, as functions of the
    chunk's contents `X`, with its run from any contents of the four buffers it touches. -/
def rowTrip1 (v2 : BitVec 32) (v5 : Vec F S16 .f32) (v6 : IVec S16 32) (v8 : IVec S16 1) (v18 v21 v24 v25 : F .f32) (v26 : IVec S16 32) (k : Fin k0_t1_loop.trips) :
    Σ' (P4 P5 P6 : Buf (Elt F) ((V d (cV L) (jV L)).loc cc0_scratch0) → View.Piece (Elt F) S2176 .i32),
      ∀ (X : Buf (Elt F) ((V d (cV L) (jV L)).loc cc0_scratch0)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s0).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t1_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s0).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t1_body]
    sl_exec
    sl_step
    isplitl [H0]; · iexact H0
    isplitl [H4]; · iexact H4
    isplitl [H5]; · iexact H5
    iexact H6

end Cert.Proof.KI

end
-- ==== Proof.KIRow3.lean ====
/-
  Trip k of the row loop over chunk 1 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 1: the pieces it stores into the three partial-sum scratches, as functions of the
    chunk's contents `X`, with its run from any contents of the four buffers it touches. -/
def rowTrip3 (v2 : BitVec 32) (v5 : Vec F S16 .f32) (v6 : IVec S16 32) (v8 : IVec S16 1) (v18 v21 v24 v25 : F .f32) (v26 : IVec S16 32) (k : Fin k0_t3_loop.trips) :
    Σ' (P4 P5 P6 : Buf (Elt F) ((V d (cV L) (jV L)).loc cc0_scratch1) → View.Piece (Elt F) S2176 .i32),
      ∀ (X : Buf (Elt F) ((V d (cV L) (jV L)).loc cc0_scratch1)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s1).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t3_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s1).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t3_body]
    sl_exec
    sl_step
    isplitl [H0]; · iexact H0
    isplitl [H4]; · iexact H4
    isplitl [H5]; · iexact H5
    iexact H6

end Cert.Proof.KI

end
-- ==== Proof.KIRow5.lean ====
/-
  Trip k of the row loop over chunk 2 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 2: the pieces it stores into the three partial-sum scratches, as functions of the
    chunk's contents `X`, with its run from any contents of the four buffers it touches. -/
def rowTrip5 (v8 : IVec S16 1) (v26 : IVec S16 32) (c0_i32_31 : BitVec 32) (k : Fin k0_t5_loop.trips) :
    Σ' (P4 P5 P6 : Buf (Elt F) ((V d (cV L) (jV L)).loc cc0_scratch0) → View.Piece (Elt F) S2176 .i32),
      ∀ (X : Buf (Elt F) ((V d (cV L) (jV L)).loc cc0_scratch0)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s0).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t5_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 c0_i32_31 k ())
              fun _ => iprop(((s0).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t5_body]
    sl_exec
    sl_step
    isplitl [H0]; · iexact H0
    isplitl [H4]; · iexact H4
    isplitl [H5]; · iexact H5
    iexact H6

end Cert.Proof.KI

end
-- ==== Proof.KIRow7.lean ====
/-
  Trip k of the row loop over chunk 3 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 3: the pieces it stores into the three partial-sum scratches, as functions of the
    chunk's contents `X`, with its run from any contents of the four buffers it touches. -/
def rowTrip7 (v8 : IVec S16 1) (v26 : IVec S16 32) (k : Fin k0_t7_loop.trips) :
    Σ' (P4 P5 P6 : Buf (Elt F) ((V d (cV L) (jV L)).loc cc0_scratch1) → View.Piece (Elt F) S2176 .i32),
      ∀ (X : Buf (Elt F) ((V d (cV L) (jV L)).loc cc0_scratch1)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s1).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t7_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 k ())
              fun _ => iprop(((s1).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t7_body]
    sl_exec
    sl_step
    isplitl [H0]; · iexact H0
    isplitl [H4]; · iexact H4
    isplitl [H5]; · iexact H5
    iexact H6

end Cert.Proof.KI

end
-- ==== Proof.KIGrp2.lean ====
/-
  Trip k of the group loop of chunk 0: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 0: the piece it stores into the output scratch, as a function of the contents of
    the three partial-sum scratches and of the energies scratch, with its run from any contents of the buffers it touches. -/
def grpTrip2 (v2 : BitVec 32) (v5 : Vec F S16 .f32) (v6 : IVec S16 32) (v8 : IVec S16 1) (v18 v21 v24 v25 : F .f32) (v26 : IVec S16 32) (hv6 : ∀ x, (v6 x).toNat < 16) (k : Fin k0_t2_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t2_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t2_abs.2.1
  refine ⟨?_, fun G4 G5 G6 E h3 => ?run⟩
  case run =>
    iintro ⟨H4, H5, H6, H2, H3⟩
    sl_unfold [k0_t2_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KI

end
-- ==== Proof.KIGrp4.lean ====
/-
  Trip k of the group loop of chunk 1: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 1: the piece it stores into the output scratch, as a function of the contents of
    the three partial-sum scratches and of the energies scratch, with its run from any contents of the buffers it touches. -/
def grpTrip4 (v2 : BitVec 32) (v5 : Vec F S16 .f32) (v6 : IVec S16 32) (v8 : IVec S16 1) (v18 v21 v24 v25 : F .f32) (v26 : IVec S16 32) (hv6 : ∀ x, (v6 x).toNat < 16) (k : Fin k0_t4_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t4_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t4_abs.2.1
  refine ⟨?_, fun G4 G5 G6 E h3 => ?run⟩
  case run =>
    iintro ⟨H4, H5, H6, H2, H3⟩
    sl_unfold [k0_t4_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KI

end
-- ==== Proof.KIGrp6.lean ====
/-
  Trip k of the group loop of chunk 2: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 2: the piece it stores into the output scratch, as a function of the contents of
    the three partial-sum scratches and of the energies scratch, with its run from any contents of the buffers it touches. -/
def grpTrip6 (v5 : Vec F S16 .f32) (v6 : IVec S16 32) (v18 v21 v24 v25 : F .f32) (v26 : IVec S16 32) (hv6 : ∀ x, (v6 x).toNat < 16) (k : Fin k0_t6_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t6_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t6_abs.2.1
  refine ⟨?_, fun G4 G5 G6 E h3 => ?run⟩
  case run =>
    iintro ⟨H4, H5, H6, H2, H3⟩
    sl_unfold [k0_t6_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KI

end
-- ==== Proof.KIGrp8.lean ====
/-
  Trip k of the group loop of chunk 3: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 3: the piece it stores into the output scratch, as a function of the contents of
    the three partial-sum scratches and of the energies scratch, with its run from any contents of the buffers it touches. -/
def grpTrip8 (v5 : Vec F S16 .f32) (v6 : IVec S16 32) (v18 v21 v24 v25 : F .f32) (v26 : IVec S16 32) (hv6 : ∀ x, (v6 x).toNat < 16) (k : Fin k0_t8_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t8_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t8_abs.2.1
  refine ⟨?_, fun G4 G5 G6 E h3 => ?run⟩
  case run =>
    iintro ⟨H4, H5, H6, H2, H3⟩
    sl_unfold [k0_t8_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KI

end
-- ==== Proof.KIInv.lean ====
/-
  The eight loops' invariants: before trip k a scratch written by the loop holds what the trips before k wrote, one piece per
  trip over what the loop found there; one trip takes the invariant at k to the invariant at k + 1.
-/
import proofs.«206979_g57535381897292_cont_9to1_m_841_24_alg».proof.Proof.KIRow1
import proofs.«206979_g57535381897292_cont_9to1_m_841_24_alg».proof.Proof.KIRow3
import proofs.«206979_g57535381897292_cont_9to1_m_841_24_alg».proof.Proof.KIRow5
import proofs.«206979_g57535381897292_cont_9to1_m_841_24_alg».proof.Proof.KIRow7
import proofs.«206979_g57535381897292_cont_9to1_m_841_24_alg».proof.Proof.KIGrp2
import proofs.«206979_g57535381897292_cont_9to1_m_841_24_alg».proof.Proof.KIGrp4
import proofs.«206979_g57535381897292_cont_9to1_m_841_24_alg».proof.Proof.KIGrp6
import proofs.«206979_g57535381897292_cont_9to1_m_841_24_alg».proof.Proof.KIGrp8

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Before trip k of the row loop of chunk 0: the chunk at its contents, the three partial-sum scratches each filled by the
    trips before k. -/
def rowInv1 (v2 : BitVec 32) (v5 : Vec F S16 .f32) (v6 : IVec S16 32) (v8 : IVec S16 1) (v18 v21 v24 v25 : F .f32) (v26 : IVec S16 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s0).view.loc (V d (cV L) (jV L)) ↦{fullShare} X)
    ∗ ((s4).view.loc (V d (cV L) (jV L)) ↦{fullShare} fillW (s4).view (fun i => (rowTrip1 d L v2 v5 v6 v8 v18 v21 v24 v25 v26 i).1 X) g4 k)
    ∗ ((s5).view.loc (V d (cV L) (jV L)) ↦{fullShare} fillW (s5).view (fun i => (rowTrip1 d L v2 v5 v6 v8 v18 v21 v24 v25 v26 i).2.1 X) g5 k)
    ∗ ((s6).view.loc (V d (cV L) (jV L)) ↦{fullShare} fillW (s6).view (fun i => (rowTrip1 d L v2 v5 v6 v8 v18 v21 v24 v25 v26 i).2.2.1 X) g6 k))

theorem rowStep1 (v2 : BitVec 32) (v5 : Vec F S16 .f32) (v6 : IVec S16 32) (v8 : IVec S16 1) (v18 v21 v24 v25 : F .f32) (v26 : IVec S16 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t1_loop.trips) (acc : Unit) :
    rowInv1 d L v2 v5 v6 v8 v18 v21 v24 v25 v26 X g4 g5 g6 k.val acc
      ⊢ wp frame (wpE (defs₀ (F := F)) 𝒱₀ (V d (cV L) (jV L)) none) Set.univ
          (k0_t1_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (rowInv1 d L v2 v5 v6 v8 v18 v21 v24 v25 v26 X g4 g5 g6 (k.val + 1)) := by
  unfold rowInv1
  rw [fillW_succ, fillW_succ, fillW_succ]
  exact (rowTrip1 d L v2 v5 v6 v8 v18 v21 v24 v25 v26 k).2.2.2 X _ _ _

/-- Before trip k of the row loop of chunk 1: the chunk at its contents, the three partial-sum scratches each filled by the
    trips before k. -/
def rowInv3 (v2 : BitVec 32) (v5 : Vec F S16 .f32) (v6 : IVec S16 32) (v8 : IVec S16 1) (v18 v21 v24 v25 : F .f32) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s1).view.loc (V d (cV L) (jV L)) ↦{fullShare} X)
    ∗ ((s4).view.loc (V d (cV L) (jV L)) ↦{fullShare} fillW (s4).view (fun i => (rowTrip3 d L v2 v5 v6 v8 v18 v21 v24 v25 v26 i).1 X) g4 k)
    ∗ ((s5).view.loc (V d (cV L) (jV L)) ↦{fullShare} fillW (s5).view (fun i => (rowTrip3 d L v2 v5 v6 v8 v18 v21 v24 v25 v26 i).2.1 X) g5 k)
    ∗ ((s6).view.loc (V d (cV L) (jV L)) ↦{fullShare} fillW (s6).view (fun i => (rowTrip3 d L v2 v5 v6 v8 v18 v21 v24 v25 v26 i).2.2.1 X) g6 k))

theorem rowStep3 (v2 : BitVec 32) (v5 : Vec F S16 .f32) (v6 : IVec S16 32) (v8 : IVec S16 1) (v18 v21 v24 v25 : F .f32) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t3_loop.trips) (acc : Unit) :
    rowInv3 d L v2 v5 v6 v8 v18 v21 v24 v25 v26 X g4 g5 g6 k.val acc
      ⊢ wp frame (wpE (defs₀ (F := F)) 𝒱₀ (V d (cV L) (jV L)) none) Set.univ
          (k0_t3_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (rowInv3 d L v2 v5 v6 v8 v18 v21 v24 v25 v26 X g4 g5 g6 (k.val + 1)) := by
  unfold rowInv3
  rw [fillW_succ, fillW_succ, fillW_succ]
  exact (rowTrip3 d L v2 v5 v6 v8 v18 v21 v24 v25 v26 k).2.2.2 X _ _ _

/-- Before trip k of the row loop of chunk 2: the chunk at its contents, the three partial-sum scratches each filled by the
    trips before k. -/
def rowInv5 (v8 : IVec S16 1) (v26 : IVec S16 32) (c0_i32_31 : BitVec 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s0).view.loc (V d (cV L) (jV L)) ↦{fullShare} X)
    ∗ ((s4).view.loc (V d (cV L) (jV L)) ↦{fullShare} fillW (s4).view (fun i => (rowTrip5 d L v8 v26 c0_i32_31 i).1 X) g4 k)
    ∗ ((s5).view.loc (V d (cV L) (jV L)) ↦{fullShare} fillW (s5).view (fun i => (rowTrip5 d L v8 v26 c0_i32_31 i).2.1 X) g5 k)
    ∗ ((s6).view.loc (V d (cV L) (jV L)) ↦{fullShare} fillW (s6).view (fun i => (rowTrip5 d L v8 v26 c0_i32_31 i).2.2.1 X) g6 k))

theorem rowStep5 (v8 : IVec S16 1) (v26 : IVec S16 32) (c0_i32_31 : BitVec 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t5_loop.trips) (acc : Unit) :
    rowInv5 d L v8 v26 c0_i32_31 X g4 g5 g6 k.val acc
      ⊢ wp frame (wpE (defs₀ (F := F)) 𝒱₀ (V d (cV L) (jV L)) none) Set.univ
          (k0_t5_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 c0_i32_31 k acc)
          (rowInv5 d L v8 v26 c0_i32_31 X g4 g5 g6 (k.val + 1)) := by
  unfold rowInv5
  rw [fillW_succ, fillW_succ, fillW_succ]
  exact (rowTrip5 d L v8 v26 c0_i32_31 k).2.2.2 X _ _ _

/-- Before trip k of the row loop of chunk 3: the chunk at its contents, the three partial-sum scratches each filled by the
    trips before k. -/
def rowInv7 (v8 : IVec S16 1) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s1).view.loc (V d (cV L) (jV L)) ↦{fullShare} X)
    ∗ ((s4).view.loc (V d (cV L) (jV L)) ↦{fullShare} fillW (s4).view (fun i => (rowTrip7 d L v8 v26 i).1 X) g4 k)
    ∗ ((s5).view.loc (V d (cV L) (jV L)) ↦{fullShare} fillW (s5).view (fun i => (rowTrip7 d L v8 v26 i).2.1 X) g5 k)
    ∗ ((s6).view.loc (V d (cV L) (jV L)) ↦{fullShare} fillW (s6).view (fun i => (rowTrip7 d L v8 v26 i).2.2.1 X) g6 k))

theorem rowStep7 (v8 : IVec S16 1) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t7_loop.trips) (acc : Unit) :
    rowInv7 d L v8 v26 X g4 g5 g6 k.val acc
      ⊢ wp frame (wpE (defs₀ (F := F)) 𝒱₀ (V d (cV L) (jV L)) none) Set.univ
          (k0_t7_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 k acc)
          (rowInv7 d L v8 v26 X g4 g5 g6 (k.val + 1)) := by
  unfold rowInv7
  rw [fillW_succ, fillW_succ, fillW_succ]
  exact (rowTrip7 d L v8 v26 k).2.2.2 X _ _ _

/-- Before trip k of the group loop of chunk 0: the scratches it reads at their contents, the output scratch filled by the
    trips before k. -/
def grpInv2 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip2 d L v2 v5 v6 v8 v18 v21 v24 v25 v26 hv6 i).1 G4 G5 G6 E) h3 k))

theorem grpStep2 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t2_loop.trips) (acc : Unit) :
    grpInv2 d L v2 v5 v6 v8 v18 v21 v24 v25 v26 hv6 G4 G5 G6 E h3 k.val acc
      ⊢ wp frame (wpE (defs₀ (F := F)) 𝒱₀ (V d (cV L) (jV L)) none) Set.univ
          (k0_t2_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (grpInv2 d L v2 v5 v6 v8 v18 v21 v24 v25 v26 hv6 G4 G5 G6 E h3 (k.val + 1)) := by
  unfold grpInv2
  rw [fillW_succ]
  exact (grpTrip2 d L v2 v5 v6 v8 v18 v21 v24 v25 v26 hv6 k).2 G4 G5 G6 E _

/-- Before trip k of the group loop of chunk 1: the scratches it reads at their contents, the output scratch filled by the
    trips before k. -/
def grpInv4 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip4 d L v2 v5 v6 v8 v18 v21 v24 v25 v26 hv6 i).1 G4 G5 G6 E) h3 k))

theorem grpStep4 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t4_loop.trips) (acc : Unit) :
    grpInv4 d L v2 v5 v6 v8 v18 v21 v24 v25 v26 hv6 G4 G5 G6 E h3 k.val acc
      ⊢ wp frame (wpE (defs₀ (F := F)) 𝒱₀ (V d (cV L) (jV L)) none) Set.univ
          (k0_t4_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (grpInv4 d L v2 v5 v6 v8 v18 v21 v24 v25 v26 hv6 G4 G5 G6 E h3 (k.val + 1)) := by
  unfold grpInv4
  rw [fillW_succ]
  exact (grpTrip4 d L v2 v5 v6 v8 v18 v21 v24 v25 v26 hv6 k).2 G4 G5 G6 E _

/-- Before trip k of the group loop of chunk 2: the scratches it reads at their contents, the output scratch filled by the
    trips before k. -/
def grpInv6 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip6 d L v5 v6 v18 v21 v24 v25 v26 hv6 i).1 G4 G5 G6 E) h3 k))

theorem grpStep6 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t6_loop.trips) (acc : Unit) :
    grpInv6 d L v5 v6 v18 v21 v24 v25 v26 hv6 G4 G5 G6 E h3 k.val acc
      ⊢ wp frame (wpE (defs₀ (F := F)) 𝒱₀ (V d (cV L) (jV L)) none) Set.univ
          (k0_t6_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k acc)
          (grpInv6 d L v5 v6 v18 v21 v24 v25 v26 hv6 G4 G5 G6 E h3 (k.val + 1)) := by
  unfold grpInv6
  rw [fillW_succ]
  exact (grpTrip6 d L v5 v6 v18 v21 v24 v25 v26 hv6 k).2 G4 G5 G6 E _

/-- Before trip k of the group loop of chunk 3: the scratches it reads at their contents, the output scratch filled by the
    trips before k. -/
def grpInv8 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip8 d L v5 v6 v18 v21 v24 v25 v26 hv6 i).1 G4 G5 G6 E) h3 k))

theorem grpStep8 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t8_loop.trips) (acc : Unit) :
    grpInv8 d L v5 v6 v18 v21 v24 v25 v26 hv6 G4 G5 G6 E h3 k.val acc
      ⊢ wp frame (wpE (defs₀ (F := F)) 𝒱₀ (V d (cV L) (jV L)) none) Set.univ
          (k0_t8_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k acc)
          (grpInv8 d L v5 v6 v18 v21 v24 v25 v26 hv6 G4 G5 G6 E h3 (k.val + 1)) := by
  unfold grpInv8
  rw [fillW_succ]
  exact (grpTrip8 d L v5 v6 v18 v21 v24 v25 v26 hv6 k).2 G4 G5 G6 E _

end Cert.Proof.KI

end
-- ==== Proof.KITile.lean ====
/-
  One tile's task, run whole. The tile copies its four chunks of 128 species rows into two scratches in turn, the next
  chunk's copy in flight while the current one is summed (one copy at a time on each of the two semaphores, a scratch
  overwritten only after its rows were summed), copies the table, the intercepts and its 512 energies, and for each
  chunk runs the row loop (each row's three 16-lane partial sums) and the group loop (each row's three totals by sixteen
  gathers per lane, then the energy expression) into its 512-entry output scratch, which it copies out to its block of
  the result. The run names what the block ends at, as a function of the arrays and of what the scratches held.
-/
import proofs.«206979_g57535381897292_cont_9to1_m_841_24_alg».proof.Proof.KIInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Lane x of the lane-number vector is the word x. -/
theorem iota16_toNat (x : S16.Idx) : (iota .scVector S16 32 [0] iota_S16_d0_w32_scVector x).toNat = (x 0).val := by
  show (BitVec.ofNat 32 (0 * S16.size 0 + (x 0).val)).toNat = _
  have h : (x 0).val < 16 := (x 0).isLt
  rw [BitVec.toNat_ofNat, Nat.zero_mul, Nat.zero_add]
  exact Nat.mod_eq_of_lt (by omega)
theorem iota16_lt : ∀ x : S16.Idx, (iota .scVector S16 32 [0] iota_S16_d0_w32_scVector x).toNat < 16 :=
  fun x => by rw [iota16_toNat]; exact (x 0).isLt

set_option maxHeartbeats 16000000 in
/-- The tile's run: what its block of the result ends at (a function of the argument arrays' contents, of the block's
    contents before, and of what the nine scratches held), with the run from the tile's resources to the same resources,
    the block rewritten. -/
def tileRun (O : CellTallies nD τ sig (HIx 1)) (W : Waits sig (HIx 1)) (hO : ∀ g, O g none = 0) (q : PosShare TreeShare) :
    Σ' (OUT : Buf (Elt F) (spLoc d) → Buf (Elt F) (enLoc d) → Buf (Elt F) (tbLoc d) → Buf (Elt F) (i16Loc d) → Buf (Elt F) (oLoc d)
        → Buf (Elt F) ((V d (cV L) (jV L)).loc cc0_scratch0) → Buf (Elt F) ((V d (cV L) (jV L)).loc cc0_scratch1) → Buf (Elt F) ((V d (cV L) (jV L)).loc cc0_scratch2)
        → Buf (Elt F) ((V d (cV L) (jV L)).loc cc0_scratch3) → Buf (Elt F) ((V d (cV L) (jV L)).loc cc0_scratch4) → Buf (Elt F) ((V d (cV L) (jV L)).loc cc0_scratch5)
        → Buf (Elt F) ((V d (cV L) (jV L)).loc cc0_scratch6) → Buf (Elt F) ((V d (cV L) (jV L)).loc cc0_scratch7) → Buf (Elt F) ((V d (cV L) (jV L)).loc cc0_scratch8)
        → Buf (Elt F) (oLoc d)),
      ∀ (fsp : Buf (Elt F) (spLoc d)) (fen : Buf (Elt F) (enLoc d)) (ftb : Buf (Elt F) (tbLoc d)) (fic : Buf (Elt F) (i16Loc d)) (fo : Buf (Elt F) (oLoc d))
        (f0 : Buf (Elt F) ((V d (cV L) (jV L)).loc cc0_scratch0)) (f1 : Buf (Elt F) ((V d (cV L) (jV L)).loc cc0_scratch1)) (f2 : Buf (Elt F) ((V d (cV L) (jV L)).loc cc0_scratch2))
        (f3 : Buf (Elt F) ((V d (cV L) (jV L)).loc cc0_scratch3)) (f4 : Buf (Elt F) ((V d (cV L) (jV L)).loc cc0_scratch4)) (f5 : Buf (Elt F) ((V d (cV L) (jV L)).loc cc0_scratch5))
        (f6 : Buf (Elt F) ((V d (cV L) (jV L)).loc cc0_scratch6)) (f7 : Buf (Elt F) ((V d (cV L) (jV L)).loc cc0_scratch7)) (f8 : Buf (Elt F) ((V d (cV L) (jV L)).loc cc0_scratch8)),
        (iprop(levAts (K (F := F)).L (K (F := F)).lev
        ∗ (((spW).view.loc (V d (cV L) (jV L)) ↦{q} fsp) ∗ ((enW).view.loc (V d (cV L) (jV L)) ↦{q} fen) ∗ ((tbW).view.loc (V d (cV L) (jV L)) ↦{q} ftb) ∗ ((i16W).view.loc (V d (cV L) (jV L)) ↦{q} fic)
            ∗ ((oSl L).view.loc (V d (cV L) (jV L)) ↦[(oSl L).view.set]{fullShare} fo))
        ∗ (((s0).view.loc (V d (cV L) (jV L)) ↦{fullShare} f0) ∗ ((s1).view.loc (V d (cV L) (jV L)) ↦{fullShare} f1) ∗ ((s2).view.loc (V d (cV L) (jV L)) ↦{fullShare} f2)
            ∗ ((s3).view.loc (V d (cV L) (jV L)) ↦{fullShare} f3) ∗ ((s4).view.loc (V d (cV L) (jV L)) ↦{fullShare} f4) ∗ ((s5).view.loc (V d (cV L) (jV L)) ↦{fullShare} f5)
            ∗ ((s6).view.loc (V d (cV L) (jV L)) ↦{fullShare} f6) ∗ ((s7).view.loc (V d (cV L) (jV L)) ↦{fullShare} f7) ∗ ((s8).view.loc (V d (cV L) (jV L)) ↦{fullShare} f8))
        ∗ (semVal (cellV d L cc0_scratch9) 0 ∗ semVal (cellV d L cc0_scratch10) 0 ∗ semVal (cellV d L cc0_scoped0) 0
            ∗ semVal (cellV d L cc0_scoped1) 0 ∗ semVal (cellV d L cc0_scoped2) 0 ∗ semVal (cellV d L cc0_scoped3) 0)
        ∗ owes (V d (cV L) (jV L)) O W) : sProp 𝕄)
          ⊢ wp frame (wpE (defs₀ (F := F)) 𝒱₀ (V d (cV L) (jV L)) none) Set.univ
              (cc0__sc_energy_adder L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3)
              fun _ => iprop((((spW).view.loc (V d (cV L) (jV L)) ↦{q} fsp) ∗ ((enW).view.loc (V d (cV L) (jV L)) ↦{q} fen) ∗ ((tbW).view.loc (V d (cV L) (jV L)) ↦{q} ftb) ∗ ((i16W).view.loc (V d (cV L) (jV L)) ↦{q} fic)
                  ∗ ((oSl L).view.loc (V d (cV L) (jV L)) ↦[(oSl L).view.set]{fullShare} OUT fsp fen ftb fic fo f0 f1 f2 f3 f4 f5 f6 f7 f8))
                ∗ ((∃ f, (s0).view.loc (V d (cV L) (jV L)) ↦{fullShare} f) ∗ (∃ f, (s1).view.loc (V d (cV L) (jV L)) ↦{fullShare} f) ∗ (∃ f, (s2).view.loc (V d (cV L) (jV L)) ↦{fullShare} f)
                    ∗ (∃ f, (s3).view.loc (V d (cV L) (jV L)) ↦{fullShare} f) ∗ (∃ f, (s4).view.loc (V d (cV L) (jV L)) ↦{fullShare} f) ∗ (∃ f, (s5).view.loc (V d (cV L) (jV L)) ↦{fullShare} f)
                    ∗ (∃ f, (s6).view.loc (V d (cV L) (jV L)) ↦{fullShare} f) ∗ (∃ f, (s7).view.loc (V d (cV L) (jV L)) ↦{fullShare} f) ∗ (∃ f, (s8).view.loc (V d (cV L) (jV L)) ↦{fullShare} f))
                ∗ (semVal (cellV d L cc0_scratch9) 0 ∗ semVal (cellV d L cc0_scratch10) 0 ∗ semVal (cellV d L cc0_scoped0) 0
                    ∗ semVal (cellV d L cc0_scoped1) 0 ∗ semVal (cellV d L cc0_scoped2) 0 ∗ semVal (cellV d L cc0_scoped3) 0)
                ∗ ∃ W', ⌜∀ p ∈ W', p ∈ W ∨ p.2 = none⌝ ∗ owes (V d (cV L) (jV L)) O W') := by
  refine ⟨?_, fun fsp fen ftb fic fo f0 f1 f2 f3 f4 f5 f6 f7 f8 => ?run⟩
  case run =>
    iintro ⟨#Hlv, ⟨Hsp, Hen, Htb, Hic, Ho⟩, ⟨H0, H1, H2, H3, H4, H5, H6, H7, H8⟩, ⟨Hm0, Hm1, Hm2, Hm3, Hm4, Hm5⟩, HO⟩
    ihave Hmw := ((K (F := F)).mayWaits_none (thr := (V d (cV L) (jV L))) hO) $$ Hlv
    sl_unfold [cc0__sc_energy_adder]
    sl_exec
    generalize hX0 : View.write (Elt F) (s0).view f0 _ Finset.univ = X0
    generalize hE : View.write (Elt F) (s2).view f2 _ Finset.univ = E
    sl_for (rowInv1 d L _ _ _ _ _ _ _ _ _ X0 f4 f5 f6) $$ [H0 H4 H5 H6]
    case region => exact fun k acc => rowStep1 d L _ _ _ _ _ _ _ _ _ X0 f4 f5 f6 k acc
    · unfold rowInv1
      isplitl [H0]; · iexact H0
      isplitl [H4]; · iexact H4
      isplitl [H5]; · iexact H5
      iexact H6
    iintro %_ HI
    unfold rowInv1
    icases HI with ⟨H0, H4, H5, H6⟩
    generalize hG4a : fillW (s4).view _ f4 _ = G4a
    generalize hG5a : fillW (s5).view _ f5 _ = G5a
    generalize hG6a : fillW (s6).view _ f6 _ = G6a
    sl_for (grpInv2 d L _ _ _ _ _ _ _ _ _ iota16_lt G4a G5a G6a E f3) $$ [H4 H5 H6 H2 H3]
    case region => exact fun k acc => grpStep2 d L _ _ _ _ _ _ _ _ _ iota16_lt G4a G5a G6a E f3 k acc
    · unfold grpInv2
      isplitl [H4]; · iexact H4
      isplitl [H5]; · iexact H5
      isplitl [H6]; · iexact H6
      isplitl [H2]; · iexact H2
      iexact H3
    iintro %_ HI
    unfold grpInv2
    icases HI with ⟨H4, H5, H6, H2, H3⟩
    generalize hH3a : fillW (s3).view _ f3 _ = H3a
    sl_exec
    generalize hX1 : View.write (Elt F) (s1).view f1 _ Finset.univ = X1
    sl_for (rowInv3 d L _ _ _ _ _ _ _ _ _ X1 G4a G5a G6a) $$ [H1 H4 H5 H6]
    case region => exact fun k acc => rowStep3 d L _ _ _ _ _ _ _ _ _ X1 G4a G5a G6a k acc
    · unfold rowInv3
      isplitl [H1]; · iexact H1
      isplitl [H4]; · iexact H4
      isplitl [H5]; · iexact H5
      iexact H6
    iintro %_ HI
    unfold rowInv3
    icases HI with ⟨H1, H4, H5, H6⟩
    generalize hG4b : fillW (s4).view _ G4a _ = G4b
    generalize hG5b : fillW (s5).view _ G5a _ = G5b
    generalize hG6b : fillW (s6).view _ G6a _ = G6b
    sl_for (grpInv4 d L _ _ _ _ _ _ _ _ _ iota16_lt G4b G5b G6b E H3a) $$ [H4 H5 H6 H2 H3]
    case region => exact fun k acc => grpStep4 d L _ _ _ _ _ _ _ _ _ iota16_lt G4b G5b G6b E H3a k acc
    · unfold grpInv4
      isplitl [H4]; · iexact H4
      isplitl [H5]; · iexact H5
      isplitl [H6]; · iexact H6
      isplitl [H2]; · iexact H2
      iexact H3
    iintro %_ HI
    unfold grpInv4
    icases HI with ⟨H4, H5, H6, H2, H3⟩
    generalize hH3b : fillW (s3).view _ H3a _ = H3b
    sl_exec
    generalize hX2 : View.write (Elt F) (s0).view X0 _ Finset.univ = X2
    sl_for (rowInv5 d L _ _ _ X2 G4b G5b G6b) $$ [H0 H4 H5 H6]
    case region => exact fun k acc => rowStep5 d L _ _ _ X2 G4b G5b G6b k acc
    · unfold rowInv5
      isplitl [H0]; · iexact H0
      isplitl [H4]; · iexact H4
      isplitl [H5]; · iexact H5
      iexact H6
    iintro %_ HI
    unfold rowInv5
    icases HI with ⟨H0, H4, H5, H6⟩
    generalize hG4c : fillW (s4).view _ G4b _ = G4c
    generalize hG5c : fillW (s5).view _ G5b _ = G5c
    generalize hG6c : fillW (s6).view _ G6b _ = G6c
    sl_for (grpInv6 d L _ _ _ _ _ _ _ iota16_lt G4c G5c G6c E H3b) $$ [H4 H5 H6 H2 H3]
    case region => exact fun k acc => grpStep6 d L _ _ _ _ _ _ _ iota16_lt G4c G5c G6c E H3b k acc
    · unfold grpInv6
      isplitl [H4]; · iexact H4
      isplitl [H5]; · iexact H5
      isplitl [H6]; · iexact H6
      isplitl [H2]; · iexact H2
      iexact H3
    iintro %_ HI
    unfold grpInv6
    icases HI with ⟨H4, H5, H6, H2, H3⟩
    generalize hH3c : fillW (s3).view _ H3b _ = H3c
    sl_exec
    generalize hX3 : View.write (Elt F) (s1).view X1 _ Finset.univ = X3
    sl_for (rowInv7 d L _ _ X3 G4c G5c G6c) $$ [H1 H4 H5 H6]
    case region => exact fun k acc => rowStep7 d L _ _ X3 G4c G5c G6c k acc
    · unfold rowInv7
      isplitl [H1]; · iexact H1
      isplitl [H4]; · iexact H4
      isplitl [H5]; · iexact H5
      iexact H6
    iintro %_ HI
    unfold rowInv7
    icases HI with ⟨H1, H4, H5, H6⟩
    generalize hG4d : fillW (s4).view _ G4c _ = G4d
    generalize hG5d : fillW (s5).view _ G5c _ = G5d
    generalize hG6d : fillW (s6).view _ G6c _ = G6d
    sl_for (grpInv8 d L _ _ _ _ _ _ _ iota16_lt G4d G5d G6d E H3c) $$ [H4 H5 H6 H2 H3]
    case region => exact fun k acc => grpStep8 d L _ _ _ _ _ _ _ iota16_lt G4d G5d G6d E H3c k acc
    · unfold grpInv8
      isplitl [H4]; · iexact H4
      isplitl [H5]; · iexact H5
      isplitl [H6]; · iexact H6
      isplitl [H2]; · iexact H2
      iexact H3
    iintro %_ HI
    unfold grpInv8
    icases HI with ⟨H4, H5, H6, H2, H3⟩
    generalize hH3d : fillW (s3).view _ H3c _ = H3d
    sl_exec

    subst hH3d
    subst hG6d
    subst hG5d
    subst hG4d
    subst hX3
    subst hH3c
    subst hG6c
    subst hG5c
    subst hG4c
    subst hX2
    subst hH3b
    subst hG6b
    subst hG5b
    subst hG4b
    subst hX1
    subst hH3a
    subst hG6a
    subst hG5a
    subst hG4a
    subst hE
    subst hX0
    sl_step
    isplitl [Hsp Hen Htb Hic Ho]
    · isplitl [Hsp]; · iexact Hsp
      isplitl [Hen]; · iexact Hen
      isplitl [Htb]; · iexact Htb
      isplitl [Hic]; · iexact Hic
      iexact Ho
    isplitl [H0 H1 H2 H3 H4 H5 H6 H7 H8]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact H8
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4]; · iexact Hm4
      iexact Hm5
    iexists _; isplitr
    rotate_left
    · iexact HO
    · ipureintro; intro p hp
      repeat (rcases Finset.mem_insert.mp hp with rfl | hp; · exact .inr rfl)
      exact .inl hp

end Cert.Proof.KI

end
-- ==== Proof.KILaunch.lean ====
/-
  The energy adder's launch. The TensorCore broadcasts the intercept to sixteen copies, hands every tile a read share of
  the four read-only arrays and its block of the result, waits for the two SparseCores, and gets the shares and the
  blocks back, every block at the one whole-array function its tile's run ends at; the shares rejoin, the 32 blocks are
  the whole result. The run: every execution of the device's threads terminates, nothing faulting, the arguments
  unchanged and the result at that function.
-/
import proofs.«206979_g57535381897292_cont_9to1_m_841_24_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Idealize.ShloMosaic.StableHlo (held held_split held_sdiff_result wp_hlo_within)

variable (m : (ℓ : Loc nD τ sig) → Buf (Elt F) ℓ) (ρ : Dev nD → PrngReg)

/-! ## Tiles and blocks -/

/-- The number of the tile at grid point L. -/
def widL (L : grid0.Coords) : Fin 32 := wid ⟨(L 0).val, (L 0).isLt⟩ ⟨(L 1).val, (L 1).isLt⟩

omit [FloatOps F] in
/-- The rectangle the kernel slices for its write-out at grid point L is block number 2 (L 1) + (L 0). -/
theorem oRectK_eq (L : grid0.Coords) : Rect.unit (s := S16384) (k0_off2 L) S512.size (k0_off2_inb L) = oRect (widL L) := by
  unfold oRect Rect.part Rect.block
  congr 1 <;> funext a
  · rw [k0_off2_eq]
    match a with
    | 0 => simp [Shape.partIx, Shape.partSize, widL, wid]; omega
  · match a with
    | 0 => simp [Shape.partSize]

omit [FloatOps F] in
theorem set_oSl (L : grid0.Coords) : (oSl L).view.set = oSet (widL L) := by
  show ((oW).view.slice (Rect.unit (s := S16384) (k0_off2 L) S512.size (k0_off2_inb L))).set = ((oW).view.slice (oRect (widL L))).set
  rw [oRectK_eq]

/-- Pairs (SparseCore, vector subcore) are the 32 tile numbers. -/
def widE : Fin 2 × Fin 16 ≃ Fin 32 where
  toFun p := wid p.1 p.2
  invFun w := (⟨w.val % 2, Nat.mod_lt _ (by decide)⟩, ⟨w.val / 2, by have := w.isLt; omega⟩)
  left_inv := by
    rintro ⟨c, i⟩
    have hc := c.isLt; have hi := i.isLt
    ext <;> simp only [wid] <;> omega
  right_inv := by
    intro w; apply Fin.ext; simp only [wid]; omega

/-! ## The tile's task with its block at the one function -/

section Tile
variable (d : Dev nD) (L : grid0.Coords)

/-- The tile's task from the device's arrays: the read shares come back, the block at `Gd` wherever the run's
    function of the block agrees with `Gd` on the block (`hG`), whatever the scratches held. -/
theorem tile_body (hF : (K (F := F)).Facts) (O : CellTallies nD τ sig (HIx 1)) (W : Waits sig (HIx 1)) (hO : ∀ g, O g none = 0) (q : PosShare TreeShare)
    (fsp : Buf (Elt F) (spLoc d)) (fen : Buf (Elt F) (enLoc d)) (ftb : Buf (Elt F) (tbLoc d)) (fic : Buf (Elt F) (i16Loc d)) (fo : Buf (Elt F) (oLoc d))
    (Gd : Buf (Elt F) (oLoc d))
    (hG : ∀ f0 f1 f2 f3 f4 f5 f6 f7 f8, ∀ y ∈ oSet (widL L), (tileRun d L O W hO q).1 fsp fen ftb fic fo f0 f1 f2 f3 f4 f5 f6 f7 f8 y = Gd y) :
    (iprop(levAts (K (F := F)).L (K (F := F)).lev ∗ emp
        ∗ ((spLoc d ↦{q} fsp) ∗ (enLoc d ↦{q} fen) ∗ (tbLoc d ↦{q} ftb) ∗ (i16Loc d ↦{q} fic) ∗ (oLoc d ↦[oSet (widL L)]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_energy_adder L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3)
          fun _ => iprop(((spLoc d ↦{q} fsp) ∗ (enLoc d ↦{q} fen) ∗ (tbLoc d ↦{q} ftb) ∗ (i16Loc d ↦{q} fic) ∗ (oLoc d ↦[oSet (widL L)]{fullShare} Gd))
            ∗ scopedBufs (V d (cV L) (jV L)) ∗ scopedSems0 (V d (cV L) (jV L)) ∗ ∃ W', ⌜∀ p ∈ W', p ∈ W ∨ p.2 = none⌝ ∗ owes (V d (cV L) (jV L)) O W') := by
  have hset := set_oSl L
  have hG' : ∀ f0 f1 f2 f3 f4 f5 f6 f7 f8, ∀ y ∈ (oSl L).view.set, (tileRun d L O W hO q).1 fsp fen ftb fic fo f0 f1 f2 f3 f4 f5 f6 f7 f8 y = Gd y :=
    fun f0 f1 f2 f3 f4 f5 f6 f7 f8 y hy => hG f0 f1 f2 f3 f4 f5 f6 f7 f8 y (by rw [← hset]; exact hy)
  rw [(K (F := F)).scopedBufs_V hF d (cV L) (jV L), SparseCore.Cfg.scopedSems0_V (Val := Elt F) d (cV L) (jV L), ownSems0_V, ownBufs_V, ← hset]
  iintro ⟨#Hlv, -, ⟨Hsp, Hen, Htb, Hic, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩,
    ⟨Hm0, Hm1, Hm2, Hm3, Hm4, Hm5, Hsems⟩, HO⟩
  ihave Hsp := (Entails.of_eq (pts_sp (F := F) d L _ _).symm) $$ Hsp
  ihave Hen := (Entails.of_eq (pts_en (F := F) d L _ _).symm) $$ Hen
  ihave Htb := (Entails.of_eq (pts_tb (F := F) d L _ _).symm) $$ Htb
  ihave Hic := (Entails.of_eq (pts_i16 (F := F) d L _ _).symm) $$ Hic
  ihave Ho := (Entails.of_eq (pts_o (F := F) d L _).symm) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  ihave H7 := (Entails.of_eq (pts_s7 (F := F) d L _).symm) $$ H7
  ihave H8 := (Entails.of_eq (pts_s8 (F := F) d L _).symm) $$ H8

  iapply (wp_wand_r frame (wpE (defs₀ (F := F)) 𝒱₀ (V d (cV L) (jV L)) none) Set.univ)
  isplitl [Hsp Hen Htb Hic Ho H0 H1 H2 H3 H4 H5 H6 H7 H8 Hm0 Hm1 Hm2 Hm3 Hm4 Hm5 HO]
  · iapply ((tileRun d L O W hO q).2 fsp fen ftb fic fo f0 f1 f2 f3 f4 f5 f6 f7 f8)
    isplitr; · iexact Hlv
    isplitl [Hsp Hen Htb Hic Ho]
    · isplitl [Hsp]; · iexact Hsp
      isplitl [Hen]; · iexact Hen
      isplitl [Htb]; · iexact Htb
      isplitl [Hic]; · iexact Hic
      iexact Ho
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4]; · iexact Hm4
      iexact Hm5
    iexact HO
  iintro %_ ⟨⟨Hsp, Hen, Htb, Hic, Ho⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩⟩,
    ⟨Hm0, Hm1, Hm2, Hm3, Hm4, Hm5⟩, ⟨%W', %hW', HO⟩⟩
  ihave Ho := (Entails.of_eq ((pts_o (F := F) d L _).trans (pointsTo_congr (hG' f0 f1 f2 f3 f4 f5 f6 f7 f8)))) $$ Ho
  isplitl [Hsp Hen Htb Hic Ho]
  · isplitl [Hsp]; · iapply (Entails.of_eq (pts_sp (F := F) d L _ _)); iexact Hsp
    isplitl [Hen]; · iapply (Entails.of_eq (pts_en (F := F) d L _ _)); iexact Hen
    isplitl [Htb]; · iapply (Entails.of_eq (pts_tb (F := F) d L _ _)); iexact Htb
    isplitl [Hic]; · iapply (Entails.of_eq (pts_i16 (F := F) d L _ _)); iexact Hic
    iexact Ho
  isplitl [H0 H1 H2 H3 H4 H5 H6 H7 H8 Hbufs]
  · isplitl [H0]; · iexists _; iapply (Entails.of_eq (pts_s0 (F := F) d L _)); iexact H0
    isplitl [H1]; · iexists _; iapply (Entails.of_eq (pts_s1 (F := F) d L _)); iexact H1
    isplitl [H2]; · iexists _; iapply (Entails.of_eq (pts_s2 (F := F) d L _)); iexact H2
    isplitl [H3]; · iexists _; iapply (Entails.of_eq (pts_s3 (F := F) d L _)); iexact H3
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    isplitl [H7]; · iexists _; iapply (Entails.of_eq (pts_s7 (F := F) d L _)); iexact H7
    isplitl [H8]; · iexists _; iapply (Entails.of_eq (pts_s8 (F := F) d L _)); iexact H8
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists W'; isplitr
  · ipureintro; exact hW'
  · iexact HO

end Tile

/-! ## What the handshakes carry -/

variable (G : (d : Dev nD) → Buf (Elt F) (oLoc d))

/-- The sixteen copies of the intercept @main makes before the call. -/
abbrev ficOf (d : Dev nD) : Buf (Elt F) (i16Loc d) :=
  (broadcastInDim S16 ![] bcast_S_S16 : (⟨S_, .f32⟩ : BufTy).Contents (Elt F) → (⟨S16, .f32⟩ : BufTy).Contents (Elt F)) (m (icLoc d))

/-- What tile w is handed: a read share of the four read-only arrays, and its block of the result. -/
def tileGo (d : Dev nD) (w : Fin 32) : sProp 𝕄 :=
  iprop((spLoc d ↦{qTok w} m (spLoc d)) ∗ (enLoc d ↦{qTok w} m (enLoc d)) ∗ (tbLoc d ↦{qTok w} m (tbLoc d))
    ∗ (i16Loc d ↦{qTok w} ficOf m d) ∗ (oLoc d ↦[oSet w]{fullShare} m (oLoc d)))
/-- What tile w hands back: the shares, and its block at the one function. -/
def tileTd (d : Dev nD) (w : Fin 32) : sProp 𝕄 :=
  iprop((spLoc d ↦{qTok w} m (spLoc d)) ∗ (enLoc d ↦{qTok w} m (enLoc d)) ∗ (tbLoc d ↦{qTok w} m (tbLoc d))
    ∗ (i16Loc d ↦{qTok w} ficOf m d) ∗ (oLoc d ↦[oSet w]{fullShare} G d))

def P : (K (F := F)).Pay (nD := nD) (Val := Elt F) (Name := ℕ) (U := UU) where
  st := fun q d c => match q with | 0 => bigSep Finset.univ fun i : Fin 16 => tileGo m d (wid (Fin.cast nCore_zero c) i)
  dn := fun q d c => match q with | 0 => bigSep Finset.univ fun i : Fin 16 => tileTd m G d (wid (Fin.cast nCore_zero c) i)
  go := fun q d c i => match q with | 0 => tileGo m d (wid (Fin.cast nCore_zero c) (Fin.cast nSub_zero i))
  td := fun q d c i => match q with | 0 => tileTd m G d (wid (Fin.cast nCore_zero c) (Fin.cast nSub_zero i))
  x := fun _ _ => iprop(emp)

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m G d w) := by
  unfold tileTd; infer_instance

instance P_storable : (P (F := F) m G).IsStorable where
  st q d c := match q with
    | 0 => (inferInstance : BI.Storable (upEmb : UEmb _ 𝕄) (bigSep Finset.univ fun i : Fin 16 => tileGo m d (wid (Fin.cast nCore_zero c) i)))
  dn q d c := match q with
    | 0 => (inferInstance : BI.Storable (upEmb : UEmb _ 𝕄) (bigSep Finset.univ fun i : Fin 16 => tileTd m G d (wid (Fin.cast nCore_zero c) i)))
  go q d c i := match q with
    | 0 => (inferInstance : BI.Storable (upEmb : UEmb _ 𝕄) (tileGo m d (wid (Fin.cast nCore_zero c) (Fin.cast nSub_zero i))))
  td q d c i := match q with
    | 0 => (inferInstance : BI.Storable (upEmb : UEmb _ 𝕄) (tileTd m G d (wid (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_energy_adder (coordsV c s)
          spW (Memref.isWhole_whole _) enW (Memref.isWhole_whole _) tbW (Memref.isWhole_whole _) i16W (Memref.isWhole_whole _)
          oW (Memref.isWhole_whole _) s0 (Memref.isWhole_whole _) s1 (Memref.isWhole_whole _) s2 (Memref.isWhole_whole _) s3 (Memref.isWhole_whole _)
          s4 (Memref.isWhole_whole _) s5 (Memref.isWhole_whole _) s6 (Memref.isWhole_whole _) s7 (Memref.isWhole_whole _) s8 (Memref.isWhole_whole _)
          cc0_scratch9 cc0_scratch10 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the run's function of a block must satisfy for the launch: on tile L's block it is `G d`, whatever the
    scratches held and whatever the tile owes. -/
def BlockOK : Prop :=
  ∀ (d : Dev nD) (L : grid0.Coords) (O : CellTallies nD τ sig (HIx 1)) (W : Waits sig (HIx 1)) (hO : ∀ g, O g none = 0) (q : PosShare TreeShare)
    f0 f1 f2 f3 f4 f5 f6 f7 f8, ∀ y ∈ oSet (widL L),
      (tileRun d L O W hO q).1 (m (spLoc d)) (m (enLoc d)) (m (tbLoc d)) (ficOf m d) (m (oLoc d)) f0 f1 f2 f3 f4 f5 f6 f7 f8 y = G d y

theorem tileObl (hF : (K (F := F)).Facts) (hG : BlockOK m G) : (K (F := F)).TileObl (D (F := F)) 𝒱 (P m G) v₀ 0 := by
  intro d c i O W hO _ _
  simp only [show (P m G).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widL (coordsV ⟨_, hc.1⟩ ⟨_, hc.2⟩) = wid (Fin.cast nCore_zero c) (Fin.cast nSub_zero i) := Fin.ext rfl
  have key := tile_body d (coordsV ⟨_, hc.1⟩ ⟨_, hc.2⟩) hF O W hO (qTok (wid (Fin.cast nCore_zero c) (Fin.cast nSub_zero i)))
    (m (spLoc d)) (m (enLoc d)) (m (tbLoc d)) (ficOf m d) (m (oLoc d)) (G d)
    (fun f0 f1 f2 f3 f4 f5 f6 f7 f8 => hG d _ O W hO _ f0 f1 f2 f3 f4 f5 f6 f7 f8)
  rw [hw] at key
  exact key.trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m G) 0 := by
  intro d c
  show (bigSep Finset.univ fun i : Fin 16 => tileGo m d (wid (Fin.cast nCore_zero c) i)) ⊢ |={Set.univ}=> iprop(
      (bigSep Finset.univ fun i : Fin ((K (F := F)).nSub 0) => tileGo m d (wid (Fin.cast nCore_zero c) (Fin.cast nSub_zero i)))
      ∗ ((bigSep Finset.univ fun i : Fin ((K (F := F)).nSub 0) => tileTd m G d (wid (Fin.cast nCore_zero c) (Fin.cast nSub_zero i)))
          -∗ bigSep Finset.univ fun i : Fin 16 => tileTd m G d (wid (Fin.cast nCore_zero c) i)))
  rw [bigSep_tasks (F := F) (fun i => tileGo m d (wid (Fin.cast nCore_zero c) i)),
    bigSep_tasks (F := F) (fun i => tileTd m G d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m G).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
/-- The broadcast of the intercept to sixteen copies. -/
abbrev opB : HloOp τ sig (Elt F) :=
  StableHlo.unary main_arg3 main_v0 (broadcastInDim S16 ![] bcast_S_S16 : (⟨S_, .f32⟩ : BufTy).Contents (Elt F) → (⟨S16, .f32⟩ : BufTy).Contents (Elt F))
/-- The TensorCore's arrays, all unscoped. -/
abbrev S6 : Finset (DevRef τ sig) := {a0', a1', a2', a3', v0', v1'}

omit [FloatOps F] in
theorem held_S6 (d : Dev nD) (W : Valuation τ sig (Elt F)) :
    (held (T d) S6 W : sProp 𝕄) = iprop((spLoc d ↦{fullShare} W a0') ∗ (enLoc d ↦{fullShare} W a1') ∗ (tbLoc d ↦{fullShare} W a2')
      ∗ (icLoc d ↦{fullShare} W a3') ∗ (i16Loc d ↦{fullShare} W v0') ∗ (oLoc d ↦{fullShare} W v1')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((spLoc d ↦{fullShare} W main_arg0) ∗ (enLoc d ↦{fullShare} W main_arg1) ∗ (tbLoc d ↦{fullShare} W main_arg2)
      ∗ (icLoc d ↦{fullShare} W main_arg3) ∗ (i16Loc d ↦{fullShare} W main_v0) ∗ (oLoc d ↦{fullShare} W main_v1)) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

theorem hB : (opB (F := F)).bufs ⊆ S6 := show ({a3', v0'} : Finset (DevRef τ sig)) ⊆ S6 by decide

theorem res_v0 (d : Dev nD) : (opB (F := F)).result (V0 m d) v0' = ficOf m d := by
  exact StableHlo.unary_result _ _ _ _ _ _

/-- After the broadcast: the arguments and the result array as launched, the sixteen copies made. -/
theorem held_res (d : Dev nD) :
    (held (T d) S6 ((opB (F := F)).result (V0 m d)) : sProp 𝕄)
      = iprop((spLoc d ↦{fullShare} m (spLoc d)) ∗ (enLoc d ↦{fullShare} m (enLoc d)) ∗ (tbLoc d ↦{fullShare} m (tbLoc d))
        ∗ (icLoc d ↦{fullShare} m (icLoc d)) ∗ (i16Loc d ↦{fullShare} ficOf m d) ∗ (oLoc d ↦{fullShare} m (oLoc d))) := by
  rw [held_S6,
    (opB (F := F)).result_of_not_mem (V0 m d) (b := a0') (show a0' ∉ ({v0'} : Finset (DevRef τ sig)) by decide),
    (opB (F := F)).result_of_not_mem (V0 m d) (b := a1') (show a1' ∉ ({v0'} : Finset (DevRef τ sig)) by decide),
    (opB (F := F)).result_of_not_mem (V0 m d) (b := a2') (show a2' ∉ ({v0'} : Finset (DevRef τ sig)) by decide),
    (opB (F := F)).result_of_not_mem (V0 m d) (b := a3') (show a3' ∉ ({v0'} : Finset (DevRef τ sig)) by decide),
    (opB (F := F)).result_of_not_mem (V0 m d) (b := v1') (show v1' ∉ ({v0'} : Finset (DevRef τ sig)) by decide), res_v0]
  rfl

/-! The result array is its 32 blocks. -/
omit [FloatOps F] in
theorem oSet_eq (w : Fin 32) : oSet w = (oRect w).set := by
  show ((View.whole (main_v1_scv : Ref sig .scVector)).slice (oRect w)).set = _
  rw [View.set_slice]; exact Finset.map_refl
omit [FloatOps F] in
theorem blocks_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdiv32 h
omit [FloatOps F] in
theorem blocks_cover : (Finset.univ : Finset (Fin 32)).biUnion oSet = Finset.univ :=
  (Finset.biUnion_congr rfl fun i _ => oSet_eq i).trans (Rect.biUnion_part hdiv32)
omit [FloatOps F] in
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet blocks_disjoint, blocks_cover]; try rfl

/-- What the call takes for the two SparseCores: per array the 32 tiles' pieces. -/
theorem st0_eq (d : Dev nD) : (bigSep Finset.univ fun c : Fin ((K (F := F)).nCore 0) => (P m G).st 0 d c)
    = iprop((bigSep Finset.univ fun w : Fin 32 => spLoc d ↦{qTok w} m (spLoc d)) ∗ (bigSep Finset.univ fun w : Fin 32 => enLoc d ↦{qTok w} m (enLoc d))
      ∗ (bigSep Finset.univ fun w : Fin 32 => tbLoc d ↦{qTok w} m (tbLoc d)) ∗ (bigSep Finset.univ fun w : Fin 32 => i16Loc d ↦{qTok w} ficOf m d)
      ∗ (bigSep Finset.univ fun w : Fin 32 => oLoc d ↦[oSet w]{fullShare} m (oLoc d))) := by
  refine (bigSep_cores (F := F) (fun c => bigSep Finset.univ fun i : Fin 16 => tileGo m d (wid c i))).trans
    ((bigSep_univ_prod (fun p : Fin 2 × Fin 16 => tileGo m d (wid p.1 p.2))).symm.trans ((bigSep_univ_equiv widE (tileGo m d)).symm.trans ?_))
  unfold tileGo
  rw [bigSep_sep', bigSep_sep', bigSep_sep', bigSep_sep']
theorem dn0_eq (d : Dev nD) : (bigSep Finset.univ fun c : Fin ((K (F := F)).nCore 0) => (P m G).dn 0 d c)
    = iprop((bigSep Finset.univ fun w : Fin 32 => spLoc d ↦{qTok w} m (spLoc d)) ∗ (bigSep Finset.univ fun w : Fin 32 => enLoc d ↦{qTok w} m (enLoc d))
      ∗ (bigSep Finset.univ fun w : Fin 32 => tbLoc d ↦{qTok w} m (tbLoc d)) ∗ (bigSep Finset.univ fun w : Fin 32 => i16Loc d ↦{qTok w} ficOf m d)
      ∗ (bigSep Finset.univ fun w : Fin 32 => oLoc d ↦[oSet w]{fullShare} G d)) := by
  refine (bigSep_cores (F := F) (fun c => bigSep Finset.univ fun i : Fin 16 => tileTd m G d (wid c i))).trans
    ((bigSep_univ_prod (fun p : Fin 2 × Fin 16 => tileTd m G d (wid p.1 p.2))).symm.trans ((bigSep_univ_equiv widE (tileTd m G d)).symm.trans ?_))
  unfold tileTd
  rw [bigSep_sep', bigSep_sep', bigSep_sep', bigSep_sep']

/-- What @main leaves the claim: the four arguments as launched, the result at the one function. -/
abbrev FIN (d : Dev nD) : sProp 𝕄 :=
  iprop((spLoc d ↦{fullShare} m (spLoc d)) ∗ (enLoc d ↦{fullShare} m (enLoc d)) ∗ (tbLoc d ↦{fullShare} m (tbLoc d))
    ∗ (icLoc d ↦{fullShare} m (icLoc d)) ∗ (oLoc d ↦{fullShare} G d))

/-- @main on device d's TensorCore: the broadcast; each read-only array's 32 read shares and the result's 32 blocks to
    the tiles through the call and back; the shares rejoined, the blocks the whole result. -/
theorem hmain (κ : GSem nD τ sig → ℕ) (d : Dev nD) :
    iprop((K (F := F)).ctx EH (P m G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opB) (S := S6) hB (V := V0 m d)) $$ [Hb Hheld]
  · isplitl [Hb]; · iexact Hb
    iexact Hheld
  iintro ⟨Hb, Hheld⟩
  ihave Hh := (Entails.of_eq (held_res (F := F) m d)) $$ Hheld
  icases Hh with ⟨Hsp, Hen, Htb, Hic, Hi16, Ho⟩
  rw [wp_ret]; imodintro
  ihave Hsp := (Transfers.pointsTo_toks_split fullShare 32) $$ Hsp
  icases Hsp with ⟨HspR, HspT⟩
  ihave Hen := (Transfers.pointsTo_toks_split fullShare 32) $$ Hen
  icases Hen with ⟨HenR, HenT⟩
  ihave Htb := (Transfers.pointsTo_toks_split fullShare 32) $$ Htb
  icases Htb with ⟨HtbR, HtbT⟩
  ihave Hi16 := (Transfers.pointsTo_toks_split fullShare 32) $$ Hi16
  icases Hi16 with ⟨Hi16R, Hi16T⟩
  ihave Ho := (Entails.of_eq (oPts_blocks (F := F) d _)) $$ Ho
  iapply ((K (F := F)).wp_run (D (F := F)) 𝒱 (EH := EH) (P := P m G) κ d 0) $$ [Hst HspT HenT HtbT Hi16T Ho HspR HenR HtbR Hi16R Hic]
  isplitr; · iexact Hctx
  isplitl [Hst]; · iexact Hst
  isplitl [HspT HenT HtbT Hi16T Ho]
  · rw [st0_eq]
    isplitl [HspT]; · iexact HspT
    isplitl [HenT]; · iexact HenT
    isplitl [HtbT]; · iexact HtbT
    isplitl [Hi16T]; · iexact Hi16T
    iexact Ho
  iintro ⟨Hst, Hdn⟩
  ihave Hdn' := (Entails.of_eq (dn0_eq m G d)) $$ Hdn
  icases Hdn' with ⟨HspT, HenT, HtbT, Hi16T, Ho⟩
  ihave Hsp := (Transfers.pointsTo_toks_join fullShare 32) $$ [HspR HspT]
  · isplitl [HspR] <;> iassumption
  ihave Hen := (Transfers.pointsTo_toks_join fullShare 32) $$ [HenR HenT]
  · isplitl [HenR] <;> iassumption
  ihave Htb := (Transfers.pointsTo_toks_join fullShare 32) $$ [HtbR HtbT]
  · isplitl [HtbR] <;> iassumption
  ihave Ho := (Entails.of_eq (oPts_blocks (F := F) d _).symm) $$ Ho
  imodintro
  isplitl [Hst]; · iexact Hst
  isplitl [Hsp]; · iexact Hsp
  isplitl [Hen]; · iexact Hen
  isplitl [Htb]; · iexact Htb
  isplitl [Hic]; · iexact Hic
  iexact Ho

def fq (d : Dev nD) (s' : Phys nD τ sig (Elt F)) : Prop :=
  s'.mem.mem (spLoc d) = m (spLoc d) ∧ s'.mem.mem (enLoc d) = m (enLoc d) ∧ s'.mem.mem (tbLoc d) = m (tbLoc d)
    ∧ s'.mem.mem (icLoc d) = m (icLoc d) ∧ s'.mem.mem (oLoc d) = G d

theorem hfin (d : Dev nD) (s' : Phys nD τ sig (Elt F)) : iprop(FIN m G d ∗ SI s') ⊢ (⌜fq m G d s'⌝ : sProp 𝕄) := by
  iintro ⟨⟨Hsp, Hen, Htb, Hic, Ho⟩, HSI⟩
  ihave H := (persistent_entails_right (SI_pointsTo_agree (st := s') (ℓ := spLoc d) (I := Finset.univ) (q := fullShare) (f := m (spLoc d)))) $$ [HSI Hsp]
  · isplitl [HSI] <;> iassumption
  icases H with ⟨%h1, HSI, -⟩
  ihave H := (persistent_entails_right (SI_pointsTo_agree (st := s') (ℓ := enLoc d) (I := Finset.univ) (q := fullShare) (f := m (enLoc d)))) $$ [HSI Hen]
  · isplitl [HSI] <;> iassumption
  icases H with ⟨%h2, HSI, -⟩
  ihave H := (persistent_entails_right (SI_pointsTo_agree (st := s') (ℓ := tbLoc d) (I := Finset.univ) (q := fullShare) (f := m (tbLoc d)))) $$ [HSI Htb]
  · isplitl [HSI] <;> iassumption
  icases H with ⟨%h3, HSI, -⟩
  ihave H := (persistent_entails_right (SI_pointsTo_agree (st := s') (ℓ := icLoc d) (I := Finset.univ) (q := fullShare) (f := m (icLoc d)))) $$ [HSI Hic]
  · isplitl [HSI] <;> iassumption
  icases H with ⟨%h4, HSI, -⟩
  ihave H := (SI_pointsTo_agree (st := s') (ℓ := oLoc d) (I := Finset.univ) (q := fullShare) (f := G d)) $$ [HSI Ho]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (spLoc c) = m (spLoc c) ∧ r.2.mem (enLoc c) = m (enLoc c) ∧ r.2.mem (tbLoc c) = m (tbLoc c)
    ∧ r.2.mem (icLoc c) = m (icLoc c) ∧ r.2.mem (oLoc c) = G c

/-- Every weakly fair execution of the device's threads terminates, nothing faulting; the four arguments end as launched
    and the result array at `G`, whenever every tile's block of its run's function is `G`'s. -/
theorem run_main [∀ e, Nonempty (Elt F e)] (hG : BlockOK m G) :
    θ_run (Cert.KernelIdeal.defs (F := F)) (Cert.KernelIdeal.threads (F := F)) ⟨m, fun _ => 0, ρ⟩ (QC m G) :=
  SparseCore.Cfg.θ_run_sc (K := K (F := F)) (D := D (F := F)) (𝒱 := 𝒱) (EH := EH) (P := P m G) facts v₀
    (fun q hq => match q with | 0 => nomatch hq)
    (fun q _ => match q with | 0 => tileObl m G facts hG)
    (fun q _ => match q with | 0 => SparseCore.Cfg.VecSplit.of_plain (vecSplit m G))
    m ρ main (fun _ => iprop(emp)) (FIN m G) (u₀ (F := F)) (sep_elim_left.trans (hu₀ m G)) (hmain m ρ G) (fq m G) (hfin m G) (QC m G) (fun _ h => h)

end Cert.Proof.KI

end
-- ==== Proof.KISpec.lean ====
/-
  What the energy adder computes, as plain functions of the arrays.

  A row of 200 species words is read as twelve 16-lane pieces and a tail of 8 words (lanes 8..15 of a 16-lane piece at
  column 184, its lanes 0..7 masked to zero). For g the identity, the halving s ↦ s >> 1, or s ↦ s & (s >> 1), lane j of
  the row's partial sum is the sum over the twelve pieces of g at lane j, plus g of the masked tail's lane j; the row's
  total is the sum of the sixteen lanes. Sums are sums of 32-bit words, so their order is immaterial. The energy of a row
  is base + k1·S + k2·S1 + k3·S3 with the four scalars computed from the table's words, plus the row's energy, plus the
  intercept.
-/
import proofs.«206979_g57535381897292_cont_9to1_m_841_24_alg».proof.Proof.KIBase
import Idealize.ShloMosaic.Lib.ValueIdx
import Mathlib.Data.BitVec
import Mathlib.Algebra.BigOperators.Group.Finset.Basic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open ValueIdx

/-- The halving of a word (a signed shift by one). -/
def shr1 (v : BitVec 32) : BitVec 32 := IntOp.shrsi .vector v 1#32
/-- A word and its halving, bitwise: 1 exactly at the word 3 among 0, 1, 2, 3. -/
def and1 (v : BitVec 32) : BitVec 32 := IntOp.andi v (shr1 v)

/-- Lane j of a row's partial sum under g: the twelve whole pieces' lane j, and g of the masked tail's lane j. -/
def rowLane (g : BitVec 32 → BitVec 32) (X : S128x200.Idx → BitVec 32) (r : Fin 128) (j : Fin 16) : BitVec 32 :=
  (∑ p : Fin 12, g (X (ix2 r ⟨16 * p.val + j.val, by omega⟩)))
    + g (if 8 ≤ j.val then X (ix2 r ⟨184 + j.val, by omega⟩) else 0#32)

/-- A row's total under g: the sum of its sixteen lanes. -/
def rowTot (g : BitVec 32 → BitVec 32) (X : S128x200.Idx → BitVec 32) (r : Fin 128) : BitVec 32 := ∑ j : Fin 16, rowLane g X r j

/-- The energy expression, in the kernel's order of operations: the scalars from a 16-lane vector whose lanes 0..3 are
    the table, the three integer totals, the row's energy and the intercept. -/
def energyOf (v9 : Vec F S16 .f32) (T0 T1 T3 : BitVec 32) (e ic : F .f32) : F .f32 :=
  FloatOps.addf (FloatOps.addf
    (FloatOps.addf (FloatOps.addf (FloatOps.addf (k0_pay424 v9) (FloatOps.mulf (k0_pay421 v9) (FloatOps.sitofp .f32 T0)))
      (FloatOps.mulf (k0_pay422 v9) (FloatOps.sitofp .f32 T1))) (FloatOps.mulf (k0_pay423 v9) (FloatOps.sitofp .f32 T3))) e) ic

/-- The sum over all 200 columns of row R of the species array under g. -/
def colTot (g : BitVec 32 → BitVec 32) (sp : S16384x200.Idx → BitVec 32) (R : Fin 16384) : BitVec 32 := ∑ c : Fin 200, g (sp (ix2 R c))

/-- The table's four words as lanes 0..3 of a 16-lane vector (the other lanes repeat them: the scalars read lanes 0..3 only). -/
def tbVec (tb : S4.Idx → F .f32) : Vec F S16 .f32 := fun x => tb (ix1 ⟨(x 0).val % 4, Nat.mod_lt _ (by decide)⟩)

/-- The result array as ONE function of the argument arrays: entry R is the energy expression at row R's three totals,
    energy R and lane R mod 16 of the sixteen copies of the intercept. -/
def outSpec (sp : S16384x200.Idx → BitVec 32) (en : S16384.Idx → F .f32) (tb : S4.Idx → F .f32) (ic16 : S16.Idx → F .f32) :
    S16384.Idx → F .f32 := fun y =>
  energyOf (tbVec tb) (colTot id sp (y 0)) (colTot shr1 sp (y 0)) (colTot and1 sp (y 0)) (en y) (ic16 (ix1 ⟨(y 0).val % 16, Nat.mod_lt _ (by decide)⟩))

end Cert.Proof.KI

end
-- ==== Proof.LibEnergyAlgebra.lean ====
/-
  Arithmetic behind reading a four-entry table through three integer counters.

  For s in {0, 1, 2, 3} and a table t0, t1, t2, t3,
    t_s = t0 + (t1 - t0)·s + ((t2 + t0) - 2·t1)·⌊s/2⌋ + (((t3 - t2) - t1) + t0)·[s = 3],
  where ⌊s/2⌋ is the arithmetic shift of s right by one and [s = 3] is the bitwise and of s with that shift.
  Summed over a row, the sum of the table's entries is a fixed combination of the row's length, the sum of
  the entries, the sum of their halves and the number of entries equal to 3.

  Three parts: the 32-bit integer facts (shift, and, sums that do not wrap, the range read off two signed
  comparisons); the identity over the reals and over the extended reals; and the regrouping of a row of 200
  entries into twelve pieces of sixteen lanes and a tail of eight.
-/
import Idealize.ShloMosaic.PureOps.Ideal

open scoped BigOperators
open Idealize.ShloMosaic

namespace Cert.Proof.LibEnergyAlgebra

/-! ## Integers: 32-bit words read signed -/

/-- The sum of two 32-bit words read signed, both non-negative and with bounds adding up below 2^31, does not wrap. -/
theorem addi_toInt (a b : BitVec 32) (A B : Int) (ha : 0 ≤ a.toInt ∧ a.toInt ≤ A) (hb : 0 ≤ b.toInt ∧ b.toInt ≤ B)
    (hAB : A + B < 2 ^ 31) :
    (IntOp.addi a b).toInt = a.toInt + b.toInt ∧ 0 ≤ (IntOp.addi a b).toInt ∧ (IntOp.addi a b).toInt ≤ A + B := by
  have e : (IntOp.addi a b).toInt = a.toInt + b.toInt := by
    unfold IntOp.addi
    rw [BitVec.toInt_add]
    have ea := BitVec.toInt_eq_toNat_cond a
    have eb := BitVec.toInt_eq_toNat_cond b
    have := a.isLt
    have := b.isLt
    rw [Int.bmod_def]
    omega
  refine ⟨e, ?_, ?_⟩ <;> rw [e] <;> omega

/-- A 32-bit word whose signed reading is between 0 and 3 is one of the four words 0, 1, 2, 3. -/
theorem eq_of_small (v : BitVec 32) (h0 : 0 ≤ v.toInt) (h3 : v.toInt ≤ 3) :
    v = 0#32 ∨ v = 1#32 ∨ v = 2#32 ∨ v = 3#32 := by
  have e := BitVec.toInt_eq_toNat_cond v
  have hl := v.isLt
  have hn : v.toNat = 0 ∨ v.toNat = 1 ∨ v.toNat = 2 ∨ v.toNat = 3 := by omega
  rcases hn with h | h | h | h
  · left; exact BitVec.eq_of_toNat_eq (by simpa using h)
  · right; left; exact BitVec.eq_of_toNat_eq (by simpa using h)
  · right; right; left; exact BitVec.eq_of_toNat_eq (by simpa using h)
  · right; right; right; exact BitVec.eq_of_toNat_eq (by simpa using h)

/-- The arithmetic shift right by one of a word between 0 and 3 is the integer half. -/
theorem shr_of_small (v : BitVec 32) (h0 : 0 ≤ v.toInt) (h3 : v.toInt ≤ 3) :
    (IntOp.shrsi .vector v 1#32).toInt = v.toInt / 2 := by
  rcases eq_of_small v h0 h3 with rfl | rfl | rfl | rfl <;> decide

/-- The same on the scalar unit. -/
theorem shr_of_small_scalar (v : BitVec 32) (h0 : 0 ≤ v.toInt) (h3 : v.toInt ≤ 3) :
    (IntOp.shrsi .scalar v 1#32).toInt = v.toInt / 2 := by
  rcases eq_of_small v h0 h3 with rfl | rfl | rfl | rfl <;> decide

/-- For a word s between 0 and 3, the bitwise and of s with its half is 1 when s = 3 and 0 otherwise. -/
theorem and_shr_of_small (v : BitVec 32) (h0 : 0 ≤ v.toInt) (h3 : v.toInt ≤ 3) :
    (IntOp.andi v (IntOp.shrsi .vector v 1#32)).toInt = if v.toInt = 3 then 1 else 0 := by
  rcases eq_of_small v h0 h3 with rfl | rfl | rfl | rfl <;> decide

/-- The half of the zero word is the zero word. -/
theorem shr_zero : IntOp.shrsi .vector 0#32 1#32 = 0#32 := by decide

/-- The bitwise and of two zero words is the zero word. -/
theorem and_zero : IntOp.andi 0#32 0#32 = 0#32 := by decide

/-- The zero word reads as the integer zero. -/
theorem toInt_zero32 : (0#32 : BitVec 32).toInt = 0 := by decide

/-- The conjunction of the two signed comparisons 0 ≤ v and v ≤ 3 being true bounds the signed reading of v. -/
theorem sle_sge_small (v : BitVec 32) (h : IntOp.andi (IntOp.cmpi .sge v 0#32) (IntOp.cmpi .sle v 3#32) = 1#1) :
    0 ≤ v.toInt ∧ v.toInt ≤ 3 := by
  have hand : ∀ c d : BitVec 1, IntOp.andi c d = 1#1 → c = 1#1 ∧ d = 1#1 := by decide
  obtain ⟨h1, h2⟩ := hand _ _ h
  have hb : ∀ b : Bool, BitVec.ofBool b = 1#1 → b = true := by decide
  have g1 : (0#32 : BitVec 32).sle v = true := hb _ h1
  have g2 : v.sle 3#32 = true := hb _ h2
  rw [BitVec.sle_iff_toInt_le] at g1 g2
  have z0 : (0#32 : BitVec 32).toInt = 0 := by decide
  have z3 : (3#32 : BitVec 32).toInt = 3 := by decide
  rw [z0] at g1
  rw [z3] at g2
  exact ⟨g1, g2⟩

/-- The arithmetic shift right by one halves the signed reading (rounding down), for every 32-bit word and on
    either unit. -/
theorem shr_toInt (u : ArithUnit) (v : BitVec 32) : (IntOp.shrsi u v 1#32).toInt = v.toInt / 2 := by
  unfold IntOp.shrsi
  rw [if_pos (by decide)]
  show (v.sshiftRight 1).toInt = v.toInt / 2
  rw [BitVec.toInt_sshiftRight, Int.shiftRight_eq_div_pow]
  rfl

/-! ## Reals and extended reals -/

/-- The inclusion of the reals in the extended reals commutes with finite sums. -/
theorem coe_finset_sum {ι : Type*} (A : Finset ι) (f : ι → ℝ) :
    ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- The four-entry table read through the three counters, at one entry: for n in {0,1,2,3},
    t0 + (t1 - t0)·n + (t2 + t0 - 2·t1)·⌊n/2⌋ + (t3 - t2 - t1 + t0)·[n = 3] is the n-th entry. -/
theorem energy_pointwise (t0 t1 t2 t3 : ℝ) (tab : Int → ℝ) (h0 : tab 0 = t0) (h1 : tab 1 = t1) (h2 : tab 2 = t2)
    (h3 : tab 3 = t3) (n : Int) (hn0 : 0 ≤ n) (hn3 : n ≤ 3) :
    t0 + (t1 - t0) * (n : ℝ) + ((t2 + t0) - 2 * t1) * ((n / 2 : Int) : ℝ)
        + (((t3 - t2) - t1) + t0) * ((if n = 3 then (1 : Int) else 0 : Int) : ℝ) = tab n := by
  have hcases : n = 0 ∨ n = 1 ∨ n = 2 ∨ n = 3 := by omega
  rcases hcases with rfl | rfl | rfl | rfl
  · rw [h0]; norm_num
  · rw [h1]; norm_num
  · rw [h2]; norm_num; ring
  · rw [h3]; norm_num; ring

/-- Summed over a finite family of entries in {0,1,2,3}: the table's sum is read off the three counters
    (the sum of the entries, of their halves, and the number of entries equal to 3). -/
theorem energy_identity_real {ι : Type*} [Fintype ι] (t0 t1 t2 t3 : ℝ) (s : ι → Int) (hs : ∀ k, 0 ≤ s k ∧ s k ≤ 3)
    (tab : Int → ℝ) (h0 : tab 0 = t0) (h1 : tab 1 = t1) (h2 : tab 2 = t2) (h3 : tab 3 = t3) :
    (t0 * (Fintype.card ι : ℝ) + (t1 - t0) * (∑ k, (s k : ℝ)))
        + ((t2 + t0) - 2 * t1) * (∑ k, ((s k / 2 : Int) : ℝ))
        + (((t3 - t2) - t1) + t0) * (∑ k, ((if s k = 3 then (1 : Int) else 0 : Int) : ℝ))
      = ∑ k, tab (s k) := by
  calc _ = ∑ k, (t0 + (t1 - t0) * (s k : ℝ) + ((t2 + t0) - 2 * t1) * ((s k / 2 : Int) : ℝ)
              + (((t3 - t2) - t1) + t0) * ((if s k = 3 then (1 : Int) else 0 : Int) : ℝ)) := by
        simp only [Finset.sum_add_distrib, ← Finset.mul_sum, Finset.sum_const, Finset.card_univ, nsmul_eq_mul]
        ring
    _ = ∑ k, tab (s k) :=
        Finset.sum_congr rfl fun k _ => energy_pointwise t0 t1 t2 t3 tab h0 h1 h2 h3 (s k) (hs k).1 (hs k).2

/-- The same over a row of 200 entries, in the extended reals, with two further summands e and c moved to
    where the reference has them. -/
theorem energy_identity_ereal (t0 t1 t2 t3 : ℝ) (s : Fin 200 → Int) (hs : ∀ k, 0 ≤ s k ∧ s k ≤ 3)
    (tab : Int → ℝ) (h0 : tab 0 = t0) (h1 : tab 1 = t1) (h2 : tab 2 = t2) (h3 : tab 3 = t3)
    (S S1 S3 : Int) (hS : S = ∑ k, s k) (hS1 : S1 = ∑ k, s k / 2) (hS3 : S3 = ∑ k, if s k = 3 then 1 else 0)
    (e c : EReal) :
    ((((((t0 : EReal) * ((200 : ℝ) : EReal) + (((t1 : EReal) - (t0 : EReal)) * ((S : ℝ) : EReal)))
        + ((((t2 : EReal) + (t0 : EReal)) - ((2 : ℝ) : EReal) * (t1 : EReal)) * ((S1 : ℝ) : EReal)))
        + (((((t3 : EReal) - (t2 : EReal)) - (t1 : EReal)) + (t0 : EReal)) * ((S3 : ℝ) : EReal))) + e) + c)
      = e + ((∑ k, ((tab (s k) : ℝ) : EReal)) + c) := by
  refine (fun (X Y : EReal) (hXY : X = Y) =>
    (by rw [hXY, add_comm Y e, add_assoc] : (X + e) + c = e + (Y + c))) _ _ ?_
  have key := energy_identity_real (ι := Fin 200) t0 t1 t2 t3 s hs tab h0 h1 h2 h3
  have c1 : (∑ k, (s k : ℝ)) = ((S : ℤ) : ℝ) := by rw [hS, Int.cast_sum]
  have c2 : (∑ k, ((s k / 2 : ℤ) : ℝ)) = ((S1 : ℤ) : ℝ) := by rw [hS1, Int.cast_sum]
  have c3 : (∑ k, ((if s k = 3 then (1 : ℤ) else 0 : ℤ) : ℝ)) = ((S3 : ℤ) : ℝ) := by rw [hS3, Int.cast_sum]
  have c200 : ((Fintype.card (Fin 200) : ℕ) : ℝ) = (200 : ℝ) := by rw [Fintype.card_fin]; norm_num
  rw [c1, c2, c3, c200] at key
  rw [← coe_finset_sum, ← key]
  simp only [EReal.coe_add, EReal.coe_mul, EReal.coe_sub]

/-- An extended real whose absolute value max x (-x) is below the pattern of +∞ is a real number. -/
theorem real_of_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hb : ∀ b : Bool, BitVec.ofBool b = 1#1 → b = true := by decide
  have hlt : max x (-x) < ⊤ := of_decide_eq_true (hb _ h)
  rw [max_lt_iff] at hlt
  induction x using EReal.rec with
  | bot => simp at hlt
  | coe r => exact ⟨r, rfl⟩
  | top => simp at hlt

/-- The same, spelt through the float operations of the extended-real instance: the host's |x| < +∞. -/
theorem real_of_cmpf_olt_inf (x : Ideal .f32)
    (h : FloatOps.cmpf .olt (FloatOps.hostAbsf x) (FloatOps.ofBits (F := Ideal) .f32 0x7F800000#32) = 1#1) :
    ∃ r : ℝ, x = ((r : ℝ) : EReal) :=
  real_of_olt_inf x h

/-! ## A row of 200 entries as pieces of sixteen lanes -/

/-- A row of 200 entries is twelve pieces of 16 followed by a tail of 8. -/
theorem sum_split_200 {M : Type*} [AddCommMonoid M] (f : Fin 200 → M) :
    ∑ k, f k = (∑ j : Fin 12, ∑ l : Fin 16, f ⟨16 * j + l, by omega⟩) + ∑ l : Fin 8, f ⟨192 + l, by omega⟩ := by
  refine (Fin.sum_univ_add (a := 192) (b := 8) f).trans ?_
  congr 1
  · refine ((finProdFinEquiv (m := 12) (n := 16)).sum_comp (fun i : Fin (12 * 16) => f (Fin.castAdd 8 i))).symm.trans ?_
    rw [Fintype.sum_prod_type]
    refine Finset.sum_congr rfl fun j _ => Finset.sum_congr rfl fun l _ => ?_
    congr 1
    apply Fin.ext
    show l.val + 16 * j.val = 16 * j.val + l.val
    omega

/-- The same row regrouped by lane: lane l of each of the twelve pieces, and the tail read as lanes 8..15 of a
    16-lane piece at offset 184 whose low 8 lanes count for nothing. -/
theorem sum_lanes {M : Type*} [AddCommMonoid M] (f : Fin 200 → M) :
    ∑ k, f k = ∑ l : Fin 16, ((∑ j : Fin 12, f ⟨16 * j + l, by omega⟩)
        + (if h : 8 ≤ l.val then f ⟨184 + l, by omega⟩ else 0)) := by
  rw [sum_split_200 f, Finset.sum_add_distrib, Finset.sum_comm]
  congr 1
  refine ((Fin.sum_univ_add (a := 8) (b := 8)
    (fun l : Fin (8 + 8) => if h : 8 ≤ l.val then f ⟨184 + l.val, by omega⟩ else 0)).trans ?_).symm
  have hz : ∑ i : Fin 8, (fun l : Fin (8 + 8) => if h : 8 ≤ l.val then f ⟨184 + l.val, by omega⟩ else 0)
      (Fin.castAdd 8 i) = 0 := by
    refine Finset.sum_eq_zero fun i _ => ?_
    have : ¬ 8 ≤ (Fin.castAdd 8 i).val := by simp
    simp only [dif_neg this]
  rw [hz, zero_add]
  refine Finset.sum_congr rfl fun i _ => ?_
  have h8 : 8 ≤ (Fin.natAdd 8 i).val := by simp
  simp only [dif_pos h8]
  congr 1
  apply Fin.ext
  show 184 + (8 + i.val) = 192 + i.val
  omega

end Cert.Proof.LibEnergyAlgebra
-- ==== Proof.KIValLib.lean ====
/-
  Lane-level readings shared by the value lemmas of the row loops and of the group loops. For a row trip: a 16-lane load
  of a species row read at a lane, the mask of the high lanes, a sum over twelve pieces written out, and the two orders
  in which a row trip adds its thirteen vectors (two accumulators from zero for the even and the odd pieces, then the
  masked tail), each equal to the plain sum because addition of 32-bit words is commutative and associative. For a group
  trip: a gather through one index vector read at a lane, a 16-lane load of the energies read at a lane, sixteen words
  added one after the other onto zero, and the energy expression as a function of its three totals.
-/
import proofs.«206979_g57535381897292_cont_9to1_m_841_24_alg».proof.Proof.KISpec
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A 16-lane load at row r, column c of a 128 × 200 buffer, read as a 16-lane vector: lane j is the buffer's entry at
    row r, column c + j. -/
theorem piece_apply {κ : Kind} {sp : Space} (v : View sig κ sp S128x200 .i32) (f : v.ty.Contents (Elt F))
    (off : Fin 2 → Nat) (inb : ∀ a, off a + (![1, 16] : Fin 2 → Nat) a ≤ S128x200.size a) (h : S1x16.ShapeCasts S16)
    (r c : Nat) (hoff : off = ![r, c]) (j : S16.Idx) (hr : r < 128) (hc : c + (j 0).val < 200) :
    shapeCast S16 (View.readAt (Elt F) v (Rect.unit (s := S128x200) off ![1, 16] inb).toLoadRect f) h j
      = v.read (Elt F) f (ix2 ⟨r, hr⟩ ⟨c + (j 0).val, hc⟩) := by
  subst hoff
  refine ((congrArg (shapeCast S16 _ h) (eq_ix1 j)).trans (shapeCast_1a_a_apply _ h (j 0))).trans ?_
  rw [View.readAt_apply]
  congr 1
  funext a
  match a with
  | ⟨0, _⟩ => exact Fin.ext (by show r + 1 * 0 = r; omega)
  | ⟨1, _⟩ => exact Fin.ext (by show c + 1 * (j 0).val = c + (j 0).val; omega)

/-- The mask of the high lanes: lane x is set exactly when x ≥ 8. -/
theorem pay417_apply (x : S16.Idx) : k0_pay417 x = 1#1 ↔ 8 ≤ (x 0).val := by
  have hx : (x 0).val < 16 := (x 0).isLt
  show IntOp.cmpi .sge (BitVec.ofNat 32 ((0 : Nat) * 16 + (x 0).val)) 8#32 = 1#1 ↔ 8 ≤ (x 0).val
  generalize (x 0).val = n at hx
  interval_cases n <;> decide

/-- A select on the high-lane mask is a choice on the lane's number. -/
theorem select_pay417 {α : Type} (x : S16.Idx) (a b : α) :
    Scalar.select (k0_pay417 x) a b = if 8 ≤ (x 0).val then a else b := by
  unfold Scalar.select
  by_cases h : 8 ≤ (x 0).val
  · rw [if_pos h]; exact if_pos ((pay417_apply x).mpr h)
  · rw [if_neg h]; exact if_neg fun hc => h ((pay417_apply x).mp hc)

/-- A sum over twelve terms, written out. -/
theorem sum12 {M : Type*} [AddCommMonoid M] (f : Fin 12 → M) :
    ∑ p, f p = f 0 + (f 1 + (f 2 + (f 3 + (f 4 + (f 5 + (f 6 + (f 7 + (f 8 + (f 9 + (f 10 + f 11)))))))))) := by
  simp only [Fin.sum_univ_succ, Fin.sum_univ_zero, add_zero]
  rfl

/-- The row's sum as the kernel adds the words themselves: the even pieces and the odd pieces in two accumulators
    from zero, the last odd piece added to its accumulator, then the two accumulators, then the tail. -/
theorem lane_sum_a (A : Fin 12 → BitVec 32) (t : BitVec 32) (a0 a1 a2 a3 a4 a5 a6 a7 a8 a9 a10 a11 tt : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (ht : tt = t) :
    (0#32 + a0 + a2 + a4 + a6 + a8 + a10) + ((0#32 + a1 + a3 + a5 + a7 + a9) + a11) + tt = (∑ p, A p) + t := by
  subst h0 h1 h2 h3 h4 h5 h6 h7 h8 h9 h10 h11 ht
  rw [sum12]
  simp only [BitVec.zero_add]
  ac_rfl

/-- The row's sum as the kernel adds the halves and the indicators: five even and five odd pieces in two accumulators
    from zero, the last even and the last odd piece added each to its accumulator, then the two, then the tail. -/
theorem lane_sum_b (A : Fin 12 → BitVec 32) (t : BitVec 32) (a0 a1 a2 a3 a4 a5 a6 a7 a8 a9 a10 a11 tt : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (ht : tt = t) :
    ((0#32 + a0 + a2 + a4 + a6 + a8) + a10) + ((0#32 + a1 + a3 + a5 + a7 + a9) + a11) + tt = (∑ p, A p) + t := by
  subst h0 h1 h2 h3 h4 h5 h6 h7 h8 h9 h10 h11 ht
  rw [sum12]
  simp only [BitVec.zero_add]
  ac_rfl

/-- A lane's number is below 16. -/
theorem lane_lt16 (j : S16.Idx) : (j 0).val < 16 := (j 0).isLt

/-- The sum of the sixteen words of row r of a partial-sum scratch: words 17 r, …, 17 r + 15. -/
def gath (G : S2176.Idx → BitVec 32) (r : Fin 128) : BitVec 32 :=
  ∑ i : Fin 16, G (ix1 ⟨17 * r.val + i.val, by have := r.isLt; have := i.isLt; omega⟩)

/-- A gather out of a 2176-word buffer through one index vector, at a lane: the buffer's word at that lane's index. -/
theorem gather_apply {κ : Kind} {sp : Space} (v : View sig κ sp S2176 .i32) (G : v.ty.Contents (Elt F))
    (iv : IVec S16 32) (h : ∀ a x, ((![iv] : Fin 1 → IVec S16 32) a x).toNat < S2176.size a) (x : S16.Idx)
    (n : Nat) (hn : (iv x).toNat = n) (hlt : n < 2176) :
    loadIdx (View.readAt (Elt F) v (LoadRect.whole S2176) G) ![iv] h x = v.read (Elt F) G (ix1 ⟨n, hlt⟩) := by
  unfold loadIdx
  rw [View.readAt_apply]
  congr 1
  funext a
  match a with
  | ⟨0, _⟩ => exact Fin.ext (by show 0 + 1 * (iv x).toNat = n; omega)

/-- A 16-lane load at offset c of a 512-word buffer, at a lane: the buffer's word c + j. -/
theorem slice16_apply {κ : Kind} {sp : Space} (v : View sig κ sp S512 .f32) (f : v.ty.Contents (Elt F))
    (off : Fin 1 → Nat) (inb : ∀ a, off a + (![16] : Fin 1 → Nat) a ≤ S512.size a)
    (c : Nat) (hoff : off = ![c]) (j : S16.Idx) (hc : c + (j 0).val < 512) :
    View.readAt (Elt F) v (Rect.unit (s := S512) off ![16] inb).toLoadRect f j
      = v.read (Elt F) f (ix1 ⟨c + (j 0).val, hc⟩) := by
  subst hoff
  rw [View.readAt_apply]
  congr 1
  funext a
  match a with
  | ⟨0, _⟩ => exact Fin.ext (by show c + 1 * (j 0).val = c + (j 0).val; omega)

/-- A sum over sixteen terms, written out. -/
theorem sum16 {M : Type*} [AddCommMonoid M] (f : Fin 16 → M) :
    ∑ p, f p = f 0 + (f 1 + (f 2 + (f 3 + (f 4 + (f 5 + (f 6 + (f 7 + (f 8 + (f 9 + (f 10 + (f 11 + (f 12 + (f 13
      + (f 14 + f 15)))))))))))))) := by
  simp only [Fin.sum_univ_succ, Fin.sum_univ_zero, add_zero]
  rfl

/-- Sixteen words added one after the other onto zero are their sum. -/
theorem lane_sum16 (A : Fin 16 → BitVec 32) (a0 a1 a2 a3 a4 a5 a6 a7 a8 a9 a10 a11 a12 a13 a14 a15 : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (h12 : a12 = A 12)
    (h13 : a13 = A 13) (h14 : a14 = A 14) (h15 : a15 = A 15) :
    0#32 + a0 + a1 + a2 + a3 + a4 + a5 + a6 + a7 + a8 + a9 + a10 + a11 + a12 + a13 + a14 + a15 = ∑ p, A p := by
  subst h0 h1 h2 h3 h4 h5 h6 h7 h8 h9 h10 h11 h12 h13 h14 h15
  rw [sum16]
  simp only [BitVec.zero_add]
  ac_rfl

/-- The energy expression is a function of its three totals, the row's energy and the intercept. -/
theorem energy_congr (v9 : Vec F S16 .f32) (T0 T1 T3 T0' T1' T3' : BitVec 32) (e ic e' ic' : F .f32)
    (h0 : T0' = T0) (h1 : T1' = T1) (h3 : T3' = T3) (he : e' = e) (hic : ic' = ic) :
    FloatOps.addf (FloatOps.addf
      (FloatOps.addf (FloatOps.addf (FloatOps.addf (k0_pay424 v9) (FloatOps.mulf (k0_pay421 v9) (FloatOps.sitofp .f32 T0')))
        (FloatOps.mulf (k0_pay422 v9) (FloatOps.sitofp .f32 T1'))) (FloatOps.mulf (k0_pay423 v9) (FloatOps.sitofp .f32 T3'))) e') ic'
      = energyOf v9 T0 T1 T3 e ic := by
  subst h0 h1 h3 he hic
  rfl

end Cert.Proof.KI

end
-- ==== Proof.KIValPre.lean ====
/-
  The pieces of the energy adder's value, each read at an index. A tile's block starts at row 512 w. The five copies a
  tile makes read the arrays at the block's rows: chunk c of the species at local row r is the array's row
  512 w + 128 c + r, the 512 energies are the array's entries 512 w + j. A row's total under g (the identity, the
  halving, the indicator of 3), summed lane by lane with a masked tail, is the sum of g over the row's 200 words, since
  g fixes the zero word. The intercept vector's lanes are the sixteen copies; the table vector's lanes 0 to 3 are the
  table, and the four scalars read those lanes only. The block after the write-out holds the output scratch. Last, the
  energy expression of a chunk's row, with these readings, is the result function at the global row.
-/
import proofs.«206979_g57535381897292_cont_9to1_m_841_24_alg».proof.Proof.KILaunch
import proofs.«206979_g57535381897292_cont_9to1_m_841_24_alg».proof.Proof.KISpec
import proofs.«206979_g57535381897292_cont_9to1_m_841_24_alg».proof.Proof.LibEnergyAlgebra
import proofs.«206979_g57535381897292_cont_9to1_m_841_24_alg».proof.Proof.KIValLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]
open ValueIdx
open Cert.Proof.LibEnergyAlgebra
open scoped BigOperators

/-! ## The tile's block -/

/-- The first row of tile L's block: 512 times its number. -/
theorem base_eq (L : grid0.Coords) : 1024 * (L 1).val + 512 * (L 0).val = 512 * (widL L).val := by
  show 1024 * (L 1).val + 512 * (L 0).val = 512 * (2 * (L 1).val + (L 0).val)
  omega

theorem widL_lt (L : grid0.Coords) : (widL L).val < 32 := (widL L).isLt

/-! ## The copies, read at an index -/

section Copies
variable (d : Dev nD) (L : grid0.Coords)

/-- A 128-row slice of the species array starting at row R, read at (r, k): the array at (R + r, k). -/
theorem sp_slice_apply (fsp : Buf (Elt F) (spLoc d)) (off : Fin 2 → Nat)
    (inb : ∀ a, off a + S128x200.size a ≤ S16384x200.size a) (R : Nat) (hoff : off = ![R, 0])
    (r : Fin 128) (k : Fin 200) (hR : R + r.val < 16384) :
    View.read (Elt F) ((spW).slice (Rect.unit (s := S16384x200) off S128x200.size inb) (fun _ => rfl)).view fsp (ix2 r k)
      = fsp (ix2 ⟨R + r.val, hR⟩ k) := by
  subst hoff
  show View.read (Elt F) (View.whole main_arg0_scv) fsp
      ((Rect.unit (s := S16384x200) ![R, 0] S128x200.size inb).toLoadRect.idx (ix2 r k))
    = View.read (Elt F) (View.whole main_arg0_scv) fsp (ix2 ⟨R + r.val, hR⟩ k)
  congr 1
  funext a
  match a with
  | ⟨0, _⟩ => exact Fin.ext (by show R + 1 * r.val = R + r.val; omega)
  | ⟨1, _⟩ => exact Fin.ext (by show 0 + 1 * k.val = k.val; omega)

/-- The tile's 512 energies, read at j: the array at 512 w + j. -/
theorem en_slice_apply (fen : Buf (Elt F) (enLoc d)) (off : Fin 1 → Nat)
    (inb : ∀ a, off a + S512.size a ≤ S16384.size a) (R : Nat) (hoff : off = ![R])
    (j : Fin 512) (hR : R + j.val < 16384) :
    View.read (Elt F) ((enW).slice (Rect.unit (s := S16384) off S512.size inb) (fun _ => rfl)).view fen (ix1 j)
      = fen (ix1 ⟨R + j.val, hR⟩) := by
  subst hoff
  show View.read (Elt F) (View.whole main_arg1_scv) fen
      ((Rect.unit (s := S16384) ![R] S512.size inb).toLoadRect.idx (ix1 j))
    = View.read (Elt F) (View.whole main_arg1_scv) fen (ix1 ⟨R + j.val, hR⟩)
  congr 1
  funext a
  match a with
  | ⟨0, _⟩ => exact Fin.ext (by show R + 1 * j.val = R + j.val; omega)

/-- Chunk 0 of the tile's species rows. -/
theorem dma0_apply (fsp : Buf (Elt F) (spLoc d)) (r : Fin 128) (k : Fin 200) :
    tileRun.sl.dma0 d L fsp (ix2 r k)
      = fsp (ix2 ⟨512 * (widL L).val + 0 + r.val, by have := widL_lt L; have := r.isLt; omega⟩ k) := by
  unfold tileRun.sl.dma0
  exact sp_slice_apply d fsp (k0_off1 L) _ (512 * (widL L).val + 0)
    ((k0_off1_eq L).trans (congrArg (fun n : Nat => (![n, 0] : Fin 2 → Nat)) (by have := base_eq L; omega))) r k _

/-- Chunk 1. -/
theorem dma2_apply (fsp : Buf (Elt F) (spLoc d)) (r : Fin 128) (k : Fin 200) :
    tileRun.sl.dma2 d L fsp (ix2 r k)
      = fsp (ix2 ⟨512 * (widL L).val + 128 + r.val, by have := widL_lt L; have := r.isLt; omega⟩ k) := by
  unfold tileRun.sl.dma2
  exact sp_slice_apply d fsp (k0_off3 L 128#32) _ (512 * (widL L).val + 128)
    ((k0_off3_eq L ⟨0, by decide⟩).trans (congrArg (fun n : Nat => (![n, 0] : Fin 2 → Nat))
      (by show 1024 * (L 1).val + 512 * (L 0).val + 128 * 0 + 128 = 512 * (widL L).val + 128; have := base_eq L; omega))) r k _

/-- Chunk 2. -/
theorem dma0_4_apply (fsp : Buf (Elt F) (spLoc d)) (r : Fin 128) (k : Fin 200) :
    tileRun.sl.dma0_4 d L fsp (ix2 r k)
      = fsp (ix2 ⟨512 * (widL L).val + 256 + r.val, by have := widL_lt L; have := r.isLt; omega⟩ k) := by
  unfold tileRun.sl.dma0_4
  exact sp_slice_apply d fsp (k0_off3 L 256#32) _ (512 * (widL L).val + 256)
    ((k0_off3_eq L ⟨1, by decide⟩).trans (congrArg (fun n : Nat => (![n, 0] : Fin 2 → Nat))
      (by show 1024 * (L 1).val + 512 * (L 0).val + 128 * 1 + 128 = 512 * (widL L).val + 256; have := base_eq L; omega))) r k _

/-- Chunk 3. -/
theorem dma0_5_apply (fsp : Buf (Elt F) (spLoc d)) (r : Fin 128) (k : Fin 200) :
    tileRun.sl.dma0_5 d L fsp (ix2 r k)
      = fsp (ix2 ⟨512 * (widL L).val + 384 + r.val, by have := widL_lt L; have := r.isLt; omega⟩ k) := by
  unfold tileRun.sl.dma0_5
  exact sp_slice_apply d fsp (k0_off3 L 384#32) _ (512 * (widL L).val + 384)
    ((k0_off3_eq L ⟨2, by decide⟩).trans (congrArg (fun n : Nat => (![n, 0] : Fin 2 → Nat))
      (by show 1024 * (L 1).val + 512 * (L 0).val + 128 * 2 + 128 = 512 * (widL L).val + 384; have := base_eq L; omega))) r k _

/-- The tile's energies. -/
theorem dma0_3_apply (fen : Buf (Elt F) (enLoc d)) (j : Fin 512) :
    tileRun.sl.dma0_3 d L fen (ix1 j)
      = fen (ix1 ⟨512 * (widL L).val + j.val, by have := widL_lt L; have := j.isLt; omega⟩) := by
  unfold tileRun.sl.dma0_3
  exact en_slice_apply d fen (k0_off2 L) _ (512 * (widL L).val)
    ((k0_off2_eq L).trans (congrArg (fun n : Nat => (![n] : Fin 1 → Nat)) (base_eq L))) j _

end Copies

/-! ## A row's total is the sum over its 200 columns -/

/-- For g fixing the zero word, the sum of a row's sixteen lanes (twelve whole pieces and the masked tail each) is
    the sum of g over the row's 200 words. -/
theorem rowTot_eq_sum (g : BitVec 32 → BitVec 32) (hg : g 0#32 = 0#32) (X : S128x200.Idx → BitVec 32) (r : Fin 128) :
    rowTot g X r = ∑ k : Fin 200, g (X (ix2 r k)) := by
  unfold rowTot
  rw [sum_lanes (fun k : Fin 200 => g (X (ix2 r k)))]
  refine Finset.sum_congr rfl fun j _ => ?_
  unfold rowLane
  congr 1
  by_cases h : 8 ≤ j.val
  · rw [if_pos h, dif_pos h]
  · rw [if_neg h, dif_neg h, hg]; rfl

theorem shr1_zero : shr1 0#32 = 0#32 := shr_zero
theorem and1_zero : and1 0#32 = 0#32 := by unfold and1; rw [shr1_zero]; exact and_zero

/-! ## The four scalars read lanes 0 to 3 only -/

section Scalars
variable (v9 v9' : Vec F S16 .f32)

/-- The lane extractions read lanes 0, 1, 2, 3. -/
theorem pay418_eq : k0_pay418 v9 = v9 (ix1 ⟨0, by decide⟩) := by
  show v9 _ = v9 _
  congr 1; funext a; match a with | ⟨0, _⟩ => rfl
theorem pay419_eq : k0_pay419 v9 = v9 (ix1 ⟨1, by decide⟩) := by
  show v9 _ = v9 _
  congr 1; funext a; match a with | ⟨0, _⟩ => rfl
theorem pay420_eq : k0_pay420 v9 = v9 (ix1 ⟨2, by decide⟩) := by
  show v9 _ = v9 _
  congr 1; funext a; match a with | ⟨0, _⟩ => rfl
theorem lane3_eq : extractAt ![0] (extractStridedSlice S1 ![3] v9 slices_S16_o3_S1) inpos_S1_p0 = v9 (ix1 ⟨3, by decide⟩) := by
  show v9 _ = v9 _
  congr 1; funext a; match a with | ⟨0, _⟩ => rfl

/-- Two 16-lane vectors with equal lanes 0 to 3 give the same energy expression. -/
theorem energyOf_congr_lanes (h : ∀ j : Fin 4, v9 (ix1 ⟨j.val, by have := j.isLt; omega⟩) = v9' (ix1 ⟨j.val, by have := j.isLt; omega⟩))
    (T0 T1 T3 : BitVec 32) (e ic : F .f32) : energyOf v9 T0 T1 T3 e ic = energyOf v9' T0 T1 T3 e ic := by
  have h0 : k0_pay418 v9 = k0_pay418 v9' := (pay418_eq v9).trans ((h ⟨0, by decide⟩).trans (pay418_eq v9').symm)
  have h1 : k0_pay419 v9 = k0_pay419 v9' := (pay419_eq v9).trans ((h ⟨1, by decide⟩).trans (pay419_eq v9').symm)
  have h2 : k0_pay420 v9 = k0_pay420 v9' := (pay420_eq v9).trans ((h ⟨2, by decide⟩).trans (pay420_eq v9').symm)
  have h3 : extractAt ![0] (extractStridedSlice S1 ![3] v9 slices_S16_o3_S1) inpos_S1_p0
      = extractAt ![0] (extractStridedSlice S1 ![3] v9' slices_S16_o3_S1) inpos_S1_p0 :=
    (lane3_eq v9).trans ((h ⟨3, by decide⟩).trans (lane3_eq v9').symm)
  have e421 : k0_pay421 v9 = k0_pay421 v9' := by unfold k0_pay421; dsimp only; rw [h0, h1]
  have e422 : k0_pay422 v9 = k0_pay422 v9' := by unfold k0_pay422; dsimp only; rw [h0, h1, h2]
  have e423 : k0_pay423 v9 = k0_pay423 v9' := by unfold k0_pay423; dsimp only; rw [h0, h1, h2, h3]
  have e424 : k0_pay424 v9 = k0_pay424 v9' := by unfold k0_pay424; dsimp only; rw [h0]
  unfold energyOf
  rw [e421, e422, e423, e424]

end Scalars

/-! ## The intercept vector, the table vector, and the four scalars -/

section RunScalars
variable (d : Dev nD) (L : grid0.Coords)

/-- The 16-lane load of the intercept scratch after the sixteen copies were copied into it: lane x is copy x. -/
theorem r_apply (fic : Buf (Elt F) (i16Loc d)) (f8 : Buf (Elt F) ((V d (cV L) (jV L)).loc cc0_scratch8)) (x : S16.Idx) :
    tileRun.sl.r d L fic f8 x = fic x := by
  unfold tileRun.sl.r tileRun.sl.dma0_2
  dsimp only
  rw [View.write_whole_univ, View.readAt_apply]
  show fic _ = fic x
  congr 1
  funext a
  match a with
  | ⟨0, _⟩ => exact Fin.ext (by show 0 + 1 * (x 0).val = (x 0).val; omega)

/-- The 16-lane load at word 0 of the table scratch after the table's four words were copied to its words 0 to 3. -/
def v9Of (ftb : Buf (Elt F) (tbLoc d)) (f7 : Buf (Elt F) ((V d (cV L) (jV L)).loc cc0_scratch7)) : Vec F S16 .f32 :=
  View.readAt (Elt F) (s7).view (Rect.unit (s := S128) ![0] S16.size inb_S128_S16_0).toLoadRect
    ((s7).view.writes (Elt F) f7 [⟨Rect.unit (s := S128) ![0] S4.size inb_S128_S4_0, tileRun.sl.dma0_1 d ftb⟩])

theorem r_1_eq (ftb : Buf (Elt F) (tbLoc d)) (f7 : Buf (Elt F) ((V d (cV L) (jV L)).loc cc0_scratch7)) :
    tileRun.sl.r_1 d L ftb f7 = k0_pay421 (v9Of d L ftb f7) := rfl
theorem r_2_eq (ftb : Buf (Elt F) (tbLoc d)) (f7 : Buf (Elt F) ((V d (cV L) (jV L)).loc cc0_scratch7)) :
    tileRun.sl.r_2 d L ftb f7 = k0_pay422 (v9Of d L ftb f7) := rfl
theorem r_3_eq (ftb : Buf (Elt F) (tbLoc d)) (f7 : Buf (Elt F) ((V d (cV L) (jV L)).loc cc0_scratch7)) :
    tileRun.sl.r_3 d L ftb f7 = k0_pay423 (v9Of d L ftb f7) := rfl
theorem r_4_eq (ftb : Buf (Elt F) (tbLoc d)) (f7 : Buf (Elt F) ((V d (cV L) (jV L)).loc cc0_scratch7)) :
    tileRun.sl.r_4 d L ftb f7 = k0_pay424 (v9Of d L ftb f7) := rfl

/-- Lanes 0 to 3 of the table vector are the table. -/
theorem v9Of_lane (ftb : Buf (Elt F) (tbLoc d)) (f7 : Buf (Elt F) ((V d (cV L) (jV L)).loc cc0_scratch7)) (j : Fin 4) :
    v9Of d L ftb f7 (ix1 ⟨j.val, by have := j.isLt; omega⟩) = ftb (ix1 j) := by
  unfold v9Of
  rw [View.readAt_apply]
  have key := View.read_writes_cons_emb (s7 : Memref sig .scVector .vmem S128 .f32).view f7
    (Rect.unit (s := S128) ![0] S4.size inb_S128_S4_0) (tileRun.sl.dma0_1 d ftb) [] (ix1 j)
  have hidx : (Rect.unit (s := S128) ![0] S16.size inb_S128_S16_0).toLoadRect.idx (ix1 ⟨j.val, by have := j.isLt; omega⟩)
      = (Rect.unit (s := S128) ![0] S4.size inb_S128_S4_0).emb (ix1 j) := by
    funext a
    match a with
    | ⟨0, _⟩ => exact Fin.ext (by show 0 + 1 * j.val = 0 + 1 * j.val; rfl)
  rw [hidx]
  refine key.trans ?_
  unfold tileRun.sl.dma0_1
  rfl

/-- The table as a 16-lane vector and the table vector agree on lanes 0 to 3. -/
theorem v9Of_tbVec (ftb : Buf (Elt F) (tbLoc d)) (f7 : Buf (Elt F) ((V d (cV L) (jV L)).loc cc0_scratch7)) (j : Fin 4) :
    v9Of d L ftb f7 (ix1 ⟨j.val, by have := j.isLt; omega⟩) = tbVec ftb (ix1 ⟨j.val, by have := j.isLt; omega⟩) := by
  rw [v9Of_lane]
  show ftb (ix1 j) = ftb (ix1 ⟨j.val % 4, _⟩)
  congr 2
  exact Fin.ext (Nat.mod_eq_of_lt j.isLt).symm

end RunScalars

/-! ## The write-out -/

section Out
variable (d : Dev nD) (L : grid0.Coords)

/-- The block after the write-out, at its j-th entry: the output scratch's word j. -/
theorem out_apply (fo : Buf (Elt F) (oLoc d)) (H : Buf (Elt F) ((V d (cV L) (jV L)).loc cc0_scratch3)) (j : Fin 512) :
    ((View.whole (main_v1_scv : Ref sig .scVector)).slice (Rect.unit (s := S16384) (k0_off2 L) S512.size (k0_off2_inb L))).writes (Elt F) fo
        [⟨Rect.whole S512, tileRun.sl.dma0_6 H⟩]
      (ix1 ⟨512 * (widL L).val + j.val, by have := widL_lt L; have := j.isLt; omega⟩) = H (ix1 j) := by
  have key := View.read_writes_cons_emb
    ((View.whole (main_v1_scv : Ref sig .scVector)).slice (Rect.unit (s := S16384) (k0_off2 L) S512.size (k0_off2_inb L))) fo
    (Rect.whole S512) (tileRun.sl.dma0_6 H) [] (ix1 j)
  have hidx : (ix1 ⟨512 * (widL L).val + j.val, by have := widL_lt L; have := j.isLt; omega⟩ : S16384.Idx)
      = ((View.whole (main_v1_scv : Ref sig .scVector)).slice (Rect.unit (s := S16384) (k0_off2 L) S512.size (k0_off2_inb L))).emb
          ((Rect.whole S512).emb (ix1 j)) := by
    funext a
    match a with
    | ⟨0, _⟩ =>
      refine Fin.ext ?_
      show 512 * (widL L).val + j.val = k0_off2 L 0 + 1 * (0 + 1 * j.val)
      rw [k0_off2_eq]
      show 512 * (widL L).val + j.val = (1024 * (L 1).val + 512 * (L 0).val) + 1 * (0 + 1 * j.val)
      have := base_eq L; omega
  rw [hidx]
  exact key

/-- An index of tile w's block is 512 w + j. -/
theorem mem_oSet (w : Fin 32) (y : S16384.Idx) (hy : y ∈ oSet w) :
    ∃ j : Fin 512, y = ix1 ⟨512 * w.val + j.val, by have := w.isLt; have := j.isLt; omega⟩ := by
  rw [oSet_eq] at hy
  obtain ⟨x, hx⟩ := (oRect w).exists_idx_of_mem hy
  refine ⟨⟨(x 0).val, (x 0).isLt⟩, ?_⟩
  rw [← hx]
  funext a
  match a with
  | ⟨0, _⟩ =>
    refine Fin.ext ?_
    show (oRect w).off 0 + (oRect w).stride 0 * (x 0).val = 512 * w.val + (x 0).val
    simp [oRect, Rect.part, Rect.block, Shape.partIx, Shape.partSize]
    omega

end Out

/-! ## The result array as one function -/

/-- The result array as ONE function of the argument arrays. -/
def Gout (m : (ℓ : Loc nD τ sig) → Buf (Elt F) ℓ) (d : Dev nD) : Buf (Elt F) (oLoc d) :=
  outSpec (F := F) (m (spLoc d)) (m (enLoc d)) (m (tbLoc d)) (ficOf m d)

section Tail
variable (m : (ℓ : Loc nD τ sig) → Buf (Elt F) ℓ) (d : Dev nD)

/-- The energy expression of local row r of a chunk whose rows are the array's rows R + r, with the array's energy and
    the intercept's lane, is the result function at global row R + r. -/
theorem tail_eq (R : Nat) (r : Fin 128) (hR : R + r.val < 16384) (h16 : 16 ∣ R)
    (X : S128x200.Idx → BitVec 32)
    (hX : ∀ (k : Fin 200), X (ix2 r k) = m (spLoc d) (ix2 ⟨R + r.val, hR⟩ k))
    (e ic : F .f32) (he : e = m (enLoc d) (ix1 ⟨R + r.val, hR⟩))
    (hic : ic = ficOf m d (ix1 ⟨r.val % 16, Nat.mod_lt _ (by decide)⟩))
    (v9 : Vec F S16 .f32)
    (hv9 : ∀ j : Fin 4, v9 (ix1 ⟨j.val, by have := j.isLt; omega⟩) = tbVec (m (tbLoc d)) (ix1 ⟨j.val, by have := j.isLt; omega⟩)) :
    energyOf v9 (rowTot id X r) (rowTot shr1 X r) (rowTot and1 X r) e ic = Gout m d (ix1 ⟨R + r.val, hR⟩) := by
  rw [energyOf_congr_lanes v9 (tbVec (m (tbLoc d))) hv9,
    rowTot_eq_sum id rfl X r, rowTot_eq_sum shr1 shr1_zero X r, rowTot_eq_sum and1 and1_zero X r, he, hic]
  unfold Gout outSpec colTot
  have hmod : (R + r.val) % 16 = r.val % 16 := by obtain ⟨t, rfl⟩ := h16; omega
  show energyOf _ (∑ k : Fin 200, id (X (ix2 r k))) (∑ k : Fin 200, shr1 (X (ix2 r k))) (∑ k : Fin 200, and1 (X (ix2 r k))) _ _
    = energyOf _ (∑ c : Fin 200, id (m (spLoc d) (ix2 ⟨R + r.val, hR⟩ c))) (∑ c : Fin 200, shr1 (m (spLoc d) (ix2 ⟨R + r.val, hR⟩ c)))
        (∑ c : Fin 200, and1 (m (spLoc d) (ix2 ⟨R + r.val, hR⟩ c))) _ (ficOf m d (ix1 ⟨(R + r.val) % 16, Nat.mod_lt _ (by decide)⟩))
  rw [Finset.sum_congr rfl (fun k _ => congrArg id (hX k)), Finset.sum_congr rfl (fun k _ => congrArg shr1 (hX k)),
    Finset.sum_congr rfl (fun k _ => congrArg and1 (hX k))]
  have hz : (⟨r.val % 16, Nat.mod_lt _ (by decide)⟩ : Fin 16) = ⟨(R + r.val) % 16, Nat.mod_lt _ (by decide)⟩ :=
    Fin.ext hmod.symm
  rw [hz]

end Tail

end Cert.Proof.KI

end
-- ==== Proof.LibFill.lean ====
/-
  Reading a buffer that a loop filled piece by piece, one piece per trip, when the pieces' rectangles are pairwise
  disjoint: an index inside piece k's rectangle reads piece k's payload once trip k has run, whatever the trips after
  it wrote, and an index in none of the rectangles written so far reads what the buffer held at the start.
-/
import proofs.«206979_g57535381897292_cont_9to1_m_841_24_alg».proof.Proof.KIBase

noncomputable section

namespace Cert.Proof.KI

open Cert.KernelIdeal Cert.KernelIdeal.Gen
open Idealize.ShloMosaic

variable {F : FTy → Type}
variable {κ : Kind} {sp : Space} {s : Shape} {e : EltTy}

/-- One more trip, below the trip count: that trip's piece written over what the trips before left. -/
theorem fillW_succ_of_lt (v : View sig κ sp s e) {n : Nat} (pc : Fin n → View.Piece (Elt F) s e)
    (f : v.ty.Contents (Elt F)) (m : Nat) (h : m < n) :
    fillW v pc f (m + 1) = v.writes (Elt F) (fillW v pc f m) [pc ⟨m, h⟩] := by
  rw [fillW]; exact dif_pos h

/-- Past the trip count nothing more is written. -/
theorem fillW_succ_of_not_lt (v : View sig κ sp s e) {n : Nat} (pc : Fin n → View.Piece (Elt F) s e)
    (f : v.ty.Contents (Elt F)) (m : Nat) (h : ¬ m < n) :
    fillW v pc f (m + 1) = fillW v pc f m := by
  rw [fillW]; exact dif_neg h

/-- An index that lies in none of the rectangles of the first m trips reads, after those trips, what the buffer held
    before them. -/
theorem fillW_read_of_not_mem (v : View sig κ sp s e) {n : Nat} (pc : Fin n → View.Piece (Elt F) s e)
    (f : v.ty.Contents (Elt F)) (y : s.Idx) :
    ∀ m : Nat, (∀ i : Fin n, i.val < m → y ∉ (pc i).1.set) →
      v.read (Elt F) (fillW v pc f m) y = v.read (Elt F) f y := by
  intro m
  induction m with
  | zero => intro _; rfl
  | succ m ih =>
    intro h
    have ih' := ih fun i hi => h i (Nat.lt_succ_of_lt hi)
    by_cases hm : m < n
    · rw [fillW_succ_of_lt v pc f m hm,
        View.read_writes_apply_of_forall_not_mem v _ y [pc ⟨m, hm⟩] (by
          intro p hp
          rw [List.mem_singleton] at hp
          subst hp
          exact h ⟨m, hm⟩ (Nat.lt_succ_self m))]
      exact ih'
    · rw [fillW_succ_of_not_lt v pc f m hm]
      exact ih'

/-- With pairwise disjoint rectangles, position x of piece k's rectangle reads piece k's payload at x once trip k has
    run: the later trips write elsewhere. -/
theorem fillW_read_of_mem (v : View sig κ sp s e) {n : Nat} (pc : Fin n → View.Piece (Elt F) s e)
    (f : v.ty.Contents (Elt F)) (hdis : ∀ i j : Fin n, i ≠ j → Disjoint (pc i).1.set (pc j).1.set)
    (k : Fin n) (x : (pc k).1.shape.Idx) :
    ∀ m : Nat, k.val < m → v.read (Elt F) (fillW v pc f m) ((pc k).1.emb x) = (pc k).2 x := by
  intro m
  induction m with
  | zero => intro h; exact absurd h (Nat.not_lt_zero _)
  | succ m ih =>
    intro hk
    by_cases hm : m < n
    · rw [fillW_succ_of_lt v pc f m hm]
      by_cases hkm : k = ⟨m, hm⟩
      · subst hkm
        exact View.read_writes_cons_emb v _ (pc ⟨m, hm⟩).1 (pc ⟨m, hm⟩).2 [] x
      · have hmem : (pc k).1.emb x ∈ (pc k).1.set := (pc k).1.toLoadRect.idx_mem x
        have hnot : (pc k).1.emb x ∉ (pc ⟨m, hm⟩).1.set :=
          Finset.disjoint_left.mp (hdis k ⟨m, hm⟩ hkm) hmem
        rw [View.read_writes_apply_of_forall_not_mem v _ _ [pc ⟨m, hm⟩] (by
          intro p hp
          rw [List.mem_singleton] at hp
          subst hp
          exact hnot)]
        refine ih ?_
        have : k.val ≠ m := fun h => hkm (Fin.ext h)
        omega
    · rw [fillW_succ_of_not_lt v pc f m hm]
      exact ih (by have := k.isLt; omega)

/-- The same at an index named by its coordinates: y is position x of piece k's rectangle. -/
theorem fillW_read_of_emb_eq (v : View sig κ sp s e) {n : Nat} (pc : Fin n → View.Piece (Elt F) s e)
    (f : v.ty.Contents (Elt F)) (hdis : ∀ i j : Fin n, i ≠ j → Disjoint (pc i).1.set (pc j).1.set)
    (k : Fin n) (x : (pc k).1.shape.Idx) (y : s.Idx) (hy : (pc k).1.emb x = y) (m : Nat) (hk : k.val < m) :
    v.read (Elt F) (fillW v pc f m) y = (pc k).2 x := by
  subst hy; exact fillW_read_of_mem v pc f hdis k x m hk

/-! For a whole buffer the view reads the contents themselves. -/

/-- A whole buffer filled piece by piece, at position x of piece k's rectangle. -/
theorem fillW_of_mem (b : Ref sig κ) {n : Nat} (pc : Fin n → View.Piece (Elt F) b.ty.shape b.ty.elt)
    (f : b.ty.Contents (Elt F)) (hdis : ∀ i j : Fin n, i ≠ j → Disjoint (pc i).1.set (pc j).1.set)
    (k : Fin n) (x : (pc k).1.shape.Idx) (m : Nat) (hk : k.val < m) :
    fillW (View.whole b) pc f m ((pc k).1.emb x) = (pc k).2 x :=
  fillW_read_of_mem (View.whole b) pc f hdis k x m hk

/-- A whole buffer filled piece by piece, at an index outside every rectangle written so far. -/
theorem fillW_of_not_mem (b : Ref sig κ) {n : Nat} (pc : Fin n → View.Piece (Elt F) b.ty.shape b.ty.elt)
    (f : b.ty.Contents (Elt F)) (y : b.ty.shape.Idx) (m : Nat) (h : ∀ i : Fin n, i.val < m → y ∉ (pc i).1.set) :
    fillW (View.whole b) pc f m y = f y :=
  fillW_read_of_not_mem (View.whole b) pc f y m h

end Cert.Proof.KI

end
-- ==== Proof.KIChunkLib.lean ====
/-
  A scratch filled over the trips of a loop by sixteen-word pieces at evenly spaced offsets, read at a word: the
  partial-sum scratches (offsets 17 i, so the pieces of different trips are disjoint) and the output scratch (offsets
  c + 16 i within one chunk's 128 words, every word outside the chunk kept).
-/
import proofs.«206979_g57535381897292_cont_9to1_m_841_24_alg».proof.Proof.KISpec
import proofs.«206979_g57535381897292_cont_9to1_m_841_24_alg».proof.Proof.LibFill

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- Sixteen-word pieces at offsets 17 i of a 2176-word buffer, one per trip, at most 128 trips: after trip r has run, word
    17 r + j reads lane j of trip r's payload. -/
theorem fillW_rows17 {κ : Kind} {sp : Space} (v : View sig κ sp S2176 .i32) {n : Nat} (hn : n ≤ 128)
    (off : Fin n → Fin 1 → Nat) (inb : ∀ i a, off i a + S16.size a ≤ S2176.size a) (hoff : ∀ i, off i = ![17 * i.val])
    (w : Fin n → S16.Idx → BitVec 32) (f : v.ty.Contents (Elt F)) (r : Fin n) (j : Fin 16) (m : Nat) (hm : r.val < m) :
    v.read (Elt F) (fillW v (fun i => (⟨Rect.unit (s := S2176) (off i) S16.size (inb i), w i⟩ : View.Piece (Elt F) S2176 .i32)) f m)
        (ix1 ⟨17 * r.val + j.val, by have := r.isLt; have := j.isLt; omega⟩)
      = w r (ix1 j) := by
  have h0 : ∀ i : Fin n, off i 0 = 17 * i.val := fun i => by rw [hoff i]; rfl
  have hs : S16.size 0 = 16 := rfl
  refine fillW_read_of_emb_eq v (fun i => (⟨Rect.unit (s := S2176) (off i) S16.size (inb i), w i⟩ : View.Piece (Elt F) S2176 .i32)) f ?_ r (ix1 j) _ ?_ m hm
  · intro i i' hne
    refine Rect.unit_disjoint (inb := inb i) (inb' := inb i') (0 : Fin 1) ?_
    have hv : i.val ≠ i'.val := fun h => hne (Fin.ext h)
    have := h0 i; have := h0 i'
    omega
  · funext a
    match a with
    | ⟨0, _⟩ => exact Fin.ext (by show off r 0 + 1 * j.val = 17 * r.val + j.val; have := h0 r; omega)

/-- Sixteen-word pieces at offsets c + 16 i of a 512-word buffer, one per trip, at most 8 trips, c + 128 ≤ 512: after trip g
    has run, word c + 16 g + l reads lane l of trip g's payload. -/
theorem fillW_out16 {κ : Kind} {sp : Space} (v : View sig κ sp S512 .f32) {n : Nat} (hn : n ≤ 8) (c : Nat) (hc : c + 128 ≤ 512)
    (off : Fin n → Fin 1 → Nat) (inb : ∀ i a, off i a + S16.size a ≤ S512.size a) (hoff : ∀ i, off i = ![c + 16 * i.val])
    (w : Fin n → S16.Idx → F .f32) (f : v.ty.Contents (Elt F)) (g : Fin n) (l : Fin 16) (m : Nat) (hm : g.val < m) :
    v.read (Elt F) (fillW v (fun i => (⟨Rect.unit (s := S512) (off i) S16.size (inb i), w i⟩ : View.Piece (Elt F) S512 .f32)) f m)
        (ix1 ⟨c + 16 * g.val + l.val, by have := g.isLt; have := l.isLt; omega⟩)
      = w g (ix1 l) := by
  have h0 : ∀ i : Fin n, off i 0 = c + 16 * i.val := fun i => by rw [hoff i]; rfl
  have hs : S16.size 0 = 16 := rfl
  refine fillW_read_of_emb_eq v (fun i => (⟨Rect.unit (s := S512) (off i) S16.size (inb i), w i⟩ : View.Piece (Elt F) S512 .f32)) f ?_ g (ix1 l) _ ?_ m hm
  · intro i i' hne
    refine Rect.unit_disjoint (inb := inb i) (inb' := inb i') (0 : Fin 1) ?_
    have hv : i.val ≠ i'.val := fun h => hne (Fin.ext h)
    have := h0 i; have := h0 i'
    omega
  · funext a
    match a with
    | ⟨0, _⟩ => exact Fin.ext (by show off g 0 + 1 * l.val = c + 16 * g.val + l.val; have := h0 g; omega)

/-- The same pieces leave every word outside [c, c + 128) as it was. -/
theorem fillW_out16_outside {κ : Kind} {sp : Space} (v : View sig κ sp S512 .f32) {n : Nat} (hn : n ≤ 8) (c : Nat)
    (off : Fin n → Fin 1 → Nat) (inb : ∀ i a, off i a + S16.size a ≤ S512.size a) (hoff : ∀ i, off i = ![c + 16 * i.val])
    (w : Fin n → S16.Idx → F .f32) (f : v.ty.Contents (Elt F)) (y : S512.Idx) (hy : (y 0).val < c ∨ c + 128 ≤ (y 0).val)
    (m : Nat) :
    v.read (Elt F) (fillW v (fun i => (⟨Rect.unit (s := S512) (off i) S16.size (inb i), w i⟩ : View.Piece (Elt F) S512 .f32)) f m) y
      = v.read (Elt F) f y := by
  have h0 : ∀ i : Fin n, off i 0 = c + 16 * i.val := fun i => by rw [hoff i]; rfl
  have hs : S16.size 0 = 16 := rfl
  refine fillW_read_of_not_mem v _ f y m fun i _ hmem => ?_
  have hm := ((Rect.mem_set_unit (inb := inb i)).mp hmem) 0
  have := h0 i; have := i.isLt
  omega

end Cert.Proof.KI

end
-- ==== Proof.KIRowVal1.lean ====
/-
  What trip k of the row loop over chunk 0 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KIValLib
import proofs.«206979_g57535381897292_cont_9to1_m_841_24_alg».proof.Proof.KIRow1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_1 (k : Fin k0_t1_loop.trips) : k.val < 128 := lt_of_lt_of_le k.isLt k0_t1_abs.2.1

/-- The piece trip k stores into the first partial-sum scratch: words [17 k, 17 k + 16), lane j the row's partial sum of
    the species words themselves. -/
theorem rowTrip1_P4 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).1 X
      = ⟨Rect.unit (s := S2176) (k0_off17 k) S16.size (k0_off17_inb k),
          fun j => rowLane id X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay430, k0_pay426, k0_pay428, k0_pay425, addi, select, broadcast, IntOp.addi]
  refine lane_sum_a (fun p => X (ix2 ⟨k.val, lt128_1 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch0) X (k0_off4 k) _ _ k.val 0 (k0_off4_eq k) j (lt128_1 k) (by omega))
  · exact (piece_apply (F := F) (View.whole cc0_scratch0) X (k0_off5 k) _ _ k.val 16 (k0_off5_eq k) j (lt128_1 k) (by omega))
  · exact (piece_apply (F := F) (View.whole cc0_scratch0) X (k0_off6 k) _ _ k.val 32 (k0_off6_eq k) j (lt128_1 k) (by omega))
  · exact (piece_apply (F := F) (View.whole cc0_scratch0) X (k0_off7 k) _ _ k.val 48 (k0_off7_eq k) j (lt128_1 k) (by omega))
  · exact (piece_apply (F := F) (View.whole cc0_scratch0) X (k0_off8 k) _ _ k.val 64 (k0_off8_eq k) j (lt128_1 k) (by omega))
  · exact (piece_apply (F := F) (View.whole cc0_scratch0) X (k0_off9 k) _ _ k.val 80 (k0_off9_eq k) j (lt128_1 k) (by omega))
  · exact (piece_apply (F := F) (View.whole cc0_scratch0) X (k0_off10 k) _ _ k.val 96 (k0_off10_eq k) j (lt128_1 k) (by omega))
  · exact (piece_apply (F := F) (View.whole cc0_scratch0) X (k0_off11 k) _ _ k.val 112 (k0_off11_eq k) j (lt128_1 k) (by omega))
  · exact (piece_apply (F := F) (View.whole cc0_scratch0) X (k0_off12 k) _ _ k.val 128 (k0_off12_eq k) j (lt128_1 k) (by omega))
  · exact (piece_apply (F := F) (View.whole cc0_scratch0) X (k0_off13 k) _ _ k.val 144 (k0_off13_eq k) j (lt128_1 k) (by omega))
  · exact (piece_apply (F := F) (View.whole cc0_scratch0) X (k0_off14 k) _ _ k.val 160 (k0_off14_eq k) j (lt128_1 k) (by omega))
  · exact (piece_apply (F := F) (View.whole cc0_scratch0) X (k0_off15 k) _ _ k.val 176 (k0_off15_eq k) j (lt128_1 k) (by omega))
  · refine ((select_pay417 j _ _).trans ?_)
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

/-- The piece trip k stores into the second partial-sum scratch: lane j the row's partial sum of the halved words. -/
theorem rowTrip1_P5 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).2.1 X
      = ⟨Rect.unit (s := S2176) (k0_off17 k) S16.size (k0_off17_inb k),
          fun j => rowLane shr1 X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay431, k0_pay426, k0_pay427, k0_pay428, k0_pay429, k0_pay425, addi, shrsi, select, broadcast, IntOp.addi]
  refine lane_sum_b (fun p => shr1 (X (ix2 ⟨k.val, lt128_1 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch0) X (k0_off4 k) _ _ k.val 0 (k0_off4_eq k) j (lt128_1 k) (by omega))
  · exact congrArg shr1 (piece_apply (F := F) (View.whole cc0_scratch0) X (k0_off5 k) _ _ k.val 16 (k0_off5_eq k) j (lt128_1 k) (by omega))
  · exact congrArg shr1 (piece_apply (F := F) (View.whole cc0_scratch0) X (k0_off6 k) _ _ k.val 32 (k0_off6_eq k) j (lt128_1 k) (by omega))
  · exact congrArg shr1 (piece_apply (F := F) (View.whole cc0_scratch0) X (k0_off7 k) _ _ k.val 48 (k0_off7_eq k) j (lt128_1 k) (by omega))
  · exact congrArg shr1 (piece_apply (F := F) (View.whole cc0_scratch0) X (k0_off8 k) _ _ k.val 64 (k0_off8_eq k) j (lt128_1 k) (by omega))
  · exact congrArg shr1 (piece_apply (F := F) (View.whole cc0_scratch0) X (k0_off9 k) _ _ k.val 80 (k0_off9_eq k) j (lt128_1 k) (by omega))
  · exact congrArg shr1 (piece_apply (F := F) (View.whole cc0_scratch0) X (k0_off10 k) _ _ k.val 96 (k0_off10_eq k) j (lt128_1 k) (by omega))
  · exact congrArg shr1 (piece_apply (F := F) (View.whole cc0_scratch0) X (k0_off11 k) _ _ k.val 112 (k0_off11_eq k) j (lt128_1 k) (by omega))
  · exact congrArg shr1 (piece_apply (F := F) (View.whole cc0_scratch0) X (k0_off12 k) _ _ k.val 128 (k0_off12_eq k) j (lt128_1 k) (by omega))
  · exact congrArg shr1 (piece_apply (F := F) (View.whole cc0_scratch0) X (k0_off13 k) _ _ k.val 144 (k0_off13_eq k) j (lt128_1 k) (by omega))
  · exact congrArg shr1 (piece_apply (F := F) (View.whole cc0_scratch0) X (k0_off14 k) _ _ k.val 160 (k0_off14_eq k) j (lt128_1 k) (by omega))
  · exact congrArg shr1 (piece_apply (F := F) (View.whole cc0_scratch0) X (k0_off15 k) _ _ k.val 176 (k0_off15_eq k) j (lt128_1 k) (by omega))
  · refine congrArg shr1 (((select_pay417 j _ _).trans ?_))
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

/-- The piece trip k stores into the third partial-sum scratch: lane j the row's partial sum of the words' bitwise and
    with their halves. -/
theorem rowTrip1_P6 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).2.2.1 X
      = ⟨Rect.unit (s := S2176) (k0_off17 k) S16.size (k0_off17_inb k),
          fun j => rowLane and1 X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay432, k0_pay426, k0_pay427, k0_pay428, k0_pay429, k0_pay425, addi, andi, shrsi, select, broadcast, IntOp.addi]
  refine lane_sum_b (fun p => and1 (X (ix2 ⟨k.val, lt128_1 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch0) X (k0_off4 k) _ _ k.val 0 (k0_off4_eq k) j (lt128_1 k) (by omega))
  · exact congrArg and1 (piece_apply (F := F) (View.whole cc0_scratch0) X (k0_off5 k) _ _ k.val 16 (k0_off5_eq k) j (lt128_1 k) (by omega))
  · exact congrArg and1 (piece_apply (F := F) (View.whole cc0_scratch0) X (k0_off6 k) _ _ k.val 32 (k0_off6_eq k) j (lt128_1 k) (by omega))
  · exact congrArg and1 (piece_apply (F := F) (View.whole cc0_scratch0) X (k0_off7 k) _ _ k.val 48 (k0_off7_eq k) j (lt128_1 k) (by omega))
  · exact congrArg and1 (piece_apply (F := F) (View.whole cc0_scratch0) X (k0_off8 k) _ _ k.val 64 (k0_off8_eq k) j (lt128_1 k) (by omega))
  · exact congrArg and1 (piece_apply (F := F) (View.whole cc0_scratch0) X (k0_off9 k) _ _ k.val 80 (k0_off9_eq k) j (lt128_1 k) (by omega))
  · exact congrArg and1 (piece_apply (F := F) (View.whole cc0_scratch0) X (k0_off10 k) _ _ k.val 96 (k0_off10_eq k) j (lt128_1 k) (by omega))
  · exact congrArg and1 (piece_apply (F := F) (View.whole cc0_scratch0) X (k0_off11 k) _ _ k.val 112 (k0_off11_eq k) j (lt128_1 k) (by omega))
  · exact congrArg and1 (piece_apply (F := F) (View.whole cc0_scratch0) X (k0_off12 k) _ _ k.val 128 (k0_off12_eq k) j (lt128_1 k) (by omega))
  · exact congrArg and1 (piece_apply (F := F) (View.whole cc0_scratch0) X (k0_off13 k) _ _ k.val 144 (k0_off13_eq k) j (lt128_1 k) (by omega))
  · exact congrArg and1 (piece_apply (F := F) (View.whole cc0_scratch0) X (k0_off14 k) _ _ k.val 160 (k0_off14_eq k) j (lt128_1 k) (by omega))
  · exact congrArg and1 (piece_apply (F := F) (View.whole cc0_scratch0) X (k0_off15 k) _ _ k.val 176 (k0_off15_eq k) j (lt128_1 k) (by omega))
  · refine congrArg and1 (((select_pay417 j _ _).trans ?_))
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

end Cert.Proof.KI

end
-- ==== Proof.KIGrpVal2.lean ====
/-
  What trip k of the group loop of chunk 0 stores into the output scratch: for lane j, row 16 k + j of the chunk, the
  three gathered totals (the sums of that row's sixteen words in each partial-sum scratch: word 17 (16 k + j) + i at step
  i, the sixteen steps added one after the other onto zero) enter the energy expression with the tile's energy
  0 + 16 k + j and lane j of the intercept vector.
-/
import proofs.«206979_g57535381897292_cont_9to1_m_841_24_alg».proof.Proof.KIValLib
import proofs.«206979_g57535381897292_cont_9to1_m_841_24_alg».proof.Proof.KIGrp2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_2 (k : Fin k0_t2_loop.trips) : k.val < 8 := lt_of_lt_of_le k.isLt k0_t2_abs.2.1

/-- The piece trip k of the group loop of chunk 0 stores into the output scratch: words [0 + 16 k, 0 + 16 k + 16), lane j
    the energy expression at the three totals of row 16 k + j of the chunk (each the sum of that row's sixteen words in a
    partial-sum scratch), the tile's energy 0 + 16 k + j and lane j of the intercept vector. -/
theorem grpTrip2_P3 (v2 : BitVec 32) (v5 : Vec F S16 .f32) (v6 : IVec S16 32) (v8 : IVec S16 1) (v9 : Vec F S16 .f32)
    (hv6 : ∀ x, (v6 x).toNat < 16) (hv6e : ∀ x, (v6 x).toNat = (x 0).val) (k : Fin k0_t2_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip2 d L v2 v5 v6 v8 (k0_pay421 v9) (k0_pay422 v9) (k0_pay423 v9) (k0_pay424 v9) k0_pay425 hv6 k).1 G4 G5 G6 E
      = ⟨Rect.unit (s := S512) (k0_off18 k) S16.size (k0_off18_inb k), fun j =>
          energyOf v9 (gath G4 ⟨16 * k.val + (j 0).val, by have := lt8_2 k; have := lane_lt16 j; omega⟩)
            (gath G5 ⟨16 * k.val + (j 0).val, by have := lt8_2 k; have := lane_lt16 j; omega⟩)
            (gath G6 ⟨16 * k.val + (j 0).val, by have := lt8_2 k; have := lane_lt16 j; omega⟩)
            (E (ix1 ⟨0 + 16 * k.val + (j 0).val, by have := lt8_2 k; have := lane_lt16 j; omega⟩)) (v5 j)⟩ := by
  unfold grpTrip2
  dsimp only
  refine congrArg (Sigma.mk _) (funext fun j => ?_)
  sl_unfold_run_names
  have hj : (j 0).val < 16 := (j 0).isLt
  have hk := lt8_2 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off18 k) _ (0 + 16 * k.val)
      ((k0_off18_eq k).trans (congrArg (fun n : Nat => (![n] : Fin 1 → Nat)) (by omega))) j (by omega)
  · rfl

end Cert.Proof.KI

end
-- ==== Proof.KIChunkVal0.lean ====
/-
  Chunk 0 of a tile, after its two loops. The row loop leaves, in each of the three partial-sum scratches, at words
  17 r … 17 r + 15 the sixteen lanes of row r's partial sums, so those sixteen words add up to the row's total. The group
  loop then leaves, at word 0 + 16 k + l of the output scratch, the energy expression at the three totals of row
  16 k + l, and keeps every word outside the chunk's 128.
-/
import proofs.«206979_g57535381897292_cont_9to1_m_841_24_alg».proof.Proof.KIValLib
import proofs.«206979_g57535381897292_cont_9to1_m_841_24_alg».proof.Proof.KIChunkLib
import proofs.«206979_g57535381897292_cont_9to1_m_841_24_alg».proof.Proof.KIRowVal1
import proofs.«206979_g57535381897292_cont_9to1_m_841_24_alg».proof.Proof.KIGrpVal2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 0 runs 128 trips. -/
theorem trips_t1 : k0_t1_loop.trips = 128 := by decide

/-- The group loop of chunk 0 runs 8 trips. -/
theorem trips_t2 : k0_t2_loop.trips = 8 := by decide

/-- After the row loop of chunk 0: word 17 r + j of partial-sum scratch 4 is lane j of row r's partial sum, whatever
    the scratch held before. -/
theorem chunk0_s4 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch4)) (r : Fin 128) (j : Fin 16) :
    fillW (s4).view (fun i => (rowTrip1 d L w2 w5 w6 k0_pay417 w18 w21 w24 w25 k0_pay425 i).1 X) g k0_t1_loop.trips
        (ix1 ⟨17 * r.val + j.val, by have := r.isLt; have := j.isLt; omega⟩)
      = rowLane id X r j := by
  have hpc : (fun i => (rowTrip1 d L w2 w5 w6 k0_pay417 w18 w21 w24 w25 k0_pay425 i).1 X)
      = fun i => (⟨Rect.unit (s := S2176) (k0_off17 i) S16.size (k0_off17_inb i),
          fun jj => rowLane id X ⟨i.val, lt128_1 i⟩ ⟨(jj 0).val, lane_lt16 jj⟩⟩ : View.Piece (Elt F) S2176 .i32) :=
    funext fun i => rowTrip1_P4 d L w2 w5 w6 w18 w21 w24 w25 i X
  rw [hpc]
  exact fillW_rows17 (F := F) (s4).view (le_of_eq trips_t1) k0_off17 k0_off17_inb k0_off17_eq
    (fun i jj => rowLane id X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total. -/
theorem chunk0_gath4 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch4)) (r : Fin 128) :
    gath (fillW (s4).view (fun i => (rowTrip1 d L w2 w5 w6 k0_pay417 w18 w21 w24 w25 k0_pay425 i).1 X) g k0_t1_loop.trips) r = rowTot id X r :=
  Finset.sum_congr rfl fun j _ => chunk0_s4 d L w2 w5 w6 w18 w21 w24 w25 X g r j

/-- After the row loop of chunk 0: word 17 r + j of partial-sum scratch 5 is lane j of row r's partial sum under shr1, whatever
    the scratch held before. -/
theorem chunk0_s5 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch5)) (r : Fin 128) (j : Fin 16) :
    fillW (s5).view (fun i => (rowTrip1 d L w2 w5 w6 k0_pay417 w18 w21 w24 w25 k0_pay425 i).2.1 X) g k0_t1_loop.trips
        (ix1 ⟨17 * r.val + j.val, by have := r.isLt; have := j.isLt; omega⟩)
      = rowLane shr1 X r j := by
  have hpc : (fun i => (rowTrip1 d L w2 w5 w6 k0_pay417 w18 w21 w24 w25 k0_pay425 i).2.1 X)
      = fun i => (⟨Rect.unit (s := S2176) (k0_off17 i) S16.size (k0_off17_inb i),
          fun jj => rowLane shr1 X ⟨i.val, lt128_1 i⟩ ⟨(jj 0).val, lane_lt16 jj⟩⟩ : View.Piece (Elt F) S2176 .i32) :=
    funext fun i => rowTrip1_P5 d L w2 w5 w6 w18 w21 w24 w25 i X
  rw [hpc]
  exact fillW_rows17 (F := F) (s5).view (le_of_eq trips_t1) k0_off17 k0_off17_inb k0_off17_eq
    (fun i jj => rowLane shr1 X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total under shr1. -/
theorem chunk0_gath5 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch5)) (r : Fin 128) :
    gath (fillW (s5).view (fun i => (rowTrip1 d L w2 w5 w6 k0_pay417 w18 w21 w24 w25 k0_pay425 i).2.1 X) g k0_t1_loop.trips) r = rowTot shr1 X r :=
  Finset.sum_congr rfl fun j _ => chunk0_s5 d L w2 w5 w6 w18 w21 w24 w25 X g r j

/-- After the row loop of chunk 0: word 17 r + j of partial-sum scratch 6 is lane j of row r's partial sum under and1, whatever
    the scratch held before. -/
theorem chunk0_s6 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch6)) (r : Fin 128) (j : Fin 16) :
    fillW (s6).view (fun i => (rowTrip1 d L w2 w5 w6 k0_pay417 w18 w21 w24 w25 k0_pay425 i).2.2.1 X) g k0_t1_loop.trips
        (ix1 ⟨17 * r.val + j.val, by have := r.isLt; have := j.isLt; omega⟩)
      = rowLane and1 X r j := by
  have hpc : (fun i => (rowTrip1 d L w2 w5 w6 k0_pay417 w18 w21 w24 w25 k0_pay425 i).2.2.1 X)
      = fun i => (⟨Rect.unit (s := S2176) (k0_off17 i) S16.size (k0_off17_inb i),
          fun jj => rowLane and1 X ⟨i.val, lt128_1 i⟩ ⟨(jj 0).val, lane_lt16 jj⟩⟩ : View.Piece (Elt F) S2176 .i32) :=
    funext fun i => rowTrip1_P6 d L w2 w5 w6 w18 w21 w24 w25 i X
  rw [hpc]
  exact fillW_rows17 (F := F) (s6).view (le_of_eq trips_t1) k0_off17 k0_off17_inb k0_off17_eq
    (fun i jj => rowLane and1 X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total under and1. -/
theorem chunk0_gath6 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch6)) (r : Fin 128) :
    gath (fillW (s6).view (fun i => (rowTrip1 d L w2 w5 w6 k0_pay417 w18 w21 w24 w25 k0_pay425 i).2.2.1 X) g k0_t1_loop.trips) r = rowTot and1 X r :=
  Finset.sum_congr rfl fun j _ => chunk0_s6 d L w2 w5 w6 w18 w21 w24 w25 X g r j

/-- After both loops of chunk 0: word 0 + 16 k + l of the output scratch is the energy expression at the three totals of
    row 16 k + l of the chunk, the tile's energy 0 + 16 k + l and lane l of the intercept vector. -/
theorem chunk0_in (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E) H3p k0_t2_loop.trips (ix1 ⟨0 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨0 + 16 * k.val + l.val, by have := k.isLt; have := l.isLt; omega⟩)) (v5 (ix1 l)) := by
  have hpc : (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E)
      = fun i => (⟨Rect.unit (s := S512) (k0_off18 i) S16.size (k0_off18_inb i), (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) i⟩ : View.Piece (Elt F) S512 .f32) :=
    funext fun i => grpTrip2_P3 d L v2 v5 v6 v8 v9 hv6 hv6e i _ _ _ E
  rw [hpc]
  refine (fillW_out16 (F := F) (s3).view (le_of_eq trips_t2) 0 (by omega) k0_off18 k0_off18_inb (fun i => (k0_off18_eq i).trans (congrArg (fun n : Nat => (![n] : Fin 1 → Nat)) (by omega)))
    (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) H3p ⟨k.val, lt_of_lt_of_eq k.isLt trips_t2.symm⟩ l k0_t2_loop.trips (lt_of_lt_of_eq k.isLt trips_t2.symm)).trans ?_
  dsimp only
  rw [chunk0_gath4 d L w2 w5 w6 w18 w21 w24 w25 X G4p, chunk0_gath5 d L w2 w5 w6 w18 w21 w24 w25 X G5p, chunk0_gath6 d L w2 w5 w6 w18 w21 w24 w25 X G6p]

/-- The group loop of chunk 0 leaves every word of the output scratch outside [0, 128) as it was. -/
theorem chunk0_out (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 0 ∨ 0 + 128 ≤ (y 0).val) :
    fillW (s3).view (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E) H3p k0_t2_loop.trips y = H3p y := by
  have hpc : (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E)
      = fun i => (⟨Rect.unit (s := S512) (k0_off18 i) S16.size (k0_off18_inb i), (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) i⟩ : View.Piece (Elt F) S512 .f32) :=
    funext fun i => grpTrip2_P3 d L v2 v5 v6 v8 v9 hv6 hv6e i _ _ _ E
  rw [hpc]
  exact fillW_out16_outside (F := F) (s3).view (le_of_eq trips_t2) 0 k0_off18 k0_off18_inb (fun i => (k0_off18_eq i).trans (congrArg (fun n : Nat => (![n] : Fin 1 → Nat)) (by omega)))
    (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) H3p y hy k0_t2_loop.trips

end Cert.Proof.KI

end
-- ==== Proof.KIRowVal3.lean ====
/-
  What trip k of the row loop over chunk 1 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KIValLib
import proofs.«206979_g57535381897292_cont_9to1_m_841_24_alg».proof.Proof.KIRow3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_3 (k : Fin k0_t3_loop.trips) : k.val < 128 := lt_of_lt_of_le k.isLt k0_t3_abs.2.1

/-- The piece trip k stores into the first partial-sum scratch: words [17 k, 17 k + 16), lane j the row's partial sum of
    the species words themselves. -/
theorem rowTrip3_P4 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).1 X
      = ⟨Rect.unit (s := S2176) (k0_off32 k) S16.size (k0_off32_inb k),
          fun j => rowLane id X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay438, k0_pay434, k0_pay436, k0_pay425, addi, select, broadcast, IntOp.addi]
  refine lane_sum_a (fun p => X (ix2 ⟨k.val, lt128_3 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch1) X (k0_off19 k) _ _ k.val 0 (k0_off19_eq k) j (lt128_3 k) (by omega))
  · exact (piece_apply (F := F) (View.whole cc0_scratch1) X (k0_off20 k) _ _ k.val 16 (k0_off20_eq k) j (lt128_3 k) (by omega))
  · exact (piece_apply (F := F) (View.whole cc0_scratch1) X (k0_off21 k) _ _ k.val 32 (k0_off21_eq k) j (lt128_3 k) (by omega))
  · exact (piece_apply (F := F) (View.whole cc0_scratch1) X (k0_off22 k) _ _ k.val 48 (k0_off22_eq k) j (lt128_3 k) (by omega))
  · exact (piece_apply (F := F) (View.whole cc0_scratch1) X (k0_off23 k) _ _ k.val 64 (k0_off23_eq k) j (lt128_3 k) (by omega))
  · exact (piece_apply (F := F) (View.whole cc0_scratch1) X (k0_off24 k) _ _ k.val 80 (k0_off24_eq k) j (lt128_3 k) (by omega))
  · exact (piece_apply (F := F) (View.whole cc0_scratch1) X (k0_off25 k) _ _ k.val 96 (k0_off25_eq k) j (lt128_3 k) (by omega))
  · exact (piece_apply (F := F) (View.whole cc0_scratch1) X (k0_off26 k) _ _ k.val 112 (k0_off26_eq k) j (lt128_3 k) (by omega))
  · exact (piece_apply (F := F) (View.whole cc0_scratch1) X (k0_off27 k) _ _ k.val 128 (k0_off27_eq k) j (lt128_3 k) (by omega))
  · exact (piece_apply (F := F) (View.whole cc0_scratch1) X (k0_off28 k) _ _ k.val 144 (k0_off28_eq k) j (lt128_3 k) (by omega))
  · exact (piece_apply (F := F) (View.whole cc0_scratch1) X (k0_off29 k) _ _ k.val 160 (k0_off29_eq k) j (lt128_3 k) (by omega))
  · exact (piece_apply (F := F) (View.whole cc0_scratch1) X (k0_off30 k) _ _ k.val 176 (k0_off30_eq k) j (lt128_3 k) (by omega))
  · refine ((select_pay417 j _ _).trans ?_)
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

/-- The piece trip k stores into the second partial-sum scratch: lane j the row's partial sum of the halved words. -/
theorem rowTrip3_P5 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).2.1 X
      = ⟨Rect.unit (s := S2176) (k0_off32 k) S16.size (k0_off32_inb k),
          fun j => rowLane shr1 X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay439, k0_pay434, k0_pay435, k0_pay436, k0_pay437, k0_pay425, addi, shrsi, select, broadcast, IntOp.addi]
  refine lane_sum_b (fun p => shr1 (X (ix2 ⟨k.val, lt128_3 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch1) X (k0_off19 k) _ _ k.val 0 (k0_off19_eq k) j (lt128_3 k) (by omega))
  · exact congrArg shr1 (piece_apply (F := F) (View.whole cc0_scratch1) X (k0_off20 k) _ _ k.val 16 (k0_off20_eq k) j (lt128_3 k) (by omega))
  · exact congrArg shr1 (piece_apply (F := F) (View.whole cc0_scratch1) X (k0_off21 k) _ _ k.val 32 (k0_off21_eq k) j (lt128_3 k) (by omega))
  · exact congrArg shr1 (piece_apply (F := F) (View.whole cc0_scratch1) X (k0_off22 k) _ _ k.val 48 (k0_off22_eq k) j (lt128_3 k) (by omega))
  · exact congrArg shr1 (piece_apply (F := F) (View.whole cc0_scratch1) X (k0_off23 k) _ _ k.val 64 (k0_off23_eq k) j (lt128_3 k) (by omega))
  · exact congrArg shr1 (piece_apply (F := F) (View.whole cc0_scratch1) X (k0_off24 k) _ _ k.val 80 (k0_off24_eq k) j (lt128_3 k) (by omega))
  · exact congrArg shr1 (piece_apply (F := F) (View.whole cc0_scratch1) X (k0_off25 k) _ _ k.val 96 (k0_off25_eq k) j (lt128_3 k) (by omega))
  · exact congrArg shr1 (piece_apply (F := F) (View.whole cc0_scratch1) X (k0_off26 k) _ _ k.val 112 (k0_off26_eq k) j (lt128_3 k) (by omega))
  · exact congrArg shr1 (piece_apply (F := F) (View.whole cc0_scratch1) X (k0_off27 k) _ _ k.val 128 (k0_off27_eq k) j (lt128_3 k) (by omega))
  · exact congrArg shr1 (piece_apply (F := F) (View.whole cc0_scratch1) X (k0_off28 k) _ _ k.val 144 (k0_off28_eq k) j (lt128_3 k) (by omega))
  · exact congrArg shr1 (piece_apply (F := F) (View.whole cc0_scratch1) X (k0_off29 k) _ _ k.val 160 (k0_off29_eq k) j (lt128_3 k) (by omega))
  · exact congrArg shr1 (piece_apply (F := F) (View.whole cc0_scratch1) X (k0_off30 k) _ _ k.val 176 (k0_off30_eq k) j (lt128_3 k) (by omega))
  · refine congrArg shr1 (((select_pay417 j _ _).trans ?_))
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

/-- The piece trip k stores into the third partial-sum scratch: lane j the row's partial sum of the words' bitwise and
    with their halves. -/
theorem rowTrip3_P6 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).2.2.1 X
      = ⟨Rect.unit (s := S2176) (k0_off32 k) S16.size (k0_off32_inb k),
          fun j => rowLane and1 X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay440, k0_pay434, k0_pay435, k0_pay436, k0_pay437, k0_pay425, addi, andi, shrsi, select, broadcast, IntOp.addi]
  refine lane_sum_b (fun p => and1 (X (ix2 ⟨k.val, lt128_3 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch1) X (k0_off19 k) _ _ k.val 0 (k0_off19_eq k) j (lt128_3 k) (by omega))
  · exact congrArg and1 (piece_apply (F := F) (View.whole cc0_scratch1) X (k0_off20 k) _ _ k.val 16 (k0_off20_eq k) j (lt128_3 k) (by omega))
  · exact congrArg and1 (piece_apply (F := F) (View.whole cc0_scratch1) X (k0_off21 k) _ _ k.val 32 (k0_off21_eq k) j (lt128_3 k) (by omega))
  · exact congrArg and1 (piece_apply (F := F) (View.whole cc0_scratch1) X (k0_off22 k) _ _ k.val 48 (k0_off22_eq k) j (lt128_3 k) (by omega))
  · exact congrArg and1 (piece_apply (F := F) (View.whole cc0_scratch1) X (k0_off23 k) _ _ k.val 64 (k0_off23_eq k) j (lt128_3 k) (by omega))
  · exact congrArg and1 (piece_apply (F := F) (View.whole cc0_scratch1) X (k0_off24 k) _ _ k.val 80 (k0_off24_eq k) j (lt128_3 k) (by omega))
  · exact congrArg and1 (piece_apply (F := F) (View.whole cc0_scratch1) X (k0_off25 k) _ _ k.val 96 (k0_off25_eq k) j (lt128_3 k) (by omega))
  · exact congrArg and1 (piece_apply (F := F) (View.whole cc0_scratch1) X (k0_off26 k) _ _ k.val 112 (k0_off26_eq k) j (lt128_3 k) (by omega))
  · exact congrArg and1 (piece_apply (F := F) (View.whole cc0_scratch1) X (k0_off27 k) _ _ k.val 128 (k0_off27_eq k) j (lt128_3 k) (by omega))
  · exact congrArg and1 (piece_apply (F := F) (View.whole cc0_scratch1) X (k0_off28 k) _ _ k.val 144 (k0_off28_eq k) j (lt128_3 k) (by omega))
  · exact congrArg and1 (piece_apply (F := F) (View.whole cc0_scratch1) X (k0_off29 k) _ _ k.val 160 (k0_off29_eq k) j (lt128_3 k) (by omega))
  · exact congrArg and1 (piece_apply (F := F) (View.whole cc0_scratch1) X (k0_off30 k) _ _ k.val 176 (k0_off30_eq k) j (lt128_3 k) (by omega))
  · refine congrArg and1 (((select_pay417 j _ _).trans ?_))
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

end Cert.Proof.KI

end
-- ==== Proof.KIGrpVal4.lean ====
/-
  What trip k of the group loop of chunk 1 stores into the output scratch: for lane j, row 16 k + j of the chunk, the
  three gathered totals (the sums of that row's sixteen words in each partial-sum scratch: word 17 (16 k + j) + i at step
  i, the sixteen steps added one after the other onto zero) enter the energy expression with the tile's energy
  128 + 16 k + j and lane j of the intercept vector.
-/
import proofs.«206979_g57535381897292_cont_9to1_m_841_24_alg».proof.Proof.KIValLib
import proofs.«206979_g57535381897292_cont_9to1_m_841_24_alg».proof.Proof.KIGrp4

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_4 (k : Fin k0_t4_loop.trips) : k.val < 8 := lt_of_lt_of_le k.isLt k0_t4_abs.2.1

/-- The piece trip k of the group loop of chunk 1 stores into the output scratch: words [128 + 16 k, 128 + 16 k + 16), lane j
    the energy expression at the three totals of row 16 k + j of the chunk (each the sum of that row's sixteen words in a
    partial-sum scratch), the tile's energy 128 + 16 k + j and lane j of the intercept vector. -/
theorem grpTrip4_P3 (v2 : BitVec 32) (v5 : Vec F S16 .f32) (v6 : IVec S16 32) (v8 : IVec S16 1) (v9 : Vec F S16 .f32)
    (hv6 : ∀ x, (v6 x).toNat < 16) (hv6e : ∀ x, (v6 x).toNat = (x 0).val) (k : Fin k0_t4_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip4 d L v2 v5 v6 v8 (k0_pay421 v9) (k0_pay422 v9) (k0_pay423 v9) (k0_pay424 v9) k0_pay425 hv6 k).1 G4 G5 G6 E
      = ⟨Rect.unit (s := S512) (k0_off33 k) S16.size (k0_off33_inb k), fun j =>
          energyOf v9 (gath G4 ⟨16 * k.val + (j 0).val, by have := lt8_4 k; have := lane_lt16 j; omega⟩)
            (gath G5 ⟨16 * k.val + (j 0).val, by have := lt8_4 k; have := lane_lt16 j; omega⟩)
            (gath G6 ⟨16 * k.val + (j 0).val, by have := lt8_4 k; have := lane_lt16 j; omega⟩)
            (E (ix1 ⟨128 + 16 * k.val + (j 0).val, by have := lt8_4 k; have := lane_lt16 j; omega⟩)) (v5 j)⟩ := by
  unfold grpTrip4
  dsimp only
  refine congrArg (Sigma.mk _) (funext fun j => ?_)
  sl_unfold_run_names
  have hj : (j 0).val < 16 := (j 0).isLt
  have hk := lt8_4 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off33 k) _ (128 + 16 * k.val)
      ((k0_off33_eq k).trans (congrArg (fun n : Nat => (![n] : Fin 1 → Nat)) (by omega))) j (by omega)
  · rfl

end Cert.Proof.KI

end
-- ==== Proof.KIChunkVal1.lean ====
/-
  Chunk 1 of a tile, after its two loops. The row loop leaves, in each of the three partial-sum scratches, at words
  17 r … 17 r + 15 the sixteen lanes of row r's partial sums, so those sixteen words add up to the row's total. The group
  loop then leaves, at word 128 + 16 k + l of the output scratch, the energy expression at the three totals of row
  16 k + l, and keeps every word outside the chunk's 128.
-/
import proofs.«206979_g57535381897292_cont_9to1_m_841_24_alg».proof.Proof.KIValLib
import proofs.«206979_g57535381897292_cont_9to1_m_841_24_alg».proof.Proof.KIChunkLib
import proofs.«206979_g57535381897292_cont_9to1_m_841_24_alg».proof.Proof.KIRowVal3
import proofs.«206979_g57535381897292_cont_9to1_m_841_24_alg».proof.Proof.KIGrpVal4

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 1 runs 128 trips. -/
theorem trips_t3 : k0_t3_loop.trips = 128 := by decide

/-- The group loop of chunk 1 runs 8 trips. -/
theorem trips_t4 : k0_t4_loop.trips = 8 := by decide

/-- After the row loop of chunk 1: word 17 r + j of partial-sum scratch 4 is lane j of row r's partial sum, whatever
    the scratch held before. -/
theorem chunk1_s4 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch4)) (r : Fin 128) (j : Fin 16) :
    fillW (s4).view (fun i => (rowTrip3 d L w2 w5 w6 k0_pay417 w18 w21 w24 w25 k0_pay425 i).1 X) g k0_t3_loop.trips
        (ix1 ⟨17 * r.val + j.val, by have := r.isLt; have := j.isLt; omega⟩)
      = rowLane id X r j := by
  have hpc : (fun i => (rowTrip3 d L w2 w5 w6 k0_pay417 w18 w21 w24 w25 k0_pay425 i).1 X)
      = fun i => (⟨Rect.unit (s := S2176) (k0_off32 i) S16.size (k0_off32_inb i),
          fun jj => rowLane id X ⟨i.val, lt128_3 i⟩ ⟨(jj 0).val, lane_lt16 jj⟩⟩ : View.Piece (Elt F) S2176 .i32) :=
    funext fun i => rowTrip3_P4 d L w2 w5 w6 w18 w21 w24 w25 i X
  rw [hpc]
  exact fillW_rows17 (F := F) (s4).view (le_of_eq trips_t3) k0_off32 k0_off32_inb k0_off32_eq
    (fun i jj => rowLane id X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total. -/
theorem chunk1_gath4 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch4)) (r : Fin 128) :
    gath (fillW (s4).view (fun i => (rowTrip3 d L w2 w5 w6 k0_pay417 w18 w21 w24 w25 k0_pay425 i).1 X) g k0_t3_loop.trips) r = rowTot id X r :=
  Finset.sum_congr rfl fun j _ => chunk1_s4 d L w2 w5 w6 w18 w21 w24 w25 X g r j

/-- After the row loop of chunk 1: word 17 r + j of partial-sum scratch 5 is lane j of row r's partial sum under shr1, whatever
    the scratch held before. -/
theorem chunk1_s5 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch5)) (r : Fin 128) (j : Fin 16) :
    fillW (s5).view (fun i => (rowTrip3 d L w2 w5 w6 k0_pay417 w18 w21 w24 w25 k0_pay425 i).2.1 X) g k0_t3_loop.trips
        (ix1 ⟨17 * r.val + j.val, by have := r.isLt; have := j.isLt; omega⟩)
      = rowLane shr1 X r j := by
  have hpc : (fun i => (rowTrip3 d L w2 w5 w6 k0_pay417 w18 w21 w24 w25 k0_pay425 i).2.1 X)
      = fun i => (⟨Rect.unit (s := S2176) (k0_off32 i) S16.size (k0_off32_inb i),
          fun jj => rowLane shr1 X ⟨i.val, lt128_3 i⟩ ⟨(jj 0).val, lane_lt16 jj⟩⟩ : View.Piece (Elt F) S2176 .i32) :=
    funext fun i => rowTrip3_P5 d L w2 w5 w6 w18 w21 w24 w25 i X
  rw [hpc]
  exact fillW_rows17 (F := F) (s5).view (le_of_eq trips_t3) k0_off32 k0_off32_inb k0_off32_eq
    (fun i jj => rowLane shr1 X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total under shr1. -/
theorem chunk1_gath5 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch5)) (r : Fin 128) :
    gath (fillW (s5).view (fun i => (rowTrip3 d L w2 w5 w6 k0_pay417 w18 w21 w24 w25 k0_pay425 i).2.1 X) g k0_t3_loop.trips) r = rowTot shr1 X r :=
  Finset.sum_congr rfl fun j _ => chunk1_s5 d L w2 w5 w6 w18 w21 w24 w25 X g r j

/-- After the row loop of chunk 1: word 17 r + j of partial-sum scratch 6 is lane j of row r's partial sum under and1, whatever
    the scratch held before. -/
theorem chunk1_s6 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch6)) (r : Fin 128) (j : Fin 16) :
    fillW (s6).view (fun i => (rowTrip3 d L w2 w5 w6 k0_pay417 w18 w21 w24 w25 k0_pay425 i).2.2.1 X) g k0_t3_loop.trips
        (ix1 ⟨17 * r.val + j.val, by have := r.isLt; have := j.isLt; omega⟩)
      = rowLane and1 X r j := by
  have hpc : (fun i => (rowTrip3 d L w2 w5 w6 k0_pay417 w18 w21 w24 w25 k0_pay425 i).2.2.1 X)
      = fun i => (⟨Rect.unit (s := S2176) (k0_off32 i) S16.size (k0_off32_inb i),
          fun jj => rowLane and1 X ⟨i.val, lt128_3 i⟩ ⟨(jj 0).val, lane_lt16 jj⟩⟩ : View.Piece (Elt F) S2176 .i32) :=
    funext fun i => rowTrip3_P6 d L w2 w5 w6 w18 w21 w24 w25 i X
  rw [hpc]
  exact fillW_rows17 (F := F) (s6).view (le_of_eq trips_t3) k0_off32 k0_off32_inb k0_off32_eq
    (fun i jj => rowLane and1 X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total under and1. -/
theorem chunk1_gath6 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch6)) (r : Fin 128) :
    gath (fillW (s6).view (fun i => (rowTrip3 d L w2 w5 w6 k0_pay417 w18 w21 w24 w25 k0_pay425 i).2.2.1 X) g k0_t3_loop.trips) r = rowTot and1 X r :=
  Finset.sum_congr rfl fun j _ => chunk1_s6 d L w2 w5 w6 w18 w21 w24 w25 X g r j

/-- After both loops of chunk 1: word 128 + 16 k + l of the output scratch is the energy expression at the three totals of
    row 16 k + l of the chunk, the tile's energy 128 + 16 k + l and lane l of the intercept vector. -/
theorem chunk1_in (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E) H3p k0_t4_loop.trips (ix1 ⟨128 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨128 + 16 * k.val + l.val, by have := k.isLt; have := l.isLt; omega⟩)) (v5 (ix1 l)) := by
  have hpc : (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E)
      = fun i => (⟨Rect.unit (s := S512) (k0_off33 i) S16.size (k0_off33_inb i), (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) i⟩ : View.Piece (Elt F) S512 .f32) :=
    funext fun i => grpTrip4_P3 d L v2 v5 v6 v8 v9 hv6 hv6e i _ _ _ E
  rw [hpc]
  refine (fillW_out16 (F := F) (s3).view (le_of_eq trips_t4) 128 (by omega) k0_off33 k0_off33_inb (fun i => (k0_off33_eq i).trans (congrArg (fun n : Nat => (![n] : Fin 1 → Nat)) (by omega)))
    (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) H3p ⟨k.val, lt_of_lt_of_eq k.isLt trips_t4.symm⟩ l k0_t4_loop.trips (lt_of_lt_of_eq k.isLt trips_t4.symm)).trans ?_
  dsimp only
  rw [chunk1_gath4 d L w2 w5 w6 w18 w21 w24 w25 X G4p, chunk1_gath5 d L w2 w5 w6 w18 w21 w24 w25 X G5p, chunk1_gath6 d L w2 w5 w6 w18 w21 w24 w25 X G6p]

/-- The group loop of chunk 1 leaves every word of the output scratch outside [128, 256) as it was. -/
theorem chunk1_out (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 128 ∨ 128 + 128 ≤ (y 0).val) :
    fillW (s3).view (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E) H3p k0_t4_loop.trips y = H3p y := by
  have hpc : (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E)
      = fun i => (⟨Rect.unit (s := S512) (k0_off33 i) S16.size (k0_off33_inb i), (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) i⟩ : View.Piece (Elt F) S512 .f32) :=
    funext fun i => grpTrip4_P3 d L v2 v5 v6 v8 v9 hv6 hv6e i _ _ _ E
  rw [hpc]
  exact fillW_out16_outside (F := F) (s3).view (le_of_eq trips_t4) 128 k0_off33 k0_off33_inb (fun i => (k0_off33_eq i).trans (congrArg (fun n : Nat => (![n] : Fin 1 → Nat)) (by omega)))
    (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) H3p y hy k0_t4_loop.trips

end Cert.Proof.KI

end
-- ==== Proof.KIRowVal5.lean ====
/-
  What trip k of the row loop over chunk 2 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KIValLib
import proofs.«206979_g57535381897292_cont_9to1_m_841_24_alg».proof.Proof.KIRow5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_5 (k : Fin k0_t5_loop.trips) : k.val < 128 := lt_of_lt_of_le k.isLt k0_t5_abs.2.1

/-- The piece trip k stores into the first partial-sum scratch: words [17 k, 17 k + 16), lane j the row's partial sum of
    the species words themselves. -/
theorem rowTrip5_P4 (c0 : BitVec 32)
    (k : Fin k0_t5_loop.trips) (X : Buf (Elt F) ((V d (cV L) (jV L)).loc cc0_scratch0)) :
    (rowTrip5 d L k0_pay417 k0_pay425 c0 k).1 X
      = ⟨Rect.unit (s := S2176) (k0_off47 k) S16.size (k0_off47_inb k),
          fun j => rowLane id X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay5, k0_pay1, k0_pay3, k0_pay425, addi, select, broadcast, IntOp.addi]
  refine lane_sum_a (fun p => X (ix2 ⟨k.val, lt128_5 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch0) X (k0_off34 k) _ _ k.val 0 (k0_off34_eq k) j (lt128_5 k) (by omega))
  · exact (piece_apply (F := F) (View.whole cc0_scratch0) X (k0_off35 k) _ _ k.val 16 (k0_off35_eq k) j (lt128_5 k) (by omega))
  · exact (piece_apply (F := F) (View.whole cc0_scratch0) X (k0_off36 k) _ _ k.val 32 (k0_off36_eq k) j (lt128_5 k) (by omega))
  · exact (piece_apply (F := F) (View.whole cc0_scratch0) X (k0_off37 k) _ _ k.val 48 (k0_off37_eq k) j (lt128_5 k) (by omega))
  · exact (piece_apply (F := F) (View.whole cc0_scratch0) X (k0_off38 k) _ _ k.val 64 (k0_off38_eq k) j (lt128_5 k) (by omega))
  · exact (piece_apply (F := F) (View.whole cc0_scratch0) X (k0_off39 k) _ _ k.val 80 (k0_off39_eq k) j (lt128_5 k) (by omega))
  · exact (piece_apply (F := F) (View.whole cc0_scratch0) X (k0_off40 k) _ _ k.val 96 (k0_off40_eq k) j (lt128_5 k) (by omega))
  · exact (piece_apply (F := F) (View.whole cc0_scratch0) X (k0_off41 k) _ _ k.val 112 (k0_off41_eq k) j (lt128_5 k) (by omega))
  · exact (piece_apply (F := F) (View.whole cc0_scratch0) X (k0_off42 k) _ _ k.val 128 (k0_off42_eq k) j (lt128_5 k) (by omega))
  · exact (piece_apply (F := F) (View.whole cc0_scratch0) X (k0_off43 k) _ _ k.val 144 (k0_off43_eq k) j (lt128_5 k) (by omega))
  · exact (piece_apply (F := F) (View.whole cc0_scratch0) X (k0_off44 k) _ _ k.val 160 (k0_off44_eq k) j (lt128_5 k) (by omega))
  · exact (piece_apply (F := F) (View.whole cc0_scratch0) X (k0_off45 k) _ _ k.val 176 (k0_off45_eq k) j (lt128_5 k) (by omega))
  · refine ((select_pay417 j _ _).trans ?_)
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

/-- The piece trip k stores into the second partial-sum scratch: lane j the row's partial sum of the halved words. -/
theorem rowTrip5_P5 (c0 : BitVec 32)
    (k : Fin k0_t5_loop.trips) (X : Buf (Elt F) ((V d (cV L) (jV L)).loc cc0_scratch0)) :
    (rowTrip5 d L k0_pay417 k0_pay425 c0 k).2.1 X
      = ⟨Rect.unit (s := S2176) (k0_off47 k) S16.size (k0_off47_inb k),
          fun j => rowLane shr1 X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay6, k0_pay1, k0_pay2, k0_pay3, k0_pay4, k0_pay425, addi, shrsi, select, broadcast, IntOp.addi]
  refine lane_sum_b (fun p => shr1 (X (ix2 ⟨k.val, lt128_5 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch0) X (k0_off34 k) _ _ k.val 0 (k0_off34_eq k) j (lt128_5 k) (by omega))
  · exact congrArg shr1 (piece_apply (F := F) (View.whole cc0_scratch0) X (k0_off35 k) _ _ k.val 16 (k0_off35_eq k) j (lt128_5 k) (by omega))
  · exact congrArg shr1 (piece_apply (F := F) (View.whole cc0_scratch0) X (k0_off36 k) _ _ k.val 32 (k0_off36_eq k) j (lt128_5 k) (by omega))
  · exact congrArg shr1 (piece_apply (F := F) (View.whole cc0_scratch0) X (k0_off37 k) _ _ k.val 48 (k0_off37_eq k) j (lt128_5 k) (by omega))
  · exact congrArg shr1 (piece_apply (F := F) (View.whole cc0_scratch0) X (k0_off38 k) _ _ k.val 64 (k0_off38_eq k) j (lt128_5 k) (by omega))
  · exact congrArg shr1 (piece_apply (F := F) (View.whole cc0_scratch0) X (k0_off39 k) _ _ k.val 80 (k0_off39_eq k) j (lt128_5 k) (by omega))
  · exact congrArg shr1 (piece_apply (F := F) (View.whole cc0_scratch0) X (k0_off40 k) _ _ k.val 96 (k0_off40_eq k) j (lt128_5 k) (by omega))
  · exact congrArg shr1 (piece_apply (F := F) (View.whole cc0_scratch0) X (k0_off41 k) _ _ k.val 112 (k0_off41_eq k) j (lt128_5 k) (by omega))
  · exact congrArg shr1 (piece_apply (F := F) (View.whole cc0_scratch0) X (k0_off42 k) _ _ k.val 128 (k0_off42_eq k) j (lt128_5 k) (by omega))
  · exact congrArg shr1 (piece_apply (F := F) (View.whole cc0_scratch0) X (k0_off43 k) _ _ k.val 144 (k0_off43_eq k) j (lt128_5 k) (by omega))
  · exact congrArg shr1 (piece_apply (F := F) (View.whole cc0_scratch0) X (k0_off44 k) _ _ k.val 160 (k0_off44_eq k) j (lt128_5 k) (by omega))
  · exact congrArg shr1 (piece_apply (F := F) (View.whole cc0_scratch0) X (k0_off45 k) _ _ k.val 176 (k0_off45_eq k) j (lt128_5 k) (by omega))
  · refine congrArg shr1 (((select_pay417 j _ _).trans ?_))
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

/-- The piece trip k stores into the third partial-sum scratch: lane j the row's partial sum of the words' bitwise and
    with their halves. -/
theorem rowTrip5_P6 (c0 : BitVec 32)
    (k : Fin k0_t5_loop.trips) (X : Buf (Elt F) ((V d (cV L) (jV L)).loc cc0_scratch0)) :
    (rowTrip5 d L k0_pay417 k0_pay425 c0 k).2.2.1 X
      = ⟨Rect.unit (s := S2176) (k0_off47 k) S16.size (k0_off47_inb k),
          fun j => rowLane and1 X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay7, k0_pay1, k0_pay2, k0_pay3, k0_pay4, k0_pay425, addi, andi, shrsi, select, broadcast, IntOp.addi]
  refine lane_sum_b (fun p => and1 (X (ix2 ⟨k.val, lt128_5 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch0) X (k0_off34 k) _ _ k.val 0 (k0_off34_eq k) j (lt128_5 k) (by omega))
  · exact congrArg and1 (piece_apply (F := F) (View.whole cc0_scratch0) X (k0_off35 k) _ _ k.val 16 (k0_off35_eq k) j (lt128_5 k) (by omega))
  · exact congrArg and1 (piece_apply (F := F) (View.whole cc0_scratch0) X (k0_off36 k) _ _ k.val 32 (k0_off36_eq k) j (lt128_5 k) (by omega))
  · exact congrArg and1 (piece_apply (F := F) (View.whole cc0_scratch0) X (k0_off37 k) _ _ k.val 48 (k0_off37_eq k) j (lt128_5 k) (by omega))
  · exact congrArg and1 (piece_apply (F := F) (View.whole cc0_scratch0) X (k0_off38 k) _ _ k.val 64 (k0_off38_eq k) j (lt128_5 k) (by omega))
  · exact congrArg and1 (piece_apply (F := F) (View.whole cc0_scratch0) X (k0_off39 k) _ _ k.val 80 (k0_off39_eq k) j (lt128_5 k) (by omega))
  · exact congrArg and1 (piece_apply (F := F) (View.whole cc0_scratch0) X (k0_off40 k) _ _ k.val 96 (k0_off40_eq k) j (lt128_5 k) (by omega))
  · exact congrArg and1 (piece_apply (F := F) (View.whole cc0_scratch0) X (k0_off41 k) _ _ k.val 112 (k0_off41_eq k) j (lt128_5 k) (by omega))
  · exact congrArg and1 (piece_apply (F := F) (View.whole cc0_scratch0) X (k0_off42 k) _ _ k.val 128 (k0_off42_eq k) j (lt128_5 k) (by omega))
  · exact congrArg and1 (piece_apply (F := F) (View.whole cc0_scratch0) X (k0_off43 k) _ _ k.val 144 (k0_off43_eq k) j (lt128_5 k) (by omega))
  · exact congrArg and1 (piece_apply (F := F) (View.whole cc0_scratch0) X (k0_off44 k) _ _ k.val 160 (k0_off44_eq k) j (lt128_5 k) (by omega))
  · exact congrArg and1 (piece_apply (F := F) (View.whole cc0_scratch0) X (k0_off45 k) _ _ k.val 176 (k0_off45_eq k) j (lt128_5 k) (by omega))
  · refine congrArg and1 (((select_pay417 j _ _).trans ?_))
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

end Cert.Proof.KI

end
-- ==== Proof.KIGrpVal6.lean ====
/-
  What trip k of the group loop of chunk 2 stores into the output scratch: for lane j, row 16 k + j of the chunk, the
  three gathered totals (the sums of that row's sixteen words in each partial-sum scratch: word 17 (16 k + j) + i at step
  i, the sixteen steps added one after the other onto zero) enter the energy expression with the tile's energy
  256 + 16 k + j and lane j of the intercept vector.
-/
import proofs.«206979_g57535381897292_cont_9to1_m_841_24_alg».proof.Proof.KIValLib
import proofs.«206979_g57535381897292_cont_9to1_m_841_24_alg».proof.Proof.KIGrp6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_6 (k : Fin k0_t6_loop.trips) : k.val < 8 := lt_of_lt_of_le k.isLt k0_t6_abs.2.1

/-- The piece trip k of the group loop of chunk 2 stores into the output scratch: words [256 + 16 k, 256 + 16 k + 16), lane j
    the energy expression at the three totals of row 16 k + j of the chunk (each the sum of that row's sixteen words in a
    partial-sum scratch), the tile's energy 256 + 16 k + j and lane j of the intercept vector. -/
theorem grpTrip6_P3 (v5 : Vec F S16 .f32) (v6 : IVec S16 32) (v9 : Vec F S16 .f32)
    (hv6 : ∀ x, (v6 x).toNat < 16) (hv6e : ∀ x, (v6 x).toNat = (x 0).val) (k : Fin k0_t6_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip6 d L v5 v6 (k0_pay421 v9) (k0_pay422 v9) (k0_pay423 v9) (k0_pay424 v9) k0_pay425 hv6 k).1 G4 G5 G6 E
      = ⟨Rect.unit (s := S512) (k0_off48 k) S16.size (k0_off48_inb k), fun j =>
          energyOf v9 (gath G4 ⟨16 * k.val + (j 0).val, by have := lt8_6 k; have := lane_lt16 j; omega⟩)
            (gath G5 ⟨16 * k.val + (j 0).val, by have := lt8_6 k; have := lane_lt16 j; omega⟩)
            (gath G6 ⟨16 * k.val + (j 0).val, by have := lt8_6 k; have := lane_lt16 j; omega⟩)
            (E (ix1 ⟨256 + 16 * k.val + (j 0).val, by have := lt8_6 k; have := lane_lt16 j; omega⟩)) (v5 j)⟩ := by
  unfold grpTrip6
  dsimp only
  refine congrArg (Sigma.mk _) (funext fun j => ?_)
  sl_unfold_run_names
  have hj : (j 0).val < 16 := (j 0).isLt
  have hk := lt8_6 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off48 k) _ (256 + 16 * k.val)
      ((k0_off48_eq k).trans (congrArg (fun n : Nat => (![n] : Fin 1 → Nat)) (by omega))) j (by omega)
  · rfl

end Cert.Proof.KI

end
-- ==== Proof.KIChunkVal2.lean ====
/-
  Chunk 2 of a tile, after its two loops. The row loop leaves, in each of the three partial-sum scratches, at words
  17 r … 17 r + 15 the sixteen lanes of row r's partial sums, so those sixteen words add up to the row's total. The group
  loop then leaves, at word 256 + 16 k + l of the output scratch, the energy expression at the three totals of row
  16 k + l, and keeps every word outside the chunk's 128.
-/
import proofs.«206979_g57535381897292_cont_9to1_m_841_24_alg».proof.Proof.KIValLib
import proofs.«206979_g57535381897292_cont_9to1_m_841_24_alg».proof.Proof.KIChunkLib
import proofs.«206979_g57535381897292_cont_9to1_m_841_24_alg».proof.Proof.KIRowVal5
import proofs.«206979_g57535381897292_cont_9to1_m_841_24_alg».proof.Proof.KIGrpVal6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 2 runs 128 trips. -/
theorem trips_t5 : k0_t5_loop.trips = 128 := by decide

/-- The group loop of chunk 2 runs 8 trips. -/
theorem trips_t6 : k0_t6_loop.trips = 8 := by decide

/-- After the row loop of chunk 2: word 17 r + j of partial-sum scratch 4 is lane j of row r's partial sum, whatever
    the scratch held before. -/
theorem chunk2_s4 (c0 : BitVec 32) (X : Buf (Elt F) ((V d (cV L) (jV L)).loc cc0_scratch0))
    (g : Buf (Elt F) ((V d (cV L) (jV L)).loc cc0_scratch4)) (r : Fin 128) (j : Fin 16) :
    fillW (s4).view (fun i => (rowTrip5 d L k0_pay417 k0_pay425 c0 i).1 X) g k0_t5_loop.trips
        (ix1 ⟨17 * r.val + j.val, by have := r.isLt; have := j.isLt; omega⟩)
      = rowLane id X r j := by
  have hpc : (fun i => (rowTrip5 d L k0_pay417 k0_pay425 c0 i).1 X)
      = fun i => (⟨Rect.unit (s := S2176) (k0_off47 i) S16.size (k0_off47_inb i),
          fun jj => rowLane id X ⟨i.val, lt128_5 i⟩ ⟨(jj 0).val, lane_lt16 jj⟩⟩ : View.Piece (Elt F) S2176 .i32) :=
    funext fun i => rowTrip5_P4 d L c0 i X
  rw [hpc]
  exact fillW_rows17 (F := F) (s4).view (le_of_eq trips_t5) k0_off47 k0_off47_inb k0_off47_eq
    (fun i jj => rowLane id X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total. -/
theorem chunk2_gath4 (c0 : BitVec 32) (X : Buf (Elt F) ((V d (cV L) (jV L)).loc cc0_scratch0))
    (g : Buf (Elt F) ((V d (cV L) (jV L)).loc cc0_scratch4)) (r : Fin 128) :
    gath (fillW (s4).view (fun i => (rowTrip5 d L k0_pay417 k0_pay425 c0 i).1 X) g k0_t5_loop.trips) r = rowTot id X r :=
  Finset.sum_congr rfl fun j _ => chunk2_s4 d L c0 X g r j

/-- After the row loop of chunk 2: word 17 r + j of partial-sum scratch 5 is lane j of row r's partial sum under shr1, whatever
    the scratch held before. -/
theorem chunk2_s5 (c0 : BitVec 32) (X : Buf (Elt F) ((V d (cV L) (jV L)).loc cc0_scratch0))
    (g : Buf (Elt F) ((V d (cV L) (jV L)).loc cc0_scratch5)) (r : Fin 128) (j : Fin 16) :
    fillW (s5).view (fun i => (rowTrip5 d L k0_pay417 k0_pay425 c0 i).2.1 X) g k0_t5_loop.trips
        (ix1 ⟨17 * r.val + j.val, by have := r.isLt; have := j.isLt; omega⟩)
      = rowLane shr1 X r j := by
  have hpc : (fun i => (rowTrip5 d L k0_pay417 k0_pay425 c0 i).2.1 X)
      = fun i => (⟨Rect.unit (s := S2176) (k0_off47 i) S16.size (k0_off47_inb i),
          fun jj => rowLane shr1 X ⟨i.val, lt128_5 i⟩ ⟨(jj 0).val, lane_lt16 jj⟩⟩ : View.Piece (Elt F) S2176 .i32) :=
    funext fun i => rowTrip5_P5 d L c0 i X
  rw [hpc]
  exact fillW_rows17 (F := F) (s5).view (le_of_eq trips_t5) k0_off47 k0_off47_inb k0_off47_eq
    (fun i jj => rowLane shr1 X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total under shr1. -/
theorem chunk2_gath5 (c0 : BitVec 32) (X : Buf (Elt F) ((V d (cV L) (jV L)).loc cc0_scratch0))
    (g : Buf (Elt F) ((V d (cV L) (jV L)).loc cc0_scratch5)) (r : Fin 128) :
    gath (fillW (s5).view (fun i => (rowTrip5 d L k0_pay417 k0_pay425 c0 i).2.1 X) g k0_t5_loop.trips) r = rowTot shr1 X r :=
  Finset.sum_congr rfl fun j _ => chunk2_s5 d L c0 X g r j

/-- After the row loop of chunk 2: word 17 r + j of partial-sum scratch 6 is lane j of row r's partial sum under and1, whatever
    the scratch held before. -/
theorem chunk2_s6 (c0 : BitVec 32) (X : Buf (Elt F) ((V d (cV L) (jV L)).loc cc0_scratch0))
    (g : Buf (Elt F) ((V d (cV L) (jV L)).loc cc0_scratch6)) (r : Fin 128) (j : Fin 16) :
    fillW (s6).view (fun i => (rowTrip5 d L k0_pay417 k0_pay425 c0 i).2.2.1 X) g k0_t5_loop.trips
        (ix1 ⟨17 * r.val + j.val, by have := r.isLt; have := j.isLt; omega⟩)
      = rowLane and1 X r j := by
  have hpc : (fun i => (rowTrip5 d L k0_pay417 k0_pay425 c0 i).2.2.1 X)
      = fun i => (⟨Rect.unit (s := S2176) (k0_off47 i) S16.size (k0_off47_inb i),
          fun jj => rowLane and1 X ⟨i.val, lt128_5 i⟩ ⟨(jj 0).val, lane_lt16 jj⟩⟩ : View.Piece (Elt F) S2176 .i32) :=
    funext fun i => rowTrip5_P6 d L c0 i X
  rw [hpc]
  exact fillW_rows17 (F := F) (s6).view (le_of_eq trips_t5) k0_off47 k0_off47_inb k0_off47_eq
    (fun i jj => rowLane and1 X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total under and1. -/
theorem chunk2_gath6 (c0 : BitVec 32) (X : Buf (Elt F) ((V d (cV L) (jV L)).loc cc0_scratch0))
    (g : Buf (Elt F) ((V d (cV L) (jV L)).loc cc0_scratch6)) (r : Fin 128) :
    gath (fillW (s6).view (fun i => (rowTrip5 d L k0_pay417 k0_pay425 c0 i).2.2.1 X) g k0_t5_loop.trips) r = rowTot and1 X r :=
  Finset.sum_congr rfl fun j _ => chunk2_s6 d L c0 X g r j

/-- After both loops of chunk 2: word 256 + 16 k + l of the output scratch is the energy expression at the three totals of
    row 16 k + l of the chunk, the tile's energy 256 + 16 k + l and lane l of the intercept vector. -/
theorem chunk2_in (c0 : BitVec 32) (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E) H3p k0_t6_loop.trips (ix1 ⟨256 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨256 + 16 * k.val + l.val, by have := k.isLt; have := l.isLt; omega⟩)) (v5 (ix1 l)) := by
  have hpc : (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E)
      = fun i => (⟨Rect.unit (s := S512) (k0_off48 i) S16.size (k0_off48_inb i), (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) i⟩ : View.Piece (Elt F) S512 .f32) :=
    funext fun i => grpTrip6_P3 d L v5 v6 v9 hv6 hv6e i _ _ _ E
  rw [hpc]
  refine (fillW_out16 (F := F) (s3).view (le_of_eq trips_t6) 256 (by omega) k0_off48 k0_off48_inb (fun i => (k0_off48_eq i).trans (congrArg (fun n : Nat => (![n] : Fin 1 → Nat)) (by omega)))
    (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) H3p ⟨k.val, lt_of_lt_of_eq k.isLt trips_t6.symm⟩ l k0_t6_loop.trips (lt_of_lt_of_eq k.isLt trips_t6.symm)).trans ?_
  dsimp only
  rw [chunk2_gath4 d L c0 X G4p, chunk2_gath5 d L c0 X G5p, chunk2_gath6 d L c0 X G6p]

/-- The group loop of chunk 2 leaves every word of the output scratch outside [256, 384) as it was. -/
theorem chunk2_out (c0 : BitVec 32) (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 256 ∨ 256 + 128 ≤ (y 0).val) :
    fillW (s3).view (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E) H3p k0_t6_loop.trips y = H3p y := by
  have hpc : (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E)
      = fun i => (⟨Rect.unit (s := S512) (k0_off48 i) S16.size (k0_off48_inb i), (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) i⟩ : View.Piece (Elt F) S512 .f32) :=
    funext fun i => grpTrip6_P3 d L v5 v6 v9 hv6 hv6e i _ _ _ E
  rw [hpc]
  exact fillW_out16_outside (F := F) (s3).view (le_of_eq trips_t6) 256 k0_off48 k0_off48_inb (fun i => (k0_off48_eq i).trans (congrArg (fun n : Nat => (![n] : Fin 1 → Nat)) (by omega)))
    (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) H3p y hy k0_t6_loop.trips

end Cert.Proof.KI

end
-- ==== Proof.KIRowVal7.lean ====
/-
  What trip k of the row loop over chunk 3 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KIValLib
import proofs.«206979_g57535381897292_cont_9to1_m_841_24_alg».proof.Proof.KIRow7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_7 (k : Fin k0_t7_loop.trips) : k.val < 128 := lt_of_lt_of_le k.isLt k0_t7_abs.2.1

/-- The piece trip k stores into the first partial-sum scratch: words [17 k, 17 k + 16), lane j the row's partial sum of
    the species words themselves. -/
theorem rowTrip7_P4 (k : Fin k0_t7_loop.trips) (X : Buf (Elt F) ((V d (cV L) (jV L)).loc cc0_scratch1)) :
    (rowTrip7 d L k0_pay417 k0_pay425 k).1 X
      = ⟨Rect.unit (s := S2176) (k0_off62 k) S16.size (k0_off62_inb k),
          fun j => rowLane id X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay13, k0_pay9, k0_pay11, k0_pay425, addi, select, broadcast, IntOp.addi]
  refine lane_sum_a (fun p => X (ix2 ⟨k.val, lt128_7 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch1) X (k0_off49 k) _ _ k.val 0 (k0_off49_eq k) j (lt128_7 k) (by omega))
  · exact (piece_apply (F := F) (View.whole cc0_scratch1) X (k0_off50 k) _ _ k.val 16 (k0_off50_eq k) j (lt128_7 k) (by omega))
  · exact (piece_apply (F := F) (View.whole cc0_scratch1) X (k0_off51 k) _ _ k.val 32 (k0_off51_eq k) j (lt128_7 k) (by omega))
  · exact (piece_apply (F := F) (View.whole cc0_scratch1) X (k0_off52 k) _ _ k.val 48 (k0_off52_eq k) j (lt128_7 k) (by omega))
  · exact (piece_apply (F := F) (View.whole cc0_scratch1) X (k0_off53 k) _ _ k.val 64 (k0_off53_eq k) j (lt128_7 k) (by omega))
  · exact (piece_apply (F := F) (View.whole cc0_scratch1) X (k0_off54 k) _ _ k.val 80 (k0_off54_eq k) j (lt128_7 k) (by omega))
  · exact (piece_apply (F := F) (View.whole cc0_scratch1) X (k0_off55 k) _ _ k.val 96 (k0_off55_eq k) j (lt128_7 k) (by omega))
  · exact (piece_apply (F := F) (View.whole cc0_scratch1) X (k0_off56 k) _ _ k.val 112 (k0_off56_eq k) j (lt128_7 k) (by omega))
  · exact (piece_apply (F := F) (View.whole cc0_scratch1) X (k0_off57 k) _ _ k.val 128 (k0_off57_eq k) j (lt128_7 k) (by omega))
  · exact (piece_apply (F := F) (View.whole cc0_scratch1) X (k0_off58 k) _ _ k.val 144 (k0_off58_eq k) j (lt128_7 k) (by omega))
  · exact (piece_apply (F := F) (View.whole cc0_scratch1) X (k0_off59 k) _ _ k.val 160 (k0_off59_eq k) j (lt128_7 k) (by omega))
  · exact (piece_apply (F := F) (View.whole cc0_scratch1) X (k0_off60 k) _ _ k.val 176 (k0_off60_eq k) j (lt128_7 k) (by omega))
  · refine ((select_pay417 j _ _).trans ?_)
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

/-- The piece trip k stores into the second partial-sum scratch: lane j the row's partial sum of the halved words. -/
theorem rowTrip7_P5 (k : Fin k0_t7_loop.trips) (X : Buf (Elt F) ((V d (cV L) (jV L)).loc cc0_scratch1)) :
    (rowTrip7 d L k0_pay417 k0_pay425 k).2.1 X
      = ⟨Rect.unit (s := S2176) (k0_off62 k) S16.size (k0_off62_inb k),
          fun j => rowLane shr1 X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay14, k0_pay9, k0_pay10, k0_pay11, k0_pay12, k0_pay425, addi, shrsi, select, broadcast, IntOp.addi]
  refine lane_sum_b (fun p => shr1 (X (ix2 ⟨k.val, lt128_7 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch1) X (k0_off49 k) _ _ k.val 0 (k0_off49_eq k) j (lt128_7 k) (by omega))
  · exact congrArg shr1 (piece_apply (F := F) (View.whole cc0_scratch1) X (k0_off50 k) _ _ k.val 16 (k0_off50_eq k) j (lt128_7 k) (by omega))
  · exact congrArg shr1 (piece_apply (F := F) (View.whole cc0_scratch1) X (k0_off51 k) _ _ k.val 32 (k0_off51_eq k) j (lt128_7 k) (by omega))
  · exact congrArg shr1 (piece_apply (F := F) (View.whole cc0_scratch1) X (k0_off52 k) _ _ k.val 48 (k0_off52_eq k) j (lt128_7 k) (by omega))
  · exact congrArg shr1 (piece_apply (F := F) (View.whole cc0_scratch1) X (k0_off53 k) _ _ k.val 64 (k0_off53_eq k) j (lt128_7 k) (by omega))
  · exact congrArg shr1 (piece_apply (F := F) (View.whole cc0_scratch1) X (k0_off54 k) _ _ k.val 80 (k0_off54_eq k) j (lt128_7 k) (by omega))
  · exact congrArg shr1 (piece_apply (F := F) (View.whole cc0_scratch1) X (k0_off55 k) _ _ k.val 96 (k0_off55_eq k) j (lt128_7 k) (by omega))
  · exact congrArg shr1 (piece_apply (F := F) (View.whole cc0_scratch1) X (k0_off56 k) _ _ k.val 112 (k0_off56_eq k) j (lt128_7 k) (by omega))
  · exact congrArg shr1 (piece_apply (F := F) (View.whole cc0_scratch1) X (k0_off57 k) _ _ k.val 128 (k0_off57_eq k) j (lt128_7 k) (by omega))
  · exact congrArg shr1 (piece_apply (F := F) (View.whole cc0_scratch1) X (k0_off58 k) _ _ k.val 144 (k0_off58_eq k) j (lt128_7 k) (by omega))
  · exact congrArg shr1 (piece_apply (F := F) (View.whole cc0_scratch1) X (k0_off59 k) _ _ k.val 160 (k0_off59_eq k) j (lt128_7 k) (by omega))
  · exact congrArg shr1 (piece_apply (F := F) (View.whole cc0_scratch1) X (k0_off60 k) _ _ k.val 176 (k0_off60_eq k) j (lt128_7 k) (by omega))
  · refine congrArg shr1 (((select_pay417 j _ _).trans ?_))
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

/-- The piece trip k stores into the third partial-sum scratch: lane j the row's partial sum of the words' bitwise and
    with their halves. -/
theorem rowTrip7_P6 (k : Fin k0_t7_loop.trips) (X : Buf (Elt F) ((V d (cV L) (jV L)).loc cc0_scratch1)) :
    (rowTrip7 d L k0_pay417 k0_pay425 k).2.2.1 X
      = ⟨Rect.unit (s := S2176) (k0_off62 k) S16.size (k0_off62_inb k),
          fun j => rowLane and1 X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay15, k0_pay9, k0_pay10, k0_pay11, k0_pay12, k0_pay425, addi, andi, shrsi, select, broadcast, IntOp.addi]
  refine lane_sum_b (fun p => and1 (X (ix2 ⟨k.val, lt128_7 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch1) X (k0_off49 k) _ _ k.val 0 (k0_off49_eq k) j (lt128_7 k) (by omega))
  · exact congrArg and1 (piece_apply (F := F) (View.whole cc0_scratch1) X (k0_off50 k) _ _ k.val 16 (k0_off50_eq k) j (lt128_7 k) (by omega))
  · exact congrArg and1 (piece_apply (F := F) (View.whole cc0_scratch1) X (k0_off51 k) _ _ k.val 32 (k0_off51_eq k) j (lt128_7 k) (by omega))
  · exact congrArg and1 (piece_apply (F := F) (View.whole cc0_scratch1) X (k0_off52 k) _ _ k.val 48 (k0_off52_eq k) j (lt128_7 k) (by omega))
  · exact congrArg and1 (piece_apply (F := F) (View.whole cc0_scratch1) X (k0_off53 k) _ _ k.val 64 (k0_off53_eq k) j (lt128_7 k) (by omega))
  · exact congrArg and1 (piece_apply (F := F) (View.whole cc0_scratch1) X (k0_off54 k) _ _ k.val 80 (k0_off54_eq k) j (lt128_7 k) (by omega))
  · exact congrArg and1 (piece_apply (F := F) (View.whole cc0_scratch1) X (k0_off55 k) _ _ k.val 96 (k0_off55_eq k) j (lt128_7 k) (by omega))
  · exact congrArg and1 (piece_apply (F := F) (View.whole cc0_scratch1) X (k0_off56 k) _ _ k.val 112 (k0_off56_eq k) j (lt128_7 k) (by omega))
  · exact congrArg and1 (piece_apply (F := F) (View.whole cc0_scratch1) X (k0_off57 k) _ _ k.val 128 (k0_off57_eq k) j (lt128_7 k) (by omega))
  · exact congrArg and1 (piece_apply (F := F) (View.whole cc0_scratch1) X (k0_off58 k) _ _ k.val 144 (k0_off58_eq k) j (lt128_7 k) (by omega))
  · exact congrArg and1 (piece_apply (F := F) (View.whole cc0_scratch1) X (k0_off59 k) _ _ k.val 160 (k0_off59_eq k) j (lt128_7 k) (by omega))
  · exact congrArg and1 (piece_apply (F := F) (View.whole cc0_scratch1) X (k0_off60 k) _ _ k.val 176 (k0_off60_eq k) j (lt128_7 k) (by omega))
  · refine congrArg and1 (((select_pay417 j _ _).trans ?_))
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

end Cert.Proof.KI

end
-- ==== Proof.KIGrpVal8.lean ====
/-
  What trip k of the group loop of chunk 3 stores into the output scratch: for lane j, row 16 k + j of the chunk, the
  three gathered totals (the sums of that row's sixteen words in each partial-sum scratch: word 17 (16 k + j) + i at step
  i, the sixteen steps added one after the other onto zero) enter the energy expression with the tile's energy
  384 + 16 k + j and lane j of the intercept vector.
-/
import proofs.«206979_g57535381897292_cont_9to1_m_841_24_alg».proof.Proof.KIValLib
import proofs.«206979_g57535381897292_cont_9to1_m_841_24_alg».proof.Proof.KIGrp8

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_8 (k : Fin k0_t8_loop.trips) : k.val < 8 := lt_of_lt_of_le k.isLt k0_t8_abs.2.1

/-- The piece trip k of the group loop of chunk 3 stores into the output scratch: words [384 + 16 k, 384 + 16 k + 16), lane j
    the energy expression at the three totals of row 16 k + j of the chunk (each the sum of that row's sixteen words in a
    partial-sum scratch), the tile's energy 384 + 16 k + j and lane j of the intercept vector. -/
theorem grpTrip8_P3 (v5 : Vec F S16 .f32) (v6 : IVec S16 32) (v9 : Vec F S16 .f32)
    (hv6 : ∀ x, (v6 x).toNat < 16) (hv6e : ∀ x, (v6 x).toNat = (x 0).val) (k : Fin k0_t8_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip8 d L v5 v6 (k0_pay421 v9) (k0_pay422 v9) (k0_pay423 v9) (k0_pay424 v9) k0_pay425 hv6 k).1 G4 G5 G6 E
      = ⟨Rect.unit (s := S512) (k0_off63 k) S16.size (k0_off63_inb k), fun j =>
          energyOf v9 (gath G4 ⟨16 * k.val + (j 0).val, by have := lt8_8 k; have := lane_lt16 j; omega⟩)
            (gath G5 ⟨16 * k.val + (j 0).val, by have := lt8_8 k; have := lane_lt16 j; omega⟩)
            (gath G6 ⟨16 * k.val + (j 0).val, by have := lt8_8 k; have := lane_lt16 j; omega⟩)
            (E (ix1 ⟨384 + 16 * k.val + (j 0).val, by have := lt8_8 k; have := lane_lt16 j; omega⟩)) (v5 j)⟩ := by
  unfold grpTrip8
  dsimp only
  refine congrArg (Sigma.mk _) (funext fun j => ?_)
  sl_unfold_run_names
  have hj : (j 0).val < 16 := (j 0).isLt
  have hk := lt8_8 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off63 k) _ (384 + 16 * k.val)
      ((k0_off63_eq k).trans (congrArg (fun n : Nat => (![n] : Fin 1 → Nat)) (by omega))) j (by omega)
  · rfl

end Cert.Proof.KI

end
-- ==== Proof.KIChunkVal3.lean ====
/-
  Chunk 3 of a tile, after its two loops. The row loop leaves, in each of the three partial-sum scratches, at words
  17 r … 17 r + 15 the sixteen lanes of row r's partial sums, so those sixteen words add up to the row's total. The group
  loop then leaves, at word 384 + 16 k + l of the output scratch, the energy expression at the three totals of row
  16 k + l, and keeps every word outside the chunk's 128.
-/
import proofs.«206979_g57535381897292_cont_9to1_m_841_24_alg».proof.Proof.KIValLib
import proofs.«206979_g57535381897292_cont_9to1_m_841_24_alg».proof.Proof.KIChunkLib
import proofs.«206979_g57535381897292_cont_9to1_m_841_24_alg».proof.Proof.KIRowVal7
import proofs.«206979_g57535381897292_cont_9to1_m_841_24_alg».proof.Proof.KIGrpVal8

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 3 runs 128 trips. -/
theorem trips_t7 : k0_t7_loop.trips = 128 := by decide

/-- The group loop of chunk 3 runs 8 trips. -/
theorem trips_t8 : k0_t8_loop.trips = 8 := by decide

/-- After the row loop of chunk 3: word 17 r + j of partial-sum scratch 4 is lane j of row r's partial sum, whatever
    the scratch held before. -/
theorem chunk3_s4  (X : Buf (Elt F) ((V d (cV L) (jV L)).loc cc0_scratch1))
    (g : Buf (Elt F) ((V d (cV L) (jV L)).loc cc0_scratch4)) (r : Fin 128) (j : Fin 16) :
    fillW (s4).view (fun i => (rowTrip7 d L k0_pay417 k0_pay425 i).1 X) g k0_t7_loop.trips
        (ix1 ⟨17 * r.val + j.val, by have := r.isLt; have := j.isLt; omega⟩)
      = rowLane id X r j := by
  have hpc : (fun i => (rowTrip7 d L k0_pay417 k0_pay425 i).1 X)
      = fun i => (⟨Rect.unit (s := S2176) (k0_off62 i) S16.size (k0_off62_inb i),
          fun jj => rowLane id X ⟨i.val, lt128_7 i⟩ ⟨(jj 0).val, lane_lt16 jj⟩⟩ : View.Piece (Elt F) S2176 .i32) :=
    funext fun i => rowTrip7_P4 d L  i X
  rw [hpc]
  exact fillW_rows17 (F := F) (s4).view (le_of_eq trips_t7) k0_off62 k0_off62_inb k0_off62_eq
    (fun i jj => rowLane id X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total. -/
theorem chunk3_gath4  (X : Buf (Elt F) ((V d (cV L) (jV L)).loc cc0_scratch1))
    (g : Buf (Elt F) ((V d (cV L) (jV L)).loc cc0_scratch4)) (r : Fin 128) :
    gath (fillW (s4).view (fun i => (rowTrip7 d L k0_pay417 k0_pay425 i).1 X) g k0_t7_loop.trips) r = rowTot id X r :=
  Finset.sum_congr rfl fun j _ => chunk3_s4 d L  X g r j

/-- After the row loop of chunk 3: word 17 r + j of partial-sum scratch 5 is lane j of row r's partial sum under shr1, whatever
    the scratch held before. -/
theorem chunk3_s5  (X : Buf (Elt F) ((V d (cV L) (jV L)).loc cc0_scratch1))
    (g : Buf (Elt F) ((V d (cV L) (jV L)).loc cc0_scratch5)) (r : Fin 128) (j : Fin 16) :
    fillW (s5).view (fun i => (rowTrip7 d L k0_pay417 k0_pay425 i).2.1 X) g k0_t7_loop.trips
        (ix1 ⟨17 * r.val + j.val, by have := r.isLt; have := j.isLt; omega⟩)
      = rowLane shr1 X r j := by
  have hpc : (fun i => (rowTrip7 d L k0_pay417 k0_pay425 i).2.1 X)
      = fun i => (⟨Rect.unit (s := S2176) (k0_off62 i) S16.size (k0_off62_inb i),
          fun jj => rowLane shr1 X ⟨i.val, lt128_7 i⟩ ⟨(jj 0).val, lane_lt16 jj⟩⟩ : View.Piece (Elt F) S2176 .i32) :=
    funext fun i => rowTrip7_P5 d L  i X
  rw [hpc]
  exact fillW_rows17 (F := F) (s5).view (le_of_eq trips_t7) k0_off62 k0_off62_inb k0_off62_eq
    (fun i jj => rowLane shr1 X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total under shr1. -/
theorem chunk3_gath5  (X : Buf (Elt F) ((V d (cV L) (jV L)).loc cc0_scratch1))
    (g : Buf (Elt F) ((V d (cV L) (jV L)).loc cc0_scratch5)) (r : Fin 128) :
    gath (fillW (s5).view (fun i => (rowTrip7 d L k0_pay417 k0_pay425 i).2.1 X) g k0_t7_loop.trips) r = rowTot shr1 X r :=
  Finset.sum_congr rfl fun j _ => chunk3_s5 d L  X g r j

/-- After the row loop of chunk 3: word 17 r + j of partial-sum scratch 6 is lane j of row r's partial sum under and1, whatever
    the scratch held before. -/
theorem chunk3_s6  (X : Buf (Elt F) ((V d (cV L) (jV L)).loc cc0_scratch1))
    (g : Buf (Elt F) ((V d (cV L) (jV L)).loc cc0_scratch6)) (r : Fin 128) (j : Fin 16) :
    fillW (s6).view (fun i => (rowTrip7 d L k0_pay417 k0_pay425 i).2.2.1 X) g k0_t7_loop.trips
        (ix1 ⟨17 * r.val + j.val, by have := r.isLt; have := j.isLt; omega⟩)
      = rowLane and1 X r j := by
  have hpc : (fun i => (rowTrip7 d L k0_pay417 k0_pay425 i).2.2.1 X)
      = fun i => (⟨Rect.unit (s := S2176) (k0_off62 i) S16.size (k0_off62_inb i),
          fun jj => rowLane and1 X ⟨i.val, lt128_7 i⟩ ⟨(jj 0).val, lane_lt16 jj⟩⟩ : View.Piece (Elt F) S2176 .i32) :=
    funext fun i => rowTrip7_P6 d L  i X
  rw [hpc]
  exact fillW_rows17 (F := F) (s6).view (le_of_eq trips_t7) k0_off62 k0_off62_inb k0_off62_eq
    (fun i jj => rowLane and1 X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total under and1. -/
theorem chunk3_gath6  (X : Buf (Elt F) ((V d (cV L) (jV L)).loc cc0_scratch1))
    (g : Buf (Elt F) ((V d (cV L) (jV L)).loc cc0_scratch6)) (r : Fin 128) :
    gath (fillW (s6).view (fun i => (rowTrip7 d L k0_pay417 k0_pay425 i).2.2.1 X) g k0_t7_loop.trips) r = rowTot and1 X r :=
  Finset.sum_congr rfl fun j _ => chunk3_s6 d L  X g r j

/-- After both loops of chunk 3: word 384 + 16 k + l of the output scratch is the energy expression at the three totals of
    row 16 k + l of the chunk, the tile's energy 384 + 16 k + l and lane l of the intercept vector. -/
theorem chunk3_in  (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E) H3p k0_t8_loop.trips (ix1 ⟨384 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨384 + 16 * k.val + l.val, by have := k.isLt; have := l.isLt; omega⟩)) (v5 (ix1 l)) := by
  have hpc : (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E)
      = fun i => (⟨Rect.unit (s := S512) (k0_off63 i) S16.size (k0_off63_inb i), (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) i⟩ : View.Piece (Elt F) S512 .f32) :=
    funext fun i => grpTrip8_P3 d L v5 v6 v9 hv6 hv6e i _ _ _ E
  rw [hpc]
  refine (fillW_out16 (F := F) (s3).view (le_of_eq trips_t8) 384 (by omega) k0_off63 k0_off63_inb (fun i => (k0_off63_eq i).trans (congrArg (fun n : Nat => (![n] : Fin 1 → Nat)) (by omega)))
    (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) H3p ⟨k.val, lt_of_lt_of_eq k.isLt trips_t8.symm⟩ l k0_t8_loop.trips (lt_of_lt_of_eq k.isLt trips_t8.symm)).trans ?_
  dsimp only
  rw [chunk3_gath4 d L  X G4p, chunk3_gath5 d L  X G5p, chunk3_gath6 d L  X G6p]

/-- The group loop of chunk 3 leaves every word of the output scratch outside [384, 512) as it was. -/
theorem chunk3_out  (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 384 ∨ 384 + 128 ≤ (y 0).val) :
    fillW (s3).view (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E) H3p k0_t8_loop.trips y = H3p y := by
  have hpc : (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E)
      = fun i => (⟨Rect.unit (s := S512) (k0_off63 i) S16.size (k0_off63_inb i), (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) i⟩ : View.Piece (Elt F) S512 .f32) :=
    funext fun i => grpTrip8_P3 d L v5 v6 v9 hv6 hv6e i _ _ _ E
  rw [hpc]
  exact fillW_out16_outside (F := F) (s3).view (le_of_eq trips_t8) 384 k0_off63 k0_off63_inb (fun i => (k0_off63_eq i).trans (congrArg (fun n : Nat => (![n] : Fin 1 → Nat)) (by omega)))
    (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) H3p y hy k0_t8_loop.trips

end Cert.Proof.KI

end
-- ==== Proof.KIValue.lean ====
/-
  The energy adder's value. The result array is ONE function of the argument arrays: entry R is the energy expression
  at row R's three integer totals (of the species words, of their halves, of the indicator of 3), the row's energy and
  the intercept. On every tile's block, the function the tile's run ends at is that one: an index of the block is
  512 w + 128 c + 16 k + l; the later chunks' group loops do not touch chunk c's 128 words of the output scratch;
  chunk c's group loop leaves at word 128 c + 16 k + l the energy expression at the totals of the chunk's row 16 k + l,
  which are the array's row's, at the array's energy and at lane l of the intercept.
-/
import proofs.«206979_g57535381897292_cont_9to1_m_841_24_alg».proof.Proof.KIValPre
import proofs.«206979_g57535381897292_cont_9to1_m_841_24_alg».proof.Proof.KIChunkVal0
import proofs.«206979_g57535381897292_cont_9to1_m_841_24_alg».proof.Proof.KIChunkVal1
import proofs.«206979_g57535381897292_cont_9to1_m_841_24_alg».proof.Proof.KIChunkVal2
import proofs.«206979_g57535381897292_cont_9to1_m_841_24_alg».proof.Proof.KIChunkVal3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]
open ValueIdx
open Cert.Proof.LibEnergyAlgebra
open scoped BigOperators

/-- A whole buffer written whole reads the payload. -/
theorem write_whole_apply {κ : Kind} (b : Ref sig κ) (f w : b.ty.Contents (Elt F)) (x : b.ty.shape.Idx) :
    View.write (Elt F) (View.whole b) f w Finset.univ x = w x :=
  congrFun (View.write_whole_univ b f w) x

/-- An index below 512 is 128 c + 16 k + l. -/
theorem split512 (j : Fin 512) : ∃ (c : Nat) (k : Fin 8) (l : Fin 16), c < 4 ∧ j.val = 128 * c + 16 * k.val + l.val :=
  ⟨j.val / 128, ⟨j.val % 128 / 16, by omega⟩, ⟨j.val % 16, by omega⟩, by have := j.isLt; omega, by simp only; omega⟩

variable (m : (ℓ : Loc nD τ sig) → Buf (Elt F) ℓ)

set_option maxHeartbeats 4000000 in
/-- On every tile's block the run's function of the block is the result function. -/
theorem blockOK : BlockOK m (Gout m) := by
  intro d L O W hO q f0 f1 f2 f3 f4 f5 f6 f7 f8 y hy
  obtain ⟨j, rfl⟩ := mem_oSet (widL L) y hy
  unfold tileRun
  dsimp only
  simp only [r_1_eq, r_2_eq, r_3_eq, r_4_eq]
  refine (out_apply d L _ _ j).trans ?_
  obtain ⟨c, k, l, hc, hj⟩ := split512 j
  have hk := k.isLt
  have hl := l.isLt
  interval_cases c
  · -- chunk 0: local rows 0 to 127
    have hj' : (ix1 j : S512.Idx) = ix1 ⟨0 + 16 * k.val + l.val, by omega⟩ :=
      congrArg ix1 (Fin.ext (by show j.val = 0 + 16 * k.val + l.val; omega))
    rw [hj']
    refine (chunk3_out d L (hv6e := iota16_toNat) (y := ix1 ⟨0 + 16 * k.val + l.val, by omega⟩)
      (hy := Or.inl (by show 0 + 16 * k.val + l.val < 384; omega)) ..).trans ?_
    refine (chunk2_out d L (hv6e := iota16_toNat) (y := ix1 ⟨0 + 16 * k.val + l.val, by omega⟩)
      (hy := Or.inl (by show 0 + 16 * k.val + l.val < 256; omega)) ..).trans ?_
    refine (chunk1_out d L (hv6e := iota16_toNat) (y := ix1 ⟨0 + 16 * k.val + l.val, by omega⟩)
      (hy := Or.inl (by show 0 + 16 * k.val + l.val < 128; omega)) ..).trans ?_
    refine (chunk0_in d L (hv6e := iota16_toNat) (k := k) (l := l) ..).trans ?_
    have hN : (⟨512 * (widL L).val + j.val, by have := widL_lt L; omega⟩ : Fin 16384)
        = ⟨512 * (widL L).val + 0 + (16 * k.val + l.val), by have := widL_lt L; omega⟩ :=
      Fin.ext (by show 512 * (widL L).val + j.val = 512 * (widL L).val + 0 + (16 * k.val + l.val); omega)
    rw [hN]
    refine tail_eq m d (512 * (widL L).val + 0) ⟨16 * k.val + l.val, by omega⟩ _ ⟨32 * (widL L).val + 0, by omega⟩ _
      (fun k' => (write_whole_apply _ _ _ _).trans (dma0_apply d L _ _ k')) _ _ ?_ ?_ _ (v9Of_tbVec d L _ _)
    · refine (write_whole_apply _ _ _ _).trans ((dma0_3_apply d L _ ⟨0 + 16 * k.val + l.val, by omega⟩).trans ?_)
      exact congrArg (fun z => m (enLoc d) (ix1 z)) (Fin.ext (by show 512 * (widL L).val + (0 + 16 * k.val + l.val) = 512 * (widL L).val + 0 + (16 * k.val + l.val); omega))
    · refine (r_apply d L _ _ _).trans ?_
      exact congrArg (fun z => ficOf m d (ix1 z)) (Fin.ext (by show l.val = (16 * k.val + l.val) % 16; omega))
  · -- chunk 1: local rows 128 to 255
    have hj' : (ix1 j : S512.Idx) = ix1 ⟨128 + 16 * k.val + l.val, by omega⟩ :=
      congrArg ix1 (Fin.ext (by show j.val = 128 + 16 * k.val + l.val; omega))
    rw [hj']
    refine (chunk3_out d L (hv6e := iota16_toNat) (y := ix1 ⟨128 + 16 * k.val + l.val, by omega⟩)
      (hy := Or.inl (by show 128 + 16 * k.val + l.val < 384; omega)) ..).trans ?_
    refine (chunk2_out d L (hv6e := iota16_toNat) (y := ix1 ⟨128 + 16 * k.val + l.val, by omega⟩)
      (hy := Or.inl (by show 128 + 16 * k.val + l.val < 256; omega)) ..).trans ?_
    refine (chunk1_in d L (hv6e := iota16_toNat) (k := k) (l := l) ..).trans ?_
    have hN : (⟨512 * (widL L).val + j.val, by have := widL_lt L; omega⟩ : Fin 16384)
        = ⟨512 * (widL L).val + 128 + (16 * k.val + l.val), by have := widL_lt L; omega⟩ :=
      Fin.ext (by show 512 * (widL L).val + j.val = 512 * (widL L).val + 128 + (16 * k.val + l.val); omega)
    rw [hN]
    refine tail_eq m d (512 * (widL L).val + 128) ⟨16 * k.val + l.val, by omega⟩ _ ⟨32 * (widL L).val + 8, by omega⟩ _
      (fun k' => (write_whole_apply _ _ _ _).trans (dma2_apply d L _ _ k')) _ _ ?_ ?_ _ (v9Of_tbVec d L _ _)
    · refine (write_whole_apply _ _ _ _).trans ((dma0_3_apply d L _ ⟨128 + 16 * k.val + l.val, by omega⟩).trans ?_)
      exact congrArg (fun z => m (enLoc d) (ix1 z)) (Fin.ext (by show 512 * (widL L).val + (128 + 16 * k.val + l.val) = 512 * (widL L).val + 128 + (16 * k.val + l.val); omega))
    · refine (r_apply d L _ _ _).trans ?_
      exact congrArg (fun z => ficOf m d (ix1 z)) (Fin.ext (by show l.val = (16 * k.val + l.val) % 16; omega))
  · -- chunk 2: local rows 256 to 383
    have hj' : (ix1 j : S512.Idx) = ix1 ⟨256 + 16 * k.val + l.val, by omega⟩ :=
      congrArg ix1 (Fin.ext (by show j.val = 256 + 16 * k.val + l.val; omega))
    rw [hj']
    refine (chunk3_out d L (hv6e := iota16_toNat) (y := ix1 ⟨256 + 16 * k.val + l.val, by omega⟩)
      (hy := Or.inl (by show 256 + 16 * k.val + l.val < 384; omega)) ..).trans ?_
    refine (chunk2_in d L (hv6e := iota16_toNat) (k := k) (l := l) ..).trans ?_
    have hN : (⟨512 * (widL L).val + j.val, by have := widL_lt L; omega⟩ : Fin 16384)
        = ⟨512 * (widL L).val + 256 + (16 * k.val + l.val), by have := widL_lt L; omega⟩ :=
      Fin.ext (by show 512 * (widL L).val + j.val = 512 * (widL L).val + 256 + (16 * k.val + l.val); omega)
    rw [hN]
    refine tail_eq m d (512 * (widL L).val + 256) ⟨16 * k.val + l.val, by omega⟩ _ ⟨32 * (widL L).val + 16, by omega⟩ _
      (fun k' => (write_whole_apply _ _ _ _).trans (dma0_4_apply d L _ _ k')) _ _ ?_ ?_ _ (v9Of_tbVec d L _ _)
    · refine (write_whole_apply _ _ _ _).trans ((dma0_3_apply d L _ ⟨256 + 16 * k.val + l.val, by omega⟩).trans ?_)
      exact congrArg (fun z => m (enLoc d) (ix1 z)) (Fin.ext (by show 512 * (widL L).val + (256 + 16 * k.val + l.val) = 512 * (widL L).val + 256 + (16 * k.val + l.val); omega))
    · refine (r_apply d L _ _ _).trans ?_
      exact congrArg (fun z => ficOf m d (ix1 z)) (Fin.ext (by show l.val = (16 * k.val + l.val) % 16; omega))
  · -- chunk 3: local rows 384 to 511
    have hj' : (ix1 j : S512.Idx) = ix1 ⟨384 + 16 * k.val + l.val, by omega⟩ :=
      congrArg ix1 (Fin.ext (by show j.val = 384 + 16 * k.val + l.val; omega))
    rw [hj']
    refine (chunk3_in d L (hv6e := iota16_toNat) (k := k) (l := l) ..).trans ?_
    have hN : (⟨512 * (widL L).val + j.val, by have := widL_lt L; omega⟩ : Fin 16384)
        = ⟨512 * (widL L).val + 384 + (16 * k.val + l.val), by have := widL_lt L; omega⟩ :=
      Fin.ext (by show 512 * (widL L).val + j.val = 512 * (widL L).val + 384 + (16 * k.val + l.val); omega)
    rw [hN]
    refine tail_eq m d (512 * (widL L).val + 384) ⟨16 * k.val + l.val, by omega⟩ _ ⟨32 * (widL L).val + 24, by omega⟩ _
      (fun k' => (write_whole_apply _ _ _ _).trans (dma0_5_apply d L _ _ k')) _ _ ?_ ?_ _ (v9Of_tbVec d L _ _)
    · refine (write_whole_apply _ _ _ _).trans ((dma0_3_apply d L _ ⟨384 + 16 * k.val + l.val, by omega⟩).trans ?_)
      exact congrArg (fun z => m (enLoc d) (ix1 z)) (Fin.ext (by show 512 * (widL L).val + (384 + 16 * k.val + l.val) = 512 * (widL L).val + 384 + (16 * k.val + l.val); omega))
    · refine (r_apply d L _ _ _).trans ?_
      exact congrArg (fun z => ficOf m d (ix1 z)) (Fin.ext (by show l.val = (16 * k.val + l.val) % 16; omega))

end Cert.Proof.KI

end
-- ==== Proof.KBSetup.lean ====
/-
  The energy adder on the SparseCore: what its launch and its tile bodies are stated over.

  One vector-subcore call runs on 2 SparseCores × 16 vector subcores. Tile (c, s) has number w = 2 s + c and owns rows
  [512 w, 512 w + 512) of the species array, of the energies and of the result. Every tile reads the table of four self
  energies and the sixteen copies of the intercept whole. The read-only arrays go to the tiles as read shares of the
  whole arrays, one share per tile; the result goes as its 32 blocks of 512 entries, block w to tile w.
-/
import proofs.«206979_g57535381897292_cont_9to1_m_841_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206979_g57535381897292_cont_9to1_m_841_24_alg».proof.Proof.Gen.Kernel
import proofs.«206979_g57535381897292_cont_9to1_m_841_24_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev spLoc (d : Dev nD) : Loc nD τ sig := (SparseCore.T d).loc main_arg0
abbrev enLoc (d : Dev nD) : Loc nD τ sig := (SparseCore.T d).loc main_arg1
abbrev tbLoc (d : Dev nD) : Loc nD τ sig := (SparseCore.T d).loc main_arg2
abbrev icLoc (d : Dev nD) : Loc nD τ sig := (SparseCore.T d).loc main_arg3
abbrev i16Loc (d : Dev nD) : Loc nD τ sig := (SparseCore.T d).loc main_v0
abbrev oLoc (d : Dev nD) : Loc nD τ sig := (SparseCore.T d).loc main_v1

/-- The read share tile number `w` of 32 is handed of each read-only array. -/
abbrev qTok (w : Fin 32) : PosShare TreeShare := Transfers.shareTok fullShare 32 w

theorem hdiv32 : 32 ∣ S16384.size 0 := ⟨512, rfl⟩
/-- Block `w` of the result: entries [512 w, 512 w + 512). -/
abbrev oRect (w : Fin 32) : Rect S16384 := Rect.part (s := S16384) (a₀ := 0) hdiv32 w
abbrev oSet (w : Fin 32) : Finset S16384.Idx := ((Memref.whole main_v1_scv : Memref sig .scVector .hbm S16384 .f32).view.slice (oRect w)).set

/-- Tile (c, s) has number 2 s + c. -/
def wid (c : Fin 2) (s : Fin 16) : Fin 32 := ⟨2 * s.val + c.val, by omega⟩

end Cert.Proof.KB

end
-- ==== Proof.KBBase.lean ====
/-
  One tile of the energy adder: its memrefs, its scratch and semaphores among what the launch deals it,
  the bound on the gathers' index vectors, and a buffer filled piece by piece over a loop's trips.
-/
import proofs.«206979_g57535381897292_cont_9to1_m_841_24_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The kernel's memrefs, as the body table passes them -/

abbrev spW : Memref sig .scVector .hbm S16384x200 .i32 := Memref.whole main_arg0_scv
abbrev enW : Memref sig .scVector .hbm S16384 .f32 := Memref.whole main_arg1_scv
abbrev tbW : Memref sig .scVector .hbm S4 .f32 := Memref.whole main_arg2_scv
abbrev i16W : Memref sig .scVector .hbm S16 .f32 := Memref.whole main_v0_scv
abbrev oW : Memref sig .scVector .hbm S16384 .f32 := Memref.whole main_v1_scv
abbrev s0 : Memref sig .scVector .vmem S128x200 .i32 := Memref.whole cc0_scratch0
abbrev s1 : Memref sig .scVector .vmem S128x200 .i32 := Memref.whole cc0_scratch1
abbrev s2 : Memref sig .scVector .vmem S512 .f32 := Memref.whole cc0_scratch2
abbrev s3 : Memref sig .scVector .vmem S512 .f32 := Memref.whole cc0_scratch3
abbrev s4 : Memref sig .scVector .vmem S2176 .i32 := Memref.whole cc0_scratch4
abbrev s5 : Memref sig .scVector .vmem S2176 .i32 := Memref.whole cc0_scratch5
abbrev s6 : Memref sig .scVector .vmem S2176 .i32 := Memref.whole cc0_scratch6
abbrev s7 : Memref sig .scVector .vmem S128 .f32 := Memref.whole cc0_scratch7
abbrev s8 : Memref sig .scVector .vmem S16 .f32 := Memref.whole cc0_scratch8

section Tile

variable (d : Dev nD) (L : grid0.Coords)

abbrev cV (L : grid0.Coords) : Fin τ.nSC := (L 0).castLE hcore0
abbrev jV (L : grid0.Coords) : Fin τ.nSub := (L 1).castLE hsub0
abbrev cellV (d : Dev nD) (L : grid0.Coords) (sm : DmaSems sig S_) : GSem nD τ sig := (V d (cV L) (jV L), .dma sm.sem)

/-- The tile's block of the result, as the kernel slices it for its write-out. -/
abbrev oSl (L : grid0.Coords) : Memref sig .scVector .hbm S512 .f32 :=
  (oW).slice (Rect.unit (s := S16384) (k0_off2 L) S512.size (k0_off2_inb L)) (fun _ => rfl)

omit [FloatOps F] in
theorem ownSems0_V :
    (ownSems0 (V d (cV L) (jV L)) : sProp 𝕄)
      = iprop(semVal (cellV d L cc0_scratch9) 0 ∗ semVal (cellV d L cc0_scratch10) 0 ∗ semVal (cellV d L cc0_scoped0) 0 ∗ semVal (cellV d L cc0_scoped1) 0 ∗ semVal (cellV d L cc0_scoped2) 0 ∗ semVal (cellV d L cc0_scoped3) 0
          ∗ bigSep (((((((ownCells (V d (cV L) (jV L))).erase (cellV d L cc0_scratch9)).erase (cellV d L cc0_scratch10)).erase (cellV d L cc0_scoped0)).erase (cellV d L cc0_scoped1)).erase (cellV d L cc0_scoped2)).erase (cellV d L cc0_scoped3)) fun g => semVal g 0) := by
  unfold SparseCore.Cfg.ownSems0
  rw [SparseCore.bigSep_erase' ((mem_ownCells (g := (cellV d L cc0_scratch9))).mpr ⟨rfl, by show (SemLoc.dma cc0_scratch9.sem : SemLoc sig).isScoped .scVector = true; decide⟩),
    SparseCore.bigSep_erase' (Finset.mem_erase.mpr ⟨fun e => absurd (Prod.mk.inj e).2 (by decide), (mem_ownCells (g := (cellV d L cc0_scratch10))).mpr ⟨rfl, by show (SemLoc.dma cc0_scratch10.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cellV d L cc0_scoped0))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped1))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped2))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped3))).mpr ⟨rfl, by show (SemLoc.dma cc0_scoped3.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

/-! The arrays as a tile's memrefs address them are the device's arrays; a scratch memref's elements are its buffer. -/
omit [FloatOps F] in
theorem pts_sp (q : PosShare TreeShare) (f : Buf (Elt F) (spLoc d)) :
    ((spW).view.loc (V d (cV L) (jV L)) ↦{q} f : sProp 𝕄) = spLoc d ↦{q} f := rfl
omit [FloatOps F] in
theorem pts_en (q : PosShare TreeShare) (f : Buf (Elt F) (enLoc d)) :
    ((enW).view.loc (V d (cV L) (jV L)) ↦{q} f : sProp 𝕄) = enLoc d ↦{q} f := rfl
omit [FloatOps F] in
theorem pts_tb (q : PosShare TreeShare) (f : Buf (Elt F) (tbLoc d)) :
    ((tbW).view.loc (V d (cV L) (jV L)) ↦{q} f : sProp 𝕄) = tbLoc d ↦{q} f := rfl
omit [FloatOps F] in
theorem pts_i16 (q : PosShare TreeShare) (f : Buf (Elt F) (i16Loc d)) :
    ((i16W).view.loc (V d (cV L) (jV L)) ↦{q} f : sProp 𝕄) = i16Loc d ↦{q} f := rfl
omit [FloatOps F] in
theorem pts_o (f : Buf (Elt F) (oLoc d)) :
    ((oSl L).view.loc (V d (cV L) (jV L)) ↦[(oSl L).view.set]{fullShare} f : sProp 𝕄) = oLoc d ↦[(oSl L).view.set]{fullShare} f := rfl
omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4).view.loc (V d (cV L) (jV L)) ↦{fullShare} f : sProp 𝕄) = (V d (cV L) (jV L)).loc cc0_scratch4 ↦{fullShare} f := rfl
omit [FloatOps F] in
theorem pts_s5 (f : Buf (Elt F) ((V d (cV L) (jV L)).loc cc0_scratch5)) :
    ((s5).view.loc (V d (cV L) (jV L)) ↦{fullShare} f : sProp 𝕄) = (V d (cV L) (jV L)).loc cc0_scratch5 ↦{fullShare} f := rfl
omit [FloatOps F] in
theorem pts_s6 (f : Buf (Elt F) ((V d (cV L) (jV L)).loc cc0_scratch6)) :
    ((s6).view.loc (V d (cV L) (jV L)) ↦{fullShare} f : sProp 𝕄) = (V d (cV L) (jV L)).loc cc0_scratch6 ↦{fullShare} f := rfl
omit [FloatOps F] in
theorem pts_s7 (f : Buf (Elt F) ((V d (cV L) (jV L)).loc cc0_scratch7)) :
    ((s7).view.loc (V d (cV L) (jV L)) ↦{fullShare} f : sProp 𝕄) = (V d (cV L) (jV L)).loc cc0_scratch7 ↦{fullShare} f := rfl
omit [FloatOps F] in
theorem pts_s8 (f : Buf (Elt F) ((V d (cV L) (jV L)).loc cc0_scratch8)) :
    ((s8).view.loc (V d (cV L) (jV L)) ↦{fullShare} f : sProp 𝕄) = (V d (cV L) (jV L)).loc cc0_scratch8 ↦{fullShare} f := rfl

end Tile

/-! ## The gathers' range checks -/

/-- A range check of one index vector into a 2176-word scratch is a bound on its lanes. -/
theorem chk_of_bound (v : IVec S16 32) (h : ∀ x, (v x).toNat < 2176) :
    ∀ a x, ((![v] : Fin 1 → IVec S16 32) a x).toNat < S2176.size a := by
  intro a x; obtain rfl : a = 0 := Subsingleton.elim _ _; exact h x

/-- Lane l of the index vector of group k at offset j: ((16 k + l) * 17) + j, as 32-bit words. -/
def colv (v6 : IVec S16 32) (k : Nat) (j : BitVec 32) : IVec S16 32 :=
  addi (muli (addi (broadcast S16 (Scalar.muli (Scf.iv 0#32 1#32 k) 16#32)) v6) (broadcast S16 17#32)) (broadcast S16 j)

theorem colv_apply (v6 : IVec S16 32) (k : Nat) (j : BitVec 32) (x : S16.Idx) :
    colv v6 k j x = ((Scf.iv 0#32 1#32 k) * 16#32 + v6 x) * 17#32 + j := rfl

theorem iv01_toNat (k : Nat) (hk : k < 4294967296) : (Scf.iv 0#32 1#32 k).toNat = k := by
  unfold Scf.iv
  have hk' : (BitVec.ofNat 32 k).toNat = k := by rw [BitVec.toNat_ofNat]; exact Nat.mod_eq_of_lt (by omega)
  have h0 : (0#32 : BitVec 32).toNat = 0 := rfl
  have h1 : (1#32 : BitVec 32).toNat = 1 := rfl
  rw [BitVec.toNat_add, BitVec.toNat_mul, hk', h1, h0]
  simp only [Nat.reducePow]
  omega

/-- With lanes below 16, group below 8 and offset below 16 no product or sum wraps, and the word is
    17 (16 k + l) + j < 2176. -/
theorem colv_toNat (v6 : IVec S16 32) (hv6 : ∀ x, (v6 x).toNat < 16) (k : Nat) (hk : k < 8) (j : BitVec 32) (hj : j.toNat < 16) (x : S16.Idx) :
    (colv v6 k j x).toNat = 17 * (16 * k + (v6 x).toNat) + j.toNat := by
  rw [colv_apply]
  have h6 := hv6 x
  have hiv := iv01_toNat k (by omega)
  have c16 : (16#32 : BitVec 32).toNat = 16 := rfl
  have c17 : (17#32 : BitVec 32).toNat = 17 := rfl
  have h1 : ((Scf.iv 0#32 1#32 k) * 16#32).toNat = 16 * k := by rw [BitVec.toNat_mul, hiv, c16]; omega
  have h2 : ((Scf.iv 0#32 1#32 k) * 16#32 + v6 x).toNat = 16 * k + (v6 x).toNat := by rw [BitVec.toNat_add, h1]; omega
  have h3 : (((Scf.iv 0#32 1#32 k) * 16#32 + v6 x) * 17#32).toNat = 17 * (16 * k + (v6 x).toNat) := by rw [BitVec.toNat_mul, h2, c17]; omega
  rw [BitVec.toNat_add, h3]; omega

theorem colv_lt (v6 : IVec S16 32) (hv6 : ∀ x, (v6 x).toNat < 16) (k : Nat) (hk : k < 8) (j : BitVec 32) (hj : j.toNat < 16) :
    ∀ x, (colv v6 k j x).toNat < 2176 := by
  intro x; rw [colv_toNat v6 hv6 k hk j hj x]; have := hv6 x; omega

/-! ## A scratch written piece by piece over the trips of a loop -/

/-- The contents of a buffer after the first k trips of a loop each wrote one piece through a view of it:
    trip i's piece over what the trips before it left. -/
def fillW {κ : Kind} {sp : Space} {s : Shape} {e : EltTy} (v : View sig κ sp s e) {n : Nat}
    (pc : Fin n → View.Piece (Elt F) s e) (f : v.ty.Contents (Elt F)) : Nat → v.ty.Contents (Elt F)
  | 0 => f
  | k + 1 => if h : k < n then v.writes (Elt F) (fillW v pc f k) [pc ⟨k, h⟩] else fillW v pc f k

omit [FloatOps F] in
theorem fillW_zero {κ : Kind} {sp : Space} {s : Shape} {e : EltTy} (v : View sig κ sp s e) {n : Nat}
    (pc : Fin n → View.Piece (Elt F) s e) (f : v.ty.Contents (Elt F)) : fillW v pc f 0 = f := rfl

omit [FloatOps F] in
theorem fillW_succ {κ : Kind} {sp : Space} {s : Shape} {e : EltTy} (v : View sig κ sp s e) {n : Nat}
    (pc : Fin n → View.Piece (Elt F) s e) (f : v.ty.Contents (Elt F)) (k : Fin n) :
    fillW v pc f (k.val + 1) = v.writes (Elt F) (fillW v pc f k.val) [pc k] := by
  rw [fillW]; exact dif_pos k.isLt

end Cert.Proof.KB

end
-- ==== Proof.KBRow1.lean ====
/-
  Trip k of the row loop over chunk 0 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 0: the pieces it stores into the three partial-sum scratches, as functions of the
    chunk's contents `X`, with its run from any contents of the four buffers it touches. -/
def rowTrip1 (v2 : BitVec 32) (v5 : Vec F S16 .f32) (v6 : IVec S16 32) (v8 : IVec S16 1) (v18 v21 v24 v25 : F .f32) (v26 : IVec S16 32) (k : Fin k0_t1_loop.trips) :
    Σ' (P4 P5 P6 : Buf (Elt F) ((V d (cV L) (jV L)).loc cc0_scratch0) → View.Piece (Elt F) S2176 .i32),
      ∀ (X : Buf (Elt F) ((V d (cV L) (jV L)).loc cc0_scratch0)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s0).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t1_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s0).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t1_body]
    sl_exec
    sl_step
    isplitl [H0]; · iexact H0
    isplitl [H4]; · iexact H4
    isplitl [H5]; · iexact H5
    iexact H6

end Cert.Proof.KB

end
-- ==== Proof.KBRow3.lean ====
/-
  Trip k of the row loop over chunk 1 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 1: the pieces it stores into the three partial-sum scratches, as functions of the
    chunk's contents `X`, with its run from any contents of the four buffers it touches. -/
def rowTrip3 (v2 : BitVec 32) (v5 : Vec F S16 .f32) (v6 : IVec S16 32) (v8 : IVec S16 1) (v18 v21 v24 v25 : F .f32) (v26 : IVec S16 32) (k : Fin k0_t3_loop.trips) :
    Σ' (P4 P5 P6 : Buf (Elt F) ((V d (cV L) (jV L)).loc cc0_scratch1) → View.Piece (Elt F) S2176 .i32),
      ∀ (X : Buf (Elt F) ((V d (cV L) (jV L)).loc cc0_scratch1)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s1).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t3_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s1).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t3_body]
    sl_exec
    sl_step
    isplitl [H0]; · iexact H0
    isplitl [H4]; · iexact H4
    isplitl [H5]; · iexact H5
    iexact H6

end Cert.Proof.KB

end
-- ==== Proof.KBRow5.lean ====
/-
  Trip k of the row loop over chunk 2 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 2: the pieces it stores into the three partial-sum scratches, as functions of the
    chunk's contents `X`, with its run from any contents of the four buffers it touches. -/
def rowTrip5 (v8 : IVec S16 1) (v26 : IVec S16 32) (c0_i32_31 : BitVec 32) (k : Fin k0_t5_loop.trips) :
    Σ' (P4 P5 P6 : Buf (Elt F) ((V d (cV L) (jV L)).loc cc0_scratch0) → View.Piece (Elt F) S2176 .i32),
      ∀ (X : Buf (Elt F) ((V d (cV L) (jV L)).loc cc0_scratch0)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s0).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t5_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 c0_i32_31 k ())
              fun _ => iprop(((s0).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t5_body]
    sl_exec
    sl_step
    isplitl [H0]; · iexact H0
    isplitl [H4]; · iexact H4
    isplitl [H5]; · iexact H5
    iexact H6

end Cert.Proof.KB

end
-- ==== Proof.KBRow7.lean ====
/-
  Trip k of the row loop over chunk 3 of a tile's species rows: the row is read as thirteen 16-lane vectors (twelve
  whole pieces and a masked tail), and three 16-lane partial sums — of the species, of their halves, and of the indicator
  of species 3 — are stored into words [17 k, 17 k + 16) of the three partial-sum scratches. The three stored pieces are
  named as functions of the chunk's contents; the scratches' other words are kept.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the row loop of chunk 3: the pieces it stores into the three partial-sum scratches, as functions of the
    chunk's contents `X`, with its run from any contents of the four buffers it touches. -/
def rowTrip7 (v8 : IVec S16 1) (v26 : IVec S16 32) (k : Fin k0_t7_loop.trips) :
    Σ' (P4 P5 P6 : Buf (Elt F) ((V d (cV L) (jV L)).loc cc0_scratch1) → View.Piece (Elt F) S2176 .i32),
      ∀ (X : Buf (Elt F) ((V d (cV L) (jV L)).loc cc0_scratch1)) (g4 : Buf (Elt F) ((V d (cV L) (jV L)).loc cc0_scratch4))
        (g5 : Buf (Elt F) ((V d (cV L) (jV L)).loc cc0_scratch5)) (g6 : Buf (Elt F) ((V d (cV L) (jV L)).loc cc0_scratch6)),
        (iprop(((s1).view.loc (V d (cV L) (jV L)) ↦{fullShare} X) ∗ ((s4).view.loc (V d (cV L) (jV L)) ↦{fullShare} g4)
            ∗ ((s5).view.loc (V d (cV L) (jV L)) ↦{fullShare} g5) ∗ ((s6).view.loc (V d (cV L) (jV L)) ↦{fullShare} g6)) : sProp 𝕄)
          ⊢ wp frame (wpE (defs₀ (F := F)) 𝒱₀ (V d (cV L) (jV L)) none) Set.univ
              (k0_t7_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 k ())
              fun _ => iprop(((s1).view.loc (V d (cV L) (jV L)) ↦{fullShare} X)
                ∗ ((s4).view.loc (V d (cV L) (jV L)) ↦{fullShare} (s4).view.writes (Elt F) g4 [P4 X])
                ∗ ((s5).view.loc (V d (cV L) (jV L)) ↦{fullShare} (s5).view.writes (Elt F) g5 [P5 X])
                ∗ ((s6).view.loc (V d (cV L) (jV L)) ↦{fullShare} (s6).view.writes (Elt F) g6 [P6 X])) := by
  refine ⟨?_, ?_, ?_, fun X g4 g5 g6 => ?run⟩
  case run =>
    iintro ⟨H0, H4, H5, H6⟩
    sl_unfold [k0_t7_body]
    sl_exec
    sl_step
    isplitl [H0]; · iexact H0
    isplitl [H4]; · iexact H4
    isplitl [H5]; · iexact H5
    iexact H6

end Cert.Proof.KB

end
-- ==== Proof.KBGrp2.lean ====
/-
  Trip k of the group loop of chunk 0: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 0: the piece it stores into the output scratch, as a function of the contents of
    the three partial-sum scratches and of the energies scratch, with its run from any contents of the buffers it touches. -/
def grpTrip2 (v2 : BitVec 32) (v5 : Vec F S16 .f32) (v6 : IVec S16 32) (v8 : IVec S16 1) (v18 v21 v24 v25 : F .f32) (v26 : IVec S16 32) (hv6 : ∀ x, (v6 x).toNat < 16) (k : Fin k0_t2_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t2_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t2_abs.2.1
  refine ⟨?_, fun G4 G5 G6 E h3 => ?run⟩
  case run =>
    iintro ⟨H4, H5, H6, H2, H3⟩
    sl_unfold [k0_t2_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KB

end
-- ==== Proof.KBGrp4.lean ====
/-
  Trip k of the group loop of chunk 1: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 1: the piece it stores into the output scratch, as a function of the contents of
    the three partial-sum scratches and of the energies scratch, with its run from any contents of the buffers it touches. -/
def grpTrip4 (v2 : BitVec 32) (v5 : Vec F S16 .f32) (v6 : IVec S16 32) (v8 : IVec S16 1) (v18 v21 v24 v25 : F .f32) (v26 : IVec S16 32) (hv6 : ∀ x, (v6 x).toNat < 16) (k : Fin k0_t4_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t4_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t4_abs.2.1
  refine ⟨?_, fun G4 G5 G6 E h3 => ?run⟩
  case run =>
    iintro ⟨H4, H5, H6, H2, H3⟩
    sl_unfold [k0_t4_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KB

end
-- ==== Proof.KBGrp6.lean ====
/-
  Trip k of the group loop of chunk 2: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 2: the piece it stores into the output scratch, as a function of the contents of
    the three partial-sum scratches and of the energies scratch, with its run from any contents of the buffers it touches. -/
def grpTrip6 (v5 : Vec F S16 .f32) (v6 : IVec S16 32) (v18 v21 v24 v25 : F .f32) (v26 : IVec S16 32) (hv6 : ∀ x, (v6 x).toNat < 16) (k : Fin k0_t6_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t6_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t6_abs.2.1
  refine ⟨?_, fun G4 G5 G6 E h3 => ?run⟩
  case run =>
    iintro ⟨H4, H5, H6, H2, H3⟩
    sl_unfold [k0_t6_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KB

end
-- ==== Proof.KBGrp8.lean ====
/-
  Trip k of the group loop of chunk 3: for the sixteen rows 16 k … 16 k + 15 of the chunk, lane l gathers the sixteen
  words of row 16 k + l from each of the three partial-sum scratches (word 17 (16 k + l) + j at step j: in range, since
  lanes are below 16, groups below 8 and steps below 16) and adds them up; the three sums enter the energy expression
  with the tile's slice of the energies and the intercept, and the sixteen results are stored into the output scratch.
  The stored piece is named as a function of the contents of the scratches read.
-/
import proofs.«206979_g57535381897292_cont_9to1_m_841_24_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Trip k of the group loop of chunk 3: the piece it stores into the output scratch, as a function of the contents of
    the three partial-sum scratches and of the energies scratch, with its run from any contents of the buffers it touches. -/
def grpTrip8 (v5 : Vec F S16 .f32) (v6 : IVec S16 32) (v18 v21 v24 v25 : F .f32) (v26 : IVec S16 32) (hv6 : ∀ x, (v6 x).toNat < 16) (k : Fin k0_t8_loop.trips) :
    Σ' (P3 : Buf (Elt F) ((V d (cV L) (jV L)).loc cc0_scratch4) → Buf (Elt F) ((V d (cV L) (jV L)).loc cc0_scratch5) → Buf (Elt F) ((V d (cV L) (jV L)).loc cc0_scratch6)
          → Buf (Elt F) ((V d (cV L) (jV L)).loc cc0_scratch2) → View.Piece (Elt F) S512 .f32),
      ∀ (G4 : Buf (Elt F) ((V d (cV L) (jV L)).loc cc0_scratch4)) (G5 : Buf (Elt F) ((V d (cV L) (jV L)).loc cc0_scratch5)) (G6 : Buf (Elt F) ((V d (cV L) (jV L)).loc cc0_scratch6))
        (E : Buf (Elt F) ((V d (cV L) (jV L)).loc cc0_scratch2)) (h3 : Buf (Elt F) ((V d (cV L) (jV L)).loc cc0_scratch3)),
        (iprop(((s4).view.loc (V d (cV L) (jV L)) ↦{fullShare} G4) ∗ ((s5).view.loc (V d (cV L) (jV L)) ↦{fullShare} G5) ∗ ((s6).view.loc (V d (cV L) (jV L)) ↦{fullShare} G6)
            ∗ ((s2).view.loc (V d (cV L) (jV L)) ↦{fullShare} E) ∗ ((s3).view.loc (V d (cV L) (jV L)) ↦{fullShare} h3)) : sProp 𝕄)
          ⊢ wp frame (wpE (defs₀ (F := F)) 𝒱₀ (V d (cV L) (jV L)) none) Set.univ
              (k0_t8_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k ())
              fun _ => iprop(((s4).view.loc (V d (cV L) (jV L)) ↦{fullShare} G4) ∗ ((s5).view.loc (V d (cV L) (jV L)) ↦{fullShare} G5) ∗ ((s6).view.loc (V d (cV L) (jV L)) ↦{fullShare} G6)
                ∗ ((s2).view.loc (V d (cV L) (jV L)) ↦{fullShare} E)
                ∗ ((s3).view.loc (V d (cV L) (jV L)) ↦{fullShare} (s3).view.writes (Elt F) h3 [P3 G4 G5 G6 E])) := by
  have hk : k.val < 8 := lt_of_lt_of_le k.isLt k0_t8_abs.2.1
  refine ⟨?_, fun G4 G5 G6 E h3 => ?run⟩
  case run =>
    iintro ⟨H4, H5, H6, H2, H3⟩
    sl_unfold [k0_t8_body]
    sl_exec (disch := exact chk_of_bound _ (colv_lt v6 hv6 k.val hk _ (by decide)))
    repeat (sl_rw [SparseCore.vectorLoadIdx_bind (c := (V d (cV L) (jV L)))]; sl_exec (disch := exact chk_of_bound _ (colv_lt v6 hv6 k.val hk _ (by decide))))
    sl_step
    isplitl [H4]; · iexact H4
    isplitl [H5]; · iexact H5
    isplitl [H6]; · iexact H6
    isplitl [H2]; · iexact H2
    iexact H3

end Cert.Proof.KB

end
-- ==== Proof.KBInv.lean ====
/-
  The eight loops' invariants: before trip k a scratch written by the loop holds what the trips before k wrote, one piece per
  trip over what the loop found there; one trip takes the invariant at k to the invariant at k + 1.
-/
import proofs.«206979_g57535381897292_cont_9to1_m_841_24_alg».proof.Proof.KBRow1
import proofs.«206979_g57535381897292_cont_9to1_m_841_24_alg».proof.Proof.KBRow3
import proofs.«206979_g57535381897292_cont_9to1_m_841_24_alg».proof.Proof.KBRow5
import proofs.«206979_g57535381897292_cont_9to1_m_841_24_alg».proof.Proof.KBRow7
import proofs.«206979_g57535381897292_cont_9to1_m_841_24_alg».proof.Proof.KBGrp2
import proofs.«206979_g57535381897292_cont_9to1_m_841_24_alg».proof.Proof.KBGrp4
import proofs.«206979_g57535381897292_cont_9to1_m_841_24_alg».proof.Proof.KBGrp6
import proofs.«206979_g57535381897292_cont_9to1_m_841_24_alg».proof.Proof.KBGrp8

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Before trip k of the row loop of chunk 0: the chunk at its contents, the three partial-sum scratches each filled by the
    trips before k. -/
def rowInv1 (v2 : BitVec 32) (v5 : Vec F S16 .f32) (v6 : IVec S16 32) (v8 : IVec S16 1) (v18 v21 v24 v25 : F .f32) (v26 : IVec S16 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s0).view.loc (V d (cV L) (jV L)) ↦{fullShare} X)
    ∗ ((s4).view.loc (V d (cV L) (jV L)) ↦{fullShare} fillW (s4).view (fun i => (rowTrip1 d L v2 v5 v6 v8 v18 v21 v24 v25 v26 i).1 X) g4 k)
    ∗ ((s5).view.loc (V d (cV L) (jV L)) ↦{fullShare} fillW (s5).view (fun i => (rowTrip1 d L v2 v5 v6 v8 v18 v21 v24 v25 v26 i).2.1 X) g5 k)
    ∗ ((s6).view.loc (V d (cV L) (jV L)) ↦{fullShare} fillW (s6).view (fun i => (rowTrip1 d L v2 v5 v6 v8 v18 v21 v24 v25 v26 i).2.2.1 X) g6 k))

theorem rowStep1 (v2 : BitVec 32) (v5 : Vec F S16 .f32) (v6 : IVec S16 32) (v8 : IVec S16 1) (v18 v21 v24 v25 : F .f32) (v26 : IVec S16 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t1_loop.trips) (acc : Unit) :
    rowInv1 d L v2 v5 v6 v8 v18 v21 v24 v25 v26 X g4 g5 g6 k.val acc
      ⊢ wp frame (wpE (defs₀ (F := F)) 𝒱₀ (V d (cV L) (jV L)) none) Set.univ
          (k0_t1_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (rowInv1 d L v2 v5 v6 v8 v18 v21 v24 v25 v26 X g4 g5 g6 (k.val + 1)) := by
  unfold rowInv1
  rw [fillW_succ, fillW_succ, fillW_succ]
  exact (rowTrip1 d L v2 v5 v6 v8 v18 v21 v24 v25 v26 k).2.2.2 X _ _ _

/-- Before trip k of the row loop of chunk 1: the chunk at its contents, the three partial-sum scratches each filled by the
    trips before k. -/
def rowInv3 (v2 : BitVec 32) (v5 : Vec F S16 .f32) (v6 : IVec S16 32) (v8 : IVec S16 1) (v18 v21 v24 v25 : F .f32) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s1).view.loc (V d (cV L) (jV L)) ↦{fullShare} X)
    ∗ ((s4).view.loc (V d (cV L) (jV L)) ↦{fullShare} fillW (s4).view (fun i => (rowTrip3 d L v2 v5 v6 v8 v18 v21 v24 v25 v26 i).1 X) g4 k)
    ∗ ((s5).view.loc (V d (cV L) (jV L)) ↦{fullShare} fillW (s5).view (fun i => (rowTrip3 d L v2 v5 v6 v8 v18 v21 v24 v25 v26 i).2.1 X) g5 k)
    ∗ ((s6).view.loc (V d (cV L) (jV L)) ↦{fullShare} fillW (s6).view (fun i => (rowTrip3 d L v2 v5 v6 v8 v18 v21 v24 v25 v26 i).2.2.1 X) g6 k))

theorem rowStep3 (v2 : BitVec 32) (v5 : Vec F S16 .f32) (v6 : IVec S16 32) (v8 : IVec S16 1) (v18 v21 v24 v25 : F .f32) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t3_loop.trips) (acc : Unit) :
    rowInv3 d L v2 v5 v6 v8 v18 v21 v24 v25 v26 X g4 g5 g6 k.val acc
      ⊢ wp frame (wpE (defs₀ (F := F)) 𝒱₀ (V d (cV L) (jV L)) none) Set.univ
          (k0_t3_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (rowInv3 d L v2 v5 v6 v8 v18 v21 v24 v25 v26 X g4 g5 g6 (k.val + 1)) := by
  unfold rowInv3
  rw [fillW_succ, fillW_succ, fillW_succ]
  exact (rowTrip3 d L v2 v5 v6 v8 v18 v21 v24 v25 v26 k).2.2.2 X _ _ _

/-- Before trip k of the row loop of chunk 2: the chunk at its contents, the three partial-sum scratches each filled by the
    trips before k. -/
def rowInv5 (v8 : IVec S16 1) (v26 : IVec S16 32) (c0_i32_31 : BitVec 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s0).view.loc (V d (cV L) (jV L)) ↦{fullShare} X)
    ∗ ((s4).view.loc (V d (cV L) (jV L)) ↦{fullShare} fillW (s4).view (fun i => (rowTrip5 d L v8 v26 c0_i32_31 i).1 X) g4 k)
    ∗ ((s5).view.loc (V d (cV L) (jV L)) ↦{fullShare} fillW (s5).view (fun i => (rowTrip5 d L v8 v26 c0_i32_31 i).2.1 X) g5 k)
    ∗ ((s6).view.loc (V d (cV L) (jV L)) ↦{fullShare} fillW (s6).view (fun i => (rowTrip5 d L v8 v26 c0_i32_31 i).2.2.1 X) g6 k))

theorem rowStep5 (v8 : IVec S16 1) (v26 : IVec S16 32) (c0_i32_31 : BitVec 32) (X : Buf (Elt F) ((V d (cV L) (jV L)).loc cc0_scratch0)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t5_loop.trips) (acc : Unit) :
    rowInv5 d L v8 v26 c0_i32_31 X g4 g5 g6 k.val acc
      ⊢ wp frame (wpE (defs₀ (F := F)) 𝒱₀ (V d (cV L) (jV L)) none) Set.univ
          (k0_t5_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 c0_i32_31 k acc)
          (rowInv5 d L v8 v26 c0_i32_31 X g4 g5 g6 (k.val + 1)) := by
  unfold rowInv5
  rw [fillW_succ, fillW_succ, fillW_succ]
  exact (rowTrip5 d L v8 v26 c0_i32_31 k).2.2.2 X _ _ _

/-- Before trip k of the row loop of chunk 3: the chunk at its contents, the three partial-sum scratches each filled by the
    trips before k. -/
def rowInv7 (v8 : IVec S16 1) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Nat) (_ : Unit) : sProp 𝕄 :=
  iprop(((s1).view.loc (V d (cV L) (jV L)) ↦{fullShare} X)
    ∗ ((s4).view.loc (V d (cV L) (jV L)) ↦{fullShare} fillW (s4).view (fun i => (rowTrip7 d L v8 v26 i).1 X) g4 k)
    ∗ ((s5).view.loc (V d (cV L) (jV L)) ↦{fullShare} fillW (s5).view (fun i => (rowTrip7 d L v8 v26 i).2.1 X) g5 k)
    ∗ ((s6).view.loc (V d (cV L) (jV L)) ↦{fullShare} fillW (s6).view (fun i => (rowTrip7 d L v8 v26 i).2.2.1 X) g6 k))

theorem rowStep7 (v8 : IVec S16 1) (v26 : IVec S16 32) (X : Buf (Elt F) ((V d (cV L) (jV L)).loc cc0_scratch1)) (g4 : Buf (Elt F) ((V d (cV L) (jV L)).loc cc0_scratch4))
    (g5 : Buf (Elt F) ((V d (cV L) (jV L)).loc cc0_scratch5)) (g6 : Buf (Elt F) ((V d (cV L) (jV L)).loc cc0_scratch6)) (k : Fin k0_t7_loop.trips) (acc : Unit) :
    rowInv7 d L v8 v26 X g4 g5 g6 k.val acc
      ⊢ wp frame (wpE (defs₀ (F := F)) 𝒱₀ (V d (cV L) (jV L)) none) Set.univ
          (k0_t7_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v8 v26 k acc)
          (rowInv7 d L v8 v26 X g4 g5 g6 (k.val + 1)) := by
  unfold rowInv7
  rw [fillW_succ, fillW_succ, fillW_succ]
  exact (rowTrip7 d L v8 v26 k).2.2.2 X _ _ _

/-- Before trip k of the group loop of chunk 0: the scratches it reads at their contents, the output scratch filled by the
    trips before k. -/
def grpInv2 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip2 d L v2 v5 v6 v8 v18 v21 v24 v25 v26 hv6 i).1 G4 G5 G6 E) h3 k))

theorem grpStep2 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t2_loop.trips) (acc : Unit) :
    grpInv2 d L v2 v5 v6 v8 v18 v21 v24 v25 v26 hv6 G4 G5 G6 E h3 k.val acc
      ⊢ wp frame (wpE (defs₀ (F := F)) 𝒱₀ (V d (cV L) (jV L)) none) Set.univ
          (k0_t2_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (grpInv2 d L v2 v5 v6 v8 v18 v21 v24 v25 v26 hv6 G4 G5 G6 E h3 (k.val + 1)) := by
  unfold grpInv2
  rw [fillW_succ]
  exact (grpTrip2 d L v2 v5 v6 v8 v18 v21 v24 v25 v26 hv6 k).2 G4 G5 G6 E _

/-- Before trip k of the group loop of chunk 1: the scratches it reads at their contents, the output scratch filled by the
    trips before k. -/
def grpInv4 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip4 d L v2 v5 v6 v8 v18 v21 v24 v25 v26 hv6 i).1 G4 G5 G6 E) h3 k))

theorem grpStep4 (v2 : BitVec 32) (v5 : Vec F S16 .f32) (v6 : IVec S16 32) (v8 : IVec S16 1) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t4_loop.trips) (acc : Unit) :
    grpInv4 d L v2 v5 v6 v8 v18 v21 v24 v25 v26 hv6 G4 G5 G6 E h3 k.val acc
      ⊢ wp frame (wpE (defs₀ (F := F)) 𝒱₀ (V d (cV L) (jV L)) none) Set.univ
          (k0_t4_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v2 v5 v6 v8 v18 v21 v24 v25 v26 k acc)
          (grpInv4 d L v2 v5 v6 v8 v18 v21 v24 v25 v26 hv6 G4 G5 G6 E h3 (k.val + 1)) := by
  unfold grpInv4
  rw [fillW_succ]
  exact (grpTrip4 d L v2 v5 v6 v8 v18 v21 v24 v25 v26 hv6 k).2 G4 G5 G6 E _

/-- Before trip k of the group loop of chunk 2: the scratches it reads at their contents, the output scratch filled by the
    trips before k. -/
def grpInv6 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip6 d L v5 v6 v18 v21 v24 v25 v26 hv6 i).1 G4 G5 G6 E) h3 k))

theorem grpStep6 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t6_loop.trips) (acc : Unit) :
    grpInv6 d L v5 v6 v18 v21 v24 v25 v26 hv6 G4 G5 G6 E h3 k.val acc
      ⊢ wp frame (wpE (defs₀ (F := F)) 𝒱₀ (V d (cV L) (jV L)) none) Set.univ
          (k0_t6_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k acc)
          (grpInv6 d L v5 v6 v18 v21 v24 v25 v26 hv6 G4 G5 G6 E h3 (k.val + 1)) := by
  unfold grpInv6
  rw [fillW_succ]
  exact (grpTrip6 d L v5 v6 v18 v21 v24 v25 v26 hv6 k).2 G4 G5 G6 E _

/-- Before trip k of the group loop of chunk 3: the scratches it reads at their contents, the output scratch filled by the
    trips before k. -/
def grpInv8 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Nat) (_ : Unit) : sProp 𝕄 :=
  iprop(((s4).view.loc (V d (cV L) (jV L)) ↦{fullShare} G4) ∗ ((s5).view.loc (V d (cV L) (jV L)) ↦{fullShare} G5) ∗ ((s6).view.loc (V d (cV L) (jV L)) ↦{fullShare} G6)
    ∗ ((s2).view.loc (V d (cV L) (jV L)) ↦{fullShare} E)
    ∗ ((s3).view.loc (V d (cV L) (jV L)) ↦{fullShare} fillW (s3).view (fun i => (grpTrip8 d L v5 v6 v18 v21 v24 v25 v26 hv6 i).1 G4 G5 G6 E) h3 k))

theorem grpStep8 (v5 : Vec F S16 .f32) (v6 : IVec S16 32) (v18 v21 v24 v25 : F .f32) (v26 : IVec S16 32) (hv6 : ∀ x, (v6 x).toNat < 16)
    (G4 : Buf (Elt F) ((V d (cV L) (jV L)).loc cc0_scratch4)) (G5 : Buf (Elt F) ((V d (cV L) (jV L)).loc cc0_scratch5)) (G6 : Buf (Elt F) ((V d (cV L) (jV L)).loc cc0_scratch6))
    (E : Buf (Elt F) ((V d (cV L) (jV L)).loc cc0_scratch2)) (h3 : Buf (Elt F) ((V d (cV L) (jV L)).loc cc0_scratch3)) (k : Fin k0_t8_loop.trips) (acc : Unit) :
    grpInv8 d L v5 v6 v18 v21 v24 v25 v26 hv6 G4 G5 G6 E h3 k.val acc
      ⊢ wp frame (wpE (defs₀ (F := F)) 𝒱₀ (V d (cV L) (jV L)) none) Set.univ
          (k0_t8_body L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3 v5 v6 v18 v21 v24 v25 v26 k acc)
          (grpInv8 d L v5 v6 v18 v21 v24 v25 v26 hv6 G4 G5 G6 E h3 (k.val + 1)) := by
  unfold grpInv8
  rw [fillW_succ]
  exact (grpTrip8 d L v5 v6 v18 v21 v24 v25 v26 hv6 k).2 G4 G5 G6 E _

end Cert.Proof.KB

end
-- ==== Proof.KBTile.lean ====
/-
  One tile's task, run whole. The tile copies its four chunks of 128 species rows into two scratches in turn, the next
  chunk's copy in flight while the current one is summed (one copy at a time on each of the two semaphores, a scratch
  overwritten only after its rows were summed), copies the table, the intercepts and its 512 energies, and for each
  chunk runs the row loop (each row's three 16-lane partial sums) and the group loop (each row's three totals by sixteen
  gathers per lane, then the energy expression) into its 512-entry output scratch, which it copies out to its block of
  the result. The run names what the block ends at, as a function of the arrays and of what the scratches held.
-/
import proofs.«206979_g57535381897292_cont_9to1_m_841_24_alg».proof.Proof.KBInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- Lane x of the lane-number vector is the word x. -/
theorem iota16_toNat (x : S16.Idx) : (iota .scVector S16 32 [0] iota_S16_d0_w32_scVector x).toNat = (x 0).val := by
  show (BitVec.ofNat 32 (0 * S16.size 0 + (x 0).val)).toNat = _
  have h : (x 0).val < 16 := (x 0).isLt
  rw [BitVec.toNat_ofNat, Nat.zero_mul, Nat.zero_add]
  exact Nat.mod_eq_of_lt (by omega)
theorem iota16_lt : ∀ x : S16.Idx, (iota .scVector S16 32 [0] iota_S16_d0_w32_scVector x).toNat < 16 :=
  fun x => by rw [iota16_toNat]; exact (x 0).isLt

set_option maxHeartbeats 16000000 in
/-- The tile's run: what its block of the result ends at (a function of the argument arrays' contents, of the block's
    contents before, and of what the nine scratches held), with the run from the tile's resources to the same resources,
    the block rewritten. -/
def tileRun (O : CellTallies nD τ sig (HIx 1)) (W : Waits sig (HIx 1)) (hO : ∀ g, O g none = 0) (q : PosShare TreeShare) :
    Σ' (OUT : Buf (Elt F) (spLoc d) → Buf (Elt F) (enLoc d) → Buf (Elt F) (tbLoc d) → Buf (Elt F) (i16Loc d) → Buf (Elt F) (oLoc d)
        → Buf (Elt F) ((V d (cV L) (jV L)).loc cc0_scratch0) → Buf (Elt F) ((V d (cV L) (jV L)).loc cc0_scratch1) → Buf (Elt F) ((V d (cV L) (jV L)).loc cc0_scratch2)
        → Buf (Elt F) ((V d (cV L) (jV L)).loc cc0_scratch3) → Buf (Elt F) ((V d (cV L) (jV L)).loc cc0_scratch4) → Buf (Elt F) ((V d (cV L) (jV L)).loc cc0_scratch5)
        → Buf (Elt F) ((V d (cV L) (jV L)).loc cc0_scratch6) → Buf (Elt F) ((V d (cV L) (jV L)).loc cc0_scratch7) → Buf (Elt F) ((V d (cV L) (jV L)).loc cc0_scratch8)
        → Buf (Elt F) (oLoc d)),
      ∀ (fsp : Buf (Elt F) (spLoc d)) (fen : Buf (Elt F) (enLoc d)) (ftb : Buf (Elt F) (tbLoc d)) (fic : Buf (Elt F) (i16Loc d)) (fo : Buf (Elt F) (oLoc d))
        (f0 : Buf (Elt F) ((V d (cV L) (jV L)).loc cc0_scratch0)) (f1 : Buf (Elt F) ((V d (cV L) (jV L)).loc cc0_scratch1)) (f2 : Buf (Elt F) ((V d (cV L) (jV L)).loc cc0_scratch2))
        (f3 : Buf (Elt F) ((V d (cV L) (jV L)).loc cc0_scratch3)) (f4 : Buf (Elt F) ((V d (cV L) (jV L)).loc cc0_scratch4)) (f5 : Buf (Elt F) ((V d (cV L) (jV L)).loc cc0_scratch5))
        (f6 : Buf (Elt F) ((V d (cV L) (jV L)).loc cc0_scratch6)) (f7 : Buf (Elt F) ((V d (cV L) (jV L)).loc cc0_scratch7)) (f8 : Buf (Elt F) ((V d (cV L) (jV L)).loc cc0_scratch8)),
        (iprop(levAts (K (F := F)).L (K (F := F)).lev
        ∗ (((spW).view.loc (V d (cV L) (jV L)) ↦{q} fsp) ∗ ((enW).view.loc (V d (cV L) (jV L)) ↦{q} fen) ∗ ((tbW).view.loc (V d (cV L) (jV L)) ↦{q} ftb) ∗ ((i16W).view.loc (V d (cV L) (jV L)) ↦{q} fic)
            ∗ ((oSl L).view.loc (V d (cV L) (jV L)) ↦[(oSl L).view.set]{fullShare} fo))
        ∗ (((s0).view.loc (V d (cV L) (jV L)) ↦{fullShare} f0) ∗ ((s1).view.loc (V d (cV L) (jV L)) ↦{fullShare} f1) ∗ ((s2).view.loc (V d (cV L) (jV L)) ↦{fullShare} f2)
            ∗ ((s3).view.loc (V d (cV L) (jV L)) ↦{fullShare} f3) ∗ ((s4).view.loc (V d (cV L) (jV L)) ↦{fullShare} f4) ∗ ((s5).view.loc (V d (cV L) (jV L)) ↦{fullShare} f5)
            ∗ ((s6).view.loc (V d (cV L) (jV L)) ↦{fullShare} f6) ∗ ((s7).view.loc (V d (cV L) (jV L)) ↦{fullShare} f7) ∗ ((s8).view.loc (V d (cV L) (jV L)) ↦{fullShare} f8))
        ∗ (semVal (cellV d L cc0_scratch9) 0 ∗ semVal (cellV d L cc0_scratch10) 0 ∗ semVal (cellV d L cc0_scoped0) 0
            ∗ semVal (cellV d L cc0_scoped1) 0 ∗ semVal (cellV d L cc0_scoped2) 0 ∗ semVal (cellV d L cc0_scoped3) 0)
        ∗ owes (V d (cV L) (jV L)) O W) : sProp 𝕄)
          ⊢ wp frame (wpE (defs₀ (F := F)) 𝒱₀ (V d (cV L) (jV L)) none) Set.univ
              (cc0__sc_energy_adder L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3)
              fun _ => iprop((((spW).view.loc (V d (cV L) (jV L)) ↦{q} fsp) ∗ ((enW).view.loc (V d (cV L) (jV L)) ↦{q} fen) ∗ ((tbW).view.loc (V d (cV L) (jV L)) ↦{q} ftb) ∗ ((i16W).view.loc (V d (cV L) (jV L)) ↦{q} fic)
                  ∗ ((oSl L).view.loc (V d (cV L) (jV L)) ↦[(oSl L).view.set]{fullShare} OUT fsp fen ftb fic fo f0 f1 f2 f3 f4 f5 f6 f7 f8))
                ∗ ((∃ f, (s0).view.loc (V d (cV L) (jV L)) ↦{fullShare} f) ∗ (∃ f, (s1).view.loc (V d (cV L) (jV L)) ↦{fullShare} f) ∗ (∃ f, (s2).view.loc (V d (cV L) (jV L)) ↦{fullShare} f)
                    ∗ (∃ f, (s3).view.loc (V d (cV L) (jV L)) ↦{fullShare} f) ∗ (∃ f, (s4).view.loc (V d (cV L) (jV L)) ↦{fullShare} f) ∗ (∃ f, (s5).view.loc (V d (cV L) (jV L)) ↦{fullShare} f)
                    ∗ (∃ f, (s6).view.loc (V d (cV L) (jV L)) ↦{fullShare} f) ∗ (∃ f, (s7).view.loc (V d (cV L) (jV L)) ↦{fullShare} f) ∗ (∃ f, (s8).view.loc (V d (cV L) (jV L)) ↦{fullShare} f))
                ∗ (semVal (cellV d L cc0_scratch9) 0 ∗ semVal (cellV d L cc0_scratch10) 0 ∗ semVal (cellV d L cc0_scoped0) 0
                    ∗ semVal (cellV d L cc0_scoped1) 0 ∗ semVal (cellV d L cc0_scoped2) 0 ∗ semVal (cellV d L cc0_scoped3) 0)
                ∗ ∃ W', ⌜∀ p ∈ W', p ∈ W ∨ p.2 = none⌝ ∗ owes (V d (cV L) (jV L)) O W') := by
  refine ⟨?_, fun fsp fen ftb fic fo f0 f1 f2 f3 f4 f5 f6 f7 f8 => ?run⟩
  case run =>
    iintro ⟨#Hlv, ⟨Hsp, Hen, Htb, Hic, Ho⟩, ⟨H0, H1, H2, H3, H4, H5, H6, H7, H8⟩, ⟨Hm0, Hm1, Hm2, Hm3, Hm4, Hm5⟩, HO⟩
    ihave Hmw := ((K (F := F)).mayWaits_none (thr := (V d (cV L) (jV L))) hO) $$ Hlv
    sl_unfold [cc0__sc_energy_adder]
    sl_exec
    generalize hX0 : View.write (Elt F) (s0).view f0 _ Finset.univ = X0
    generalize hE : View.write (Elt F) (s2).view f2 _ Finset.univ = E
    sl_for (rowInv1 d L _ _ _ _ _ _ _ _ _ X0 f4 f5 f6) $$ [H0 H4 H5 H6]
    case region => exact fun k acc => rowStep1 d L _ _ _ _ _ _ _ _ _ X0 f4 f5 f6 k acc
    · unfold rowInv1
      isplitl [H0]; · iexact H0
      isplitl [H4]; · iexact H4
      isplitl [H5]; · iexact H5
      iexact H6
    iintro %_ HI
    unfold rowInv1
    icases HI with ⟨H0, H4, H5, H6⟩
    generalize hG4a : fillW (s4).view _ f4 _ = G4a
    generalize hG5a : fillW (s5).view _ f5 _ = G5a
    generalize hG6a : fillW (s6).view _ f6 _ = G6a
    sl_for (grpInv2 d L _ _ _ _ _ _ _ _ _ iota16_lt G4a G5a G6a E f3) $$ [H4 H5 H6 H2 H3]
    case region => exact fun k acc => grpStep2 d L _ _ _ _ _ _ _ _ _ iota16_lt G4a G5a G6a E f3 k acc
    · unfold grpInv2
      isplitl [H4]; · iexact H4
      isplitl [H5]; · iexact H5
      isplitl [H6]; · iexact H6
      isplitl [H2]; · iexact H2
      iexact H3
    iintro %_ HI
    unfold grpInv2
    icases HI with ⟨H4, H5, H6, H2, H3⟩
    generalize hH3a : fillW (s3).view _ f3 _ = H3a
    sl_exec
    generalize hX1 : View.write (Elt F) (s1).view f1 _ Finset.univ = X1
    sl_for (rowInv3 d L _ _ _ _ _ _ _ _ _ X1 G4a G5a G6a) $$ [H1 H4 H5 H6]
    case region => exact fun k acc => rowStep3 d L _ _ _ _ _ _ _ _ _ X1 G4a G5a G6a k acc
    · unfold rowInv3
      isplitl [H1]; · iexact H1
      isplitl [H4]; · iexact H4
      isplitl [H5]; · iexact H5
      iexact H6
    iintro %_ HI
    unfold rowInv3
    icases HI with ⟨H1, H4, H5, H6⟩
    generalize hG4b : fillW (s4).view _ G4a _ = G4b
    generalize hG5b : fillW (s5).view _ G5a _ = G5b
    generalize hG6b : fillW (s6).view _ G6a _ = G6b
    sl_for (grpInv4 d L _ _ _ _ _ _ _ _ _ iota16_lt G4b G5b G6b E H3a) $$ [H4 H5 H6 H2 H3]
    case region => exact fun k acc => grpStep4 d L _ _ _ _ _ _ _ _ _ iota16_lt G4b G5b G6b E H3a k acc
    · unfold grpInv4
      isplitl [H4]; · iexact H4
      isplitl [H5]; · iexact H5
      isplitl [H6]; · iexact H6
      isplitl [H2]; · iexact H2
      iexact H3
    iintro %_ HI
    unfold grpInv4
    icases HI with ⟨H4, H5, H6, H2, H3⟩
    generalize hH3b : fillW (s3).view _ H3a _ = H3b
    sl_exec
    generalize hX2 : View.write (Elt F) (s0).view X0 _ Finset.univ = X2
    sl_for (rowInv5 d L _ _ _ X2 G4b G5b G6b) $$ [H0 H4 H5 H6]
    case region => exact fun k acc => rowStep5 d L _ _ _ X2 G4b G5b G6b k acc
    · unfold rowInv5
      isplitl [H0]; · iexact H0
      isplitl [H4]; · iexact H4
      isplitl [H5]; · iexact H5
      iexact H6
    iintro %_ HI
    unfold rowInv5
    icases HI with ⟨H0, H4, H5, H6⟩
    generalize hG4c : fillW (s4).view _ G4b _ = G4c
    generalize hG5c : fillW (s5).view _ G5b _ = G5c
    generalize hG6c : fillW (s6).view _ G6b _ = G6c
    sl_for (grpInv6 d L _ _ _ _ _ _ _ iota16_lt G4c G5c G6c E H3b) $$ [H4 H5 H6 H2 H3]
    case region => exact fun k acc => grpStep6 d L _ _ _ _ _ _ _ iota16_lt G4c G5c G6c E H3b k acc
    · unfold grpInv6
      isplitl [H4]; · iexact H4
      isplitl [H5]; · iexact H5
      isplitl [H6]; · iexact H6
      isplitl [H2]; · iexact H2
      iexact H3
    iintro %_ HI
    unfold grpInv6
    icases HI with ⟨H4, H5, H6, H2, H3⟩
    generalize hH3c : fillW (s3).view _ H3b _ = H3c
    sl_exec
    generalize hX3 : View.write (Elt F) (s1).view X1 _ Finset.univ = X3
    sl_for (rowInv7 d L _ _ X3 G4c G5c G6c) $$ [H1 H4 H5 H6]
    case region => exact fun k acc => rowStep7 d L _ _ X3 G4c G5c G6c k acc
    · unfold rowInv7
      isplitl [H1]; · iexact H1
      isplitl [H4]; · iexact H4
      isplitl [H5]; · iexact H5
      iexact H6
    iintro %_ HI
    unfold rowInv7
    icases HI with ⟨H1, H4, H5, H6⟩
    generalize hG4d : fillW (s4).view _ G4c _ = G4d
    generalize hG5d : fillW (s5).view _ G5c _ = G5d
    generalize hG6d : fillW (s6).view _ G6c _ = G6d
    sl_for (grpInv8 d L _ _ _ _ _ _ _ iota16_lt G4d G5d G6d E H3c) $$ [H4 H5 H6 H2 H3]
    case region => exact fun k acc => grpStep8 d L _ _ _ _ _ _ _ iota16_lt G4d G5d G6d E H3c k acc
    · unfold grpInv8
      isplitl [H4]; · iexact H4
      isplitl [H5]; · iexact H5
      isplitl [H6]; · iexact H6
      isplitl [H2]; · iexact H2
      iexact H3
    iintro %_ HI
    unfold grpInv8
    icases HI with ⟨H4, H5, H6, H2, H3⟩
    generalize hH3d : fillW (s3).view _ H3c _ = H3d
    sl_exec

    subst hH3d
    subst hG6d
    subst hG5d
    subst hG4d
    subst hX3
    subst hH3c
    subst hG6c
    subst hG5c
    subst hG4c
    subst hX2
    subst hH3b
    subst hG6b
    subst hG5b
    subst hG4b
    subst hX1
    subst hH3a
    subst hG6a
    subst hG5a
    subst hG4a
    subst hE
    subst hX0
    sl_step
    isplitl [Hsp Hen Htb Hic Ho]
    · isplitl [Hsp]; · iexact Hsp
      isplitl [Hen]; · iexact Hen
      isplitl [Htb]; · iexact Htb
      isplitl [Hic]; · iexact Hic
      iexact Ho
    isplitl [H0 H1 H2 H3 H4 H5 H6 H7 H8]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact H8
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4]; · iexact Hm4
      iexact Hm5
    iexists _; isplitr
    rotate_left
    · iexact HO
    · ipureintro; intro p hp
      repeat (rcases Finset.mem_insert.mp hp with rfl | hp; · exact .inr rfl)
      exact .inl hp

end Cert.Proof.KB

end
-- ==== Proof.KBLaunch.lean ====
/-
  The energy adder's launch. The TensorCore broadcasts the intercept to sixteen copies, hands every tile a read share of
  the four read-only arrays and its block of the result, waits for the two SparseCores, and gets the shares and the
  blocks back, every block at the one whole-array function its tile's run ends at; the shares rejoin, the 32 blocks are
  the whole result. The run: every execution of the device's threads terminates, nothing faulting, the arguments
  unchanged and the result at that function.
-/
import proofs.«206979_g57535381897292_cont_9to1_m_841_24_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Idealize.ShloMosaic.StableHlo (held held_split held_sdiff_result wp_hlo_within)

variable (m : (ℓ : Loc nD τ sig) → Buf (Elt F) ℓ) (ρ : Dev nD → PrngReg)

/-! ## Tiles and blocks -/

/-- The number of the tile at grid point L. -/
def widL (L : grid0.Coords) : Fin 32 := wid ⟨(L 0).val, (L 0).isLt⟩ ⟨(L 1).val, (L 1).isLt⟩

omit [FloatOps F] in
/-- The rectangle the kernel slices for its write-out at grid point L is block number 2 (L 1) + (L 0). -/
theorem oRectK_eq (L : grid0.Coords) : Rect.unit (s := S16384) (k0_off2 L) S512.size (k0_off2_inb L) = oRect (widL L) := by
  unfold oRect Rect.part Rect.block
  congr 1 <;> funext a
  · rw [k0_off2_eq]
    match a with
    | 0 => simp [Shape.partIx, Shape.partSize, widL, wid]; omega
  · match a with
    | 0 => simp [Shape.partSize]

omit [FloatOps F] in
theorem set_oSl (L : grid0.Coords) : (oSl L).view.set = oSet (widL L) := by
  show ((oW).view.slice (Rect.unit (s := S16384) (k0_off2 L) S512.size (k0_off2_inb L))).set = ((oW).view.slice (oRect (widL L))).set
  rw [oRectK_eq]

/-- Pairs (SparseCore, vector subcore) are the 32 tile numbers. -/
def widE : Fin 2 × Fin 16 ≃ Fin 32 where
  toFun p := wid p.1 p.2
  invFun w := (⟨w.val % 2, Nat.mod_lt _ (by decide)⟩, ⟨w.val / 2, by have := w.isLt; omega⟩)
  left_inv := by
    rintro ⟨c, i⟩
    have hc := c.isLt; have hi := i.isLt
    ext <;> simp only [wid] <;> omega
  right_inv := by
    intro w; apply Fin.ext; simp only [wid]; omega

/-! ## The tile's task with its block at the one function -/

section Tile
variable (d : Dev nD) (L : grid0.Coords)

/-- The tile's task from the device's arrays: the read shares come back, the block at `Gd` wherever the run's
    function of the block agrees with `Gd` on the block (`hG`), whatever the scratches held. -/
theorem tile_body (hF : (K (F := F)).Facts) (O : CellTallies nD τ sig (HIx 1)) (W : Waits sig (HIx 1)) (hO : ∀ g, O g none = 0) (q : PosShare TreeShare)
    (fsp : Buf (Elt F) (spLoc d)) (fen : Buf (Elt F) (enLoc d)) (ftb : Buf (Elt F) (tbLoc d)) (fic : Buf (Elt F) (i16Loc d)) (fo : Buf (Elt F) (oLoc d))
    (Gd : Buf (Elt F) (oLoc d))
    (hG : ∀ f0 f1 f2 f3 f4 f5 f6 f7 f8, ∀ y ∈ oSet (widL L), (tileRun d L O W hO q).1 fsp fen ftb fic fo f0 f1 f2 f3 f4 f5 f6 f7 f8 y = Gd y) :
    (iprop(levAts (K (F := F)).L (K (F := F)).lev ∗ emp
        ∗ ((spLoc d ↦{q} fsp) ∗ (enLoc d ↦{q} fen) ∗ (tbLoc d ↦{q} ftb) ∗ (i16Loc d ↦{q} fic) ∗ (oLoc d ↦[oSet (widL L)]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_energy_adder L spW (Memref.isWhole_whole _) enW (Memref.isWhole_whole _) tbW (Memref.isWhole_whole _) i16W (Memref.isWhole_whole _)
            oW (Memref.isWhole_whole _) s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _) s8 (Memref.isWhole_whole _)
            cc0_scratch9 cc0_scratch10 cc0_scoped0 cc0_scoped1 cc0_scoped2 cc0_scoped3)
          fun _ => iprop(((spLoc d ↦{q} fsp) ∗ (enLoc d ↦{q} fen) ∗ (tbLoc d ↦{q} ftb) ∗ (i16Loc d ↦{q} fic) ∗ (oLoc d ↦[oSet (widL L)]{fullShare} Gd))
            ∗ scopedBufs (V d (cV L) (jV L)) ∗ scopedSems0 (V d (cV L) (jV L)) ∗ ∃ W', ⌜∀ p ∈ W', p ∈ W ∨ p.2 = none⌝ ∗ owes (V d (cV L) (jV L)) O W') := by
  have hset := set_oSl L
  have hG' : ∀ f0 f1 f2 f3 f4 f5 f6 f7 f8, ∀ y ∈ (oSl L).view.set, (tileRun d L O W hO q).1 fsp fen ftb fic fo f0 f1 f2 f3 f4 f5 f6 f7 f8 y = Gd y :=
    fun f0 f1 f2 f3 f4 f5 f6 f7 f8 y hy => hG f0 f1 f2 f3 f4 f5 f6 f7 f8 y (by rw [← hset]; exact hy)
  rw [(K (F := F)).scopedBufs_V hF d (cV L) (jV L), SparseCore.Cfg.scopedSems0_V (Val := Elt F) d (cV L) (jV L), ownSems0_V, ownBufs_V, ← hset]
  iintro ⟨#Hlv, -, ⟨Hsp, Hen, Htb, Hic, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩,
    ⟨Hm0, Hm1, Hm2, Hm3, Hm4, Hm5, Hsems⟩, HO⟩
  ihave Hsp := (Entails.of_eq (pts_sp (F := F) d L _ _).symm) $$ Hsp
  ihave Hen := (Entails.of_eq (pts_en (F := F) d L _ _).symm) $$ Hen
  ihave Htb := (Entails.of_eq (pts_tb (F := F) d L _ _).symm) $$ Htb
  ihave Hic := (Entails.of_eq (pts_i16 (F := F) d L _ _).symm) $$ Hic
  ihave Ho := (Entails.of_eq (pts_o (F := F) d L _).symm) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  ihave H7 := (Entails.of_eq (pts_s7 (F := F) d L _).symm) $$ H7
  ihave H8 := (Entails.of_eq (pts_s8 (F := F) d L _).symm) $$ H8

  iapply (wp_wand_r frame (wpE (defs₀ (F := F)) 𝒱₀ (V d (cV L) (jV L)) none) Set.univ)
  isplitl [Hsp Hen Htb Hic Ho H0 H1 H2 H3 H4 H5 H6 H7 H8 Hm0 Hm1 Hm2 Hm3 Hm4 Hm5 HO]
  · iapply ((tileRun d L O W hO q).2 fsp fen ftb fic fo f0 f1 f2 f3 f4 f5 f6 f7 f8)
    isplitr; · iexact Hlv
    isplitl [Hsp Hen Htb Hic Ho]
    · isplitl [Hsp]; · iexact Hsp
      isplitl [Hen]; · iexact Hen
      isplitl [Htb]; · iexact Htb
      isplitl [Hic]; · iexact Hic
      iexact Ho
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hm0 Hm1 Hm2 Hm3 Hm4 Hm5]
    · isplitl [Hm0]; · iexact Hm0
      isplitl [Hm1]; · iexact Hm1
      isplitl [Hm2]; · iexact Hm2
      isplitl [Hm3]; · iexact Hm3
      isplitl [Hm4]; · iexact Hm4
      iexact Hm5
    iexact HO
  iintro %_ ⟨⟨Hsp, Hen, Htb, Hic, Ho⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩⟩,
    ⟨Hm0, Hm1, Hm2, Hm3, Hm4, Hm5⟩, ⟨%W', %hW', HO⟩⟩
  ihave Ho := (Entails.of_eq ((pts_o (F := F) d L _).trans (pointsTo_congr (hG' f0 f1 f2 f3 f4 f5 f6 f7 f8)))) $$ Ho
  isplitl [Hsp Hen Htb Hic Ho]
  · isplitl [Hsp]; · iapply (Entails.of_eq (pts_sp (F := F) d L _ _)); iexact Hsp
    isplitl [Hen]; · iapply (Entails.of_eq (pts_en (F := F) d L _ _)); iexact Hen
    isplitl [Htb]; · iapply (Entails.of_eq (pts_tb (F := F) d L _ _)); iexact Htb
    isplitl [Hic]; · iapply (Entails.of_eq (pts_i16 (F := F) d L _ _)); iexact Hic
    iexact Ho
  isplitl [H0 H1 H2 H3 H4 H5 H6 H7 H8 Hbufs]
  · isplitl [H0]; · iexists _; iapply (Entails.of_eq (pts_s0 (F := F) d L _)); iexact H0
    isplitl [H1]; · iexists _; iapply (Entails.of_eq (pts_s1 (F := F) d L _)); iexact H1
    isplitl [H2]; · iexists _; iapply (Entails.of_eq (pts_s2 (F := F) d L _)); iexact H2
    isplitl [H3]; · iexists _; iapply (Entails.of_eq (pts_s3 (F := F) d L _)); iexact H3
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    isplitl [H7]; · iexists _; iapply (Entails.of_eq (pts_s7 (F := F) d L _)); iexact H7
    isplitl [H8]; · iexists _; iapply (Entails.of_eq (pts_s8 (F := F) d L _)); iexact H8
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexists W'; isplitr
  · ipureintro; exact hW'
  · iexact HO

end Tile

/-! ## What the handshakes carry -/

variable (G : (d : Dev nD) → Buf (Elt F) (oLoc d))

/-- The sixteen copies of the intercept @main makes before the call. -/
abbrev ficOf (d : Dev nD) : Buf (Elt F) (i16Loc d) :=
  (broadcastInDim S16 ![] bcast_S_S16 : (⟨S_, .f32⟩ : BufTy).Contents (Elt F) → (⟨S16, .f32⟩ : BufTy).Contents (Elt F)) (m (icLoc d))

/-- What tile w is handed: a read share of the four read-only arrays, and its block of the result. -/
def tileGo (d : Dev nD) (w : Fin 32) : sProp 𝕄 :=
  iprop((spLoc d ↦{qTok w} m (spLoc d)) ∗ (enLoc d ↦{qTok w} m (enLoc d)) ∗ (tbLoc d ↦{qTok w} m (tbLoc d))
    ∗ (i16Loc d ↦{qTok w} ficOf m d) ∗ (oLoc d ↦[oSet w]{fullShare} m (oLoc d)))
/-- What tile w hands back: the shares, and its block at the one function. -/
def tileTd (d : Dev nD) (w : Fin 32) : sProp 𝕄 :=
  iprop((spLoc d ↦{qTok w} m (spLoc d)) ∗ (enLoc d ↦{qTok w} m (enLoc d)) ∗ (tbLoc d ↦{qTok w} m (tbLoc d))
    ∗ (i16Loc d ↦{qTok w} ficOf m d) ∗ (oLoc d ↦[oSet w]{fullShare} G d))

def P : (K (F := F)).Pay (nD := nD) (Val := Elt F) (Name := ℕ) (U := UU) where
  st := fun q d c => match q with | 0 => bigSep Finset.univ fun i : Fin 16 => tileGo m d (wid (Fin.cast nCore_zero c) i)
  dn := fun q d c => match q with | 0 => bigSep Finset.univ fun i : Fin 16 => tileTd m G d (wid (Fin.cast nCore_zero c) i)
  go := fun q d c i => match q with | 0 => tileGo m d (wid (Fin.cast nCore_zero c) (Fin.cast nSub_zero i))
  td := fun q d c i => match q with | 0 => tileTd m G d (wid (Fin.cast nCore_zero c) (Fin.cast nSub_zero i))
  x := fun _ _ => iprop(emp)

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m G d w) := by
  unfold tileTd; infer_instance

instance P_storable : (P (F := F) m G).IsStorable where
  st q d c := match q with
    | 0 => (inferInstance : BI.Storable (upEmb : UEmb _ 𝕄) (bigSep Finset.univ fun i : Fin 16 => tileGo m d (wid (Fin.cast nCore_zero c) i)))
  dn q d c := match q with
    | 0 => (inferInstance : BI.Storable (upEmb : UEmb _ 𝕄) (bigSep Finset.univ fun i : Fin 16 => tileTd m G d (wid (Fin.cast nCore_zero c) i)))
  go q d c i := match q with
    | 0 => (inferInstance : BI.Storable (upEmb : UEmb _ 𝕄) (tileGo m d (wid (Fin.cast nCore_zero c) (Fin.cast nSub_zero i))))
  td q d c i := match q with
    | 0 => (inferInstance : BI.Storable (upEmb : UEmb _ 𝕄) (tileTd m G d (wid (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_energy_adder (coordsV c s)
          spW (Memref.isWhole_whole _) enW (Memref.isWhole_whole _) tbW (Memref.isWhole_whole _) i16W (Memref.isWhole_whole _)
          oW (Memref.isWhole_whole _) s0 (Memref.isWhole_whole _) s1 (Memref.isWhole_whole _) s2 (Memref.isWhole_whole _) s3 (Memref.isWhole_whole _)
          s4 (Memref.isWhole_whole _) s5 (Memref.isWhole_whole _) s6 (Memref.isWhole_whole _) s7 (Memref.isWhole_whole _) s8 (Memref.isWhole_whole _)
          cc0_scratch9 cc0_scratch10 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the run's function of a block must satisfy for the launch: on tile L's block it is `G d`, whatever the
    scratches held and whatever the tile owes. -/
def BlockOK : Prop :=
  ∀ (d : Dev nD) (L : grid0.Coords) (O : CellTallies nD τ sig (HIx 1)) (W : Waits sig (HIx 1)) (hO : ∀ g, O g none = 0) (q : PosShare TreeShare)
    f0 f1 f2 f3 f4 f5 f6 f7 f8, ∀ y ∈ oSet (widL L),
      (tileRun d L O W hO q).1 (m (spLoc d)) (m (enLoc d)) (m (tbLoc d)) (ficOf m d) (m (oLoc d)) f0 f1 f2 f3 f4 f5 f6 f7 f8 y = G d y

theorem tileObl (hF : (K (F := F)).Facts) (hG : BlockOK m G) : (K (F := F)).TileObl (D (F := F)) 𝒱 (P m G) v₀ 0 := by
  intro d c i O W hO _ _
  simp only [show (P m G).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : widL (coordsV ⟨_, hc.1⟩ ⟨_, hc.2⟩) = wid (Fin.cast nCore_zero c) (Fin.cast nSub_zero i) := Fin.ext rfl
  have key := tile_body d (coordsV ⟨_, hc.1⟩ ⟨_, hc.2⟩) hF O W hO (qTok (wid (Fin.cast nCore_zero c) (Fin.cast nSub_zero i)))
    (m (spLoc d)) (m (enLoc d)) (m (tbLoc d)) (ficOf m d) (m (oLoc d)) (G d)
    (fun f0 f1 f2 f3 f4 f5 f6 f7 f8 => hG d _ O W hO _ f0 f1 f2 f3 f4 f5 f6 f7 f8)
  rw [hw] at key
  exact key.trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m G) 0 := by
  intro d c
  show (bigSep Finset.univ fun i : Fin 16 => tileGo m d (wid (Fin.cast nCore_zero c) i)) ⊢ |={Set.univ}=> iprop(
      (bigSep Finset.univ fun i : Fin ((K (F := F)).nSub 0) => tileGo m d (wid (Fin.cast nCore_zero c) (Fin.cast nSub_zero i)))
      ∗ ((bigSep Finset.univ fun i : Fin ((K (F := F)).nSub 0) => tileTd m G d (wid (Fin.cast nCore_zero c) (Fin.cast nSub_zero i)))
          -∗ bigSep Finset.univ fun i : Fin 16 => tileTd m G d (wid (Fin.cast nCore_zero c) i)))
  rw [bigSep_tasks (F := F) (fun i => tileGo m d (wid (Fin.cast nCore_zero c) i)),
    bigSep_tasks (F := F) (fun i => tileTd m G d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m G).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
/-- The broadcast of the intercept to sixteen copies. -/
abbrev opB : HloOp τ sig (Elt F) :=
  StableHlo.unary main_arg3 main_v0 (broadcastInDim S16 ![] bcast_S_S16 : (⟨S_, .f32⟩ : BufTy).Contents (Elt F) → (⟨S16, .f32⟩ : BufTy).Contents (Elt F))
/-- The TensorCore's arrays, all unscoped. -/
abbrev S6 : Finset (DevRef τ sig) := {a0', a1', a2', a3', v0', v1'}

omit [FloatOps F] in
theorem held_S6 (d : Dev nD) (W : Valuation τ sig (Elt F)) :
    (held (T d) S6 W : sProp 𝕄) = iprop((spLoc d ↦{fullShare} W a0') ∗ (enLoc d ↦{fullShare} W a1') ∗ (tbLoc d ↦{fullShare} W a2')
      ∗ (icLoc d ↦{fullShare} W a3') ∗ (i16Loc d ↦{fullShare} W v0') ∗ (oLoc d ↦{fullShare} W v1')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((spLoc d ↦{fullShare} W main_arg0) ∗ (enLoc d ↦{fullShare} W main_arg1) ∗ (tbLoc d ↦{fullShare} W main_arg2)
      ∗ (icLoc d ↦{fullShare} W main_arg3) ∗ (i16Loc d ↦{fullShare} W main_v0) ∗ (oLoc d ↦{fullShare} W main_v1)) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

theorem hB : (opB (F := F)).bufs ⊆ S6 := show ({a3', v0'} : Finset (DevRef τ sig)) ⊆ S6 by decide

theorem res_v0 (d : Dev nD) : (opB (F := F)).result (V0 m d) v0' = ficOf m d := by
  exact StableHlo.unary_result _ _ _ _ _ _

/-- After the broadcast: the arguments and the result array as launched, the sixteen copies made. -/
theorem held_res (d : Dev nD) :
    (held (T d) S6 ((opB (F := F)).result (V0 m d)) : sProp 𝕄)
      = iprop((spLoc d ↦{fullShare} m (spLoc d)) ∗ (enLoc d ↦{fullShare} m (enLoc d)) ∗ (tbLoc d ↦{fullShare} m (tbLoc d))
        ∗ (icLoc d ↦{fullShare} m (icLoc d)) ∗ (i16Loc d ↦{fullShare} ficOf m d) ∗ (oLoc d ↦{fullShare} m (oLoc d))) := by
  rw [held_S6,
    (opB (F := F)).result_of_not_mem (V0 m d) (b := a0') (show a0' ∉ ({v0'} : Finset (DevRef τ sig)) by decide),
    (opB (F := F)).result_of_not_mem (V0 m d) (b := a1') (show a1' ∉ ({v0'} : Finset (DevRef τ sig)) by decide),
    (opB (F := F)).result_of_not_mem (V0 m d) (b := a2') (show a2' ∉ ({v0'} : Finset (DevRef τ sig)) by decide),
    (opB (F := F)).result_of_not_mem (V0 m d) (b := a3') (show a3' ∉ ({v0'} : Finset (DevRef τ sig)) by decide),
    (opB (F := F)).result_of_not_mem (V0 m d) (b := v1') (show v1' ∉ ({v0'} : Finset (DevRef τ sig)) by decide), res_v0]
  rfl

/-! The result array is its 32 blocks. -/
omit [FloatOps F] in
theorem oSet_eq (w : Fin 32) : oSet w = (oRect w).set := by
  show ((View.whole (main_v1_scv : Ref sig .scVector)).slice (oRect w)).set = _
  rw [View.set_slice]; exact Finset.map_refl
omit [FloatOps F] in
theorem blocks_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdiv32 h
omit [FloatOps F] in
theorem blocks_cover : (Finset.univ : Finset (Fin 32)).biUnion oSet = Finset.univ :=
  (Finset.biUnion_congr rfl fun i _ => oSet_eq i).trans (Rect.biUnion_part hdiv32)
omit [FloatOps F] in
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet blocks_disjoint, blocks_cover]; try rfl

/-- What the call takes for the two SparseCores: per array the 32 tiles' pieces. -/
theorem st0_eq (d : Dev nD) : (bigSep Finset.univ fun c : Fin ((K (F := F)).nCore 0) => (P m G).st 0 d c)
    = iprop((bigSep Finset.univ fun w : Fin 32 => spLoc d ↦{qTok w} m (spLoc d)) ∗ (bigSep Finset.univ fun w : Fin 32 => enLoc d ↦{qTok w} m (enLoc d))
      ∗ (bigSep Finset.univ fun w : Fin 32 => tbLoc d ↦{qTok w} m (tbLoc d)) ∗ (bigSep Finset.univ fun w : Fin 32 => i16Loc d ↦{qTok w} ficOf m d)
      ∗ (bigSep Finset.univ fun w : Fin 32 => oLoc d ↦[oSet w]{fullShare} m (oLoc d))) := by
  refine (bigSep_cores (F := F) (fun c => bigSep Finset.univ fun i : Fin 16 => tileGo m d (wid c i))).trans
    ((bigSep_univ_prod (fun p : Fin 2 × Fin 16 => tileGo m d (wid p.1 p.2))).symm.trans ((bigSep_univ_equiv widE (tileGo m d)).symm.trans ?_))
  unfold tileGo
  rw [bigSep_sep', bigSep_sep', bigSep_sep', bigSep_sep']
theorem dn0_eq (d : Dev nD) : (bigSep Finset.univ fun c : Fin ((K (F := F)).nCore 0) => (P m G).dn 0 d c)
    = iprop((bigSep Finset.univ fun w : Fin 32 => spLoc d ↦{qTok w} m (spLoc d)) ∗ (bigSep Finset.univ fun w : Fin 32 => enLoc d ↦{qTok w} m (enLoc d))
      ∗ (bigSep Finset.univ fun w : Fin 32 => tbLoc d ↦{qTok w} m (tbLoc d)) ∗ (bigSep Finset.univ fun w : Fin 32 => i16Loc d ↦{qTok w} ficOf m d)
      ∗ (bigSep Finset.univ fun w : Fin 32 => oLoc d ↦[oSet w]{fullShare} G d)) := by
  refine (bigSep_cores (F := F) (fun c => bigSep Finset.univ fun i : Fin 16 => tileTd m G d (wid c i))).trans
    ((bigSep_univ_prod (fun p : Fin 2 × Fin 16 => tileTd m G d (wid p.1 p.2))).symm.trans ((bigSep_univ_equiv widE (tileTd m G d)).symm.trans ?_))
  unfold tileTd
  rw [bigSep_sep', bigSep_sep', bigSep_sep', bigSep_sep']

/-- What @main leaves the claim: the four arguments as launched, the result at the one function. -/
abbrev FIN (d : Dev nD) : sProp 𝕄 :=
  iprop((spLoc d ↦{fullShare} m (spLoc d)) ∗ (enLoc d ↦{fullShare} m (enLoc d)) ∗ (tbLoc d ↦{fullShare} m (tbLoc d))
    ∗ (icLoc d ↦{fullShare} m (icLoc d)) ∗ (oLoc d ↦{fullShare} G d))

/-- @main on device d's TensorCore: the broadcast; each read-only array's 32 read shares and the result's 32 blocks to
    the tiles through the call and back; the shares rejoined, the blocks the whole result. -/
theorem hmain (κ : GSem nD τ sig → ℕ) (d : Dev nD) :
    iprop((K (F := F)).ctx EH (P m G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opB) (S := S6) hB (V := V0 m d)) $$ [Hb Hheld]
  · isplitl [Hb]; · iexact Hb
    iexact Hheld
  iintro ⟨Hb, Hheld⟩
  ihave Hh := (Entails.of_eq (held_res (F := F) m d)) $$ Hheld
  icases Hh with ⟨Hsp, Hen, Htb, Hic, Hi16, Ho⟩
  rw [wp_ret]; imodintro
  ihave Hsp := (Transfers.pointsTo_toks_split fullShare 32) $$ Hsp
  icases Hsp with ⟨HspR, HspT⟩
  ihave Hen := (Transfers.pointsTo_toks_split fullShare 32) $$ Hen
  icases Hen with ⟨HenR, HenT⟩
  ihave Htb := (Transfers.pointsTo_toks_split fullShare 32) $$ Htb
  icases Htb with ⟨HtbR, HtbT⟩
  ihave Hi16 := (Transfers.pointsTo_toks_split fullShare 32) $$ Hi16
  icases Hi16 with ⟨Hi16R, Hi16T⟩
  ihave Ho := (Entails.of_eq (oPts_blocks (F := F) d _)) $$ Ho
  iapply ((K (F := F)).wp_run (D (F := F)) 𝒱 (EH := EH) (P := P m G) κ d 0) $$ [Hst HspT HenT HtbT Hi16T Ho HspR HenR HtbR Hi16R Hic]
  isplitr; · iexact Hctx
  isplitl [Hst]; · iexact Hst
  isplitl [HspT HenT HtbT Hi16T Ho]
  · rw [st0_eq]
    isplitl [HspT]; · iexact HspT
    isplitl [HenT]; · iexact HenT
    isplitl [HtbT]; · iexact HtbT
    isplitl [Hi16T]; · iexact Hi16T
    iexact Ho
  iintro ⟨Hst, Hdn⟩
  ihave Hdn' := (Entails.of_eq (dn0_eq m G d)) $$ Hdn
  icases Hdn' with ⟨HspT, HenT, HtbT, Hi16T, Ho⟩
  ihave Hsp := (Transfers.pointsTo_toks_join fullShare 32) $$ [HspR HspT]
  · isplitl [HspR] <;> iassumption
  ihave Hen := (Transfers.pointsTo_toks_join fullShare 32) $$ [HenR HenT]
  · isplitl [HenR] <;> iassumption
  ihave Htb := (Transfers.pointsTo_toks_join fullShare 32) $$ [HtbR HtbT]
  · isplitl [HtbR] <;> iassumption
  ihave Ho := (Entails.of_eq (oPts_blocks (F := F) d _).symm) $$ Ho
  imodintro
  isplitl [Hst]; · iexact Hst
  isplitl [Hsp]; · iexact Hsp
  isplitl [Hen]; · iexact Hen
  isplitl [Htb]; · iexact Htb
  isplitl [Hic]; · iexact Hic
  iexact Ho

def fq (d : Dev nD) (s' : Phys nD τ sig (Elt F)) : Prop :=
  s'.mem.mem (spLoc d) = m (spLoc d) ∧ s'.mem.mem (enLoc d) = m (enLoc d) ∧ s'.mem.mem (tbLoc d) = m (tbLoc d)
    ∧ s'.mem.mem (icLoc d) = m (icLoc d) ∧ s'.mem.mem (oLoc d) = G d

theorem hfin (d : Dev nD) (s' : Phys nD τ sig (Elt F)) : iprop(FIN m G d ∗ SI s') ⊢ (⌜fq m G d s'⌝ : sProp 𝕄) := by
  iintro ⟨⟨Hsp, Hen, Htb, Hic, Ho⟩, HSI⟩
  ihave H := (persistent_entails_right (SI_pointsTo_agree (st := s') (ℓ := spLoc d) (I := Finset.univ) (q := fullShare) (f := m (spLoc d)))) $$ [HSI Hsp]
  · isplitl [HSI] <;> iassumption
  icases H with ⟨%h1, HSI, -⟩
  ihave H := (persistent_entails_right (SI_pointsTo_agree (st := s') (ℓ := enLoc d) (I := Finset.univ) (q := fullShare) (f := m (enLoc d)))) $$ [HSI Hen]
  · isplitl [HSI] <;> iassumption
  icases H with ⟨%h2, HSI, -⟩
  ihave H := (persistent_entails_right (SI_pointsTo_agree (st := s') (ℓ := tbLoc d) (I := Finset.univ) (q := fullShare) (f := m (tbLoc d)))) $$ [HSI Htb]
  · isplitl [HSI] <;> iassumption
  icases H with ⟨%h3, HSI, -⟩
  ihave H := (persistent_entails_right (SI_pointsTo_agree (st := s') (ℓ := icLoc d) (I := Finset.univ) (q := fullShare) (f := m (icLoc d)))) $$ [HSI Hic]
  · isplitl [HSI] <;> iassumption
  icases H with ⟨%h4, HSI, -⟩
  ihave H := (SI_pointsTo_agree (st := s') (ℓ := oLoc d) (I := Finset.univ) (q := fullShare) (f := G d)) $$ [HSI Ho]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (spLoc c) = m (spLoc c) ∧ r.2.mem (enLoc c) = m (enLoc c) ∧ r.2.mem (tbLoc c) = m (tbLoc c)
    ∧ r.2.mem (icLoc c) = m (icLoc c) ∧ r.2.mem (oLoc c) = G c

/-- Every weakly fair execution of the device's threads terminates, nothing faulting; the four arguments end as launched
    and the result array at `G`, whenever every tile's block of its run's function is `G`'s. -/
theorem run_main [∀ e, Nonempty (Elt F e)] (hG : BlockOK m G) :
    θ_run (Cert.Kernel.defs (F := F)) (Cert.Kernel.threads (F := F)) ⟨m, fun _ => 0, ρ⟩ (QC m G) :=
  SparseCore.Cfg.θ_run_sc (K := K (F := F)) (D := D (F := F)) (𝒱 := 𝒱) (EH := EH) (P := P m G) facts v₀
    (fun q hq => match q with | 0 => nomatch hq)
    (fun q _ => match q with | 0 => tileObl m G facts hG)
    (fun q _ => match q with | 0 => SparseCore.Cfg.VecSplit.of_plain (vecSplit m G))
    m ρ main (fun _ => iprop(emp)) (FIN m G) (u₀ (F := F)) (sep_elim_left.trans (hu₀ m G)) (hmain m ρ G) (fq m G) (hfin m G) (QC m G) (fun _ h => h)

end Cert.Proof.KB

end
-- ==== Proof.KBSpec.lean ====
/-
  What the energy adder computes, as plain functions of the arrays.

  A row of 200 species words is read as twelve 16-lane pieces and a tail of 8 words (lanes 8..15 of a 16-lane piece at
  column 184, its lanes 0..7 masked to zero). For g the identity, the halving s ↦ s >> 1, or s ↦ s & (s >> 1), lane j of
  the row's partial sum is the sum over the twelve pieces of g at lane j, plus g of the masked tail's lane j; the row's
  total is the sum of the sixteen lanes. Sums are sums of 32-bit words, so their order is immaterial. The energy of a row
  is base + k1·S + k2·S1 + k3·S3 with the four scalars computed from the table's words, plus the row's energy, plus the
  intercept.
-/
import proofs.«206979_g57535381897292_cont_9to1_m_841_24_alg».proof.Proof.KBBase
import Idealize.ShloMosaic.Lib.ValueIdx
import Mathlib.Data.BitVec
import Mathlib.Algebra.BigOperators.Group.Finset.Basic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open ValueIdx

/-- The halving of a word (a signed shift by one). -/
def shr1 (v : BitVec 32) : BitVec 32 := IntOp.shrsi .vector v 1#32
/-- A word and its halving, bitwise: 1 exactly at the word 3 among 0, 1, 2, 3. -/
def and1 (v : BitVec 32) : BitVec 32 := IntOp.andi v (shr1 v)

/-- Lane j of a row's partial sum under g: the twelve whole pieces' lane j, and g of the masked tail's lane j. -/
def rowLane (g : BitVec 32 → BitVec 32) (X : S128x200.Idx → BitVec 32) (r : Fin 128) (j : Fin 16) : BitVec 32 :=
  (∑ p : Fin 12, g (X (ix2 r ⟨16 * p.val + j.val, by omega⟩)))
    + g (if 8 ≤ j.val then X (ix2 r ⟨184 + j.val, by omega⟩) else 0#32)

/-- A row's total under g: the sum of its sixteen lanes. -/
def rowTot (g : BitVec 32 → BitVec 32) (X : S128x200.Idx → BitVec 32) (r : Fin 128) : BitVec 32 := ∑ j : Fin 16, rowLane g X r j

/-- The energy expression, in the kernel's order of operations: the scalars from a 16-lane vector whose lanes 0..3 are
    the table, the three integer totals, the row's energy and the intercept. -/
def energyOf (v9 : Vec F S16 .f32) (T0 T1 T3 : BitVec 32) (e ic : F .f32) : F .f32 :=
  FloatOps.addf (FloatOps.addf
    (FloatOps.addf (FloatOps.addf (FloatOps.addf (k0_pay424 v9) (FloatOps.mulf (k0_pay421 v9) (FloatOps.sitofp .f32 T0)))
      (FloatOps.mulf (k0_pay422 v9) (FloatOps.sitofp .f32 T1))) (FloatOps.mulf (k0_pay423 v9) (FloatOps.sitofp .f32 T3))) e) ic

/-- The sum over all 200 columns of row R of the species array under g. -/
def colTot (g : BitVec 32 → BitVec 32) (sp : S16384x200.Idx → BitVec 32) (R : Fin 16384) : BitVec 32 := ∑ c : Fin 200, g (sp (ix2 R c))

/-- The table's four words as lanes 0..3 of a 16-lane vector (the other lanes repeat them: the scalars read lanes 0..3 only). -/
def tbVec (tb : S4.Idx → F .f32) : Vec F S16 .f32 := fun x => tb (ix1 ⟨(x 0).val % 4, Nat.mod_lt _ (by decide)⟩)

/-- The result array as ONE function of the argument arrays: entry R is the energy expression at row R's three totals,
    energy R and lane R mod 16 of the sixteen copies of the intercept. -/
def outSpec (sp : S16384x200.Idx → BitVec 32) (en : S16384.Idx → F .f32) (tb : S4.Idx → F .f32) (ic16 : S16.Idx → F .f32) :
    S16384.Idx → F .f32 := fun y =>
  energyOf (tbVec tb) (colTot id sp (y 0)) (colTot shr1 sp (y 0)) (colTot and1 sp (y 0)) (en y) (ic16 (ix1 ⟨(y 0).val % 16, Nat.mod_lt _ (by decide)⟩))

end Cert.Proof.KB

end
-- ==== Proof.KBValLib.lean ====
/-
  Lane-level readings shared by the value lemmas of the row loops and of the group loops. For a row trip: a 16-lane load
  of a species row read at a lane, the mask of the high lanes, a sum over twelve pieces written out, and the two orders
  in which a row trip adds its thirteen vectors (two accumulators from zero for the even and the odd pieces, then the
  masked tail), each equal to the plain sum because addition of 32-bit words is commutative and associative. For a group
  trip: a gather through one index vector read at a lane, a 16-lane load of the energies read at a lane, sixteen words
  added one after the other onto zero, and the energy expression as a function of its three totals.
-/
import proofs.«206979_g57535381897292_cont_9to1_m_841_24_alg».proof.Proof.KBSpec
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A 16-lane load at row r, column c of a 128 × 200 buffer, read as a 16-lane vector: lane j is the buffer's entry at
    row r, column c + j. -/
theorem piece_apply {κ : Kind} {sp : Space} (v : View sig κ sp S128x200 .i32) (f : v.ty.Contents (Elt F))
    (off : Fin 2 → Nat) (inb : ∀ a, off a + (![1, 16] : Fin 2 → Nat) a ≤ S128x200.size a) (h : S1x16.ShapeCasts S16)
    (r c : Nat) (hoff : off = ![r, c]) (j : S16.Idx) (hr : r < 128) (hc : c + (j 0).val < 200) :
    shapeCast S16 (View.readAt (Elt F) v (Rect.unit (s := S128x200) off ![1, 16] inb).toLoadRect f) h j
      = v.read (Elt F) f (ix2 ⟨r, hr⟩ ⟨c + (j 0).val, hc⟩) := by
  subst hoff
  refine ((congrArg (shapeCast S16 _ h) (eq_ix1 j)).trans (shapeCast_1a_a_apply _ h (j 0))).trans ?_
  rw [View.readAt_apply]
  congr 1
  funext a
  match a with
  | ⟨0, _⟩ => exact Fin.ext (by show r + 1 * 0 = r; omega)
  | ⟨1, _⟩ => exact Fin.ext (by show c + 1 * (j 0).val = c + (j 0).val; omega)

/-- The mask of the high lanes: lane x is set exactly when x ≥ 8. -/
theorem pay417_apply (x : S16.Idx) : k0_pay417 x = 1#1 ↔ 8 ≤ (x 0).val := by
  have hx : (x 0).val < 16 := (x 0).isLt
  show IntOp.cmpi .sge (BitVec.ofNat 32 ((0 : Nat) * 16 + (x 0).val)) 8#32 = 1#1 ↔ 8 ≤ (x 0).val
  generalize (x 0).val = n at hx
  interval_cases n <;> decide

/-- A select on the high-lane mask is a choice on the lane's number. -/
theorem select_pay417 {α : Type} (x : S16.Idx) (a b : α) :
    Scalar.select (k0_pay417 x) a b = if 8 ≤ (x 0).val then a else b := by
  unfold Scalar.select
  by_cases h : 8 ≤ (x 0).val
  · rw [if_pos h]; exact if_pos ((pay417_apply x).mpr h)
  · rw [if_neg h]; exact if_neg fun hc => h ((pay417_apply x).mp hc)

/-- A sum over twelve terms, written out. -/
theorem sum12 {M : Type*} [AddCommMonoid M] (f : Fin 12 → M) :
    ∑ p, f p = f 0 + (f 1 + (f 2 + (f 3 + (f 4 + (f 5 + (f 6 + (f 7 + (f 8 + (f 9 + (f 10 + f 11)))))))))) := by
  simp only [Fin.sum_univ_succ, Fin.sum_univ_zero, add_zero]
  rfl

/-- The row's sum as the kernel adds the words themselves: the even pieces and the odd pieces in two accumulators
    from zero, the last odd piece added to its accumulator, then the two accumulators, then the tail. -/
theorem lane_sum_a (A : Fin 12 → BitVec 32) (t : BitVec 32) (a0 a1 a2 a3 a4 a5 a6 a7 a8 a9 a10 a11 tt : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (ht : tt = t) :
    (0#32 + a0 + a2 + a4 + a6 + a8 + a10) + ((0#32 + a1 + a3 + a5 + a7 + a9) + a11) + tt = (∑ p, A p) + t := by
  subst h0 h1 h2 h3 h4 h5 h6 h7 h8 h9 h10 h11 ht
  rw [sum12]
  simp only [BitVec.zero_add]
  ac_rfl

/-- The row's sum as the kernel adds the halves and the indicators: five even and five odd pieces in two accumulators
    from zero, the last even and the last odd piece added each to its accumulator, then the two, then the tail. -/
theorem lane_sum_b (A : Fin 12 → BitVec 32) (t : BitVec 32) (a0 a1 a2 a3 a4 a5 a6 a7 a8 a9 a10 a11 tt : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (ht : tt = t) :
    ((0#32 + a0 + a2 + a4 + a6 + a8) + a10) + ((0#32 + a1 + a3 + a5 + a7 + a9) + a11) + tt = (∑ p, A p) + t := by
  subst h0 h1 h2 h3 h4 h5 h6 h7 h8 h9 h10 h11 ht
  rw [sum12]
  simp only [BitVec.zero_add]
  ac_rfl

/-- A lane's number is below 16. -/
theorem lane_lt16 (j : S16.Idx) : (j 0).val < 16 := (j 0).isLt

/-- The sum of the sixteen words of row r of a partial-sum scratch: words 17 r, …, 17 r + 15. -/
def gath (G : S2176.Idx → BitVec 32) (r : Fin 128) : BitVec 32 :=
  ∑ i : Fin 16, G (ix1 ⟨17 * r.val + i.val, by have := r.isLt; have := i.isLt; omega⟩)

/-- A gather out of a 2176-word buffer through one index vector, at a lane: the buffer's word at that lane's index. -/
theorem gather_apply {κ : Kind} {sp : Space} (v : View sig κ sp S2176 .i32) (G : v.ty.Contents (Elt F))
    (iv : IVec S16 32) (h : ∀ a x, ((![iv] : Fin 1 → IVec S16 32) a x).toNat < S2176.size a) (x : S16.Idx)
    (n : Nat) (hn : (iv x).toNat = n) (hlt : n < 2176) :
    loadIdx (View.readAt (Elt F) v (LoadRect.whole S2176) G) ![iv] h x = v.read (Elt F) G (ix1 ⟨n, hlt⟩) := by
  unfold loadIdx
  rw [View.readAt_apply]
  congr 1
  funext a
  match a with
  | ⟨0, _⟩ => exact Fin.ext (by show 0 + 1 * (iv x).toNat = n; omega)

/-- A 16-lane load at offset c of a 512-word buffer, at a lane: the buffer's word c + j. -/
theorem slice16_apply {κ : Kind} {sp : Space} (v : View sig κ sp S512 .f32) (f : v.ty.Contents (Elt F))
    (off : Fin 1 → Nat) (inb : ∀ a, off a + (![16] : Fin 1 → Nat) a ≤ S512.size a)
    (c : Nat) (hoff : off = ![c]) (j : S16.Idx) (hc : c + (j 0).val < 512) :
    View.readAt (Elt F) v (Rect.unit (s := S512) off ![16] inb).toLoadRect f j
      = v.read (Elt F) f (ix1 ⟨c + (j 0).val, hc⟩) := by
  subst hoff
  rw [View.readAt_apply]
  congr 1
  funext a
  match a with
  | ⟨0, _⟩ => exact Fin.ext (by show c + 1 * (j 0).val = c + (j 0).val; omega)

/-- A sum over sixteen terms, written out. -/
theorem sum16 {M : Type*} [AddCommMonoid M] (f : Fin 16 → M) :
    ∑ p, f p = f 0 + (f 1 + (f 2 + (f 3 + (f 4 + (f 5 + (f 6 + (f 7 + (f 8 + (f 9 + (f 10 + (f 11 + (f 12 + (f 13
      + (f 14 + f 15)))))))))))))) := by
  simp only [Fin.sum_univ_succ, Fin.sum_univ_zero, add_zero]
  rfl

/-- Sixteen words added one after the other onto zero are their sum. -/
theorem lane_sum16 (A : Fin 16 → BitVec 32) (a0 a1 a2 a3 a4 a5 a6 a7 a8 a9 a10 a11 a12 a13 a14 a15 : BitVec 32)
    (h0 : a0 = A 0) (h1 : a1 = A 1) (h2 : a2 = A 2) (h3 : a3 = A 3) (h4 : a4 = A 4) (h5 : a5 = A 5) (h6 : a6 = A 6)
    (h7 : a7 = A 7) (h8 : a8 = A 8) (h9 : a9 = A 9) (h10 : a10 = A 10) (h11 : a11 = A 11) (h12 : a12 = A 12)
    (h13 : a13 = A 13) (h14 : a14 = A 14) (h15 : a15 = A 15) :
    0#32 + a0 + a1 + a2 + a3 + a4 + a5 + a6 + a7 + a8 + a9 + a10 + a11 + a12 + a13 + a14 + a15 = ∑ p, A p := by
  subst h0 h1 h2 h3 h4 h5 h6 h7 h8 h9 h10 h11 h12 h13 h14 h15
  rw [sum16]
  simp only [BitVec.zero_add]
  ac_rfl

/-- The energy expression is a function of its three totals, the row's energy and the intercept. -/
theorem energy_congr (v9 : Vec F S16 .f32) (T0 T1 T3 T0' T1' T3' : BitVec 32) (e ic e' ic' : F .f32)
    (h0 : T0' = T0) (h1 : T1' = T1) (h3 : T3' = T3) (he : e' = e) (hic : ic' = ic) :
    FloatOps.addf (FloatOps.addf
      (FloatOps.addf (FloatOps.addf (FloatOps.addf (k0_pay424 v9) (FloatOps.mulf (k0_pay421 v9) (FloatOps.sitofp .f32 T0')))
        (FloatOps.mulf (k0_pay422 v9) (FloatOps.sitofp .f32 T1'))) (FloatOps.mulf (k0_pay423 v9) (FloatOps.sitofp .f32 T3'))) e') ic'
      = energyOf v9 T0 T1 T3 e ic := by
  subst h0 h1 h3 he hic
  rfl

end Cert.Proof.KB

end
-- ==== Proof.KBValPre.lean ====
/-
  The pieces of the energy adder's value, each read at an index. A tile's block starts at row 512 w. The five copies a
  tile makes read the arrays at the block's rows: chunk c of the species at local row r is the array's row
  512 w + 128 c + r, the 512 energies are the array's entries 512 w + j. A row's total under g (the identity, the
  halving, the indicator of 3), summed lane by lane with a masked tail, is the sum of g over the row's 200 words, since
  g fixes the zero word. The intercept vector's lanes are the sixteen copies; the table vector's lanes 0 to 3 are the
  table, and the four scalars read those lanes only. The block after the write-out holds the output scratch. Last, the
  energy expression of a chunk's row, with these readings, is the result function at the global row.
-/
import proofs.«206979_g57535381897292_cont_9to1_m_841_24_alg».proof.Proof.KBLaunch
import proofs.«206979_g57535381897292_cont_9to1_m_841_24_alg».proof.Proof.KBSpec
import proofs.«206979_g57535381897292_cont_9to1_m_841_24_alg».proof.Proof.LibEnergyAlgebra
import proofs.«206979_g57535381897292_cont_9to1_m_841_24_alg».proof.Proof.KBValLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]
open ValueIdx
open Cert.Proof.LibEnergyAlgebra
open scoped BigOperators

/-! ## The tile's block -/

/-- The first row of tile L's block: 512 times its number. -/
theorem base_eq (L : grid0.Coords) : 1024 * (L 1).val + 512 * (L 0).val = 512 * (widL L).val := by
  show 1024 * (L 1).val + 512 * (L 0).val = 512 * (2 * (L 1).val + (L 0).val)
  omega

theorem widL_lt (L : grid0.Coords) : (widL L).val < 32 := (widL L).isLt

/-! ## The copies, read at an index -/

section Copies
variable (d : Dev nD) (L : grid0.Coords)

/-- A 128-row slice of the species array starting at row R, read at (r, k): the array at (R + r, k). -/
theorem sp_slice_apply (fsp : Buf (Elt F) (spLoc d)) (off : Fin 2 → Nat)
    (inb : ∀ a, off a + S128x200.size a ≤ S16384x200.size a) (R : Nat) (hoff : off = ![R, 0])
    (r : Fin 128) (k : Fin 200) (hR : R + r.val < 16384) :
    View.read (Elt F) ((spW).slice (Rect.unit (s := S16384x200) off S128x200.size inb) (fun _ => rfl)).view fsp (ix2 r k)
      = fsp (ix2 ⟨R + r.val, hR⟩ k) := by
  subst hoff
  show View.read (Elt F) (View.whole main_arg0_scv) fsp
      ((Rect.unit (s := S16384x200) ![R, 0] S128x200.size inb).toLoadRect.idx (ix2 r k))
    = View.read (Elt F) (View.whole main_arg0_scv) fsp (ix2 ⟨R + r.val, hR⟩ k)
  congr 1
  funext a
  match a with
  | ⟨0, _⟩ => exact Fin.ext (by show R + 1 * r.val = R + r.val; omega)
  | ⟨1, _⟩ => exact Fin.ext (by show 0 + 1 * k.val = k.val; omega)

/-- The tile's 512 energies, read at j: the array at 512 w + j. -/
theorem en_slice_apply (fen : Buf (Elt F) (enLoc d)) (off : Fin 1 → Nat)
    (inb : ∀ a, off a + S512.size a ≤ S16384.size a) (R : Nat) (hoff : off = ![R])
    (j : Fin 512) (hR : R + j.val < 16384) :
    View.read (Elt F) ((enW).slice (Rect.unit (s := S16384) off S512.size inb) (fun _ => rfl)).view fen (ix1 j)
      = fen (ix1 ⟨R + j.val, hR⟩) := by
  subst hoff
  show View.read (Elt F) (View.whole main_arg1_scv) fen
      ((Rect.unit (s := S16384) ![R] S512.size inb).toLoadRect.idx (ix1 j))
    = View.read (Elt F) (View.whole main_arg1_scv) fen (ix1 ⟨R + j.val, hR⟩)
  congr 1
  funext a
  match a with
  | ⟨0, _⟩ => exact Fin.ext (by show R + 1 * j.val = R + j.val; omega)

/-- Chunk 0 of the tile's species rows. -/
theorem dma0_apply (fsp : Buf (Elt F) (spLoc d)) (r : Fin 128) (k : Fin 200) :
    tileRun.sl.dma0 d L fsp (ix2 r k)
      = fsp (ix2 ⟨512 * (widL L).val + 0 + r.val, by have := widL_lt L; have := r.isLt; omega⟩ k) := by
  unfold tileRun.sl.dma0
  exact sp_slice_apply d fsp (k0_off1 L) _ (512 * (widL L).val + 0)
    ((k0_off1_eq L).trans (congrArg (fun n : Nat => (![n, 0] : Fin 2 → Nat)) (by have := base_eq L; omega))) r k _

/-- Chunk 1. -/
theorem dma2_apply (fsp : Buf (Elt F) (spLoc d)) (r : Fin 128) (k : Fin 200) :
    tileRun.sl.dma2 d L fsp (ix2 r k)
      = fsp (ix2 ⟨512 * (widL L).val + 128 + r.val, by have := widL_lt L; have := r.isLt; omega⟩ k) := by
  unfold tileRun.sl.dma2
  exact sp_slice_apply d fsp (k0_off3 L 128#32) _ (512 * (widL L).val + 128)
    ((k0_off3_eq L ⟨0, by decide⟩).trans (congrArg (fun n : Nat => (![n, 0] : Fin 2 → Nat))
      (by show 1024 * (L 1).val + 512 * (L 0).val + 128 * 0 + 128 = 512 * (widL L).val + 128; have := base_eq L; omega))) r k _

/-- Chunk 2. -/
theorem dma0_4_apply (fsp : Buf (Elt F) (spLoc d)) (r : Fin 128) (k : Fin 200) :
    tileRun.sl.dma0_4 d L fsp (ix2 r k)
      = fsp (ix2 ⟨512 * (widL L).val + 256 + r.val, by have := widL_lt L; have := r.isLt; omega⟩ k) := by
  unfold tileRun.sl.dma0_4
  exact sp_slice_apply d fsp (k0_off3 L 256#32) _ (512 * (widL L).val + 256)
    ((k0_off3_eq L ⟨1, by decide⟩).trans (congrArg (fun n : Nat => (![n, 0] : Fin 2 → Nat))
      (by show 1024 * (L 1).val + 512 * (L 0).val + 128 * 1 + 128 = 512 * (widL L).val + 256; have := base_eq L; omega))) r k _

/-- Chunk 3. -/
theorem dma0_5_apply (fsp : Buf (Elt F) (spLoc d)) (r : Fin 128) (k : Fin 200) :
    tileRun.sl.dma0_5 d L fsp (ix2 r k)
      = fsp (ix2 ⟨512 * (widL L).val + 384 + r.val, by have := widL_lt L; have := r.isLt; omega⟩ k) := by
  unfold tileRun.sl.dma0_5
  exact sp_slice_apply d fsp (k0_off3 L 384#32) _ (512 * (widL L).val + 384)
    ((k0_off3_eq L ⟨2, by decide⟩).trans (congrArg (fun n : Nat => (![n, 0] : Fin 2 → Nat))
      (by show 1024 * (L 1).val + 512 * (L 0).val + 128 * 2 + 128 = 512 * (widL L).val + 384; have := base_eq L; omega))) r k _

/-- The tile's energies. -/
theorem dma0_3_apply (fen : Buf (Elt F) (enLoc d)) (j : Fin 512) :
    tileRun.sl.dma0_3 d L fen (ix1 j)
      = fen (ix1 ⟨512 * (widL L).val + j.val, by have := widL_lt L; have := j.isLt; omega⟩) := by
  unfold tileRun.sl.dma0_3
  exact en_slice_apply d fen (k0_off2 L) _ (512 * (widL L).val)
    ((k0_off2_eq L).trans (congrArg (fun n : Nat => (![n] : Fin 1 → Nat)) (base_eq L))) j _

end Copies

/-! ## A row's total is the sum over its 200 columns -/

/-- For g fixing the zero word, the sum of a row's sixteen lanes (twelve whole pieces and the masked tail each) is
    the sum of g over the row's 200 words. -/
theorem rowTot_eq_sum (g : BitVec 32 → BitVec 32) (hg : g 0#32 = 0#32) (X : S128x200.Idx → BitVec 32) (r : Fin 128) :
    rowTot g X r = ∑ k : Fin 200, g (X (ix2 r k)) := by
  unfold rowTot
  rw [sum_lanes (fun k : Fin 200 => g (X (ix2 r k)))]
  refine Finset.sum_congr rfl fun j _ => ?_
  unfold rowLane
  congr 1
  by_cases h : 8 ≤ j.val
  · rw [if_pos h, dif_pos h]
  · rw [if_neg h, dif_neg h, hg]; rfl

theorem shr1_zero : shr1 0#32 = 0#32 := shr_zero
theorem and1_zero : and1 0#32 = 0#32 := by unfold and1; rw [shr1_zero]; exact and_zero

/-! ## The four scalars read lanes 0 to 3 only -/

section Scalars
variable (v9 v9' : Vec F S16 .f32)

/-- The lane extractions read lanes 0, 1, 2, 3. -/
theorem pay418_eq : k0_pay418 v9 = v9 (ix1 ⟨0, by decide⟩) := by
  show v9 _ = v9 _
  congr 1; funext a; match a with | ⟨0, _⟩ => rfl
theorem pay419_eq : k0_pay419 v9 = v9 (ix1 ⟨1, by decide⟩) := by
  show v9 _ = v9 _
  congr 1; funext a; match a with | ⟨0, _⟩ => rfl
theorem pay420_eq : k0_pay420 v9 = v9 (ix1 ⟨2, by decide⟩) := by
  show v9 _ = v9 _
  congr 1; funext a; match a with | ⟨0, _⟩ => rfl
theorem lane3_eq : extractAt ![0] (extractStridedSlice S1 ![3] v9 slices_S16_o3_S1) inpos_S1_p0 = v9 (ix1 ⟨3, by decide⟩) := by
  show v9 _ = v9 _
  congr 1; funext a; match a with | ⟨0, _⟩ => rfl

/-- Two 16-lane vectors with equal lanes 0 to 3 give the same energy expression. -/
theorem energyOf_congr_lanes (h : ∀ j : Fin 4, v9 (ix1 ⟨j.val, by have := j.isLt; omega⟩) = v9' (ix1 ⟨j.val, by have := j.isLt; omega⟩))
    (T0 T1 T3 : BitVec 32) (e ic : F .f32) : energyOf v9 T0 T1 T3 e ic = energyOf v9' T0 T1 T3 e ic := by
  have h0 : k0_pay418 v9 = k0_pay418 v9' := (pay418_eq v9).trans ((h ⟨0, by decide⟩).trans (pay418_eq v9').symm)
  have h1 : k0_pay419 v9 = k0_pay419 v9' := (pay419_eq v9).trans ((h ⟨1, by decide⟩).trans (pay419_eq v9').symm)
  have h2 : k0_pay420 v9 = k0_pay420 v9' := (pay420_eq v9).trans ((h ⟨2, by decide⟩).trans (pay420_eq v9').symm)
  have h3 : extractAt ![0] (extractStridedSlice S1 ![3] v9 slices_S16_o3_S1) inpos_S1_p0
      = extractAt ![0] (extractStridedSlice S1 ![3] v9' slices_S16_o3_S1) inpos_S1_p0 :=
    (lane3_eq v9).trans ((h ⟨3, by decide⟩).trans (lane3_eq v9').symm)
  have e421 : k0_pay421 v9 = k0_pay421 v9' := by unfold k0_pay421; dsimp only; rw [h0, h1]
  have e422 : k0_pay422 v9 = k0_pay422 v9' := by unfold k0_pay422; dsimp only; rw [h0, h1, h2]
  have e423 : k0_pay423 v9 = k0_pay423 v9' := by unfold k0_pay423; dsimp only; rw [h0, h1, h2, h3]
  have e424 : k0_pay424 v9 = k0_pay424 v9' := by unfold k0_pay424; dsimp only; rw [h0]
  unfold energyOf
  rw [e421, e422, e423, e424]

end Scalars

/-! ## The intercept vector, the table vector, and the four scalars -/

section RunScalars
variable (d : Dev nD) (L : grid0.Coords)

/-- The 16-lane load of the intercept scratch after the sixteen copies were copied into it: lane x is copy x. -/
theorem r_apply (fic : Buf (Elt F) (i16Loc d)) (f8 : Buf (Elt F) ((V d (cV L) (jV L)).loc cc0_scratch8)) (x : S16.Idx) :
    tileRun.sl.r d L fic f8 x = fic x := by
  unfold tileRun.sl.r tileRun.sl.dma0_2
  dsimp only
  rw [View.write_whole_univ, View.readAt_apply]
  show fic _ = fic x
  congr 1
  funext a
  match a with
  | ⟨0, _⟩ => exact Fin.ext (by show 0 + 1 * (x 0).val = (x 0).val; omega)

/-- The 16-lane load at word 0 of the table scratch after the table's four words were copied to its words 0 to 3. -/
def v9Of (ftb : Buf (Elt F) (tbLoc d)) (f7 : Buf (Elt F) ((V d (cV L) (jV L)).loc cc0_scratch7)) : Vec F S16 .f32 :=
  View.readAt (Elt F) (s7).view (Rect.unit (s := S128) ![0] S16.size inb_S128_S16_0).toLoadRect
    ((s7).view.writes (Elt F) f7 [⟨Rect.unit (s := S128) ![0] S4.size inb_S128_S4_0, tileRun.sl.dma0_1 d ftb⟩])

theorem r_1_eq (ftb : Buf (Elt F) (tbLoc d)) (f7 : Buf (Elt F) ((V d (cV L) (jV L)).loc cc0_scratch7)) :
    tileRun.sl.r_1 d L ftb f7 = k0_pay421 (v9Of d L ftb f7) := rfl
theorem r_2_eq (ftb : Buf (Elt F) (tbLoc d)) (f7 : Buf (Elt F) ((V d (cV L) (jV L)).loc cc0_scratch7)) :
    tileRun.sl.r_2 d L ftb f7 = k0_pay422 (v9Of d L ftb f7) := rfl
theorem r_3_eq (ftb : Buf (Elt F) (tbLoc d)) (f7 : Buf (Elt F) ((V d (cV L) (jV L)).loc cc0_scratch7)) :
    tileRun.sl.r_3 d L ftb f7 = k0_pay423 (v9Of d L ftb f7) := rfl
theorem r_4_eq (ftb : Buf (Elt F) (tbLoc d)) (f7 : Buf (Elt F) ((V d (cV L) (jV L)).loc cc0_scratch7)) :
    tileRun.sl.r_4 d L ftb f7 = k0_pay424 (v9Of d L ftb f7) := rfl

/-- Lanes 0 to 3 of the table vector are the table. -/
theorem v9Of_lane (ftb : Buf (Elt F) (tbLoc d)) (f7 : Buf (Elt F) ((V d (cV L) (jV L)).loc cc0_scratch7)) (j : Fin 4) :
    v9Of d L ftb f7 (ix1 ⟨j.val, by have := j.isLt; omega⟩) = ftb (ix1 j) := by
  unfold v9Of
  rw [View.readAt_apply]
  have key := View.read_writes_cons_emb (s7 : Memref sig .scVector .vmem S128 .f32).view f7
    (Rect.unit (s := S128) ![0] S4.size inb_S128_S4_0) (tileRun.sl.dma0_1 d ftb) [] (ix1 j)
  have hidx : (Rect.unit (s := S128) ![0] S16.size inb_S128_S16_0).toLoadRect.idx (ix1 ⟨j.val, by have := j.isLt; omega⟩)
      = (Rect.unit (s := S128) ![0] S4.size inb_S128_S4_0).emb (ix1 j) := by
    funext a
    match a with
    | ⟨0, _⟩ => exact Fin.ext (by show 0 + 1 * j.val = 0 + 1 * j.val; rfl)
  rw [hidx]
  refine key.trans ?_
  unfold tileRun.sl.dma0_1
  rfl

/-- The table as a 16-lane vector and the table vector agree on lanes 0 to 3. -/
theorem v9Of_tbVec (ftb : Buf (Elt F) (tbLoc d)) (f7 : Buf (Elt F) ((V d (cV L) (jV L)).loc cc0_scratch7)) (j : Fin 4) :
    v9Of d L ftb f7 (ix1 ⟨j.val, by have := j.isLt; omega⟩) = tbVec ftb (ix1 ⟨j.val, by have := j.isLt; omega⟩) := by
  rw [v9Of_lane]
  show ftb (ix1 j) = ftb (ix1 ⟨j.val % 4, _⟩)
  congr 2
  exact Fin.ext (Nat.mod_eq_of_lt j.isLt).symm

end RunScalars

/-! ## The write-out -/

section Out
variable (d : Dev nD) (L : grid0.Coords)

/-- The block after the write-out, at its j-th entry: the output scratch's word j. -/
theorem out_apply (fo : Buf (Elt F) (oLoc d)) (H : Buf (Elt F) ((V d (cV L) (jV L)).loc cc0_scratch3)) (j : Fin 512) :
    ((View.whole (main_v1_scv : Ref sig .scVector)).slice (Rect.unit (s := S16384) (k0_off2 L) S512.size (k0_off2_inb L))).writes (Elt F) fo
        [⟨Rect.whole S512, tileRun.sl.dma0_6 H⟩]
      (ix1 ⟨512 * (widL L).val + j.val, by have := widL_lt L; have := j.isLt; omega⟩) = H (ix1 j) := by
  have key := View.read_writes_cons_emb
    ((View.whole (main_v1_scv : Ref sig .scVector)).slice (Rect.unit (s := S16384) (k0_off2 L) S512.size (k0_off2_inb L))) fo
    (Rect.whole S512) (tileRun.sl.dma0_6 H) [] (ix1 j)
  have hidx : (ix1 ⟨512 * (widL L).val + j.val, by have := widL_lt L; have := j.isLt; omega⟩ : S16384.Idx)
      = ((View.whole (main_v1_scv : Ref sig .scVector)).slice (Rect.unit (s := S16384) (k0_off2 L) S512.size (k0_off2_inb L))).emb
          ((Rect.whole S512).emb (ix1 j)) := by
    funext a
    match a with
    | ⟨0, _⟩ =>
      refine Fin.ext ?_
      show 512 * (widL L).val + j.val = k0_off2 L 0 + 1 * (0 + 1 * j.val)
      rw [k0_off2_eq]
      show 512 * (widL L).val + j.val = (1024 * (L 1).val + 512 * (L 0).val) + 1 * (0 + 1 * j.val)
      have := base_eq L; omega
  rw [hidx]
  exact key

/-- An index of tile w's block is 512 w + j. -/
theorem mem_oSet (w : Fin 32) (y : S16384.Idx) (hy : y ∈ oSet w) :
    ∃ j : Fin 512, y = ix1 ⟨512 * w.val + j.val, by have := w.isLt; have := j.isLt; omega⟩ := by
  rw [oSet_eq] at hy
  obtain ⟨x, hx⟩ := (oRect w).exists_idx_of_mem hy
  refine ⟨⟨(x 0).val, (x 0).isLt⟩, ?_⟩
  rw [← hx]
  funext a
  match a with
  | ⟨0, _⟩ =>
    refine Fin.ext ?_
    show (oRect w).off 0 + (oRect w).stride 0 * (x 0).val = 512 * w.val + (x 0).val
    simp [oRect, Rect.part, Rect.block, Shape.partIx, Shape.partSize]
    omega

end Out

/-! ## The result array as one function -/

/-- The result array as ONE function of the argument arrays. -/
def Gout (m : (ℓ : Loc nD τ sig) → Buf (Elt F) ℓ) (d : Dev nD) : Buf (Elt F) (oLoc d) :=
  outSpec (F := F) (m (spLoc d)) (m (enLoc d)) (m (tbLoc d)) (ficOf m d)

section Tail
variable (m : (ℓ : Loc nD τ sig) → Buf (Elt F) ℓ) (d : Dev nD)

/-- The energy expression of local row r of a chunk whose rows are the array's rows R + r, with the array's energy and
    the intercept's lane, is the result function at global row R + r. -/
theorem tail_eq (R : Nat) (r : Fin 128) (hR : R + r.val < 16384) (h16 : 16 ∣ R)
    (X : S128x200.Idx → BitVec 32)
    (hX : ∀ (k : Fin 200), X (ix2 r k) = m (spLoc d) (ix2 ⟨R + r.val, hR⟩ k))
    (e ic : F .f32) (he : e = m (enLoc d) (ix1 ⟨R + r.val, hR⟩))
    (hic : ic = ficOf m d (ix1 ⟨r.val % 16, Nat.mod_lt _ (by decide)⟩))
    (v9 : Vec F S16 .f32)
    (hv9 : ∀ j : Fin 4, v9 (ix1 ⟨j.val, by have := j.isLt; omega⟩) = tbVec (m (tbLoc d)) (ix1 ⟨j.val, by have := j.isLt; omega⟩)) :
    energyOf v9 (rowTot id X r) (rowTot shr1 X r) (rowTot and1 X r) e ic = Gout m d (ix1 ⟨R + r.val, hR⟩) := by
  rw [energyOf_congr_lanes v9 (tbVec (m (tbLoc d))) hv9,
    rowTot_eq_sum id rfl X r, rowTot_eq_sum shr1 shr1_zero X r, rowTot_eq_sum and1 and1_zero X r, he, hic]
  unfold Gout outSpec colTot
  have hmod : (R + r.val) % 16 = r.val % 16 := by obtain ⟨t, rfl⟩ := h16; omega
  show energyOf _ (∑ k : Fin 200, id (X (ix2 r k))) (∑ k : Fin 200, shr1 (X (ix2 r k))) (∑ k : Fin 200, and1 (X (ix2 r k))) _ _
    = energyOf _ (∑ c : Fin 200, id (m (spLoc d) (ix2 ⟨R + r.val, hR⟩ c))) (∑ c : Fin 200, shr1 (m (spLoc d) (ix2 ⟨R + r.val, hR⟩ c)))
        (∑ c : Fin 200, and1 (m (spLoc d) (ix2 ⟨R + r.val, hR⟩ c))) _ (ficOf m d (ix1 ⟨(R + r.val) % 16, Nat.mod_lt _ (by decide)⟩))
  rw [Finset.sum_congr rfl (fun k _ => congrArg id (hX k)), Finset.sum_congr rfl (fun k _ => congrArg shr1 (hX k)),
    Finset.sum_congr rfl (fun k _ => congrArg and1 (hX k))]
  have hz : (⟨r.val % 16, Nat.mod_lt _ (by decide)⟩ : Fin 16) = ⟨(R + r.val) % 16, Nat.mod_lt _ (by decide)⟩ :=
    Fin.ext hmod.symm
  rw [hz]

end Tail

end Cert.Proof.KB

end
-- ==== Proof.LibFillB.lean ====
/-
  Reading a buffer that a loop filled piece by piece, one piece per trip, when the pieces' rectangles are pairwise
  disjoint: an index inside piece k's rectangle reads piece k's payload once trip k has run, whatever the trips after
  it wrote, and an index in none of the rectangles written so far reads what the buffer held at the start.
-/
import proofs.«206979_g57535381897292_cont_9to1_m_841_24_alg».proof.Proof.KBBase

noncomputable section

namespace Cert.Proof.KB

open Cert.Kernel Cert.Kernel.Gen
open Idealize.ShloMosaic

variable {F : FTy → Type}
variable {κ : Kind} {sp : Space} {s : Shape} {e : EltTy}

/-- One more trip, below the trip count: that trip's piece written over what the trips before left. -/
theorem fillW_succ_of_lt (v : View sig κ sp s e) {n : Nat} (pc : Fin n → View.Piece (Elt F) s e)
    (f : v.ty.Contents (Elt F)) (m : Nat) (h : m < n) :
    fillW v pc f (m + 1) = v.writes (Elt F) (fillW v pc f m) [pc ⟨m, h⟩] := by
  rw [fillW]; exact dif_pos h

/-- Past the trip count nothing more is written. -/
theorem fillW_succ_of_not_lt (v : View sig κ sp s e) {n : Nat} (pc : Fin n → View.Piece (Elt F) s e)
    (f : v.ty.Contents (Elt F)) (m : Nat) (h : ¬ m < n) :
    fillW v pc f (m + 1) = fillW v pc f m := by
  rw [fillW]; exact dif_neg h

/-- An index that lies in none of the rectangles of the first m trips reads, after those trips, what the buffer held
    before them. -/
theorem fillW_read_of_not_mem (v : View sig κ sp s e) {n : Nat} (pc : Fin n → View.Piece (Elt F) s e)
    (f : v.ty.Contents (Elt F)) (y : s.Idx) :
    ∀ m : Nat, (∀ i : Fin n, i.val < m → y ∉ (pc i).1.set) →
      v.read (Elt F) (fillW v pc f m) y = v.read (Elt F) f y := by
  intro m
  induction m with
  | zero => intro _; rfl
  | succ m ih =>
    intro h
    have ih' := ih fun i hi => h i (Nat.lt_succ_of_lt hi)
    by_cases hm : m < n
    · rw [fillW_succ_of_lt v pc f m hm,
        View.read_writes_apply_of_forall_not_mem v _ y [pc ⟨m, hm⟩] (by
          intro p hp
          rw [List.mem_singleton] at hp
          subst hp
          exact h ⟨m, hm⟩ (Nat.lt_succ_self m))]
      exact ih'
    · rw [fillW_succ_of_not_lt v pc f m hm]
      exact ih'

/-- With pairwise disjoint rectangles, position x of piece k's rectangle reads piece k's payload at x once trip k has
    run: the later trips write elsewhere. -/
theorem fillW_read_of_mem (v : View sig κ sp s e) {n : Nat} (pc : Fin n → View.Piece (Elt F) s e)
    (f : v.ty.Contents (Elt F)) (hdis : ∀ i j : Fin n, i ≠ j → Disjoint (pc i).1.set (pc j).1.set)
    (k : Fin n) (x : (pc k).1.shape.Idx) :
    ∀ m : Nat, k.val < m → v.read (Elt F) (fillW v pc f m) ((pc k).1.emb x) = (pc k).2 x := by
  intro m
  induction m with
  | zero => intro h; exact absurd h (Nat.not_lt_zero _)
  | succ m ih =>
    intro hk
    by_cases hm : m < n
    · rw [fillW_succ_of_lt v pc f m hm]
      by_cases hkm : k = ⟨m, hm⟩
      · subst hkm
        exact View.read_writes_cons_emb v _ (pc ⟨m, hm⟩).1 (pc ⟨m, hm⟩).2 [] x
      · have hmem : (pc k).1.emb x ∈ (pc k).1.set := (pc k).1.toLoadRect.idx_mem x
        have hnot : (pc k).1.emb x ∉ (pc ⟨m, hm⟩).1.set :=
          Finset.disjoint_left.mp (hdis k ⟨m, hm⟩ hkm) hmem
        rw [View.read_writes_apply_of_forall_not_mem v _ _ [pc ⟨m, hm⟩] (by
          intro p hp
          rw [List.mem_singleton] at hp
          subst hp
          exact hnot)]
        refine ih ?_
        have : k.val ≠ m := fun h => hkm (Fin.ext h)
        omega
    · rw [fillW_succ_of_not_lt v pc f m hm]
      exact ih (by have := k.isLt; omega)

/-- The same at an index named by its coordinates: y is position x of piece k's rectangle. -/
theorem fillW_read_of_emb_eq (v : View sig κ sp s e) {n : Nat} (pc : Fin n → View.Piece (Elt F) s e)
    (f : v.ty.Contents (Elt F)) (hdis : ∀ i j : Fin n, i ≠ j → Disjoint (pc i).1.set (pc j).1.set)
    (k : Fin n) (x : (pc k).1.shape.Idx) (y : s.Idx) (hy : (pc k).1.emb x = y) (m : Nat) (hk : k.val < m) :
    v.read (Elt F) (fillW v pc f m) y = (pc k).2 x := by
  subst hy; exact fillW_read_of_mem v pc f hdis k x m hk

/-! For a whole buffer the view reads the contents themselves. -/

/-- A whole buffer filled piece by piece, at position x of piece k's rectangle. -/
theorem fillW_of_mem (b : Ref sig κ) {n : Nat} (pc : Fin n → View.Piece (Elt F) b.ty.shape b.ty.elt)
    (f : b.ty.Contents (Elt F)) (hdis : ∀ i j : Fin n, i ≠ j → Disjoint (pc i).1.set (pc j).1.set)
    (k : Fin n) (x : (pc k).1.shape.Idx) (m : Nat) (hk : k.val < m) :
    fillW (View.whole b) pc f m ((pc k).1.emb x) = (pc k).2 x :=
  fillW_read_of_mem (View.whole b) pc f hdis k x m hk

/-- A whole buffer filled piece by piece, at an index outside every rectangle written so far. -/
theorem fillW_of_not_mem (b : Ref sig κ) {n : Nat} (pc : Fin n → View.Piece (Elt F) b.ty.shape b.ty.elt)
    (f : b.ty.Contents (Elt F)) (y : b.ty.shape.Idx) (m : Nat) (h : ∀ i : Fin n, i.val < m → y ∉ (pc i).1.set) :
    fillW (View.whole b) pc f m y = f y :=
  fillW_read_of_not_mem (View.whole b) pc f y m h

end Cert.Proof.KB

end
-- ==== Proof.KBChunkLib.lean ====
/-
  A scratch filled over the trips of a loop by sixteen-word pieces at evenly spaced offsets, read at a word: the
  partial-sum scratches (offsets 17 i, so the pieces of different trips are disjoint) and the output scratch (offsets
  c + 16 i within one chunk's 128 words, every word outside the chunk kept).
-/
import proofs.«206979_g57535381897292_cont_9to1_m_841_24_alg».proof.Proof.KBSpec
import proofs.«206979_g57535381897292_cont_9to1_m_841_24_alg».proof.Proof.LibFillB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- Sixteen-word pieces at offsets 17 i of a 2176-word buffer, one per trip, at most 128 trips: after trip r has run, word
    17 r + j reads lane j of trip r's payload. -/
theorem fillW_rows17 {κ : Kind} {sp : Space} (v : View sig κ sp S2176 .i32) {n : Nat} (hn : n ≤ 128)
    (off : Fin n → Fin 1 → Nat) (inb : ∀ i a, off i a + S16.size a ≤ S2176.size a) (hoff : ∀ i, off i = ![17 * i.val])
    (w : Fin n → S16.Idx → BitVec 32) (f : v.ty.Contents (Elt F)) (r : Fin n) (j : Fin 16) (m : Nat) (hm : r.val < m) :
    v.read (Elt F) (fillW v (fun i => (⟨Rect.unit (s := S2176) (off i) S16.size (inb i), w i⟩ : View.Piece (Elt F) S2176 .i32)) f m)
        (ix1 ⟨17 * r.val + j.val, by have := r.isLt; have := j.isLt; omega⟩)
      = w r (ix1 j) := by
  have h0 : ∀ i : Fin n, off i 0 = 17 * i.val := fun i => by rw [hoff i]; rfl
  have hs : S16.size 0 = 16 := rfl
  refine fillW_read_of_emb_eq v (fun i => (⟨Rect.unit (s := S2176) (off i) S16.size (inb i), w i⟩ : View.Piece (Elt F) S2176 .i32)) f ?_ r (ix1 j) _ ?_ m hm
  · intro i i' hne
    refine Rect.unit_disjoint (inb := inb i) (inb' := inb i') (0 : Fin 1) ?_
    have hv : i.val ≠ i'.val := fun h => hne (Fin.ext h)
    have := h0 i; have := h0 i'
    omega
  · funext a
    match a with
    | ⟨0, _⟩ => exact Fin.ext (by show off r 0 + 1 * j.val = 17 * r.val + j.val; have := h0 r; omega)

/-- Sixteen-word pieces at offsets c + 16 i of a 512-word buffer, one per trip, at most 8 trips, c + 128 ≤ 512: after trip g
    has run, word c + 16 g + l reads lane l of trip g's payload. -/
theorem fillW_out16 {κ : Kind} {sp : Space} (v : View sig κ sp S512 .f32) {n : Nat} (hn : n ≤ 8) (c : Nat) (hc : c + 128 ≤ 512)
    (off : Fin n → Fin 1 → Nat) (inb : ∀ i a, off i a + S16.size a ≤ S512.size a) (hoff : ∀ i, off i = ![c + 16 * i.val])
    (w : Fin n → S16.Idx → F .f32) (f : v.ty.Contents (Elt F)) (g : Fin n) (l : Fin 16) (m : Nat) (hm : g.val < m) :
    v.read (Elt F) (fillW v (fun i => (⟨Rect.unit (s := S512) (off i) S16.size (inb i), w i⟩ : View.Piece (Elt F) S512 .f32)) f m)
        (ix1 ⟨c + 16 * g.val + l.val, by have := g.isLt; have := l.isLt; omega⟩)
      = w g (ix1 l) := by
  have h0 : ∀ i : Fin n, off i 0 = c + 16 * i.val := fun i => by rw [hoff i]; rfl
  have hs : S16.size 0 = 16 := rfl
  refine fillW_read_of_emb_eq v (fun i => (⟨Rect.unit (s := S512) (off i) S16.size (inb i), w i⟩ : View.Piece (Elt F) S512 .f32)) f ?_ g (ix1 l) _ ?_ m hm
  · intro i i' hne
    refine Rect.unit_disjoint (inb := inb i) (inb' := inb i') (0 : Fin 1) ?_
    have hv : i.val ≠ i'.val := fun h => hne (Fin.ext h)
    have := h0 i; have := h0 i'
    omega
  · funext a
    match a with
    | ⟨0, _⟩ => exact Fin.ext (by show off g 0 + 1 * l.val = c + 16 * g.val + l.val; have := h0 g; omega)

/-- The same pieces leave every word outside [c, c + 128) as it was. -/
theorem fillW_out16_outside {κ : Kind} {sp : Space} (v : View sig κ sp S512 .f32) {n : Nat} (hn : n ≤ 8) (c : Nat)
    (off : Fin n → Fin 1 → Nat) (inb : ∀ i a, off i a + S16.size a ≤ S512.size a) (hoff : ∀ i, off i = ![c + 16 * i.val])
    (w : Fin n → S16.Idx → F .f32) (f : v.ty.Contents (Elt F)) (y : S512.Idx) (hy : (y 0).val < c ∨ c + 128 ≤ (y 0).val)
    (m : Nat) :
    v.read (Elt F) (fillW v (fun i => (⟨Rect.unit (s := S512) (off i) S16.size (inb i), w i⟩ : View.Piece (Elt F) S512 .f32)) f m) y
      = v.read (Elt F) f y := by
  have h0 : ∀ i : Fin n, off i 0 = c + 16 * i.val := fun i => by rw [hoff i]; rfl
  have hs : S16.size 0 = 16 := rfl
  refine fillW_read_of_not_mem v _ f y m fun i _ hmem => ?_
  have hm := ((Rect.mem_set_unit (inb := inb i)).mp hmem) 0
  have := h0 i; have := i.isLt
  omega

end Cert.Proof.KB

end
-- ==== Proof.KBRowVal1.lean ====
/-
  What trip k of the row loop over chunk 0 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KBValLib
import proofs.«206979_g57535381897292_cont_9to1_m_841_24_alg».proof.Proof.KBRow1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_1 (k : Fin k0_t1_loop.trips) : k.val < 128 := lt_of_lt_of_le k.isLt k0_t1_abs.2.1

/-- The piece trip k stores into the first partial-sum scratch: words [17 k, 17 k + 16), lane j the row's partial sum of
    the species words themselves. -/
theorem rowTrip1_P4 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).1 X
      = ⟨Rect.unit (s := S2176) (k0_off17 k) S16.size (k0_off17_inb k),
          fun j => rowLane id X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay430, k0_pay426, k0_pay428, k0_pay425, addi, select, broadcast, IntOp.addi]
  refine lane_sum_a (fun p => X (ix2 ⟨k.val, lt128_1 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch0) X (k0_off4 k) _ _ k.val 0 (k0_off4_eq k) j (lt128_1 k) (by omega))
  · exact (piece_apply (F := F) (View.whole cc0_scratch0) X (k0_off5 k) _ _ k.val 16 (k0_off5_eq k) j (lt128_1 k) (by omega))
  · exact (piece_apply (F := F) (View.whole cc0_scratch0) X (k0_off6 k) _ _ k.val 32 (k0_off6_eq k) j (lt128_1 k) (by omega))
  · exact (piece_apply (F := F) (View.whole cc0_scratch0) X (k0_off7 k) _ _ k.val 48 (k0_off7_eq k) j (lt128_1 k) (by omega))
  · exact (piece_apply (F := F) (View.whole cc0_scratch0) X (k0_off8 k) _ _ k.val 64 (k0_off8_eq k) j (lt128_1 k) (by omega))
  · exact (piece_apply (F := F) (View.whole cc0_scratch0) X (k0_off9 k) _ _ k.val 80 (k0_off9_eq k) j (lt128_1 k) (by omega))
  · exact (piece_apply (F := F) (View.whole cc0_scratch0) X (k0_off10 k) _ _ k.val 96 (k0_off10_eq k) j (lt128_1 k) (by omega))
  · exact (piece_apply (F := F) (View.whole cc0_scratch0) X (k0_off11 k) _ _ k.val 112 (k0_off11_eq k) j (lt128_1 k) (by omega))
  · exact (piece_apply (F := F) (View.whole cc0_scratch0) X (k0_off12 k) _ _ k.val 128 (k0_off12_eq k) j (lt128_1 k) (by omega))
  · exact (piece_apply (F := F) (View.whole cc0_scratch0) X (k0_off13 k) _ _ k.val 144 (k0_off13_eq k) j (lt128_1 k) (by omega))
  · exact (piece_apply (F := F) (View.whole cc0_scratch0) X (k0_off14 k) _ _ k.val 160 (k0_off14_eq k) j (lt128_1 k) (by omega))
  · exact (piece_apply (F := F) (View.whole cc0_scratch0) X (k0_off15 k) _ _ k.val 176 (k0_off15_eq k) j (lt128_1 k) (by omega))
  · refine ((select_pay417 j _ _).trans ?_)
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

/-- The piece trip k stores into the second partial-sum scratch: lane j the row's partial sum of the halved words. -/
theorem rowTrip1_P5 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).2.1 X
      = ⟨Rect.unit (s := S2176) (k0_off17 k) S16.size (k0_off17_inb k),
          fun j => rowLane shr1 X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay431, k0_pay426, k0_pay427, k0_pay428, k0_pay429, k0_pay425, addi, shrsi, select, broadcast, IntOp.addi]
  refine lane_sum_b (fun p => shr1 (X (ix2 ⟨k.val, lt128_1 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch0) X (k0_off4 k) _ _ k.val 0 (k0_off4_eq k) j (lt128_1 k) (by omega))
  · exact congrArg shr1 (piece_apply (F := F) (View.whole cc0_scratch0) X (k0_off5 k) _ _ k.val 16 (k0_off5_eq k) j (lt128_1 k) (by omega))
  · exact congrArg shr1 (piece_apply (F := F) (View.whole cc0_scratch0) X (k0_off6 k) _ _ k.val 32 (k0_off6_eq k) j (lt128_1 k) (by omega))
  · exact congrArg shr1 (piece_apply (F := F) (View.whole cc0_scratch0) X (k0_off7 k) _ _ k.val 48 (k0_off7_eq k) j (lt128_1 k) (by omega))
  · exact congrArg shr1 (piece_apply (F := F) (View.whole cc0_scratch0) X (k0_off8 k) _ _ k.val 64 (k0_off8_eq k) j (lt128_1 k) (by omega))
  · exact congrArg shr1 (piece_apply (F := F) (View.whole cc0_scratch0) X (k0_off9 k) _ _ k.val 80 (k0_off9_eq k) j (lt128_1 k) (by omega))
  · exact congrArg shr1 (piece_apply (F := F) (View.whole cc0_scratch0) X (k0_off10 k) _ _ k.val 96 (k0_off10_eq k) j (lt128_1 k) (by omega))
  · exact congrArg shr1 (piece_apply (F := F) (View.whole cc0_scratch0) X (k0_off11 k) _ _ k.val 112 (k0_off11_eq k) j (lt128_1 k) (by omega))
  · exact congrArg shr1 (piece_apply (F := F) (View.whole cc0_scratch0) X (k0_off12 k) _ _ k.val 128 (k0_off12_eq k) j (lt128_1 k) (by omega))
  · exact congrArg shr1 (piece_apply (F := F) (View.whole cc0_scratch0) X (k0_off13 k) _ _ k.val 144 (k0_off13_eq k) j (lt128_1 k) (by omega))
  · exact congrArg shr1 (piece_apply (F := F) (View.whole cc0_scratch0) X (k0_off14 k) _ _ k.val 160 (k0_off14_eq k) j (lt128_1 k) (by omega))
  · exact congrArg shr1 (piece_apply (F := F) (View.whole cc0_scratch0) X (k0_off15 k) _ _ k.val 176 (k0_off15_eq k) j (lt128_1 k) (by omega))
  · refine congrArg shr1 (((select_pay417 j _ _).trans ?_))
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

/-- The piece trip k stores into the third partial-sum scratch: lane j the row's partial sum of the words' bitwise and
    with their halves. -/
theorem rowTrip1_P6 (v2 : BitVec 32) (v5 : Vec F S16 .f32) (v6 : IVec S16 32) (v18 v21 v24 v25 : F .f32)
    (k : Fin k0_t1_loop.trips) (X : Buf (Elt F) ((V d (cV L) (jV L)).loc cc0_scratch0)) :
    (rowTrip1 d L v2 v5 v6 k0_pay417 v18 v21 v24 v25 k0_pay425 k).2.2.1 X
      = ⟨Rect.unit (s := S2176) (k0_off17 k) S16.size (k0_off17_inb k),
          fun j => rowLane and1 X ⟨k.val, lt128_1 k⟩ ⟨(j 0).val, (j 0).isLt⟩⟩ := by
  unfold rowTrip1
  dsimp only
  refine congrArg (Sigma.mk _) (funext fun j => ?_)
  sl_unfold_run_names
  have hj : (j 0).val < 16 := (j 0).isLt
  simp only [k0_pay432, k0_pay426, k0_pay427, k0_pay428, k0_pay429, k0_pay425, addi, andi, shrsi, select, broadcast, IntOp.addi]
  refine lane_sum_b (fun p => and1 (X (ix2 ⟨k.val, lt128_1 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch0) X (k0_off4 k) _ _ k.val 0 (k0_off4_eq k) j (lt128_1 k) (by omega))
  · exact congrArg and1 (piece_apply (F := F) (View.whole cc0_scratch0) X (k0_off5 k) _ _ k.val 16 (k0_off5_eq k) j (lt128_1 k) (by omega))
  · exact congrArg and1 (piece_apply (F := F) (View.whole cc0_scratch0) X (k0_off6 k) _ _ k.val 32 (k0_off6_eq k) j (lt128_1 k) (by omega))
  · exact congrArg and1 (piece_apply (F := F) (View.whole cc0_scratch0) X (k0_off7 k) _ _ k.val 48 (k0_off7_eq k) j (lt128_1 k) (by omega))
  · exact congrArg and1 (piece_apply (F := F) (View.whole cc0_scratch0) X (k0_off8 k) _ _ k.val 64 (k0_off8_eq k) j (lt128_1 k) (by omega))
  · exact congrArg and1 (piece_apply (F := F) (View.whole cc0_scratch0) X (k0_off9 k) _ _ k.val 80 (k0_off9_eq k) j (lt128_1 k) (by omega))
  · exact congrArg and1 (piece_apply (F := F) (View.whole cc0_scratch0) X (k0_off10 k) _ _ k.val 96 (k0_off10_eq k) j (lt128_1 k) (by omega))
  · exact congrArg and1 (piece_apply (F := F) (View.whole cc0_scratch0) X (k0_off11 k) _ _ k.val 112 (k0_off11_eq k) j (lt128_1 k) (by omega))
  · exact congrArg and1 (piece_apply (F := F) (View.whole cc0_scratch0) X (k0_off12 k) _ _ k.val 128 (k0_off12_eq k) j (lt128_1 k) (by omega))
  · exact congrArg and1 (piece_apply (F := F) (View.whole cc0_scratch0) X (k0_off13 k) _ _ k.val 144 (k0_off13_eq k) j (lt128_1 k) (by omega))
  · exact congrArg and1 (piece_apply (F := F) (View.whole cc0_scratch0) X (k0_off14 k) _ _ k.val 160 (k0_off14_eq k) j (lt128_1 k) (by omega))
  · exact congrArg and1 (piece_apply (F := F) (View.whole cc0_scratch0) X (k0_off15 k) _ _ k.val 176 (k0_off15_eq k) j (lt128_1 k) (by omega))
  · refine congrArg and1 (((select_pay417 j _ _).trans ?_))
    by_cases h8 : 8 ≤ (j 0).val
    · rw [if_pos h8]
      refine (piece_apply (F := F) (View.whole cc0_scratch0) X (k0_off16 k) _ _ k.val 184 (k0_off16_eq k) j (lt128_1 k) (by omega)).trans ?_
      exact (if_pos h8).symm
    · rw [if_neg h8]
      exact (if_neg h8).symm

end Cert.Proof.KB

end
-- ==== Proof.KBGrpVal2.lean ====
/-
  What trip k of the group loop of chunk 0 stores into the output scratch: for lane j, row 16 k + j of the chunk, the
  three gathered totals (the sums of that row's sixteen words in each partial-sum scratch: word 17 (16 k + j) + i at step
  i, the sixteen steps added one after the other onto zero) enter the energy expression with the tile's energy
  0 + 16 k + j and lane j of the intercept vector.
-/
import proofs.«206979_g57535381897292_cont_9to1_m_841_24_alg».proof.Proof.KBValLib
import proofs.«206979_g57535381897292_cont_9to1_m_841_24_alg».proof.Proof.KBGrp2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_2 (k : Fin k0_t2_loop.trips) : k.val < 8 := lt_of_lt_of_le k.isLt k0_t2_abs.2.1

/-- The piece trip k of the group loop of chunk 0 stores into the output scratch: words [0 + 16 k, 0 + 16 k + 16), lane j
    the energy expression at the three totals of row 16 k + j of the chunk (each the sum of that row's sixteen words in a
    partial-sum scratch), the tile's energy 0 + 16 k + j and lane j of the intercept vector. -/
theorem grpTrip2_P3 (v2 : BitVec 32) (v5 : Vec F S16 .f32) (v6 : IVec S16 32) (v8 : IVec S16 1) (v9 : Vec F S16 .f32)
    (hv6 : ∀ x, (v6 x).toNat < 16) (hv6e : ∀ x, (v6 x).toNat = (x 0).val) (k : Fin k0_t2_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip2 d L v2 v5 v6 v8 (k0_pay421 v9) (k0_pay422 v9) (k0_pay423 v9) (k0_pay424 v9) k0_pay425 hv6 k).1 G4 G5 G6 E
      = ⟨Rect.unit (s := S512) (k0_off18 k) S16.size (k0_off18_inb k), fun j =>
          energyOf v9 (gath G4 ⟨16 * k.val + (j 0).val, by have := lt8_2 k; have := lane_lt16 j; omega⟩)
            (gath G5 ⟨16 * k.val + (j 0).val, by have := lt8_2 k; have := lane_lt16 j; omega⟩)
            (gath G6 ⟨16 * k.val + (j 0).val, by have := lt8_2 k; have := lane_lt16 j; omega⟩)
            (E (ix1 ⟨0 + 16 * k.val + (j 0).val, by have := lt8_2 k; have := lane_lt16 j; omega⟩)) (v5 j)⟩ := by
  unfold grpTrip2
  dsimp only
  refine congrArg (Sigma.mk _) (funext fun j => ?_)
  sl_unfold_run_names
  have hj : (j 0).val < 16 := (j 0).isLt
  have hk := lt8_2 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off18 k) _ (0 + 16 * k.val)
      ((k0_off18_eq k).trans (congrArg (fun n : Nat => (![n] : Fin 1 → Nat)) (by omega))) j (by omega)
  · rfl

end Cert.Proof.KB

end
-- ==== Proof.KBChunkVal0.lean ====
/-
  Chunk 0 of a tile, after its two loops. The row loop leaves, in each of the three partial-sum scratches, at words
  17 r … 17 r + 15 the sixteen lanes of row r's partial sums, so those sixteen words add up to the row's total. The group
  loop then leaves, at word 0 + 16 k + l of the output scratch, the energy expression at the three totals of row
  16 k + l, and keeps every word outside the chunk's 128.
-/
import proofs.«206979_g57535381897292_cont_9to1_m_841_24_alg».proof.Proof.KBValLib
import proofs.«206979_g57535381897292_cont_9to1_m_841_24_alg».proof.Proof.KBChunkLib
import proofs.«206979_g57535381897292_cont_9to1_m_841_24_alg».proof.Proof.KBRowVal1
import proofs.«206979_g57535381897292_cont_9to1_m_841_24_alg».proof.Proof.KBGrpVal2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 0 runs 128 trips. -/
theorem trips_t1 : k0_t1_loop.trips = 128 := by decide

/-- The group loop of chunk 0 runs 8 trips. -/
theorem trips_t2 : k0_t2_loop.trips = 8 := by decide

/-- After the row loop of chunk 0: word 17 r + j of partial-sum scratch 4 is lane j of row r's partial sum, whatever
    the scratch held before. -/
theorem chunk0_s4 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch4)) (r : Fin 128) (j : Fin 16) :
    fillW (s4).view (fun i => (rowTrip1 d L w2 w5 w6 k0_pay417 w18 w21 w24 w25 k0_pay425 i).1 X) g k0_t1_loop.trips
        (ix1 ⟨17 * r.val + j.val, by have := r.isLt; have := j.isLt; omega⟩)
      = rowLane id X r j := by
  have hpc : (fun i => (rowTrip1 d L w2 w5 w6 k0_pay417 w18 w21 w24 w25 k0_pay425 i).1 X)
      = fun i => (⟨Rect.unit (s := S2176) (k0_off17 i) S16.size (k0_off17_inb i),
          fun jj => rowLane id X ⟨i.val, lt128_1 i⟩ ⟨(jj 0).val, lane_lt16 jj⟩⟩ : View.Piece (Elt F) S2176 .i32) :=
    funext fun i => rowTrip1_P4 d L w2 w5 w6 w18 w21 w24 w25 i X
  rw [hpc]
  exact fillW_rows17 (F := F) (s4).view (le_of_eq trips_t1) k0_off17 k0_off17_inb k0_off17_eq
    (fun i jj => rowLane id X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total. -/
theorem chunk0_gath4 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch4)) (r : Fin 128) :
    gath (fillW (s4).view (fun i => (rowTrip1 d L w2 w5 w6 k0_pay417 w18 w21 w24 w25 k0_pay425 i).1 X) g k0_t1_loop.trips) r = rowTot id X r :=
  Finset.sum_congr rfl fun j _ => chunk0_s4 d L w2 w5 w6 w18 w21 w24 w25 X g r j

/-- After the row loop of chunk 0: word 17 r + j of partial-sum scratch 5 is lane j of row r's partial sum under shr1, whatever
    the scratch held before. -/
theorem chunk0_s5 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch5)) (r : Fin 128) (j : Fin 16) :
    fillW (s5).view (fun i => (rowTrip1 d L w2 w5 w6 k0_pay417 w18 w21 w24 w25 k0_pay425 i).2.1 X) g k0_t1_loop.trips
        (ix1 ⟨17 * r.val + j.val, by have := r.isLt; have := j.isLt; omega⟩)
      = rowLane shr1 X r j := by
  have hpc : (fun i => (rowTrip1 d L w2 w5 w6 k0_pay417 w18 w21 w24 w25 k0_pay425 i).2.1 X)
      = fun i => (⟨Rect.unit (s := S2176) (k0_off17 i) S16.size (k0_off17_inb i),
          fun jj => rowLane shr1 X ⟨i.val, lt128_1 i⟩ ⟨(jj 0).val, lane_lt16 jj⟩⟩ : View.Piece (Elt F) S2176 .i32) :=
    funext fun i => rowTrip1_P5 d L w2 w5 w6 w18 w21 w24 w25 i X
  rw [hpc]
  exact fillW_rows17 (F := F) (s5).view (le_of_eq trips_t1) k0_off17 k0_off17_inb k0_off17_eq
    (fun i jj => rowLane shr1 X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total under shr1. -/
theorem chunk0_gath5 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch5)) (r : Fin 128) :
    gath (fillW (s5).view (fun i => (rowTrip1 d L w2 w5 w6 k0_pay417 w18 w21 w24 w25 k0_pay425 i).2.1 X) g k0_t1_loop.trips) r = rowTot shr1 X r :=
  Finset.sum_congr rfl fun j _ => chunk0_s5 d L w2 w5 w6 w18 w21 w24 w25 X g r j

/-- After the row loop of chunk 0: word 17 r + j of partial-sum scratch 6 is lane j of row r's partial sum under and1, whatever
    the scratch held before. -/
theorem chunk0_s6 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch6)) (r : Fin 128) (j : Fin 16) :
    fillW (s6).view (fun i => (rowTrip1 d L w2 w5 w6 k0_pay417 w18 w21 w24 w25 k0_pay425 i).2.2.1 X) g k0_t1_loop.trips
        (ix1 ⟨17 * r.val + j.val, by have := r.isLt; have := j.isLt; omega⟩)
      = rowLane and1 X r j := by
  have hpc : (fun i => (rowTrip1 d L w2 w5 w6 k0_pay417 w18 w21 w24 w25 k0_pay425 i).2.2.1 X)
      = fun i => (⟨Rect.unit (s := S2176) (k0_off17 i) S16.size (k0_off17_inb i),
          fun jj => rowLane and1 X ⟨i.val, lt128_1 i⟩ ⟨(jj 0).val, lane_lt16 jj⟩⟩ : View.Piece (Elt F) S2176 .i32) :=
    funext fun i => rowTrip1_P6 d L w2 w5 w6 w18 w21 w24 w25 i X
  rw [hpc]
  exact fillW_rows17 (F := F) (s6).view (le_of_eq trips_t1) k0_off17 k0_off17_inb k0_off17_eq
    (fun i jj => rowLane and1 X ⟨i.val, lt128_1 i⟩ ⟨(jj 0).val, lane_lt16 jj⟩) g
    ⟨r.val, lt_of_lt_of_eq r.isLt trips_t1.symm⟩ j k0_t1_loop.trips (lt_of_lt_of_eq r.isLt trips_t1.symm)

/-- So the sixteen words of row r of that scratch add up to the row's total under and1. -/
theorem chunk0_gath6 (w2 : BitVec 32) (w5 : Vec F S16 .f32) (w6 : IVec S16 32) (w18 w21 w24 w25 : F .f32) (X : Buf (Elt F) ((V d (cV L) (jV L)).loc cc0_scratch0))
    (g : Buf (Elt F) ((V d (cV L) (jV L)).loc cc0_scratch6)) (r : Fin 128) :
    gath (fillW (s6).view (fun i => (rowTrip1 d L w2 w5 w6 k0_pay417 w18 w21 w24 w25 k0_pay425 i).2.2.1 X) g k0_t1_loop.trips) r = rowTot and1 X r :=
  Finset.sum_congr rfl fun j _ => chunk0_s6 d L w2 w5 w6 w18 w21 w24 w25 X g r j

/-- After both loops of chunk 0: word 0 + 16 k + l of the output scratch is the energy expression at the three totals of
    row 16 k + l of the chunk, the tile's energy 0 + 16 k + l and lane l of the intercept vector. -/
theorem chunk0_in (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E) H3p k0_t2_loop.trips (ix1 ⟨0 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨0 + 16 * k.val + l.val, by have := k.isLt; have := l.isLt; omega⟩)) (v5 (ix1 l)) := by
  have hpc : (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E)
      = fun i => (⟨Rect.unit (s := S512) (k0_off18 i) S16.size (k0_off18_inb i), (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) i⟩ : View.Piece (Elt F) S512 .f32) :=
    funext fun i => grpTrip2_P3 d L v2 v5 v6 v8 v9 hv6 hv6e i _ _ _ E
  rw [hpc]
  refine (fillW_out16 (F := F) (s3).view (le_of_eq trips_t2) 0 (by omega) k0_off18 k0_off18_inb (fun i => (k0_off18_eq i).trans (congrArg (fun n : Nat => (![n] : Fin 1 → Nat)) (by omega)))
    (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) H3p ⟨k.val, lt_of_lt_of_eq k.isLt trips_t2.symm⟩ l k0_t2_loop.trips (lt_of_lt_of_eq k.isLt trips_t2.symm)).trans ?_
  dsimp only
  rw [chunk0_gath4 d L w2 w5 w6 w18 w21 w24 w25 X G4p, chunk0_gath5 d L w2 w5 w6 w18 w21 w24 w25 X G5p, chunk0_gath6 d L w2 w5 w6 w18 w21 w24 w25 X G6p]

/-- The group loop of chunk 0 leaves every word of the output scratch outside [0, 128) as it was. -/
theorem chunk0_out (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 0 ∨ 0 + 128 ≤ (y 0).val) :
    fillW (s3).view (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E) H3p k0_t2_loop.trips y = H3p y := by
  have hpc : (fun i => (grpTrip2 d L v2 v5 v6 v8 (k0_pay421 v9) (k0_pay422 v9) (k0_pay423 v9) (k0_pay424 v9) k0_pay425 hv6 i).1
          (fillW (s4).view (fun i => (rowTrip1 d L w2 w5 w6 k0_pay417 w18 w21 w24 w25 k0_pay425 i).1 X) G4p k0_t1_loop.trips)
          (fillW (s5).view (fun i => (rowTrip1 d L w2 w5 w6 k0_pay417 w18 w21 w24 w25 k0_pay425 i).2.1 X) G5p k0_t1_loop.trips)
          (fillW (s6).view (fun i => (rowTrip1 d L w2 w5 w6 k0_pay417 w18 w21 w24 w25 k0_pay425 i).2.2.1 X) G6p k0_t1_loop.trips) E)
      = fun i => (⟨Rect.unit (s := S512) (k0_off18 i) S16.size (k0_off18_inb i), (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) i⟩ : View.Piece (Elt F) S512 .f32) :=
    funext fun i => grpTrip2_P3 d L v2 v5 v6 v8 v9 hv6 hv6e i _ _ _ E
  rw [hpc]
  exact fillW_out16_outside (F := F) (s3).view (le_of_eq trips_t2) 0 k0_off18 k0_off18_inb (fun i => (k0_off18_eq i).trans (congrArg (fun n : Nat => (![n] : Fin 1 → Nat)) (by omega)))
    (fun i jj => energyOf v9 (gath (fillW (s4).view (fun i => (rowTrip1 d L w2 w5 w6 k0_pay417 w18 w21 w24 w25 k0_pay425 i).1 X) G4p k0_t1_loop.trips) ⟨16 * i.val + (jj 0).val, by have := lt8_2 i; have := lane_lt16 jj; omega⟩)
        (gath (fillW (s5).view (fun i => (rowTrip1 d L w2 w5 w6 k0_pay417 w18 w21 w24 w25 k0_pay425 i).2.1 X) G5p k0_t1_loop.trips) ⟨16 * i.val + (jj 0).val, by have := lt8_2 i; have := lane_lt16 jj; omega⟩)
        (gath (fillW (s6).view (fun i => (rowTrip1 d L w2 w5 w6 k0_pay417 w18 w21 w24 w25 k0_pay425 i).2.2.1 X) G6p k0_t1_loop.trips) ⟨16 * i.val + (jj 0).val, by have := lt8_2 i; have := lane_lt16 jj; omega⟩)
        (E (ix1 ⟨0 + 16 * i.val + (jj 0).val, by have := lt8_2 i; have := lane_lt16 jj; omega⟩)) (v5 jj)) H3p y hy k0_t2_loop.trips

end Cert.Proof.KB

end
-- ==== Proof.KBRowVal3.lean ====
/-
  What trip k of the row loop over chunk 1 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KBValLib
import proofs.«206979_g57535381897292_cont_9to1_m_841_24_alg».proof.Proof.KBRow3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_3 (k : Fin k0_t3_loop.trips) : k.val < 128 := lt_of_lt_of_le k.isLt k0_t3_abs.2.1

/-- The piece trip k stores into the first partial-sum scratch: words [17 k, 17 k + 16), lane j the row's partial sum of
    the species words themselves. -/
theorem rowTrip3_P4 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).1 X
      = ⟨Rect.unit (s := S2176) (k0_off32 k) S16.size (k0_off32_inb k),
          fun j => rowLane id X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay438, k0_pay434, k0_pay436, k0_pay425, addi, select, broadcast, IntOp.addi]
  refine lane_sum_a (fun p => X (ix2 ⟨k.val, lt128_3 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch1) X (k0_off19 k) _ _ k.val 0 (k0_off19_eq k) j (lt128_3 k) (by omega))
  · exact (piece_apply (F := F) (View.whole cc0_scratch1) X (k0_off20 k) _ _ k.val 16 (k0_off20_eq k) j (lt128_3 k) (by omega))
  · exact (piece_apply (F := F) (View.whole cc0_scratch1) X (k0_off21 k) _ _ k.val 32 (k0_off21_eq k) j (lt128_3 k) (by omega))
  · exact (piece_apply (F := F) (View.whole cc0_scratch1) X (k0_off22 k) _ _ k.val 48 (k0_off22_eq k) j (lt128_3 k) (by omega))
  · exact (piece_apply (F := F) (View.whole cc0_scratch1) X (k0_off23 k) _ _ k.val 64 (k0_off23_eq k) j (lt128_3 k) (by omega))
  · exact (piece_apply (F := F) (View.whole cc0_scratch1) X (k0_off24 k) _ _ k.val 80 (k0_off24_eq k) j (lt128_3 k) (by omega))
  · exact (piece_apply (F := F) (View.whole cc0_scratch1) X (k0_off25 k) _ _ k.val 96 (k0_off25_eq k) j (lt128_3 k) (by omega))
  · exact (piece_apply (F := F) (View.whole cc0_scratch1) X (k0_off26 k) _ _ k.val 112 (k0_off26_eq k) j (lt128_3 k) (by omega))
  · exact (piece_apply (F := F) (View.whole cc0_scratch1) X (k0_off27 k) _ _ k.val 128 (k0_off27_eq k) j (lt128_3 k) (by omega))
  · exact (piece_apply (F := F) (View.whole cc0_scratch1) X (k0_off28 k) _ _ k.val 144 (k0_off28_eq k) j (lt128_3 k) (by omega))
  · exact (piece_apply (F := F) (View.whole cc0_scratch1) X (k0_off29 k) _ _ k.val 160 (k0_off29_eq k) j (lt128_3 k) (by omega))
  · exact (piece_apply (F := F) (View.whole cc0_scratch1) X (k0_off30 k) _ _ k.val 176 (k0_off30_eq k) j (lt128_3 k) (by omega))
  · refine ((select_pay417 j _ _).trans ?_)
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

/-- The piece trip k stores into the second partial-sum scratch: lane j the row's partial sum of the halved words. -/
theorem rowTrip3_P5 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).2.1 X
      = ⟨Rect.unit (s := S2176) (k0_off32 k) S16.size (k0_off32_inb k),
          fun j => rowLane shr1 X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay439, k0_pay434, k0_pay435, k0_pay436, k0_pay437, k0_pay425, addi, shrsi, select, broadcast, IntOp.addi]
  refine lane_sum_b (fun p => shr1 (X (ix2 ⟨k.val, lt128_3 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch1) X (k0_off19 k) _ _ k.val 0 (k0_off19_eq k) j (lt128_3 k) (by omega))
  · exact congrArg shr1 (piece_apply (F := F) (View.whole cc0_scratch1) X (k0_off20 k) _ _ k.val 16 (k0_off20_eq k) j (lt128_3 k) (by omega))
  · exact congrArg shr1 (piece_apply (F := F) (View.whole cc0_scratch1) X (k0_off21 k) _ _ k.val 32 (k0_off21_eq k) j (lt128_3 k) (by omega))
  · exact congrArg shr1 (piece_apply (F := F) (View.whole cc0_scratch1) X (k0_off22 k) _ _ k.val 48 (k0_off22_eq k) j (lt128_3 k) (by omega))
  · exact congrArg shr1 (piece_apply (F := F) (View.whole cc0_scratch1) X (k0_off23 k) _ _ k.val 64 (k0_off23_eq k) j (lt128_3 k) (by omega))
  · exact congrArg shr1 (piece_apply (F := F) (View.whole cc0_scratch1) X (k0_off24 k) _ _ k.val 80 (k0_off24_eq k) j (lt128_3 k) (by omega))
  · exact congrArg shr1 (piece_apply (F := F) (View.whole cc0_scratch1) X (k0_off25 k) _ _ k.val 96 (k0_off25_eq k) j (lt128_3 k) (by omega))
  · exact congrArg shr1 (piece_apply (F := F) (View.whole cc0_scratch1) X (k0_off26 k) _ _ k.val 112 (k0_off26_eq k) j (lt128_3 k) (by omega))
  · exact congrArg shr1 (piece_apply (F := F) (View.whole cc0_scratch1) X (k0_off27 k) _ _ k.val 128 (k0_off27_eq k) j (lt128_3 k) (by omega))
  · exact congrArg shr1 (piece_apply (F := F) (View.whole cc0_scratch1) X (k0_off28 k) _ _ k.val 144 (k0_off28_eq k) j (lt128_3 k) (by omega))
  · exact congrArg shr1 (piece_apply (F := F) (View.whole cc0_scratch1) X (k0_off29 k) _ _ k.val 160 (k0_off29_eq k) j (lt128_3 k) (by omega))
  · exact congrArg shr1 (piece_apply (F := F) (View.whole cc0_scratch1) X (k0_off30 k) _ _ k.val 176 (k0_off30_eq k) j (lt128_3 k) (by omega))
  · refine congrArg shr1 (((select_pay417 j _ _).trans ?_))
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

/-- The piece trip k stores into the third partial-sum scratch: lane j the row's partial sum of the words' bitwise and
    with their halves. -/
theorem rowTrip3_P6 (v2 : BitVec 32) (v5 : Vec F S16 .f32) (v6 : IVec S16 32) (v18 v21 v24 v25 : F .f32)
    (k : Fin k0_t3_loop.trips) (X : Buf (Elt F) ((V d (cV L) (jV L)).loc cc0_scratch1)) :
    (rowTrip3 d L v2 v5 v6 k0_pay417 v18 v21 v24 v25 k0_pay425 k).2.2.1 X
      = ⟨Rect.unit (s := S2176) (k0_off32 k) S16.size (k0_off32_inb k),
          fun j => rowLane and1 X ⟨k.val, lt128_3 k⟩ ⟨(j 0).val, (j 0).isLt⟩⟩ := by
  unfold rowTrip3
  dsimp only
  refine congrArg (Sigma.mk _) (funext fun j => ?_)
  sl_unfold_run_names
  have hj : (j 0).val < 16 := (j 0).isLt
  simp only [k0_pay440, k0_pay434, k0_pay435, k0_pay436, k0_pay437, k0_pay425, addi, andi, shrsi, select, broadcast, IntOp.addi]
  refine lane_sum_b (fun p => and1 (X (ix2 ⟨k.val, lt128_3 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch1) X (k0_off19 k) _ _ k.val 0 (k0_off19_eq k) j (lt128_3 k) (by omega))
  · exact congrArg and1 (piece_apply (F := F) (View.whole cc0_scratch1) X (k0_off20 k) _ _ k.val 16 (k0_off20_eq k) j (lt128_3 k) (by omega))
  · exact congrArg and1 (piece_apply (F := F) (View.whole cc0_scratch1) X (k0_off21 k) _ _ k.val 32 (k0_off21_eq k) j (lt128_3 k) (by omega))
  · exact congrArg and1 (piece_apply (F := F) (View.whole cc0_scratch1) X (k0_off22 k) _ _ k.val 48 (k0_off22_eq k) j (lt128_3 k) (by omega))
  · exact congrArg and1 (piece_apply (F := F) (View.whole cc0_scratch1) X (k0_off23 k) _ _ k.val 64 (k0_off23_eq k) j (lt128_3 k) (by omega))
  · exact congrArg and1 (piece_apply (F := F) (View.whole cc0_scratch1) X (k0_off24 k) _ _ k.val 80 (k0_off24_eq k) j (lt128_3 k) (by omega))
  · exact congrArg and1 (piece_apply (F := F) (View.whole cc0_scratch1) X (k0_off25 k) _ _ k.val 96 (k0_off25_eq k) j (lt128_3 k) (by omega))
  · exact congrArg and1 (piece_apply (F := F) (View.whole cc0_scratch1) X (k0_off26 k) _ _ k.val 112 (k0_off26_eq k) j (lt128_3 k) (by omega))
  · exact congrArg and1 (piece_apply (F := F) (View.whole cc0_scratch1) X (k0_off27 k) _ _ k.val 128 (k0_off27_eq k) j (lt128_3 k) (by omega))
  · exact congrArg and1 (piece_apply (F := F) (View.whole cc0_scratch1) X (k0_off28 k) _ _ k.val 144 (k0_off28_eq k) j (lt128_3 k) (by omega))
  · exact congrArg and1 (piece_apply (F := F) (View.whole cc0_scratch1) X (k0_off29 k) _ _ k.val 160 (k0_off29_eq k) j (lt128_3 k) (by omega))
  · exact congrArg and1 (piece_apply (F := F) (View.whole cc0_scratch1) X (k0_off30 k) _ _ k.val 176 (k0_off30_eq k) j (lt128_3 k) (by omega))
  · refine congrArg and1 (((select_pay417 j _ _).trans ?_))
    by_cases h8 : 8 ≤ (j 0).val
    · rw [if_pos h8]
      refine (piece_apply (F := F) (View.whole cc0_scratch1) X (k0_off31 k) _ _ k.val 184 (k0_off31_eq k) j (lt128_3 k) (by omega)).trans ?_
      exact (if_pos h8).symm
    · rw [if_neg h8]
      exact (if_neg h8).symm

end Cert.Proof.KB

end
-- ==== Proof.KBGrpVal4.lean ====
/-
  What trip k of the group loop of chunk 1 stores into the output scratch: for lane j, row 16 k + j of the chunk, the
  three gathered totals (the sums of that row's sixteen words in each partial-sum scratch: word 17 (16 k + j) + i at step
  i, the sixteen steps added one after the other onto zero) enter the energy expression with the tile's energy
  128 + 16 k + j and lane j of the intercept vector.
-/
import proofs.«206979_g57535381897292_cont_9to1_m_841_24_alg».proof.Proof.KBValLib
import proofs.«206979_g57535381897292_cont_9to1_m_841_24_alg».proof.Proof.KBGrp4

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_4 (k : Fin k0_t4_loop.trips) : k.val < 8 := lt_of_lt_of_le k.isLt k0_t4_abs.2.1

/-- The piece trip k of the group loop of chunk 1 stores into the output scratch: words [128 + 16 k, 128 + 16 k + 16), lane j
    the energy expression at the three totals of row 16 k + j of the chunk (each the sum of that row's sixteen words in a
    partial-sum scratch), the tile's energy 128 + 16 k + j and lane j of the intercept vector. -/
theorem grpTrip4_P3 (v2 : BitVec 32) (v5 : Vec F S16 .f32) (v6 : IVec S16 32) (v8 : IVec S16 1) (v9 : Vec F S16 .f32)
    (hv6 : ∀ x, (v6 x).toNat < 16) (hv6e : ∀ x, (v6 x).toNat = (x 0).val) (k : Fin k0_t4_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip4 d L v2 v5 v6 v8 (k0_pay421 v9) (k0_pay422 v9) (k0_pay423 v9) (k0_pay424 v9) k0_pay425 hv6 k).1 G4 G5 G6 E
      = ⟨Rect.unit (s := S512) (k0_off33 k) S16.size (k0_off33_inb k), fun j =>
          energyOf v9 (gath G4 ⟨16 * k.val + (j 0).val, by have := lt8_4 k; have := lane_lt16 j; omega⟩)
            (gath G5 ⟨16 * k.val + (j 0).val, by have := lt8_4 k; have := lane_lt16 j; omega⟩)
            (gath G6 ⟨16 * k.val + (j 0).val, by have := lt8_4 k; have := lane_lt16 j; omega⟩)
            (E (ix1 ⟨128 + 16 * k.val + (j 0).val, by have := lt8_4 k; have := lane_lt16 j; omega⟩)) (v5 j)⟩ := by
  unfold grpTrip4
  dsimp only
  refine congrArg (Sigma.mk _) (funext fun j => ?_)
  sl_unfold_run_names
  have hj : (j 0).val < 16 := (j 0).isLt
  have hk := lt8_4 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off33 k) _ (128 + 16 * k.val)
      ((k0_off33_eq k).trans (congrArg (fun n : Nat => (![n] : Fin 1 → Nat)) (by omega))) j (by omega)
  · rfl

end Cert.Proof.KB

end
-- ==== Proof.KBChunkVal1.lean ====
/-
  Chunk 1 of a tile, after its two loops. The row loop leaves, in each of the three partial-sum scratches, at words
  17 r … 17 r + 15 the sixteen lanes of row r's partial sums, so those sixteen words add up to the row's total. The group
  loop then leaves, at word 128 + 16 k + l of the output scratch, the energy expression at the three totals of row
  16 k + l, and keeps every word outside the chunk's 128.
-/
import proofs.«206979_g57535381897292_cont_9to1_m_841_24_alg».proof.Proof.KBValLib
import proofs.«206979_g57535381897292_cont_9to1_m_841_24_alg».proof.Proof.KBChunkLib
import proofs.«206979_g57535381897292_cont_9to1_m_841_24_alg».proof.Proof.KBRowVal3
import proofs.«206979_g57535381897292_cont_9to1_m_841_24_alg».proof.Proof.KBGrpVal4

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 1 runs 128 trips. -/
theorem trips_t3 : k0_t3_loop.trips = 128 := by decide

/-- The group loop of chunk 1 runs 8 trips. -/
theorem trips_t4 : k0_t4_loop.trips = 8 := by decide

/-- After the row loop of chunk 1: word 17 r + j of partial-sum scratch 4 is lane j of row r's partial sum, whatever
    the scratch held before. -/
theorem chunk1_s4 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch4)) (r : Fin 128) (j : Fin 16) :
    fillW (s4).view (fun i => (rowTrip3 d L w2 w5 w6 k0_pay417 w18 w21 w24 w25 k0_pay425 i).1 X) g k0_t3_loop.trips
        (ix1 ⟨17 * r.val + j.val, by have := r.isLt; have := j.isLt; omega⟩)
      = rowLane id X r j := by
  have hpc : (fun i => (rowTrip3 d L w2 w5 w6 k0_pay417 w18 w21 w24 w25 k0_pay425 i).1 X)
      = fun i => (⟨Rect.unit (s := S2176) (k0_off32 i) S16.size (k0_off32_inb i),
          fun jj => rowLane id X ⟨i.val, lt128_3 i⟩ ⟨(jj 0).val, lane_lt16 jj⟩⟩ : View.Piece (Elt F) S2176 .i32) :=
    funext fun i => rowTrip3_P4 d L w2 w5 w6 w18 w21 w24 w25 i X
  rw [hpc]
  exact fillW_rows17 (F := F) (s4).view (le_of_eq trips_t3) k0_off32 k0_off32_inb k0_off32_eq
    (fun i jj => rowLane id X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total. -/
theorem chunk1_gath4 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch4)) (r : Fin 128) :
    gath (fillW (s4).view (fun i => (rowTrip3 d L w2 w5 w6 k0_pay417 w18 w21 w24 w25 k0_pay425 i).1 X) g k0_t3_loop.trips) r = rowTot id X r :=
  Finset.sum_congr rfl fun j _ => chunk1_s4 d L w2 w5 w6 w18 w21 w24 w25 X g r j

/-- After the row loop of chunk 1: word 17 r + j of partial-sum scratch 5 is lane j of row r's partial sum under shr1, whatever
    the scratch held before. -/
theorem chunk1_s5 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch5)) (r : Fin 128) (j : Fin 16) :
    fillW (s5).view (fun i => (rowTrip3 d L w2 w5 w6 k0_pay417 w18 w21 w24 w25 k0_pay425 i).2.1 X) g k0_t3_loop.trips
        (ix1 ⟨17 * r.val + j.val, by have := r.isLt; have := j.isLt; omega⟩)
      = rowLane shr1 X r j := by
  have hpc : (fun i => (rowTrip3 d L w2 w5 w6 k0_pay417 w18 w21 w24 w25 k0_pay425 i).2.1 X)
      = fun i => (⟨Rect.unit (s := S2176) (k0_off32 i) S16.size (k0_off32_inb i),
          fun jj => rowLane shr1 X ⟨i.val, lt128_3 i⟩ ⟨(jj 0).val, lane_lt16 jj⟩⟩ : View.Piece (Elt F) S2176 .i32) :=
    funext fun i => rowTrip3_P5 d L w2 w5 w6 w18 w21 w24 w25 i X
  rw [hpc]
  exact fillW_rows17 (F := F) (s5).view (le_of_eq trips_t3) k0_off32 k0_off32_inb k0_off32_eq
    (fun i jj => rowLane shr1 X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total under shr1. -/
theorem chunk1_gath5 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch5)) (r : Fin 128) :
    gath (fillW (s5).view (fun i => (rowTrip3 d L w2 w5 w6 k0_pay417 w18 w21 w24 w25 k0_pay425 i).2.1 X) g k0_t3_loop.trips) r = rowTot shr1 X r :=
  Finset.sum_congr rfl fun j _ => chunk1_s5 d L w2 w5 w6 w18 w21 w24 w25 X g r j

/-- After the row loop of chunk 1: word 17 r + j of partial-sum scratch 6 is lane j of row r's partial sum under and1, whatever
    the scratch held before. -/
theorem chunk1_s6 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch6)) (r : Fin 128) (j : Fin 16) :
    fillW (s6).view (fun i => (rowTrip3 d L w2 w5 w6 k0_pay417 w18 w21 w24 w25 k0_pay425 i).2.2.1 X) g k0_t3_loop.trips
        (ix1 ⟨17 * r.val + j.val, by have := r.isLt; have := j.isLt; omega⟩)
      = rowLane and1 X r j := by
  have hpc : (fun i => (rowTrip3 d L w2 w5 w6 k0_pay417 w18 w21 w24 w25 k0_pay425 i).2.2.1 X)
      = fun i => (⟨Rect.unit (s := S2176) (k0_off32 i) S16.size (k0_off32_inb i),
          fun jj => rowLane and1 X ⟨i.val, lt128_3 i⟩ ⟨(jj 0).val, lane_lt16 jj⟩⟩ : View.Piece (Elt F) S2176 .i32) :=
    funext fun i => rowTrip3_P6 d L w2 w5 w6 w18 w21 w24 w25 i X
  rw [hpc]
  exact fillW_rows17 (F := F) (s6).view (le_of_eq trips_t3) k0_off32 k0_off32_inb k0_off32_eq
    (fun i jj => rowLane and1 X ⟨i.val, lt128_3 i⟩ ⟨(jj 0).val, lane_lt16 jj⟩) g
    ⟨r.val, lt_of_lt_of_eq r.isLt trips_t3.symm⟩ j k0_t3_loop.trips (lt_of_lt_of_eq r.isLt trips_t3.symm)

/-- So the sixteen words of row r of that scratch add up to the row's total under and1. -/
theorem chunk1_gath6 (w2 : BitVec 32) (w5 : Vec F S16 .f32) (w6 : IVec S16 32) (w18 w21 w24 w25 : F .f32) (X : Buf (Elt F) ((V d (cV L) (jV L)).loc cc0_scratch1))
    (g : Buf (Elt F) ((V d (cV L) (jV L)).loc cc0_scratch6)) (r : Fin 128) :
    gath (fillW (s6).view (fun i => (rowTrip3 d L w2 w5 w6 k0_pay417 w18 w21 w24 w25 k0_pay425 i).2.2.1 X) g k0_t3_loop.trips) r = rowTot and1 X r :=
  Finset.sum_congr rfl fun j _ => chunk1_s6 d L w2 w5 w6 w18 w21 w24 w25 X g r j

/-- After both loops of chunk 1: word 128 + 16 k + l of the output scratch is the energy expression at the three totals of
    row 16 k + l of the chunk, the tile's energy 128 + 16 k + l and lane l of the intercept vector. -/
theorem chunk1_in (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E) H3p k0_t4_loop.trips (ix1 ⟨128 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨128 + 16 * k.val + l.val, by have := k.isLt; have := l.isLt; omega⟩)) (v5 (ix1 l)) := by
  have hpc : (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E)
      = fun i => (⟨Rect.unit (s := S512) (k0_off33 i) S16.size (k0_off33_inb i), (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) i⟩ : View.Piece (Elt F) S512 .f32) :=
    funext fun i => grpTrip4_P3 d L v2 v5 v6 v8 v9 hv6 hv6e i _ _ _ E
  rw [hpc]
  refine (fillW_out16 (F := F) (s3).view (le_of_eq trips_t4) 128 (by omega) k0_off33 k0_off33_inb (fun i => (k0_off33_eq i).trans (congrArg (fun n : Nat => (![n] : Fin 1 → Nat)) (by omega)))
    (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) H3p ⟨k.val, lt_of_lt_of_eq k.isLt trips_t4.symm⟩ l k0_t4_loop.trips (lt_of_lt_of_eq k.isLt trips_t4.symm)).trans ?_
  dsimp only
  rw [chunk1_gath4 d L w2 w5 w6 w18 w21 w24 w25 X G4p, chunk1_gath5 d L w2 w5 w6 w18 w21 w24 w25 X G5p, chunk1_gath6 d L w2 w5 w6 w18 w21 w24 w25 X G6p]

/-- The group loop of chunk 1 leaves every word of the output scratch outside [128, 256) as it was. -/
theorem chunk1_out (w2 : BitVec 32) (w5 : Vec F S16 .f32) (w6 : IVec S16 32) (w18 w21 w24 w25 : F .f32) (v2 : BitVec 32) (v5 : Vec F S16 .f32) (v6 : IVec S16 32) (v8 : IVec S16 1) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 128 ∨ 128 + 128 ≤ (y 0).val) :
    fillW (s3).view (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E) H3p k0_t4_loop.trips y = H3p y := by
  have hpc : (fun i => (grpTrip4 d L v2 v5 v6 v8 (k0_pay421 v9) (k0_pay422 v9) (k0_pay423 v9) (k0_pay424 v9) k0_pay425 hv6 i).1
          (fillW (s4).view (fun i => (rowTrip3 d L w2 w5 w6 k0_pay417 w18 w21 w24 w25 k0_pay425 i).1 X) G4p k0_t3_loop.trips)
          (fillW (s5).view (fun i => (rowTrip3 d L w2 w5 w6 k0_pay417 w18 w21 w24 w25 k0_pay425 i).2.1 X) G5p k0_t3_loop.trips)
          (fillW (s6).view (fun i => (rowTrip3 d L w2 w5 w6 k0_pay417 w18 w21 w24 w25 k0_pay425 i).2.2.1 X) G6p k0_t3_loop.trips) E)
      = fun i => (⟨Rect.unit (s := S512) (k0_off33 i) S16.size (k0_off33_inb i), (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) i⟩ : View.Piece (Elt F) S512 .f32) :=
    funext fun i => grpTrip4_P3 d L v2 v5 v6 v8 v9 hv6 hv6e i _ _ _ E
  rw [hpc]
  exact fillW_out16_outside (F := F) (s3).view (le_of_eq trips_t4) 128 k0_off33 k0_off33_inb (fun i => (k0_off33_eq i).trans (congrArg (fun n : Nat => (![n] : Fin 1 → Nat)) (by omega)))
    (fun i jj => energyOf v9 (gath (fillW (s4).view (fun i => (rowTrip3 d L w2 w5 w6 k0_pay417 w18 w21 w24 w25 k0_pay425 i).1 X) G4p k0_t3_loop.trips) ⟨16 * i.val + (jj 0).val, by have := lt8_4 i; have := lane_lt16 jj; omega⟩)
        (gath (fillW (s5).view (fun i => (rowTrip3 d L w2 w5 w6 k0_pay417 w18 w21 w24 w25 k0_pay425 i).2.1 X) G5p k0_t3_loop.trips) ⟨16 * i.val + (jj 0).val, by have := lt8_4 i; have := lane_lt16 jj; omega⟩)
        (gath (fillW (s6).view (fun i => (rowTrip3 d L w2 w5 w6 k0_pay417 w18 w21 w24 w25 k0_pay425 i).2.2.1 X) G6p k0_t3_loop.trips) ⟨16 * i.val + (jj 0).val, by have := lt8_4 i; have := lane_lt16 jj; omega⟩)
        (E (ix1 ⟨128 + 16 * i.val + (jj 0).val, by have := lt8_4 i; have := lane_lt16 jj; omega⟩)) (v5 jj)) H3p y hy k0_t4_loop.trips

end Cert.Proof.KB

end
-- ==== Proof.KBRowVal5.lean ====
/-
  What trip k of the row loop over chunk 2 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KBValLib
import proofs.«206979_g57535381897292_cont_9to1_m_841_24_alg».proof.Proof.KBRow5

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_5 (k : Fin k0_t5_loop.trips) : k.val < 128 := lt_of_lt_of_le k.isLt k0_t5_abs.2.1

/-- The piece trip k stores into the first partial-sum scratch: words [17 k, 17 k + 16), lane j the row's partial sum of
    the species words themselves. -/
theorem rowTrip5_P4 (c0 : BitVec 32)
    (k : Fin k0_t5_loop.trips) (X : Buf (Elt F) ((V d (cV L) (jV L)).loc cc0_scratch0)) :
    (rowTrip5 d L k0_pay417 k0_pay425 c0 k).1 X
      = ⟨Rect.unit (s := S2176) (k0_off47 k) S16.size (k0_off47_inb k),
          fun j => rowLane id X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay5, k0_pay1, k0_pay3, k0_pay425, addi, select, broadcast, IntOp.addi]
  refine lane_sum_a (fun p => X (ix2 ⟨k.val, lt128_5 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch0) X (k0_off34 k) _ _ k.val 0 (k0_off34_eq k) j (lt128_5 k) (by omega))
  · exact (piece_apply (F := F) (View.whole cc0_scratch0) X (k0_off35 k) _ _ k.val 16 (k0_off35_eq k) j (lt128_5 k) (by omega))
  · exact (piece_apply (F := F) (View.whole cc0_scratch0) X (k0_off36 k) _ _ k.val 32 (k0_off36_eq k) j (lt128_5 k) (by omega))
  · exact (piece_apply (F := F) (View.whole cc0_scratch0) X (k0_off37 k) _ _ k.val 48 (k0_off37_eq k) j (lt128_5 k) (by omega))
  · exact (piece_apply (F := F) (View.whole cc0_scratch0) X (k0_off38 k) _ _ k.val 64 (k0_off38_eq k) j (lt128_5 k) (by omega))
  · exact (piece_apply (F := F) (View.whole cc0_scratch0) X (k0_off39 k) _ _ k.val 80 (k0_off39_eq k) j (lt128_5 k) (by omega))
  · exact (piece_apply (F := F) (View.whole cc0_scratch0) X (k0_off40 k) _ _ k.val 96 (k0_off40_eq k) j (lt128_5 k) (by omega))
  · exact (piece_apply (F := F) (View.whole cc0_scratch0) X (k0_off41 k) _ _ k.val 112 (k0_off41_eq k) j (lt128_5 k) (by omega))
  · exact (piece_apply (F := F) (View.whole cc0_scratch0) X (k0_off42 k) _ _ k.val 128 (k0_off42_eq k) j (lt128_5 k) (by omega))
  · exact (piece_apply (F := F) (View.whole cc0_scratch0) X (k0_off43 k) _ _ k.val 144 (k0_off43_eq k) j (lt128_5 k) (by omega))
  · exact (piece_apply (F := F) (View.whole cc0_scratch0) X (k0_off44 k) _ _ k.val 160 (k0_off44_eq k) j (lt128_5 k) (by omega))
  · exact (piece_apply (F := F) (View.whole cc0_scratch0) X (k0_off45 k) _ _ k.val 176 (k0_off45_eq k) j (lt128_5 k) (by omega))
  · refine ((select_pay417 j _ _).trans ?_)
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

/-- The piece trip k stores into the second partial-sum scratch: lane j the row's partial sum of the halved words. -/
theorem rowTrip5_P5 (c0 : BitVec 32)
    (k : Fin k0_t5_loop.trips) (X : Buf (Elt F) ((V d (cV L) (jV L)).loc cc0_scratch0)) :
    (rowTrip5 d L k0_pay417 k0_pay425 c0 k).2.1 X
      = ⟨Rect.unit (s := S2176) (k0_off47 k) S16.size (k0_off47_inb k),
          fun j => rowLane shr1 X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay6, k0_pay1, k0_pay2, k0_pay3, k0_pay4, k0_pay425, addi, shrsi, select, broadcast, IntOp.addi]
  refine lane_sum_b (fun p => shr1 (X (ix2 ⟨k.val, lt128_5 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch0) X (k0_off34 k) _ _ k.val 0 (k0_off34_eq k) j (lt128_5 k) (by omega))
  · exact congrArg shr1 (piece_apply (F := F) (View.whole cc0_scratch0) X (k0_off35 k) _ _ k.val 16 (k0_off35_eq k) j (lt128_5 k) (by omega))
  · exact congrArg shr1 (piece_apply (F := F) (View.whole cc0_scratch0) X (k0_off36 k) _ _ k.val 32 (k0_off36_eq k) j (lt128_5 k) (by omega))
  · exact congrArg shr1 (piece_apply (F := F) (View.whole cc0_scratch0) X (k0_off37 k) _ _ k.val 48 (k0_off37_eq k) j (lt128_5 k) (by omega))
  · exact congrArg shr1 (piece_apply (F := F) (View.whole cc0_scratch0) X (k0_off38 k) _ _ k.val 64 (k0_off38_eq k) j (lt128_5 k) (by omega))
  · exact congrArg shr1 (piece_apply (F := F) (View.whole cc0_scratch0) X (k0_off39 k) _ _ k.val 80 (k0_off39_eq k) j (lt128_5 k) (by omega))
  · exact congrArg shr1 (piece_apply (F := F) (View.whole cc0_scratch0) X (k0_off40 k) _ _ k.val 96 (k0_off40_eq k) j (lt128_5 k) (by omega))
  · exact congrArg shr1 (piece_apply (F := F) (View.whole cc0_scratch0) X (k0_off41 k) _ _ k.val 112 (k0_off41_eq k) j (lt128_5 k) (by omega))
  · exact congrArg shr1 (piece_apply (F := F) (View.whole cc0_scratch0) X (k0_off42 k) _ _ k.val 128 (k0_off42_eq k) j (lt128_5 k) (by omega))
  · exact congrArg shr1 (piece_apply (F := F) (View.whole cc0_scratch0) X (k0_off43 k) _ _ k.val 144 (k0_off43_eq k) j (lt128_5 k) (by omega))
  · exact congrArg shr1 (piece_apply (F := F) (View.whole cc0_scratch0) X (k0_off44 k) _ _ k.val 160 (k0_off44_eq k) j (lt128_5 k) (by omega))
  · exact congrArg shr1 (piece_apply (F := F) (View.whole cc0_scratch0) X (k0_off45 k) _ _ k.val 176 (k0_off45_eq k) j (lt128_5 k) (by omega))
  · refine congrArg shr1 (((select_pay417 j _ _).trans ?_))
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

/-- The piece trip k stores into the third partial-sum scratch: lane j the row's partial sum of the words' bitwise and
    with their halves. -/
theorem rowTrip5_P6 (c0 : BitVec 32)
    (k : Fin k0_t5_loop.trips) (X : Buf (Elt F) ((V d (cV L) (jV L)).loc cc0_scratch0)) :
    (rowTrip5 d L k0_pay417 k0_pay425 c0 k).2.2.1 X
      = ⟨Rect.unit (s := S2176) (k0_off47 k) S16.size (k0_off47_inb k),
          fun j => rowLane and1 X ⟨k.val, lt128_5 k⟩ ⟨(j 0).val, (j 0).isLt⟩⟩ := by
  unfold rowTrip5
  dsimp only
  refine congrArg (Sigma.mk _) (funext fun j => ?_)
  sl_unfold_run_names
  have hj : (j 0).val < 16 := (j 0).isLt
  simp only [k0_pay7, k0_pay1, k0_pay2, k0_pay3, k0_pay4, k0_pay425, addi, andi, shrsi, select, broadcast, IntOp.addi]
  refine lane_sum_b (fun p => and1 (X (ix2 ⟨k.val, lt128_5 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch0) X (k0_off34 k) _ _ k.val 0 (k0_off34_eq k) j (lt128_5 k) (by omega))
  · exact congrArg and1 (piece_apply (F := F) (View.whole cc0_scratch0) X (k0_off35 k) _ _ k.val 16 (k0_off35_eq k) j (lt128_5 k) (by omega))
  · exact congrArg and1 (piece_apply (F := F) (View.whole cc0_scratch0) X (k0_off36 k) _ _ k.val 32 (k0_off36_eq k) j (lt128_5 k) (by omega))
  · exact congrArg and1 (piece_apply (F := F) (View.whole cc0_scratch0) X (k0_off37 k) _ _ k.val 48 (k0_off37_eq k) j (lt128_5 k) (by omega))
  · exact congrArg and1 (piece_apply (F := F) (View.whole cc0_scratch0) X (k0_off38 k) _ _ k.val 64 (k0_off38_eq k) j (lt128_5 k) (by omega))
  · exact congrArg and1 (piece_apply (F := F) (View.whole cc0_scratch0) X (k0_off39 k) _ _ k.val 80 (k0_off39_eq k) j (lt128_5 k) (by omega))
  · exact congrArg and1 (piece_apply (F := F) (View.whole cc0_scratch0) X (k0_off40 k) _ _ k.val 96 (k0_off40_eq k) j (lt128_5 k) (by omega))
  · exact congrArg and1 (piece_apply (F := F) (View.whole cc0_scratch0) X (k0_off41 k) _ _ k.val 112 (k0_off41_eq k) j (lt128_5 k) (by omega))
  · exact congrArg and1 (piece_apply (F := F) (View.whole cc0_scratch0) X (k0_off42 k) _ _ k.val 128 (k0_off42_eq k) j (lt128_5 k) (by omega))
  · exact congrArg and1 (piece_apply (F := F) (View.whole cc0_scratch0) X (k0_off43 k) _ _ k.val 144 (k0_off43_eq k) j (lt128_5 k) (by omega))
  · exact congrArg and1 (piece_apply (F := F) (View.whole cc0_scratch0) X (k0_off44 k) _ _ k.val 160 (k0_off44_eq k) j (lt128_5 k) (by omega))
  · exact congrArg and1 (piece_apply (F := F) (View.whole cc0_scratch0) X (k0_off45 k) _ _ k.val 176 (k0_off45_eq k) j (lt128_5 k) (by omega))
  · refine congrArg and1 (((select_pay417 j _ _).trans ?_))
    by_cases h8 : 8 ≤ (j 0).val
    · rw [if_pos h8]
      refine (piece_apply (F := F) (View.whole cc0_scratch0) X (k0_off46 k) _ _ k.val 184 (k0_off46_eq k) j (lt128_5 k) (by omega)).trans ?_
      exact (if_pos h8).symm
    · rw [if_neg h8]
      exact (if_neg h8).symm

end Cert.Proof.KB

end
-- ==== Proof.KBGrpVal6.lean ====
/-
  What trip k of the group loop of chunk 2 stores into the output scratch: for lane j, row 16 k + j of the chunk, the
  three gathered totals (the sums of that row's sixteen words in each partial-sum scratch: word 17 (16 k + j) + i at step
  i, the sixteen steps added one after the other onto zero) enter the energy expression with the tile's energy
  256 + 16 k + j and lane j of the intercept vector.
-/
import proofs.«206979_g57535381897292_cont_9to1_m_841_24_alg».proof.Proof.KBValLib
import proofs.«206979_g57535381897292_cont_9to1_m_841_24_alg».proof.Proof.KBGrp6

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_6 (k : Fin k0_t6_loop.trips) : k.val < 8 := lt_of_lt_of_le k.isLt k0_t6_abs.2.1

/-- The piece trip k of the group loop of chunk 2 stores into the output scratch: words [256 + 16 k, 256 + 16 k + 16), lane j
    the energy expression at the three totals of row 16 k + j of the chunk (each the sum of that row's sixteen words in a
    partial-sum scratch), the tile's energy 256 + 16 k + j and lane j of the intercept vector. -/
theorem grpTrip6_P3 (v5 : Vec F S16 .f32) (v6 : IVec S16 32) (v9 : Vec F S16 .f32)
    (hv6 : ∀ x, (v6 x).toNat < 16) (hv6e : ∀ x, (v6 x).toNat = (x 0).val) (k : Fin k0_t6_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip6 d L v5 v6 (k0_pay421 v9) (k0_pay422 v9) (k0_pay423 v9) (k0_pay424 v9) k0_pay425 hv6 k).1 G4 G5 G6 E
      = ⟨Rect.unit (s := S512) (k0_off48 k) S16.size (k0_off48_inb k), fun j =>
          energyOf v9 (gath G4 ⟨16 * k.val + (j 0).val, by have := lt8_6 k; have := lane_lt16 j; omega⟩)
            (gath G5 ⟨16 * k.val + (j 0).val, by have := lt8_6 k; have := lane_lt16 j; omega⟩)
            (gath G6 ⟨16 * k.val + (j 0).val, by have := lt8_6 k; have := lane_lt16 j; omega⟩)
            (E (ix1 ⟨256 + 16 * k.val + (j 0).val, by have := lt8_6 k; have := lane_lt16 j; omega⟩)) (v5 j)⟩ := by
  unfold grpTrip6
  dsimp only
  refine congrArg (Sigma.mk _) (funext fun j => ?_)
  sl_unfold_run_names
  have hj : (j 0).val < 16 := (j 0).isLt
  have hk := lt8_6 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off48 k) _ (256 + 16 * k.val)
      ((k0_off48_eq k).trans (congrArg (fun n : Nat => (![n] : Fin 1 → Nat)) (by omega))) j (by omega)
  · rfl

end Cert.Proof.KB

end
-- ==== Proof.KBChunkVal2.lean ====
/-
  Chunk 2 of a tile, after its two loops. The row loop leaves, in each of the three partial-sum scratches, at words
  17 r … 17 r + 15 the sixteen lanes of row r's partial sums, so those sixteen words add up to the row's total. The group
  loop then leaves, at word 256 + 16 k + l of the output scratch, the energy expression at the three totals of row
  16 k + l, and keeps every word outside the chunk's 128.
-/
import proofs.«206979_g57535381897292_cont_9to1_m_841_24_alg».proof.Proof.KBValLib
import proofs.«206979_g57535381897292_cont_9to1_m_841_24_alg».proof.Proof.KBChunkLib
import proofs.«206979_g57535381897292_cont_9to1_m_841_24_alg».proof.Proof.KBRowVal5
import proofs.«206979_g57535381897292_cont_9to1_m_841_24_alg».proof.Proof.KBGrpVal6

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 2 runs 128 trips. -/
theorem trips_t5 : k0_t5_loop.trips = 128 := by decide

/-- The group loop of chunk 2 runs 8 trips. -/
theorem trips_t6 : k0_t6_loop.trips = 8 := by decide

/-- After the row loop of chunk 2: word 17 r + j of partial-sum scratch 4 is lane j of row r's partial sum, whatever
    the scratch held before. -/
theorem chunk2_s4 (c0 : BitVec 32) (X : Buf (Elt F) ((V d (cV L) (jV L)).loc cc0_scratch0))
    (g : Buf (Elt F) ((V d (cV L) (jV L)).loc cc0_scratch4)) (r : Fin 128) (j : Fin 16) :
    fillW (s4).view (fun i => (rowTrip5 d L k0_pay417 k0_pay425 c0 i).1 X) g k0_t5_loop.trips
        (ix1 ⟨17 * r.val + j.val, by have := r.isLt; have := j.isLt; omega⟩)
      = rowLane id X r j := by
  have hpc : (fun i => (rowTrip5 d L k0_pay417 k0_pay425 c0 i).1 X)
      = fun i => (⟨Rect.unit (s := S2176) (k0_off47 i) S16.size (k0_off47_inb i),
          fun jj => rowLane id X ⟨i.val, lt128_5 i⟩ ⟨(jj 0).val, lane_lt16 jj⟩⟩ : View.Piece (Elt F) S2176 .i32) :=
    funext fun i => rowTrip5_P4 d L c0 i X
  rw [hpc]
  exact fillW_rows17 (F := F) (s4).view (le_of_eq trips_t5) k0_off47 k0_off47_inb k0_off47_eq
    (fun i jj => rowLane id X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total. -/
theorem chunk2_gath4 (c0 : BitVec 32) (X : Buf (Elt F) ((V d (cV L) (jV L)).loc cc0_scratch0))
    (g : Buf (Elt F) ((V d (cV L) (jV L)).loc cc0_scratch4)) (r : Fin 128) :
    gath (fillW (s4).view (fun i => (rowTrip5 d L k0_pay417 k0_pay425 c0 i).1 X) g k0_t5_loop.trips) r = rowTot id X r :=
  Finset.sum_congr rfl fun j _ => chunk2_s4 d L c0 X g r j

/-- After the row loop of chunk 2: word 17 r + j of partial-sum scratch 5 is lane j of row r's partial sum under shr1, whatever
    the scratch held before. -/
theorem chunk2_s5 (c0 : BitVec 32) (X : Buf (Elt F) ((V d (cV L) (jV L)).loc cc0_scratch0))
    (g : Buf (Elt F) ((V d (cV L) (jV L)).loc cc0_scratch5)) (r : Fin 128) (j : Fin 16) :
    fillW (s5).view (fun i => (rowTrip5 d L k0_pay417 k0_pay425 c0 i).2.1 X) g k0_t5_loop.trips
        (ix1 ⟨17 * r.val + j.val, by have := r.isLt; have := j.isLt; omega⟩)
      = rowLane shr1 X r j := by
  have hpc : (fun i => (rowTrip5 d L k0_pay417 k0_pay425 c0 i).2.1 X)
      = fun i => (⟨Rect.unit (s := S2176) (k0_off47 i) S16.size (k0_off47_inb i),
          fun jj => rowLane shr1 X ⟨i.val, lt128_5 i⟩ ⟨(jj 0).val, lane_lt16 jj⟩⟩ : View.Piece (Elt F) S2176 .i32) :=
    funext fun i => rowTrip5_P5 d L c0 i X
  rw [hpc]
  exact fillW_rows17 (F := F) (s5).view (le_of_eq trips_t5) k0_off47 k0_off47_inb k0_off47_eq
    (fun i jj => rowLane shr1 X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total under shr1. -/
theorem chunk2_gath5 (c0 : BitVec 32) (X : Buf (Elt F) ((V d (cV L) (jV L)).loc cc0_scratch0))
    (g : Buf (Elt F) ((V d (cV L) (jV L)).loc cc0_scratch5)) (r : Fin 128) :
    gath (fillW (s5).view (fun i => (rowTrip5 d L k0_pay417 k0_pay425 c0 i).2.1 X) g k0_t5_loop.trips) r = rowTot shr1 X r :=
  Finset.sum_congr rfl fun j _ => chunk2_s5 d L c0 X g r j

/-- After the row loop of chunk 2: word 17 r + j of partial-sum scratch 6 is lane j of row r's partial sum under and1, whatever
    the scratch held before. -/
theorem chunk2_s6 (c0 : BitVec 32) (X : Buf (Elt F) ((V d (cV L) (jV L)).loc cc0_scratch0))
    (g : Buf (Elt F) ((V d (cV L) (jV L)).loc cc0_scratch6)) (r : Fin 128) (j : Fin 16) :
    fillW (s6).view (fun i => (rowTrip5 d L k0_pay417 k0_pay425 c0 i).2.2.1 X) g k0_t5_loop.trips
        (ix1 ⟨17 * r.val + j.val, by have := r.isLt; have := j.isLt; omega⟩)
      = rowLane and1 X r j := by
  have hpc : (fun i => (rowTrip5 d L k0_pay417 k0_pay425 c0 i).2.2.1 X)
      = fun i => (⟨Rect.unit (s := S2176) (k0_off47 i) S16.size (k0_off47_inb i),
          fun jj => rowLane and1 X ⟨i.val, lt128_5 i⟩ ⟨(jj 0).val, lane_lt16 jj⟩⟩ : View.Piece (Elt F) S2176 .i32) :=
    funext fun i => rowTrip5_P6 d L c0 i X
  rw [hpc]
  exact fillW_rows17 (F := F) (s6).view (le_of_eq trips_t5) k0_off47 k0_off47_inb k0_off47_eq
    (fun i jj => rowLane and1 X ⟨i.val, lt128_5 i⟩ ⟨(jj 0).val, lane_lt16 jj⟩) g
    ⟨r.val, lt_of_lt_of_eq r.isLt trips_t5.symm⟩ j k0_t5_loop.trips (lt_of_lt_of_eq r.isLt trips_t5.symm)

/-- So the sixteen words of row r of that scratch add up to the row's total under and1. -/
theorem chunk2_gath6 (c0 : BitVec 32) (X : Buf (Elt F) ((V d (cV L) (jV L)).loc cc0_scratch0))
    (g : Buf (Elt F) ((V d (cV L) (jV L)).loc cc0_scratch6)) (r : Fin 128) :
    gath (fillW (s6).view (fun i => (rowTrip5 d L k0_pay417 k0_pay425 c0 i).2.2.1 X) g k0_t5_loop.trips) r = rowTot and1 X r :=
  Finset.sum_congr rfl fun j _ => chunk2_s6 d L c0 X g r j

/-- After both loops of chunk 2: word 256 + 16 k + l of the output scratch is the energy expression at the three totals of
    row 16 k + l of the chunk, the tile's energy 256 + 16 k + l and lane l of the intercept vector. -/
theorem chunk2_in (c0 : BitVec 32) (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E) H3p k0_t6_loop.trips (ix1 ⟨256 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨256 + 16 * k.val + l.val, by have := k.isLt; have := l.isLt; omega⟩)) (v5 (ix1 l)) := by
  have hpc : (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E)
      = fun i => (⟨Rect.unit (s := S512) (k0_off48 i) S16.size (k0_off48_inb i), (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) i⟩ : View.Piece (Elt F) S512 .f32) :=
    funext fun i => grpTrip6_P3 d L v5 v6 v9 hv6 hv6e i _ _ _ E
  rw [hpc]
  refine (fillW_out16 (F := F) (s3).view (le_of_eq trips_t6) 256 (by omega) k0_off48 k0_off48_inb (fun i => (k0_off48_eq i).trans (congrArg (fun n : Nat => (![n] : Fin 1 → Nat)) (by omega)))
    (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) H3p ⟨k.val, lt_of_lt_of_eq k.isLt trips_t6.symm⟩ l k0_t6_loop.trips (lt_of_lt_of_eq k.isLt trips_t6.symm)).trans ?_
  dsimp only
  rw [chunk2_gath4 d L c0 X G4p, chunk2_gath5 d L c0 X G5p, chunk2_gath6 d L c0 X G6p]

/-- The group loop of chunk 2 leaves every word of the output scratch outside [256, 384) as it was. -/
theorem chunk2_out (c0 : BitVec 32) (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch0))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 256 ∨ 256 + 128 ≤ (y 0).val) :
    fillW (s3).view (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E) H3p k0_t6_loop.trips y = H3p y := by
  have hpc : (fun i => (grpTrip6 d L v5 v6 (k0_pay421 v9) (k0_pay422 v9) (k0_pay423 v9) (k0_pay424 v9) k0_pay425 hv6 i).1
          (fillW (s4).view (fun i => (rowTrip5 d L k0_pay417 k0_pay425 c0 i).1 X) G4p k0_t5_loop.trips)
          (fillW (s5).view (fun i => (rowTrip5 d L k0_pay417 k0_pay425 c0 i).2.1 X) G5p k0_t5_loop.trips)
          (fillW (s6).view (fun i => (rowTrip5 d L k0_pay417 k0_pay425 c0 i).2.2.1 X) G6p k0_t5_loop.trips) E)
      = fun i => (⟨Rect.unit (s := S512) (k0_off48 i) S16.size (k0_off48_inb i), (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) i⟩ : View.Piece (Elt F) S512 .f32) :=
    funext fun i => grpTrip6_P3 d L v5 v6 v9 hv6 hv6e i _ _ _ E
  rw [hpc]
  exact fillW_out16_outside (F := F) (s3).view (le_of_eq trips_t6) 256 k0_off48 k0_off48_inb (fun i => (k0_off48_eq i).trans (congrArg (fun n : Nat => (![n] : Fin 1 → Nat)) (by omega)))
    (fun i jj => energyOf v9 (gath (fillW (s4).view (fun i => (rowTrip5 d L k0_pay417 k0_pay425 c0 i).1 X) G4p k0_t5_loop.trips) ⟨16 * i.val + (jj 0).val, by have := lt8_6 i; have := lane_lt16 jj; omega⟩)
        (gath (fillW (s5).view (fun i => (rowTrip5 d L k0_pay417 k0_pay425 c0 i).2.1 X) G5p k0_t5_loop.trips) ⟨16 * i.val + (jj 0).val, by have := lt8_6 i; have := lane_lt16 jj; omega⟩)
        (gath (fillW (s6).view (fun i => (rowTrip5 d L k0_pay417 k0_pay425 c0 i).2.2.1 X) G6p k0_t5_loop.trips) ⟨16 * i.val + (jj 0).val, by have := lt8_6 i; have := lane_lt16 jj; omega⟩)
        (E (ix1 ⟨256 + 16 * i.val + (jj 0).val, by have := lt8_6 i; have := lane_lt16 jj; omega⟩)) (v5 jj)) H3p y hy k0_t6_loop.trips

end Cert.Proof.KB

end
-- ==== Proof.KBRowVal7.lean ====
/-
  What trip k of the row loop over chunk 3 stores: into words [17 k, 17 k + 16) of each of the three partial-sum
  scratches, lane j of the stored vector is the partial sum over lane j of the row's twelve 16-lane pieces and of its
  masked tail — of the species words themselves, of their halves, and of their bitwise and with their halves. The
  kernel adds the even and the odd pieces in two accumulators; the order does not matter for 32-bit words.
-/
import proofs.«206979_g57535381897292_cont_9to1_m_841_24_alg».proof.Proof.KBValLib
import proofs.«206979_g57535381897292_cont_9to1_m_841_24_alg».proof.Proof.KBRow7

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this row loop runs below 128. -/
theorem lt128_7 (k : Fin k0_t7_loop.trips) : k.val < 128 := lt_of_lt_of_le k.isLt k0_t7_abs.2.1

/-- The piece trip k stores into the first partial-sum scratch: words [17 k, 17 k + 16), lane j the row's partial sum of
    the species words themselves. -/
theorem rowTrip7_P4 (k : Fin k0_t7_loop.trips) (X : Buf (Elt F) ((V d (cV L) (jV L)).loc cc0_scratch1)) :
    (rowTrip7 d L k0_pay417 k0_pay425 k).1 X
      = ⟨Rect.unit (s := S2176) (k0_off62 k) S16.size (k0_off62_inb k),
          fun j => rowLane id X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay13, k0_pay9, k0_pay11, k0_pay425, addi, select, broadcast, IntOp.addi]
  refine lane_sum_a (fun p => X (ix2 ⟨k.val, lt128_7 k⟩ ⟨16 * p.val + (j 0).val, by have := p.isLt; omega⟩)) _
    _ _ _ _ _ _ _ _ _ _ _ _ _ ?_ ?_ ?_ ?_ ?_ ?_ ?_ ?_ ?_ ?_ ?_ ?_ ?_
  · exact (piece_apply (F := F) (View.whole cc0_scratch1) X (k0_off49 k) _ _ k.val 0 (k0_off49_eq k) j (lt128_7 k) (by omega))
  · exact (piece_apply (F := F) (View.whole cc0_scratch1) X (k0_off50 k) _ _ k.val 16 (k0_off50_eq k) j (lt128_7 k) (by omega))
  · exact (piece_apply (F := F) (View.whole cc0_scratch1) X (k0_off51 k) _ _ k.val 32 (k0_off51_eq k) j (lt128_7 k) (by omega))
  · exact (piece_apply (F := F) (View.whole cc0_scratch1) X (k0_off52 k) _ _ k.val 48 (k0_off52_eq k) j (lt128_7 k) (by omega))
  · exact (piece_apply (F := F) (View.whole cc0_scratch1) X (k0_off53 k) _ _ k.val 64 (k0_off53_eq k) j (lt128_7 k) (by omega))
  · exact (piece_apply (F := F) (View.whole cc0_scratch1) X (k0_off54 k) _ _ k.val 80 (k0_off54_eq k) j (lt128_7 k) (by omega))
  · exact (piece_apply (F := F) (View.whole cc0_scratch1) X (k0_off55 k) _ _ k.val 96 (k0_off55_eq k) j (lt128_7 k) (by omega))
  · exact (piece_apply (F := F) (View.whole cc0_scratch1) X (k0_off56 k) _ _ k.val 112 (k0_off56_eq k) j (lt128_7 k) (by omega))
  · exact (piece_apply (F := F) (View.whole cc0_scratch1) X (k0_off57 k) _ _ k.val 128 (k0_off57_eq k) j (lt128_7 k) (by omega))
  · exact (piece_apply (F := F) (View.whole cc0_scratch1) X (k0_off58 k) _ _ k.val 144 (k0_off58_eq k) j (lt128_7 k) (by omega))
  · exact (piece_apply (F := F) (View.whole cc0_scratch1) X (k0_off59 k) _ _ k.val 160 (k0_off59_eq k) j (lt128_7 k) (by omega))
  · exact (piece_apply (F := F) (View.whole cc0_scratch1) X (k0_off60 k) _ _ k.val 176 (k0_off60_eq k) j (lt128_7 k) (by omega))
  · refine ((select_pay417 j _ _).trans ?_)
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

/-- The piece trip k stores into the second partial-sum scratch: lane j the row's partial sum of the halved words. -/
theorem rowTrip7_P5 (k : Fin k0_t7_loop.trips) (X : Buf (Elt F) ((V d (cV L) (jV L)).loc cc0_scratch1)) :
    (rowTrip7 d L k0_pay417 k0_pay425 k).2.1 X
      = ⟨Rect.unit (s := S2176) (k0_off62 k) S16.size (k0_off62_inb k),
          fun j => rowLane shr1 X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay14, k0_pay9, k0_pay10, k0_pay11, k0_pay12, k0_pay425, addi, shrsi, select, broadcast, IntOp.addi]
  refine lane_sum_b (fun p => shr1 (X (ix2 ⟨k.val, lt128_7 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg shr1 (piece_apply (F := F) (View.whole cc0_scratch1) X (k0_off49 k) _ _ k.val 0 (k0_off49_eq k) j (lt128_7 k) (by omega))
  · exact congrArg shr1 (piece_apply (F := F) (View.whole cc0_scratch1) X (k0_off50 k) _ _ k.val 16 (k0_off50_eq k) j (lt128_7 k) (by omega))
  · exact congrArg shr1 (piece_apply (F := F) (View.whole cc0_scratch1) X (k0_off51 k) _ _ k.val 32 (k0_off51_eq k) j (lt128_7 k) (by omega))
  · exact congrArg shr1 (piece_apply (F := F) (View.whole cc0_scratch1) X (k0_off52 k) _ _ k.val 48 (k0_off52_eq k) j (lt128_7 k) (by omega))
  · exact congrArg shr1 (piece_apply (F := F) (View.whole cc0_scratch1) X (k0_off53 k) _ _ k.val 64 (k0_off53_eq k) j (lt128_7 k) (by omega))
  · exact congrArg shr1 (piece_apply (F := F) (View.whole cc0_scratch1) X (k0_off54 k) _ _ k.val 80 (k0_off54_eq k) j (lt128_7 k) (by omega))
  · exact congrArg shr1 (piece_apply (F := F) (View.whole cc0_scratch1) X (k0_off55 k) _ _ k.val 96 (k0_off55_eq k) j (lt128_7 k) (by omega))
  · exact congrArg shr1 (piece_apply (F := F) (View.whole cc0_scratch1) X (k0_off56 k) _ _ k.val 112 (k0_off56_eq k) j (lt128_7 k) (by omega))
  · exact congrArg shr1 (piece_apply (F := F) (View.whole cc0_scratch1) X (k0_off57 k) _ _ k.val 128 (k0_off57_eq k) j (lt128_7 k) (by omega))
  · exact congrArg shr1 (piece_apply (F := F) (View.whole cc0_scratch1) X (k0_off58 k) _ _ k.val 144 (k0_off58_eq k) j (lt128_7 k) (by omega))
  · exact congrArg shr1 (piece_apply (F := F) (View.whole cc0_scratch1) X (k0_off59 k) _ _ k.val 160 (k0_off59_eq k) j (lt128_7 k) (by omega))
  · exact congrArg shr1 (piece_apply (F := F) (View.whole cc0_scratch1) X (k0_off60 k) _ _ k.val 176 (k0_off60_eq k) j (lt128_7 k) (by omega))
  · refine congrArg shr1 (((select_pay417 j _ _).trans ?_))
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

/-- The piece trip k stores into the third partial-sum scratch: lane j the row's partial sum of the words' bitwise and
    with their halves. -/
theorem rowTrip7_P6 (k : Fin k0_t7_loop.trips) (X : Buf (Elt F) ((V d (cV L) (jV L)).loc cc0_scratch1)) :
    (rowTrip7 d L k0_pay417 k0_pay425 k).2.2.1 X
      = ⟨Rect.unit (s := S2176) (k0_off62 k) S16.size (k0_off62_inb k),
          fun j => rowLane and1 X ⟨k.val, lt128_7 k⟩ ⟨(j 0).val, (j 0).isLt⟩⟩ := by
  unfold rowTrip7
  dsimp only
  refine congrArg (Sigma.mk _) (funext fun j => ?_)
  sl_unfold_run_names
  have hj : (j 0).val < 16 := (j 0).isLt
  simp only [k0_pay15, k0_pay9, k0_pay10, k0_pay11, k0_pay12, k0_pay425, addi, andi, shrsi, select, broadcast, IntOp.addi]
  refine lane_sum_b (fun p => and1 (X (ix2 ⟨k.val, lt128_7 k⟩ ⟨16 * p.val + (j 0).val, by have := p.isLt; omega⟩))) _
    _ _ _ _ _ _ _ _ _ _ _ _ _ ?_ ?_ ?_ ?_ ?_ ?_ ?_ ?_ ?_ ?_ ?_ ?_ ?_
  · exact congrArg and1 (piece_apply (F := F) (View.whole cc0_scratch1) X (k0_off49 k) _ _ k.val 0 (k0_off49_eq k) j (lt128_7 k) (by omega))
  · exact congrArg and1 (piece_apply (F := F) (View.whole cc0_scratch1) X (k0_off50 k) _ _ k.val 16 (k0_off50_eq k) j (lt128_7 k) (by omega))
  · exact congrArg and1 (piece_apply (F := F) (View.whole cc0_scratch1) X (k0_off51 k) _ _ k.val 32 (k0_off51_eq k) j (lt128_7 k) (by omega))
  · exact congrArg and1 (piece_apply (F := F) (View.whole cc0_scratch1) X (k0_off52 k) _ _ k.val 48 (k0_off52_eq k) j (lt128_7 k) (by omega))
  · exact congrArg and1 (piece_apply (F := F) (View.whole cc0_scratch1) X (k0_off53 k) _ _ k.val 64 (k0_off53_eq k) j (lt128_7 k) (by omega))
  · exact congrArg and1 (piece_apply (F := F) (View.whole cc0_scratch1) X (k0_off54 k) _ _ k.val 80 (k0_off54_eq k) j (lt128_7 k) (by omega))
  · exact congrArg and1 (piece_apply (F := F) (View.whole cc0_scratch1) X (k0_off55 k) _ _ k.val 96 (k0_off55_eq k) j (lt128_7 k) (by omega))
  · exact congrArg and1 (piece_apply (F := F) (View.whole cc0_scratch1) X (k0_off56 k) _ _ k.val 112 (k0_off56_eq k) j (lt128_7 k) (by omega))
  · exact congrArg and1 (piece_apply (F := F) (View.whole cc0_scratch1) X (k0_off57 k) _ _ k.val 128 (k0_off57_eq k) j (lt128_7 k) (by omega))
  · exact congrArg and1 (piece_apply (F := F) (View.whole cc0_scratch1) X (k0_off58 k) _ _ k.val 144 (k0_off58_eq k) j (lt128_7 k) (by omega))
  · exact congrArg and1 (piece_apply (F := F) (View.whole cc0_scratch1) X (k0_off59 k) _ _ k.val 160 (k0_off59_eq k) j (lt128_7 k) (by omega))
  · exact congrArg and1 (piece_apply (F := F) (View.whole cc0_scratch1) X (k0_off60 k) _ _ k.val 176 (k0_off60_eq k) j (lt128_7 k) (by omega))
  · refine congrArg and1 (((select_pay417 j _ _).trans ?_))
    by_cases h8 : 8 ≤ (j 0).val
    · rw [if_pos h8]
      refine (piece_apply (F := F) (View.whole cc0_scratch1) X (k0_off61 k) _ _ k.val 184 (k0_off61_eq k) j (lt128_7 k) (by omega)).trans ?_
      exact (if_pos h8).symm
    · rw [if_neg h8]
      exact (if_neg h8).symm

end Cert.Proof.KB

end
-- ==== Proof.KBGrpVal8.lean ====
/-
  What trip k of the group loop of chunk 3 stores into the output scratch: for lane j, row 16 k + j of the chunk, the
  three gathered totals (the sums of that row's sixteen words in each partial-sum scratch: word 17 (16 k + j) + i at step
  i, the sixteen steps added one after the other onto zero) enter the energy expression with the tile's energy
  384 + 16 k + j and lane j of the intercept vector.
-/
import proofs.«206979_g57535381897292_cont_9to1_m_841_24_alg».proof.Proof.KBValLib
import proofs.«206979_g57535381897292_cont_9to1_m_841_24_alg».proof.Proof.KBGrp8

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- A trip of this group loop runs below 8. -/
theorem lt8_8 (k : Fin k0_t8_loop.trips) : k.val < 8 := lt_of_lt_of_le k.isLt k0_t8_abs.2.1

/-- The piece trip k of the group loop of chunk 3 stores into the output scratch: words [384 + 16 k, 384 + 16 k + 16), lane j
    the energy expression at the three totals of row 16 k + j of the chunk (each the sum of that row's sixteen words in a
    partial-sum scratch), the tile's energy 384 + 16 k + j and lane j of the intercept vector. -/
theorem grpTrip8_P3 (v5 : Vec F S16 .f32) (v6 : IVec S16 32) (v9 : Vec F S16 .f32)
    (hv6 : ∀ x, (v6 x).toNat < 16) (hv6e : ∀ x, (v6 x).toNat = (x 0).val) (k : Fin k0_t8_loop.trips)
    (G4 : Buf (Elt F) ((V d (cV L) (jV L)).loc cc0_scratch4)) (G5 : Buf (Elt F) ((V d (cV L) (jV L)).loc cc0_scratch5))
    (G6 : Buf (Elt F) ((V d (cV L) (jV L)).loc cc0_scratch6)) (E : Buf (Elt F) ((V d (cV L) (jV L)).loc cc0_scratch2)) :
    (grpTrip8 d L v5 v6 (k0_pay421 v9) (k0_pay422 v9) (k0_pay423 v9) (k0_pay424 v9) k0_pay425 hv6 k).1 G4 G5 G6 E
      = ⟨Rect.unit (s := S512) (k0_off63 k) S16.size (k0_off63_inb k), fun j =>
          energyOf v9 (gath G4 ⟨16 * k.val + (j 0).val, by have := lt8_8 k; have := lane_lt16 j; omega⟩)
            (gath G5 ⟨16 * k.val + (j 0).val, by have := lt8_8 k; have := lane_lt16 j; omega⟩)
            (gath G6 ⟨16 * k.val + (j 0).val, by have := lt8_8 k; have := lane_lt16 j; omega⟩)
            (E (ix1 ⟨384 + 16 * k.val + (j 0).val, by have := lt8_8 k; have := lane_lt16 j; omega⟩)) (v5 j)⟩ := by
  unfold grpTrip8
  dsimp only
  refine congrArg (Sigma.mk _) (funext fun j => ?_)
  sl_unfold_run_names
  have hj : (j 0).val < 16 := (j 0).isLt
  have hk := lt8_8 k
  refine energy_congr v9 _ _ _ _ _ _ _ _ _ _ ?_ ?_ ?_ ?_ ?_
  · refine lane_sum16 (fun i => G4 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch4) G4 _ _ j _ ((colv_toNat v6 hv6 k.val hk 0#32 (by decide) j).trans (by rw [hv6e j]; rfl)) _
    · exact gather_apply (F := F) (View.whole cc0_scratch4) G4 _ _ j _ ((colv_toNat v6 hv6 k.val hk 1#32 (by decide) j).trans (by rw [hv6e j]; rfl)) _
    · exact gather_apply (F := F) (View.whole cc0_scratch4) G4 _ _ j _ ((colv_toNat v6 hv6 k.val hk 2#32 (by decide) j).trans (by rw [hv6e j]; rfl)) _
    · exact gather_apply (F := F) (View.whole cc0_scratch4) G4 _ _ j _ ((colv_toNat v6 hv6 k.val hk 3#32 (by decide) j).trans (by rw [hv6e j]; rfl)) _
    · exact gather_apply (F := F) (View.whole cc0_scratch4) G4 _ _ j _ ((colv_toNat v6 hv6 k.val hk 4#32 (by decide) j).trans (by rw [hv6e j]; rfl)) _
    · exact gather_apply (F := F) (View.whole cc0_scratch4) G4 _ _ j _ ((colv_toNat v6 hv6 k.val hk 5#32 (by decide) j).trans (by rw [hv6e j]; rfl)) _
    · exact gather_apply (F := F) (View.whole cc0_scratch4) G4 _ _ j _ ((colv_toNat v6 hv6 k.val hk 6#32 (by decide) j).trans (by rw [hv6e j]; rfl)) _
    · exact gather_apply (F := F) (View.whole cc0_scratch4) G4 _ _ j _ ((colv_toNat v6 hv6 k.val hk 7#32 (by decide) j).trans (by rw [hv6e j]; rfl)) _
    · exact gather_apply (F := F) (View.whole cc0_scratch4) G4 _ _ j _ ((colv_toNat v6 hv6 k.val hk 8#32 (by decide) j).trans (by rw [hv6e j]; rfl)) _
    · exact gather_apply (F := F) (View.whole cc0_scratch4) G4 _ _ j _ ((colv_toNat v6 hv6 k.val hk 9#32 (by decide) j).trans (by rw [hv6e j]; rfl)) _
    · exact gather_apply (F := F) (View.whole cc0_scratch4) G4 _ _ j _ ((colv_toNat v6 hv6 k.val hk 10#32 (by decide) j).trans (by rw [hv6e j]; rfl)) _
    · exact gather_apply (F := F) (View.whole cc0_scratch4) G4 _ _ j _ ((colv_toNat v6 hv6 k.val hk 11#32 (by decide) j).trans (by rw [hv6e j]; rfl)) _
    · exact gather_apply (F := F) (View.whole cc0_scratch4) G4 _ _ j _ ((colv_toNat v6 hv6 k.val hk 12#32 (by decide) j).trans (by rw [hv6e j]; rfl)) _
    · exact gather_apply (F := F) (View.whole cc0_scratch4) G4 _ _ j _ ((colv_toNat v6 hv6 k.val hk 13#32 (by decide) j).trans (by rw [hv6e j]; rfl)) _
    · exact gather_apply (F := F) (View.whole cc0_scratch4) G4 _ _ j _ ((colv_toNat v6 hv6 k.val hk 14#32 (by decide) j).trans (by rw [hv6e j]; rfl)) _
    · exact gather_apply (F := F) (View.whole cc0_scratch4) G4 _ _ j _ ((colv_toNat v6 hv6 k.val hk 15#32 (by decide) j).trans (by rw [hv6e j]; rfl)) _
  · refine lane_sum16 (fun i => G5 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch5) G5 _ _ j _ ((colv_toNat v6 hv6 k.val hk 0#32 (by decide) j).trans (by rw [hv6e j]; rfl)) _
    · exact gather_apply (F := F) (View.whole cc0_scratch5) G5 _ _ j _ ((colv_toNat v6 hv6 k.val hk 1#32 (by decide) j).trans (by rw [hv6e j]; rfl)) _
    · exact gather_apply (F := F) (View.whole cc0_scratch5) G5 _ _ j _ ((colv_toNat v6 hv6 k.val hk 2#32 (by decide) j).trans (by rw [hv6e j]; rfl)) _
    · exact gather_apply (F := F) (View.whole cc0_scratch5) G5 _ _ j _ ((colv_toNat v6 hv6 k.val hk 3#32 (by decide) j).trans (by rw [hv6e j]; rfl)) _
    · exact gather_apply (F := F) (View.whole cc0_scratch5) G5 _ _ j _ ((colv_toNat v6 hv6 k.val hk 4#32 (by decide) j).trans (by rw [hv6e j]; rfl)) _
    · exact gather_apply (F := F) (View.whole cc0_scratch5) G5 _ _ j _ ((colv_toNat v6 hv6 k.val hk 5#32 (by decide) j).trans (by rw [hv6e j]; rfl)) _
    · exact gather_apply (F := F) (View.whole cc0_scratch5) G5 _ _ j _ ((colv_toNat v6 hv6 k.val hk 6#32 (by decide) j).trans (by rw [hv6e j]; rfl)) _
    · exact gather_apply (F := F) (View.whole cc0_scratch5) G5 _ _ j _ ((colv_toNat v6 hv6 k.val hk 7#32 (by decide) j).trans (by rw [hv6e j]; rfl)) _
    · exact gather_apply (F := F) (View.whole cc0_scratch5) G5 _ _ j _ ((colv_toNat v6 hv6 k.val hk 8#32 (by decide) j).trans (by rw [hv6e j]; rfl)) _
    · exact gather_apply (F := F) (View.whole cc0_scratch5) G5 _ _ j _ ((colv_toNat v6 hv6 k.val hk 9#32 (by decide) j).trans (by rw [hv6e j]; rfl)) _
    · exact gather_apply (F := F) (View.whole cc0_scratch5) G5 _ _ j _ ((colv_toNat v6 hv6 k.val hk 10#32 (by decide) j).trans (by rw [hv6e j]; rfl)) _
    · exact gather_apply (F := F) (View.whole cc0_scratch5) G5 _ _ j _ ((colv_toNat v6 hv6 k.val hk 11#32 (by decide) j).trans (by rw [hv6e j]; rfl)) _
    · exact gather_apply (F := F) (View.whole cc0_scratch5) G5 _ _ j _ ((colv_toNat v6 hv6 k.val hk 12#32 (by decide) j).trans (by rw [hv6e j]; rfl)) _
    · exact gather_apply (F := F) (View.whole cc0_scratch5) G5 _ _ j _ ((colv_toNat v6 hv6 k.val hk 13#32 (by decide) j).trans (by rw [hv6e j]; rfl)) _
    · exact gather_apply (F := F) (View.whole cc0_scratch5) G5 _ _ j _ ((colv_toNat v6 hv6 k.val hk 14#32 (by decide) j).trans (by rw [hv6e j]; rfl)) _
    · exact gather_apply (F := F) (View.whole cc0_scratch5) G5 _ _ j _ ((colv_toNat v6 hv6 k.val hk 15#32 (by decide) j).trans (by rw [hv6e j]; rfl)) _
  · refine lane_sum16 (fun i => G6 (ix1 ⟨17 * (16 * k.val + (j 0).val) + i.val, by have := i.isLt; omega⟩))
      _ _ _ _ _ _ _ _ _ _ _ _ _ _ _ _ ?_ ?_ ?_ ?_ ?_ ?_ ?_ ?_ ?_ ?_ ?_ ?_ ?_ ?_ ?_ ?_
    · exact gather_apply (F := F) (View.whole cc0_scratch6) G6 _ _ j _ ((colv_toNat v6 hv6 k.val hk 0#32 (by decide) j).trans (by rw [hv6e j]; rfl)) _
    · exact gather_apply (F := F) (View.whole cc0_scratch6) G6 _ _ j _ ((colv_toNat v6 hv6 k.val hk 1#32 (by decide) j).trans (by rw [hv6e j]; rfl)) _
    · exact gather_apply (F := F) (View.whole cc0_scratch6) G6 _ _ j _ ((colv_toNat v6 hv6 k.val hk 2#32 (by decide) j).trans (by rw [hv6e j]; rfl)) _
    · exact gather_apply (F := F) (View.whole cc0_scratch6) G6 _ _ j _ ((colv_toNat v6 hv6 k.val hk 3#32 (by decide) j).trans (by rw [hv6e j]; rfl)) _
    · exact gather_apply (F := F) (View.whole cc0_scratch6) G6 _ _ j _ ((colv_toNat v6 hv6 k.val hk 4#32 (by decide) j).trans (by rw [hv6e j]; rfl)) _
    · exact gather_apply (F := F) (View.whole cc0_scratch6) G6 _ _ j _ ((colv_toNat v6 hv6 k.val hk 5#32 (by decide) j).trans (by rw [hv6e j]; rfl)) _
    · exact gather_apply (F := F) (View.whole cc0_scratch6) G6 _ _ j _ ((colv_toNat v6 hv6 k.val hk 6#32 (by decide) j).trans (by rw [hv6e j]; rfl)) _
    · exact gather_apply (F := F) (View.whole cc0_scratch6) G6 _ _ j _ ((colv_toNat v6 hv6 k.val hk 7#32 (by decide) j).trans (by rw [hv6e j]; rfl)) _
    · exact gather_apply (F := F) (View.whole cc0_scratch6) G6 _ _ j _ ((colv_toNat v6 hv6 k.val hk 8#32 (by decide) j).trans (by rw [hv6e j]; rfl)) _
    · exact gather_apply (F := F) (View.whole cc0_scratch6) G6 _ _ j _ ((colv_toNat v6 hv6 k.val hk 9#32 (by decide) j).trans (by rw [hv6e j]; rfl)) _
    · exact gather_apply (F := F) (View.whole cc0_scratch6) G6 _ _ j _ ((colv_toNat v6 hv6 k.val hk 10#32 (by decide) j).trans (by rw [hv6e j]; rfl)) _
    · exact gather_apply (F := F) (View.whole cc0_scratch6) G6 _ _ j _ ((colv_toNat v6 hv6 k.val hk 11#32 (by decide) j).trans (by rw [hv6e j]; rfl)) _
    · exact gather_apply (F := F) (View.whole cc0_scratch6) G6 _ _ j _ ((colv_toNat v6 hv6 k.val hk 12#32 (by decide) j).trans (by rw [hv6e j]; rfl)) _
    · exact gather_apply (F := F) (View.whole cc0_scratch6) G6 _ _ j _ ((colv_toNat v6 hv6 k.val hk 13#32 (by decide) j).trans (by rw [hv6e j]; rfl)) _
    · exact gather_apply (F := F) (View.whole cc0_scratch6) G6 _ _ j _ ((colv_toNat v6 hv6 k.val hk 14#32 (by decide) j).trans (by rw [hv6e j]; rfl)) _
    · exact gather_apply (F := F) (View.whole cc0_scratch6) G6 _ _ j _ ((colv_toNat v6 hv6 k.val hk 15#32 (by decide) j).trans (by rw [hv6e j]; rfl)) _
  · exact slice16_apply (F := F) (View.whole cc0_scratch2) E (k0_off63 k) _ (384 + 16 * k.val)
      ((k0_off63_eq k).trans (congrArg (fun n : Nat => (![n] : Fin 1 → Nat)) (by omega))) j (by omega)
  · rfl

end Cert.Proof.KB

end
-- ==== Proof.KBChunkVal3.lean ====
/-
  Chunk 3 of a tile, after its two loops. The row loop leaves, in each of the three partial-sum scratches, at words
  17 r … 17 r + 15 the sixteen lanes of row r's partial sums, so those sixteen words add up to the row's total. The group
  loop then leaves, at word 384 + 16 k + l of the output scratch, the energy expression at the three totals of row
  16 k + l, and keeps every word outside the chunk's 128.
-/
import proofs.«206979_g57535381897292_cont_9to1_m_841_24_alg».proof.Proof.KBValLib
import proofs.«206979_g57535381897292_cont_9to1_m_841_24_alg».proof.Proof.KBChunkLib
import proofs.«206979_g57535381897292_cont_9to1_m_841_24_alg».proof.Proof.KBRowVal7
import proofs.«206979_g57535381897292_cont_9to1_m_841_24_alg».proof.Proof.KBGrpVal8

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open ValueIdx

variable {F : FTy → Type}
variable [FloatOps F]
variable (d : Dev nD) (L : grid0.Coords)

/-- The row loop of chunk 3 runs 128 trips. -/
theorem trips_t7 : k0_t7_loop.trips = 128 := by decide

/-- The group loop of chunk 3 runs 8 trips. -/
theorem trips_t8 : k0_t8_loop.trips = 8 := by decide

/-- After the row loop of chunk 3: word 17 r + j of partial-sum scratch 4 is lane j of row r's partial sum, whatever
    the scratch held before. -/
theorem chunk3_s4  (X : Buf (Elt F) ((V d (cV L) (jV L)).loc cc0_scratch1))
    (g : Buf (Elt F) ((V d (cV L) (jV L)).loc cc0_scratch4)) (r : Fin 128) (j : Fin 16) :
    fillW (s4).view (fun i => (rowTrip7 d L k0_pay417 k0_pay425 i).1 X) g k0_t7_loop.trips
        (ix1 ⟨17 * r.val + j.val, by have := r.isLt; have := j.isLt; omega⟩)
      = rowLane id X r j := by
  have hpc : (fun i => (rowTrip7 d L k0_pay417 k0_pay425 i).1 X)
      = fun i => (⟨Rect.unit (s := S2176) (k0_off62 i) S16.size (k0_off62_inb i),
          fun jj => rowLane id X ⟨i.val, lt128_7 i⟩ ⟨(jj 0).val, lane_lt16 jj⟩⟩ : View.Piece (Elt F) S2176 .i32) :=
    funext fun i => rowTrip7_P4 d L  i X
  rw [hpc]
  exact fillW_rows17 (F := F) (s4).view (le_of_eq trips_t7) k0_off62 k0_off62_inb k0_off62_eq
    (fun i jj => rowLane id X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total. -/
theorem chunk3_gath4  (X : Buf (Elt F) ((V d (cV L) (jV L)).loc cc0_scratch1))
    (g : Buf (Elt F) ((V d (cV L) (jV L)).loc cc0_scratch4)) (r : Fin 128) :
    gath (fillW (s4).view (fun i => (rowTrip7 d L k0_pay417 k0_pay425 i).1 X) g k0_t7_loop.trips) r = rowTot id X r :=
  Finset.sum_congr rfl fun j _ => chunk3_s4 d L  X g r j

/-- After the row loop of chunk 3: word 17 r + j of partial-sum scratch 5 is lane j of row r's partial sum under shr1, whatever
    the scratch held before. -/
theorem chunk3_s5  (X : Buf (Elt F) ((V d (cV L) (jV L)).loc cc0_scratch1))
    (g : Buf (Elt F) ((V d (cV L) (jV L)).loc cc0_scratch5)) (r : Fin 128) (j : Fin 16) :
    fillW (s5).view (fun i => (rowTrip7 d L k0_pay417 k0_pay425 i).2.1 X) g k0_t7_loop.trips
        (ix1 ⟨17 * r.val + j.val, by have := r.isLt; have := j.isLt; omega⟩)
      = rowLane shr1 X r j := by
  have hpc : (fun i => (rowTrip7 d L k0_pay417 k0_pay425 i).2.1 X)
      = fun i => (⟨Rect.unit (s := S2176) (k0_off62 i) S16.size (k0_off62_inb i),
          fun jj => rowLane shr1 X ⟨i.val, lt128_7 i⟩ ⟨(jj 0).val, lane_lt16 jj⟩⟩ : View.Piece (Elt F) S2176 .i32) :=
    funext fun i => rowTrip7_P5 d L  i X
  rw [hpc]
  exact fillW_rows17 (F := F) (s5).view (le_of_eq trips_t7) k0_off62 k0_off62_inb k0_off62_eq
    (fun i jj => rowLane shr1 X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total under shr1. -/
theorem chunk3_gath5  (X : Buf (Elt F) ((V d (cV L) (jV L)).loc cc0_scratch1))
    (g : Buf (Elt F) ((V d (cV L) (jV L)).loc cc0_scratch5)) (r : Fin 128) :
    gath (fillW (s5).view (fun i => (rowTrip7 d L k0_pay417 k0_pay425 i).2.1 X) g k0_t7_loop.trips) r = rowTot shr1 X r :=
  Finset.sum_congr rfl fun j _ => chunk3_s5 d L  X g r j

/-- After the row loop of chunk 3: word 17 r + j of partial-sum scratch 6 is lane j of row r's partial sum under and1, whatever
    the scratch held before. -/
theorem chunk3_s6  (X : Buf (Elt F) ((V d (cV L) (jV L)).loc cc0_scratch1))
    (g : Buf (Elt F) ((V d (cV L) (jV L)).loc cc0_scratch6)) (r : Fin 128) (j : Fin 16) :
    fillW (s6).view (fun i => (rowTrip7 d L k0_pay417 k0_pay425 i).2.2.1 X) g k0_t7_loop.trips
        (ix1 ⟨17 * r.val + j.val, by have := r.isLt; have := j.isLt; omega⟩)
      = rowLane and1 X r j := by
  have hpc : (fun i => (rowTrip7 d L k0_pay417 k0_pay425 i).2.2.1 X)
      = fun i => (⟨Rect.unit (s := S2176) (k0_off62 i) S16.size (k0_off62_inb i),
          fun jj => rowLane and1 X ⟨i.val, lt128_7 i⟩ ⟨(jj 0).val, lane_lt16 jj⟩⟩ : View.Piece (Elt F) S2176 .i32) :=
    funext fun i => rowTrip7_P6 d L  i X
  rw [hpc]
  exact fillW_rows17 (F := F) (s6).view (le_of_eq trips_t7) k0_off62 k0_off62_inb k0_off62_eq
    (fun i jj => rowLane and1 X ⟨i.val, lt128_7 i⟩ ⟨(jj 0).val, lane_lt16 jj⟩) g
    ⟨r.val, lt_of_lt_of_eq r.isLt trips_t7.symm⟩ j k0_t7_loop.trips (lt_of_lt_of_eq r.isLt trips_t7.symm)

/-- So the sixteen words of row r of that scratch add up to the row's total under and1. -/
theorem chunk3_gath6  (X : Buf (Elt F) ((V d (cV L) (jV L)).loc cc0_scratch1))
    (g : Buf (Elt F) ((V d (cV L) (jV L)).loc cc0_scratch6)) (r : Fin 128) :
    gath (fillW (s6).view (fun i => (rowTrip7 d L k0_pay417 k0_pay425 i).2.2.1 X) g k0_t7_loop.trips) r = rowTot and1 X r :=
  Finset.sum_congr rfl fun j _ => chunk3_s6 d L  X g r j

/-- After both loops of chunk 3: word 384 + 16 k + l of the output scratch is the energy expression at the three totals of
    row 16 k + l of the chunk, the tile's energy 384 + 16 k + l and lane l of the intercept vector. -/
theorem chunk3_in  (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (k : Fin 8) (l : Fin 16) :
    fillW (s3).view (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E) H3p k0_t8_loop.trips (ix1 ⟨384 + 16 * k.val + l.val, by have := k.isLt; have := l.isLt; omega⟩)
      = energyOf v9 (rowTot id X ⟨16 * k.val + l.val, by have := k.isLt; have := l.isLt; omega⟩) (rowTot shr1 X ⟨16 * k.val + l.val, by have := k.isLt; have := l.isLt; omega⟩)
          (rowTot and1 X ⟨16 * k.val + l.val, by have := k.isLt; have := l.isLt; omega⟩) (E (ix1 ⟨384 + 16 * k.val + l.val, by have := k.isLt; have := l.isLt; omega⟩)) (v5 (ix1 l)) := by
  have hpc : (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E)
      = fun i => (⟨Rect.unit (s := S512) (k0_off63 i) S16.size (k0_off63_inb i), (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) i⟩ : View.Piece (Elt F) S512 .f32) :=
    funext fun i => grpTrip8_P3 d L v5 v6 v9 hv6 hv6e i _ _ _ E
  rw [hpc]
  refine (fillW_out16 (F := F) (s3).view (le_of_eq trips_t8) 384 (by omega) k0_off63 k0_off63_inb (fun i => (k0_off63_eq i).trans (congrArg (fun n : Nat => (![n] : Fin 1 → Nat)) (by omega)))
    (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) H3p ⟨k.val, lt_of_lt_of_eq k.isLt trips_t8.symm⟩ l k0_t8_loop.trips (lt_of_lt_of_eq k.isLt trips_t8.symm)).trans ?_
  dsimp only
  rw [chunk3_gath4 d L  X G4p, chunk3_gath5 d L  X G5p, chunk3_gath6 d L  X G6p]

/-- The group loop of chunk 3 leaves every word of the output scratch outside [384, 512) as it was. -/
theorem chunk3_out  (v5 : Vec F S16 .f32) (v6 : IVec S16 32) (v9 : Vec F S16 .f32) (hv6 : ∀ x, (v6 x).toNat < 16) (hv6e : ∀ x, (v6 x).toNat = (x 0).val) (X : Buf (Elt F) ((V d (cV L) (jV L)).loc cc0_scratch1))
    (G4p : Buf (Elt F) ((V d (cV L) (jV L)).loc cc0_scratch4)) (G5p : Buf (Elt F) ((V d (cV L) (jV L)).loc cc0_scratch5))
    (G6p : Buf (Elt F) ((V d (cV L) (jV L)).loc cc0_scratch6)) (E : Buf (Elt F) ((V d (cV L) (jV L)).loc cc0_scratch2))
    (H3p : Buf (Elt F) ((V d (cV L) (jV L)).loc cc0_scratch3)) (y : S512.Idx) (hy : (y 0).val < 384 ∨ 384 + 128 ≤ (y 0).val) :
    fillW (s3).view (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E) H3p k0_t8_loop.trips y = H3p y := by
  have hpc : (fun i => (grpTrip8 d L v5 v6 (k0_pay421 v9) (k0_pay422 v9) (k0_pay423 v9) (k0_pay424 v9) k0_pay425 hv6 i).1
          (fillW (s4).view (fun i => (rowTrip7 d L k0_pay417 k0_pay425 i).1 X) G4p k0_t7_loop.trips)
          (fillW (s5).view (fun i => (rowTrip7 d L k0_pay417 k0_pay425 i).2.1 X) G5p k0_t7_loop.trips)
          (fillW (s6).view (fun i => (rowTrip7 d L k0_pay417 k0_pay425 i).2.2.1 X) G6p k0_t7_loop.trips) E)
      = fun i => (⟨Rect.unit (s := S512) (k0_off63 i) S16.size (k0_off63_inb i), (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) i⟩ : View.Piece (Elt F) S512 .f32) :=
    funext fun i => grpTrip8_P3 d L v5 v6 v9 hv6 hv6e i _ _ _ E
  rw [hpc]
  exact fillW_out16_outside (F := F) (s3).view (le_of_eq trips_t8) 384 k0_off63 k0_off63_inb (fun i => (k0_off63_eq i).trans (congrArg (fun n : Nat => (![n] : Fin 1 → Nat)) (by omega)))
    (fun i jj => energyOf v9 (gath (fillW (s4).view (fun i => (rowTrip7 d L k0_pay417 k0_pay425 i).1 X) G4p k0_t7_loop.trips) ⟨16 * i.val + (jj 0).val, by have := lt8_8 i; have := lane_lt16 jj; omega⟩)
        (gath (fillW (s5).view (fun i => (rowTrip7 d L k0_pay417 k0_pay425 i).2.1 X) G5p k0_t7_loop.trips) ⟨16 * i.val + (jj 0).val, by have := lt8_8 i; have := lane_lt16 jj; omega⟩)
        (gath (fillW (s6).view (fun i => (rowTrip7 d L k0_pay417 k0_pay425 i).2.2.1 X) G6p k0_t7_loop.trips) ⟨16 * i.val + (jj 0).val, by have := lt8_8 i; have := lane_lt16 jj; omega⟩)
        (E (ix1 ⟨384 + 16 * i.val + (jj 0).val, by have := lt8_8 i; have := lane_lt16 jj; omega⟩)) (v5 jj)) H3p y hy k0_t8_loop.trips

end Cert.Proof.KB

end
-- ==== Proof.KBValue.lean ====
/-
  The energy adder's value. The result array is ONE function of the argument arrays: entry R is the energy expression
  at row R's three integer totals (of the species words, of their halves, of the indicator of 3), the row's energy and
  the intercept. On every tile's block, the function the tile's run ends at is that one: an index of the block is
  512 w + 128 c + 16 k + l; the later chunks' group loops do not touch chunk c's 128 words of the output scratch;
  chunk c's group loop leaves at word 128 c + 16 k + l the energy expression at the totals of the chunk's row 16 k + l,
  which are the array's row's, at the array's energy and at lane l of the intercept.
-/
import proofs.«206979_g57535381897292_cont_9to1_m_841_24_alg».proof.Proof.KBValPre
import proofs.«206979_g57535381897292_cont_9to1_m_841_24_alg».proof.Proof.KBChunkVal0
import proofs.«206979_g57535381897292_cont_9to1_m_841_24_alg».proof.Proof.KBChunkVal1
import proofs.«206979_g57535381897292_cont_9to1_m_841_24_alg».proof.Proof.KBChunkVal2
import proofs.«206979_g57535381897292_cont_9to1_m_841_24_alg».proof.Proof.KBChunkVal3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]
open ValueIdx
open Cert.Proof.LibEnergyAlgebra
open scoped BigOperators

/-- A whole buffer written whole reads the payload. -/
theorem write_whole_apply {κ : Kind} (b : Ref sig κ) (f w : b.ty.Contents (Elt F)) (x : b.ty.shape.Idx) :
    View.write (Elt F) (View.whole b) f w Finset.univ x = w x :=
  congrFun (View.write_whole_univ b f w) x

/-- An index below 512 is 128 c + 16 k + l. -/
theorem split512 (j : Fin 512) : ∃ (c : Nat) (k : Fin 8) (l : Fin 16), c < 4 ∧ j.val = 128 * c + 16 * k.val + l.val :=
  ⟨j.val / 128, ⟨j.val % 128 / 16, by omega⟩, ⟨j.val % 16, by omega⟩, by have := j.isLt; omega, by simp only; omega⟩

variable (m : (ℓ : Loc nD τ sig) → Buf (Elt F) ℓ)

set_option maxHeartbeats 4000000 in
/-- On every tile's block the run's function of the block is the result function. -/
theorem blockOK : BlockOK m (Gout m) := by
  intro d L O W hO q f0 f1 f2 f3 f4 f5 f6 f7 f8 y hy
  obtain ⟨j, rfl⟩ := mem_oSet (widL L) y hy
  unfold tileRun
  dsimp only
  simp only [r_1_eq, r_2_eq, r_3_eq, r_4_eq]
  refine (out_apply d L _ _ j).trans ?_
  obtain ⟨c, k, l, hc, hj⟩ := split512 j
  have hk := k.isLt
  have hl := l.isLt
  interval_cases c
  · -- chunk 0: local rows 0 to 127
    have hj' : (ix1 j : S512.Idx) = ix1 ⟨0 + 16 * k.val + l.val, by omega⟩ :=
      congrArg ix1 (Fin.ext (by show j.val = 0 + 16 * k.val + l.val; omega))
    rw [hj']
    refine (chunk3_out d L (hv6e := iota16_toNat) (y := ix1 ⟨0 + 16 * k.val + l.val, by omega⟩)
      (hy := Or.inl (by show 0 + 16 * k.val + l.val < 384; omega)) ..).trans ?_
    refine (chunk2_out d L (hv6e := iota16_toNat) (y := ix1 ⟨0 + 16 * k.val + l.val, by omega⟩)
      (hy := Or.inl (by show 0 + 16 * k.val + l.val < 256; omega)) ..).trans ?_
    refine (chunk1_out d L (hv6e := iota16_toNat) (y := ix1 ⟨0 + 16 * k.val + l.val, by omega⟩)
      (hy := Or.inl (by show 0 + 16 * k.val + l.val < 128; omega)) ..).trans ?_
    refine (chunk0_in d L (hv6e := iota16_toNat) (k := k) (l := l) ..).trans ?_
    have hN : (⟨512 * (widL L).val + j.val, by have := widL_lt L; omega⟩ : Fin 16384)
        = ⟨512 * (widL L).val + 0 + (16 * k.val + l.val), by have := widL_lt L; omega⟩ :=
      Fin.ext (by show 512 * (widL L).val + j.val = 512 * (widL L).val + 0 + (16 * k.val + l.val); omega)
    rw [hN]
    refine tail_eq m d (512 * (widL L).val + 0) ⟨16 * k.val + l.val, by omega⟩ _ ⟨32 * (widL L).val + 0, by omega⟩ _
      (fun k' => (write_whole_apply _ _ _ _).trans (dma0_apply d L _ _ k')) _ _ ?_ ?_ _ (v9Of_tbVec d L _ _)
    · refine (write_whole_apply _ _ _ _).trans ((dma0_3_apply d L _ ⟨0 + 16 * k.val + l.val, by omega⟩).trans ?_)
      exact congrArg (fun z => m (enLoc d) (ix1 z)) (Fin.ext (by show 512 * (widL L).val + (0 + 16 * k.val + l.val) = 512 * (widL L).val + 0 + (16 * k.val + l.val); omega))
    · refine (r_apply d L _ _ _).trans ?_
      exact congrArg (fun z => ficOf m d (ix1 z)) (Fin.ext (by show l.val = (16 * k.val + l.val) % 16; omega))
  · -- chunk 1: local rows 128 to 255
    have hj' : (ix1 j : S512.Idx) = ix1 ⟨128 + 16 * k.val + l.val, by omega⟩ :=
      congrArg ix1 (Fin.ext (by show j.val = 128 + 16 * k.val + l.val; omega))
    rw [hj']
    refine (chunk3_out d L (hv6e := iota16_toNat) (y := ix1 ⟨128 + 16 * k.val + l.val, by omega⟩)
      (hy := Or.inl (by show 128 + 16 * k.val + l.val < 384; omega)) ..).trans ?_
    refine (chunk2_out d L (hv6e := iota16_toNat) (y := ix1 ⟨128 + 16 * k.val + l.val, by omega⟩)
      (hy := Or.inl (by show 128 + 16 * k.val + l.val < 256; omega)) ..).trans ?_
    refine (chunk1_in d L (hv6e := iota16_toNat) (k := k) (l := l) ..).trans ?_
    have hN : (⟨512 * (widL L).val + j.val, by have := widL_lt L; omega⟩ : Fin 16384)
        = ⟨512 * (widL L).val + 128 + (16 * k.val + l.val), by have := widL_lt L; omega⟩ :=
      Fin.ext (by show 512 * (widL L).val + j.val = 512 * (widL L).val + 128 + (16 * k.val + l.val); omega)
    rw [hN]
    refine tail_eq m d (512 * (widL L).val + 128) ⟨16 * k.val + l.val, by omega⟩ _ ⟨32 * (widL L).val + 8, by omega⟩ _
      (fun k' => (write_whole_apply _ _ _ _).trans (dma2_apply d L _ _ k')) _ _ ?_ ?_ _ (v9Of_tbVec d L _ _)
    · refine (write_whole_apply _ _ _ _).trans ((dma0_3_apply d L _ ⟨128 + 16 * k.val + l.val, by omega⟩).trans ?_)
      exact congrArg (fun z => m (enLoc d) (ix1 z)) (Fin.ext (by show 512 * (widL L).val + (128 + 16 * k.val + l.val) = 512 * (widL L).val + 128 + (16 * k.val + l.val); omega))
    · refine (r_apply d L _ _ _).trans ?_
      exact congrArg (fun z => ficOf m d (ix1 z)) (Fin.ext (by show l.val = (16 * k.val + l.val) % 16; omega))
  · -- chunk 2: local rows 256 to 383
    have hj' : (ix1 j : S512.Idx) = ix1 ⟨256 + 16 * k.val + l.val, by omega⟩ :=
      congrArg ix1 (Fin.ext (by show j.val = 256 + 16 * k.val + l.val; omega))
    rw [hj']
    refine (chunk3_out d L (hv6e := iota16_toNat) (y := ix1 ⟨256 + 16 * k.val + l.val, by omega⟩)
      (hy := Or.inl (by show 256 + 16 * k.val + l.val < 384; omega)) ..).trans ?_
    refine (chunk2_in d L (hv6e := iota16_toNat) (k := k) (l := l) ..).trans ?_
    have hN : (⟨512 * (widL L).val + j.val, by have := widL_lt L; omega⟩ : Fin 16384)
        = ⟨512 * (widL L).val + 256 + (16 * k.val + l.val), by have := widL_lt L; omega⟩ :=
      Fin.ext (by show 512 * (widL L).val + j.val = 512 * (widL L).val + 256 + (16 * k.val + l.val); omega)
    rw [hN]
    refine tail_eq m d (512 * (widL L).val + 256) ⟨16 * k.val + l.val, by omega⟩ _ ⟨32 * (widL L).val + 16, by omega⟩ _
      (fun k' => (write_whole_apply _ _ _ _).trans (dma0_4_apply d L _ _ k')) _ _ ?_ ?_ _ (v9Of_tbVec d L _ _)
    · refine (write_whole_apply _ _ _ _).trans ((dma0_3_apply d L _ ⟨256 + 16 * k.val + l.val, by omega⟩).trans ?_)
      exact congrArg (fun z => m (enLoc d) (ix1 z)) (Fin.ext (by show 512 * (widL L).val + (256 + 16 * k.val + l.val) = 512 * (widL L).val + 256 + (16 * k.val + l.val); omega))
    · refine (r_apply d L _ _ _).trans ?_
      exact congrArg (fun z => ficOf m d (ix1 z)) (Fin.ext (by show l.val = (16 * k.val + l.val) % 16; omega))
  · -- chunk 3: local rows 384 to 511
    have hj' : (ix1 j : S512.Idx) = ix1 ⟨384 + 16 * k.val + l.val, by omega⟩ :=
      congrArg ix1 (Fin.ext (by show j.val = 384 + 16 * k.val + l.val; omega))
    rw [hj']
    refine (chunk3_in d L (hv6e := iota16_toNat) (k := k) (l := l) ..).trans ?_
    have hN : (⟨512 * (widL L).val + j.val, by have := widL_lt L; omega⟩ : Fin 16384)
        = ⟨512 * (widL L).val + 384 + (16 * k.val + l.val), by have := widL_lt L; omega⟩ :=
      Fin.ext (by show 512 * (widL L).val + j.val = 512 * (widL L).val + 384 + (16 * k.val + l.val); omega)
    rw [hN]
    refine tail_eq m d (512 * (widL L).val + 384) ⟨16 * k.val + l.val, by omega⟩ _ ⟨32 * (widL L).val + 24, by omega⟩ _
      (fun k' => (write_whole_apply _ _ _ _).trans (dma0_5_apply d L _ _ k')) _ _ ?_ ?_ _ (v9Of_tbVec d L _ _)
    · refine (write_whole_apply _ _ _ _).trans ((dma0_3_apply d L _ ⟨384 + 16 * k.val + l.val, by omega⟩).trans ?_)
      exact congrArg (fun z => m (enLoc d) (ix1 z)) (Fin.ext (by show 512 * (widL L).val + (384 + 16 * k.val + l.val) = 512 * (widL L).val + 384 + (16 * k.val + l.val); omega))
    · refine (r_apply d L _ _ _).trans ?_
      exact congrArg (fun z => ficOf m d (ix1 z)) (Fin.ext (by show l.val = (16 * k.val + l.val) % 16; omega))

end Cert.Proof.KB

end
-- ==== Proof.RefRun.lean ====
/-
  The reference program's run. @main of the reference is a straight line of host operations once its four outlined
  functions (the clip, the take with its nested index normalisation, the final where) are unfolded at their call
  sites: forty-one operations over the calls' own buffers. Every weakly fair execution of it terminates, the result
  buffer ends at one composed pure term of the four arguments, and the arguments end unchanged.
-/
import proofs.«206979_g57535381897292_cont_9to1_m_841_24_alg».proof.Proof.Gen.ReferenceIdeal
import Idealize.ShloMosaic.Lib.StableHlo.Run
import Idealize.ShloMosaic.PureOps.Ideal

noncomputable section

namespace Cert.Proof.RefRun

open Cert.ReferenceIdeal Cert.ReferenceIdeal.Gen Idealize.ShloMosaic Idealize.ShloMosaic.TcCoe Idealize.SL.Sem Idealize.ShloMosaic.StableHlo

/-! ## The value, stage by stage

Each stage is the pure term of one group of the reference's operations; the integer stages mention no float instance. -/

/-- The species clipped into `[0, 3]`: `min 3 (max 0 s)`, signed. -/
def clipV (a0 : IVec S16384x200 32) : IVec S16384x200 32 :=
  minsi (broadcastInDim S16384x200 ![] bcast_S_S16384x200 (id (constantI S_ 32 3#32)))
    (maxsi (broadcastInDim S16384x200 ![] bcast_S_S16384x200 (id (constantI S_ 32 0#32))) a0)

/-- The take's index normalisation: a negative index counts from the end (`s + 4`), any other is kept. -/
def wrapV (a0 : IVec S16384x200 32) : IVec S16384x200 32 :=
  select (cmpi .slt (clipV a0) (broadcastInDim S16384x200 ![] bcast_S_S16384x200 (constantI S_ 32 0#32)))
    (addi (clipV a0) (broadcastInDim S16384x200 ![] bcast_S_S16384x200 (constantI S_ 32 4#32))) (clipV a0)

/-- The start indices of the gather: the normalised indices with a trailing axis of size one. -/
def idxV (a0 : IVec S16384x200 32) : IVec S16384x200x1 32 :=
  broadcastInDim S16384x200x1 ![0, 1] bcast_S16384x200_S16384x200x1_0_1 (wrapV a0)

/-- The take's in-range mask: `0 ≤ index ≤ 3`, and-reduced over the trailing axis of size one. -/
def inRangeV (a0 : IVec S16384x200 32) : IVec S16384x200 1 :=
  Host.reduce IntOp.andi
    (andi (cmpi .sge (idxV a0) (broadcastInDim S16384x200x1 ![] bcast_S_S16384x200x1 (constantI S_ 32 0#32)))
      (cmpi .sle (idxV a0)
        (broadcastInDim S16384x200x1 ![0, 1, 2] bcast_S1x1x1_S16384x200x1_0_1_2
          (broadcastInDim S1x1x1 ![2] bcast_S1_S1x1x1_2 (constantI S1 32 3#32)))))
    (constantI S_ 1 1#1) reducesTo_S16384x200x1_S16384x200_d2 h_S_

/-- The take: the table gathered at the start indices where the index is in range, the fill value elsewhere. -/
def takeV {F : FTy → Type} [FloatOps F] (a0 : IVec S16384x200 32) (a2 : FVec F S4 .f32) : FVec F S16384x200 .f32 :=
  select (inRangeV a0) (Host.gather gather_S4_S16384x200x1_S16384x200_n_0_n_n_0_2_1 a2 (idxV a0))
    (broadcastInDim S16384x200 ![] bcast_S_S16384x200 (constant S_ .f32 0x7FC00000#32))

/-- The per-atom energies: zero where the species is `-1`, the taken table entry elsewhere. -/
def maskedV {F : FTy → Type} [FloatOps F] (a0 : IVec S16384x200 32) (a2 : FVec F S4 .f32) : FVec F S16384x200 .f32 :=
  select (cmpi .eq a0 (broadcastInDim S16384x200 ![] bcast_S_S16384x200 (constantI S_ 32 4294967295#32)))
    (broadcastInDim S16384x200 ![] bcast_S_S16384x200 (constant S_ .f32 0x00000000#32)) (takeV a0 a2)

/-- The reference's result: the energies plus (the row sums of the per-atom energies plus the intercept). -/
noncomputable def refOut (a0 : IVec Cert.ReferenceIdeal.S16384x200 32) (a1 : FVec Ideal Cert.ReferenceIdeal.S16384 .f32)
    (a2 : FVec Ideal Cert.ReferenceIdeal.S4 .f32) (a3 : FVec Ideal Cert.ReferenceIdeal.S_ .f32) :
    FVec Ideal Cert.ReferenceIdeal.S16384 .f32 :=
  addf a1 (addf
    (Host.reduceAdd (maskedV (F := Ideal) a0 a2) (constant (F := Ideal) S_ .f32 0x00000000#32) reducesTo_S16384x200_S16384_d1 h_S_)
    (broadcastInDim S16384 ![] bcast_S_S16384 a3))

/-! ## The line of operations -/

variable {F : FTy → Type} [FloatOps F]

/-- The contents of a buffer of shape `s` and element type `e`, at the float values `F`. -/
abbrev Cts (F : FTy → Type) (s : Shape) (e : EltTy) : Type := (⟨s, e⟩ : BufTy).Contents (Elt F)

/-- The take's and-reduce over the trailing axis, as the function its operation applies. -/
abbrev redAnd : Cts F S16384x200x1 .i1 → Cts F S_ .i1 → Cts F S16384x200 .i1 :=
  fun x v => Host.reduce IntOp.andi x v reducesTo_S16384x200x1_S16384x200_d2 h_S_

/-- The take's gather, as the function its operation applies. -/
abbrev gath : Cts F S4 .f32 → Cts F S16384x200x1 .i32 → Cts F S16384x200 .f32 :=
  fun x i => Host.gather gather_S4_S16384x200x1_S16384x200_n_0_n_n_0_2_1 x i

/-- @main's 41 operations, in order, over the references themselves: its own eleven, the clip's six, the take's
    twenty-two (the index normalisation's select among them) and the final where's two, each at the call's own buffers
    (a call's returned value at the buffer of the result it becomes). The and-reduce and the gather are parameters, so
    that two spellings of the line can be compared without opening either. -/
abbrev opsG (R : Cts F S16384x200x1 .i1 → Cts F S_ .i1 → Cts F S16384x200 .i1)
    (G : Cts F S4 .f32 → Cts F S16384x200x1 .i32 → Cts F S16384x200 .f32) : List (HloOp τ sig (Elt F)) :=
  [ nullary main_c (constantI S_ 32 0#32),
    nullary main_c_0 (constantI S_ 32 3#32),
    -- the clip
    unary main_c main_call0_v0 (id : Cts F S_ .i32 → Cts F S_ .i32),
    unary main_call0_v0 main_call0_v1 (broadcastInDim S16384x200 ![] bcast_S_S16384x200 : Cts F S_ .i32 → Cts F S16384x200 .i32),
    binary main_call0_v1 main_arg0 main_call0_v2 (maxsi : Cts F S16384x200 .i32 → Cts F S16384x200 .i32 → Cts F S16384x200 .i32),
    unary main_c_0 main_call0_v3 (id : Cts F S_ .i32 → Cts F S_ .i32),
    unary main_call0_v3 main_call0_v4 (broadcastInDim S16384x200 ![] bcast_S_S16384x200 : Cts F S_ .i32 → Cts F S16384x200 .i32),
    binary main_call0_v4 main_call0_v2 main_v0 (minsi : Cts F S16384x200 .i32 → Cts F S16384x200 .i32 → Cts F S16384x200 .i32),
    -- the take
    nullary main_call1_c (constantI S_ 32 0#32),
    unary main_call1_c main_call1_v0 (broadcastInDim S16384x200 ![] bcast_S_S16384x200 : Cts F S_ .i32 → Cts F S16384x200 .i32),
    binary main_v0 main_call1_v0 main_call1_v1 (cmpi .slt : Cts F S16384x200 .i32 → Cts F S16384x200 .i32 → Cts F S16384x200 .i1),
    nullary main_call1_c_0 (constantI S_ 32 4#32),
    unary main_call1_c_0 main_call1_v2 (broadcastInDim S16384x200 ![] bcast_S_S16384x200 : Cts F S_ .i32 → Cts F S16384x200 .i32),
    binary main_v0 main_call1_v2 main_call1_v3 (addi : Cts F S16384x200 .i32 → Cts F S16384x200 .i32 → Cts F S16384x200 .i32),
    ternary main_call1_v1 main_call1_v3 main_v0 main_call1_v4 (select : Cts F S16384x200 .i1 → Cts F S16384x200 .i32 → Cts F S16384x200 .i32 → Cts F S16384x200 .i32),
    unary main_call1_v4 main_call1_v5 (broadcastInDim S16384x200x1 ![0, 1] bcast_S16384x200_S16384x200x1_0_1 : Cts F S16384x200 .i32 → Cts F S16384x200x1 .i32),
    nullary main_call1_c_1 (constantI S1 32 3#32),
    nullary main_call1_c_2 (constantI S_ 32 0#32),
    unary main_call1_c_2 main_call1_v6 (broadcastInDim S16384x200x1 ![] bcast_S_S16384x200x1 : Cts F S_ .i32 → Cts F S16384x200x1 .i32),
    binary main_call1_v5 main_call1_v6 main_call1_v7 (cmpi .sge : Cts F S16384x200x1 .i32 → Cts F S16384x200x1 .i32 → Cts F S16384x200x1 .i1),
    unary main_call1_c_1 main_call1_v8 (broadcastInDim S1x1x1 ![2] bcast_S1_S1x1x1_2 : Cts F S1 .i32 → Cts F S1x1x1 .i32),
    unary main_call1_v8 main_call1_v9 (broadcastInDim S16384x200x1 ![0, 1, 2] bcast_S1x1x1_S16384x200x1_0_1_2 : Cts F S1x1x1 .i32 → Cts F S16384x200x1 .i32),
    binary main_call1_v5 main_call1_v9 main_call1_v10 (cmpi .sle : Cts F S16384x200x1 .i32 → Cts F S16384x200x1 .i32 → Cts F S16384x200x1 .i1),
    binary main_call1_v7 main_call1_v10 main_call1_v11 (andi : Cts F S16384x200x1 .i1 → Cts F S16384x200x1 .i1 → Cts F S16384x200x1 .i1),
    nullary main_call1_c_3 (constantI S_ 1 1#1),
    binary main_call1_v11 main_call1_c_3 main_call1_v12 R,
    binary main_arg2 main_call1_v5 main_call1_v13 G,
    nullary main_call1_cst (constant S_ .f32 0x7FC00000#32),
    unary main_call1_cst main_call1_v14 (broadcastInDim S16384x200 ![] bcast_S_S16384x200 : Cts F S_ .f32 → Cts F S16384x200 .f32),
    ternary main_call1_v12 main_call1_v13 main_call1_v14 main_v1 (select : Cts F S16384x200 .i1 → Cts F S16384x200 .f32 → Cts F S16384x200 .f32 → Cts F S16384x200 .f32),
    -- @main again
    nullary main_c_1 (constantI S_ 32 4294967295#32),
    unary main_c_1 main_v2 (broadcastInDim S16384x200 ![] bcast_S_S16384x200 : Cts F S_ .i32 → Cts F S16384x200 .i32),
    binary main_arg0 main_v2 main_v3 (cmpi .eq : Cts F S16384x200 .i32 → Cts F S16384x200 .i32 → Cts F S16384x200 .i1),
    nullary main_cst (constant S_ .f32 0x00000000#32),
    -- the final where
    unary main_cst main_call2_v0 (broadcastInDim S16384x200 ![] bcast_S_S16384x200 : Cts F S_ .f32 → Cts F S16384x200 .f32),
    ternary main_v3 main_call2_v0 main_v1 main_v4 (select : Cts F S16384x200 .i1 → Cts F S16384x200 .f32 → Cts F S16384x200 .f32 → Cts F S16384x200 .f32),
    -- @main's tail
    nullary main_cst_2 (constant S_ .f32 0x00000000#32),
    binary main_v4 main_cst_2 main_v5 (fun x v => Host.reduceAdd x v reducesTo_S16384x200_S16384_d1 h_S_ : Cts F S16384x200 .f32 → Cts F S_ .f32 → Cts F S16384 .f32),
    unary main_arg3 main_v6 (broadcastInDim S16384 ![] bcast_S_S16384 : Cts F S_ .f32 → Cts F S16384 .f32),
    binary main_v5 main_v6 main_v7 (addf : Cts F S16384 .f32 → Cts F S16384 .f32 → Cts F S16384 .f32),
    binary main_arg1 main_v7 main_v8 (addf : Cts F S16384 .f32 → Cts F S16384 .f32 → Cts F S16384 .f32) ]

/-- The same line as the functions' bodies state it, over typed references (a reference carrying the type of the
    tensor value it holds). -/
abbrev opsTG (R : Cts F S16384x200x1 .i1 → Cts F S_ .i1 → Cts F S16384x200 .i1)
    (G : Cts F S4 .f32 → Cts F S16384x200x1 .i32 → Cts F S16384x200 .f32) : List (HloOp τ sig (Elt F)) :=
  [ nullary main_c (constantI S_ 32 0#32),
    nullary main_c_0 (constantI S_ 32 3#32),
    -- the clip
    TRef.unary (.of main_c : TRef sig ⟨S_, .i32⟩) main_call0.v0 id,
    TRef.unary main_call0.v0 main_call0.v1 (broadcastInDim S16384x200 ![] bcast_S_S16384x200),
    TRef.binary main_call0.v1 (.of main_arg0 : TRef sig ⟨S16384x200, .i32⟩) main_call0.v2 maxsi,
    TRef.unary (.of main_c_0 : TRef sig ⟨S_, .i32⟩) main_call0.v3 id,
    TRef.unary main_call0.v3 main_call0.v4 (broadcastInDim S16384x200 ![] bcast_S_S16384x200),
    TRef.binary main_call0.v4 main_call0.v2 main_call0.v5 minsi,
    -- the take
    TRef.nullary main_call1.c (constantI S_ 32 0#32),
    TRef.unary main_call1.c main_call1.v0 (broadcastInDim S16384x200 ![] bcast_S_S16384x200),
    TRef.binary (.of main_v0 : TRef sig ⟨S16384x200, .i32⟩) main_call1.v0 main_call1.v1 (cmpi .slt),
    TRef.nullary main_call1.c_0 (constantI S_ 32 4#32),
    TRef.unary main_call1.c_0 main_call1.v2 (broadcastInDim S16384x200 ![] bcast_S_S16384x200),
    TRef.binary (.of main_v0 : TRef sig ⟨S16384x200, .i32⟩) main_call1.v2 main_call1.v3 addi,
    TRef.ternary main_call1.v1 main_call1.v3 (.of main_v0 : TRef sig ⟨S16384x200, .i32⟩) main_call1.call0.v0 select,
    TRef.unary main_call1.call0.v0 main_call1.v5 (broadcastInDim S16384x200x1 ![0, 1] bcast_S16384x200_S16384x200x1_0_1),
    TRef.nullary main_call1.c_1 (constantI S1 32 3#32),
    TRef.nullary main_call1.c_2 (constantI S_ 32 0#32),
    TRef.unary main_call1.c_2 main_call1.v6 (broadcastInDim S16384x200x1 ![] bcast_S_S16384x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x200x1 ![0, 1, 2] bcast_S1x1x1_S16384x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 R,
    TRef.binary (.of main_arg2 : TRef sig ⟨S4, .f32⟩) main_call1.v5 main_call1.v13 G,
    TRef.nullary main_call1.cst (constant S_ .f32 0x7FC00000#32),
    TRef.unary main_call1.cst main_call1.v14 (broadcastInDim S16384x200 ![] bcast_S_S16384x200),
    TRef.ternary main_call1.v12 main_call1.v13 main_call1.v14 main_call1.v15 select,
    -- @main again
    nullary main_c_1 (constantI S_ 32 4294967295#32),
    unary main_c_1 main_v2 (broadcastInDim S16384x200 ![] bcast_S_S16384x200 : (⟨S_, .i32⟩ : BufTy).Contents (Elt F) → (⟨S16384x200, .i32⟩ : BufTy).Contents (Elt F)),
    binary main_arg0 main_v2 main_v3 (cmpi .eq : (⟨S16384x200, .i32⟩ : BufTy).Contents (Elt F) → (⟨S16384x200, .i32⟩ : BufTy).Contents (Elt F) → (⟨S16384x200, .i1⟩ : BufTy).Contents (Elt F)),
    nullary main_cst (constant S_ .f32 0x00000000#32),
    -- the final where
    TRef.unary (.of main_cst : TRef sig ⟨S_, .f32⟩) main_call2.v0 (broadcastInDim S16384x200 ![] bcast_S_S16384x200),
    TRef.ternary (.of main_v3 : TRef sig ⟨S16384x200, .i1⟩) main_call2.v0 (.of main_v1 : TRef sig ⟨S16384x200, .f32⟩) main_call2.v1 select,
    -- @main's tail
    nullary main_cst_2 (constant S_ .f32 0x00000000#32),
    binary main_v4 main_cst_2 main_v5 ((fun x v => Host.reduceAdd x v reducesTo_S16384x200_S16384_d1 h_S_) : (⟨S16384x200, .f32⟩ : BufTy).Contents (Elt F) → (⟨S_, .f32⟩ : BufTy).Contents (Elt F) → (⟨S16384, .f32⟩ : BufTy).Contents (Elt F)),
    unary main_arg3 main_v6 (broadcastInDim S16384 ![] bcast_S_S16384 : (⟨S_, .f32⟩ : BufTy).Contents (Elt F) → (⟨S16384, .f32⟩ : BufTy).Contents (Elt F)),
    binary main_v5 main_v6 main_v7 (addf : (⟨S16384, .f32⟩ : BufTy).Contents (Elt F) → (⟨S16384, .f32⟩ : BufTy).Contents (Elt F) → (⟨S16384, .f32⟩ : BufTy).Contents (Elt F)),
    binary main_arg1 main_v7 main_v8 (addf : (⟨S16384, .f32⟩ : BufTy).Contents (Elt F) → (⟨S16384, .f32⟩ : BufTy).Contents (Elt F) → (⟨S16384, .f32⟩ : BufTy).Contents (Elt F)) ]

/-- The line of the reference. -/
abbrev ops : List (HloOp τ sig (Elt F)) := opsG redAnd gath

set_option maxRecDepth 8192 in
/-- The two spellings are one list: an operation stated over typed references is the operation over the references
    themselves, the transport along a type equation that holds by computation being the identity. -/
theorem opsTG_eq (R : Cts F S16384x200x1 .i1 → Cts F S_ .i1 → Cts F S16384x200 .i1)
    (G : Cts F S4 .f32 → Cts F S16384x200x1 .i32 → Cts F S16384x200 .f32) :
    (opsTG R G : List (HloOp τ sig (Elt F))) = opsG R G := rfl

-- forty-one steps in sequence, reassociated one after the other
set_option maxRecDepth 1024 in
/-- @main is that straight line: the functions' definitions unfolded at their calls and the records at their fields,
    both sides are one chain of host steps once sequencing is reassociated. -/
theorem main_eqT (c : Dev nD) : main (F := F) c = seq (opsTG redAnd gath) := by
  simp only [main, fn_clip.body, fn_take.body, fn_where.body, fn_where_0.body, seq, bind_assoc, pure_bind]

theorem main_eq (c : Dev nD) : main (F := F) c = seq ops :=
  (main_eqT c).trans (congrArg seq (opsTG_eq redAnd gath))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., binary_bufs_sub .., unary_bufs_sub .., binary_bufs_sub .., binary_bufs_sub ..⟩

/-! ## The buffers after the line -/

set_option maxRecDepth 8192 in
/-- The result buffer after the line is the composed term of the four argument buffers: each operation's result at
    its own buffer is its function's value, at any other buffer what was there. -/
theorem v8_eq (V : Valuation τ sig (Elt Ideal)) :
    after (ops (F := Ideal)) V (main_v8 : DevRef τ sig)
      = refOut (V (main_arg0 : DevRef τ sig)) (V (main_arg1 : DevRef τ sig)) (V (main_arg2 : DevRef τ sig))
          (V (main_arg3 : DevRef τ sig)) := by
  after_results_simp
  rfl

set_option maxRecDepth 8192 in
/-- No operation of the line writes an argument buffer. -/
theorem arg0_eq (V : Valuation τ sig (Elt F)) : after (ops (F := F)) V (main_arg0 : DevRef τ sig) = V (main_arg0 : DevRef τ sig) := by
  after_results_simp
set_option maxRecDepth 8192 in
theorem arg1_eq (V : Valuation τ sig (Elt F)) : after (ops (F := F)) V (main_arg1 : DevRef τ sig) = V (main_arg1 : DevRef τ sig) := by
  after_results_simp
set_option maxRecDepth 8192 in
theorem arg2_eq (V : Valuation τ sig (Elt F)) : after (ops (F := F)) V (main_arg2 : DevRef τ sig) = V (main_arg2 : DevRef τ sig) := by
  after_results_simp
set_option maxRecDepth 8192 in
theorem arg3_eq (V : Valuation τ sig (Elt F)) : after (ops (F := F)) V (main_arg3 : DevRef τ sig) = V (main_arg3 : DevRef τ sig) := by
  after_results_simp

/-! ## The run -/

/-- On every device, from any memory with zero counters: every weakly fair execution of the reference's @main
    terminates with the result buffer at `refOut` of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v8)
            = refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v8).trans (v8_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.Proof.RefRun

end
-- ==== Proof.RefValue.lean ====
/-
  The reference's result read at an index. Under `0 ≤ species ≤ 3` the clip and the take's index normalisation are
  the identity, both of the take's range tests pass, and no species is `-1`; so each per-atom energy is the table at
  the species, the row sum is the sum over the row's atoms, and the result at row `i` is the energy plus that sum plus
  the intercept, on the extended reals.
-/
import proofs.«206979_g57535381897292_cont_9to1_m_841_24_alg».proof.Proof.RefRun
import Idealize.ShloMosaic.PureOps.Ideal.Laws
import Idealize.ShloMosaic.PureOps.Reduce
import Idealize.ShloMosaic.Lib.ValueIdx
import Idealize.ShloMosaic.Lib.IdealHost
import Idealize.ShloMosaic.Lib.Affine
import Idealize.ShloMosaic.Lib.Pipeline.Value

noncomputable section

namespace Cert.Proof.RefRun

open Cert.ReferenceIdeal Cert.ReferenceIdeal.Gen Idealize.ShloMosaic Idealize.SL.Sem

open Idealize.ShloMosaic.ValueIdx
open scoped BigOperators

/-! ## Words: a species in `[0, 3]` under the reference's integer operations -/

section Words
variable {s : BitVec 32}

theorem toInt_zero32 : (0#32 : BitVec 32).toInt = 0 := by decide
theorem toInt_three32 : (3#32 : BitVec 32).toInt = 3 := by decide

/-- Clipping into `[0, 3]` keeps a word already there. -/
theorem clip_word (h0 : 0 ≤ s.toInt) (h3 : s.toInt ≤ 3) : IntOp.minsi 3#32 (IntOp.maxsi 0#32 s) = s := by
  have hm : IntOp.maxsi 0#32 s = s := by
    unfold IntOp.maxsi
    rw [if_neg]
    rw [BitVec.slt_iff_toInt_lt, toInt_zero32]; omega
  rw [hm]
  unfold IntOp.minsi
  rw [if_neg]
  rw [BitVec.slt_iff_toInt_lt, toInt_three32]; omega

/-- A word that is not negative does not test below zero. -/
theorem slt_zero_word (h0 : 0 ≤ s.toInt) : IntOp.cmpi .slt s 0#32 = 0#1 :=
  eq_zero_of_ne_one fun h => by have := IntOp.cmpi_slt.mp h; rw [toInt_zero32] at this; omega

theorem sge_zero_word (h0 : 0 ≤ s.toInt) : IntOp.cmpi .sge s 0#32 = 1#1 :=
  IntOp.cmpi_sge.mpr (by rw [toInt_zero32]; exact h0)

theorem sle_three_word (h3 : s.toInt ≤ 3) : IntOp.cmpi .sle s 3#32 = 1#1 :=
  IntOp.cmpi_sle.mpr (by rw [toInt_three32]; exact h3)

/-- A word that is not negative is not `-1`. -/
theorem eq_neg_one_word (h0 : 0 ≤ s.toInt) : IntOp.cmpi .eq s 4294967295#32 = 0#1 :=
  eq_zero_of_ne_one fun h => by
    have e := IntOp.cmpi_eq.mp h
    rw [e] at h0
    revert h0; decide

/-- A word in `[0, 3]` read signed is the word read unsigned, and is below 4. -/
theorem toNat_of_range (h0 : 0 ≤ s.toInt) (h3 : s.toInt ≤ 3) : s.toInt.toNat = s.toNat ∧ s.toNat < 4 := by
  have hc := BitVec.toInt_eq_toNat_cond s
  have hlt := s.isLt
  split at hc <;> omega

/-- An `and`-fold of ones from one is one. -/
theorem fold_andi_one {ι : Type} (S : Finset ι) (g : ι → BitVec 1) (hg : ∀ k, g k = 1#1) :
    S.fold IntOp.andi 1#1 g = 1#1 := by
  classical
  refine Finset.induction_on S rfl ?_
  intro a S ha ih
  rw [Finset.fold_insert ha, ih, hg a]; decide

end Words

/-! ## The stages read at an index -/

section Stages
variable {a0 : IVec S16384x200 32} (hs : ∀ j, (0 : Int) ≤ (a0 j).toInt ∧ (a0 j).toInt ≤ 3)
include hs

/-- A species in range is a table index. -/
theorem species_lt (y : S16384x200.Idx) : (a0 y).toNat < 4 := (toNat_of_range (hs y).1 (hs y).2).2

/-- The clip is the identity. -/
theorem clipV_apply (y : S16384x200.Idx) : clipV a0 y = a0 y := by
  show IntOp.minsi (broadcastInDim S16384x200 ![] bcast_S_S16384x200 (id (constantI S_ 32 3#32)) y)
      (IntOp.maxsi (broadcastInDim S16384x200 ![] bcast_S_S16384x200 (id (constantI S_ 32 0#32)) y) (a0 y)) = a0 y
  rw [broadcastInDim_scalar_apply, broadcastInDim_scalar_apply]
  exact clip_word (hs y).1 (hs y).2

/-- The index normalisation is the identity: no index is negative. -/
theorem wrapV_apply (y : S16384x200.Idx) : wrapV a0 y = a0 y := by
  show Scalar.select (IntOp.cmpi .slt (clipV a0 y) (broadcastInDim S16384x200 ![] bcast_S_S16384x200 (constantI S_ 32 0#32) y))
      (IntOp.addi (clipV a0 y) (broadcastInDim S16384x200 ![] bcast_S_S16384x200 (constantI S_ 32 4#32) y)) (clipV a0 y) = a0 y
  rw [clipV_apply hs, broadcastInDim_scalar_apply]
  show Scalar.select (IntOp.cmpi .slt (a0 y) 0#32) _ _ = _
  rw [slt_zero_word (hs y).1, select_zero]

/-- A start index is the species at the first two coordinates. -/
theorem idxV_apply (z : S16384x200x1.Idx) : idxV a0 z = a0 (ix2 (z 0) (z 1)) := by
  unfold idxV
  rw [broadcastInDim_apply ![0, 1] bcast_S16384x200_S16384x200x1_0_1 (wrapV a0) z (ix2 (z 0) (z 1))
    (fun a => by fin_cases a <;> rfl)]
  exact wrapV_apply hs _

/-- Both range tests pass at every start index. -/
theorem inRange_elem (z : S16384x200x1.Idx) :
    andi (cmpi .sge (idxV a0) (broadcastInDim S16384x200x1 ![] bcast_S_S16384x200x1 (constantI S_ 32 0#32)))
      (cmpi .sle (idxV a0) (broadcastInDim S16384x200x1 ![0, 1, 2] bcast_S1x1x1_S16384x200x1_0_1_2
          (broadcastInDim S1x1x1 ![2] bcast_S1_S1x1x1_2 (constantI S1 32 3#32)))) z = 1#1 := by
  show IntOp.andi (IntOp.cmpi .sge (idxV a0 z) (broadcastInDim S16384x200x1 ![] bcast_S_S16384x200x1 (constantI S_ 32 0#32) z))
      (IntOp.cmpi .sle (idxV a0 z) 3#32) = 1#1
  rw [broadcastInDim_scalar_apply, idxV_apply hs]
  show IntOp.andi (IntOp.cmpi .sge _ 0#32) _ = _
  rw [sge_zero_word (hs _).1, sle_three_word (hs _).2]; decide

/-- Every index is in range. -/
theorem inRangeV_apply (y : S16384x200.Idx) : inRangeV a0 y = 1#1 := by
  unfold inRangeV
  rw [Host.reduce_eq_fold_single IntOp.andi _ _ reducesTo_S16384x200x1_S16384x200_d2
    (by decide : S16384x200x1.Reduces [2] S16384x200) h_S_ y]
  exact fold_andi_one _ _ fun k => inRange_elem hs _

/-- The take reads the table at the species. -/
theorem takeV_apply (a2 : FVec Ideal S4 .f32) (y : S16384x200.Idx) :
    takeV (F := Ideal) a0 a2 y = a2 (ix1 ⟨(a0 y).toNat, species_lt hs y⟩) := by
  unfold takeV
  rw [select_apply, inRangeV_apply hs, select_one]
  refine (gather_take_apply (N := 4) (R := 16384) (C := 200) (by decide)
    gather_S4_S16384x200x1_S16384x200_n_0_n_n_0_2_1_wf a2 (idxV a0) y).trans ?_
  refine congrArg a2 (congrArg ix1 (Fin.ext ?_))
  show min (idxV a0 (takeIdx y)).toInt.toNat (4 - 1) = (a0 y).toNat
  rw [idxV_apply hs, show (ix2 (takeIdx y 0) (takeIdx y 1) : S16384x200.Idx) = y from (eq_ix2 y).symm]
  obtain ⟨h1, h2⟩ := toNat_of_range (hs y).1 (hs y).2
  rw [h1]; omega

/-- A per-atom energy is the table at the species: no species is `-1`. -/
theorem maskedV_apply (a2 : FVec Ideal S4 .f32) (y : S16384x200.Idx) :
    maskedV (F := Ideal) a0 a2 y = a2 (ix1 ⟨(a0 y).toNat, species_lt hs y⟩) := by
  show Scalar.select (IntOp.cmpi .eq (a0 y)
      (broadcastInDim S16384x200 ![] bcast_S_S16384x200 (constantI S_ 32 4294967295#32) y)) _ (takeV (F := Ideal) a0 a2 y) = _
  rw [broadcastInDim_scalar_apply]
  show Scalar.select (IntOp.cmpi .eq (a0 y) 4294967295#32) _ _ = _
  rw [eq_neg_one_word (hs y).1, select_zero]
  exact takeV_apply hs a2 y

end Stages

/-! ## The result at an index -/

/-- The reference's result at row `i`: the energy plus (the sum over the row's atoms of the table at the species,
    plus the intercept), on the extended reals. -/
theorem refOut_apply (a0 : IVec S16384x200 32) (a1 : FVec Ideal S16384 .f32) (a2 : FVec Ideal S4 .f32) (a3 : FVec Ideal S_ .f32)
    (hs : ∀ j, (0 : Int) ≤ (a0 j).toInt ∧ (a0 j).toInt ≤ 3) (i : Fin 16384) :
    refOut a0 a1 a2 a3 (ix1 i)
      = a1 (ix1 i) + ((∑ k : Fin 200, a2 (ix1 ⟨(a0 (ix2 i k)).toNat, species_lt hs (ix2 i k)⟩)) + a3 ix0) := by
  have hR : S16384x200.Reduces [1] S16384 := by decide
  have hsum : Host.reduceAdd (maskedV (F := Ideal) a0 a2) (constant (F := Ideal) S_ .f32 0x00000000#32)
        reducesTo_S16384x200_S16384_d1 h_S_ (ix1 i)
      = ∑ k : Fin 200, a2 (ix1 ⟨(a0 (ix2 i k)).toNat, species_lt hs (ix2 i k)⟩) := by
    rw [hostReduceAdd_apply, Ideal.hostReduceAdd_single reducesTo_S16384x200_S16384_d1 hR]
    show Ideal.ofBits .f32 0x00000000#32 + _ = _
    rw [Ideal.ofBits_zero_f32, zero_add]
    refine Finset.sum_congr rfl fun k _ => ?_
    have hl : hR.lift (ix1 i) k = ix2 i k := by
      funext c
      have : ∀ c : Fin 2, hR.lift (ix1 i) k c = (ix2 i k : S16384x200.Idx) c := by
        intro c; fin_cases c <;> rfl
      exact this c
    rw [hl]
    exact maskedV_apply hs a2 _
  show a1 (ix1 i) + (Host.reduceAdd (maskedV (F := Ideal) a0 a2) (constant (F := Ideal) S_ .f32 0x00000000#32)
        reducesTo_S16384x200_S16384_d1 h_S_ (ix1 i) + broadcastInDim S16384 ![] bcast_S_S16384 a3 (ix1 i)) = _
  rw [hsum, broadcastInDim_scalar_apply]

end Cert.Proof.RefRun

end
-- ==== Proof.KIBridge.lean ====
/-
  The bridge between the kernel's result, stated as one function of the argument arrays, and the reference's result.
  First, what the precondition says: every species word lies in `[0, 3]` and every table entry is a real number.
  Then, under those two facts, the two results are one array: a four-entry table read at a word in `{0, 1, 2, 3}` is
  a fixed combination of the word, its half and the indicator of 3, so the sum over a row of the table at the species
  is the same combination of the row's three integer totals, none of which wraps at 32 bits.
-/
import proofs.«206979_g57535381897292_cont_9to1_m_841_24_alg».proof.Proof.KISpec
import proofs.«206979_g57535381897292_cont_9to1_m_841_24_alg».proof.Proof.LibEnergyAlgebra
import proofs.«206979_g57535381897292_cont_9to1_m_841_24_alg».proof.Proof.RefValue
import proofs.«206979_g57535381897292_cont_9to1_m_841_24_alg».proof.Proof.Gen.Pre_input_domain
import Idealize.ShloMosaic.Lib.ReduceAll
import Idealize.ShloMosaic.Lib.IdealHost

noncomputable section

namespace Cert.Proof.KI

open Idealize.ShloMosaic Idealize.SL.Sem
open Idealize.ShloMosaic.ValueIdx
open Cert.Proof.LibEnergyAlgebra
open scoped BigOperators

/-! ## What the precondition says -/

/-- Where the printed precondition holds, every species word lies in `[0, 3]`: its last conjunct is the and-reduce,
    over the whole array, of the two signed comparisons. -/
theorem fn_species (a0 : IVec Cert.Pre_input_domain.S16384x200 32) (a1 : FVec Ideal Cert.Pre_input_domain.S16384 .f32)
    (a2 : FVec Ideal Cert.Pre_input_domain.S4 .f32) (a3 : FVec Ideal Cert.Pre_input_domain.S_ .f32)
    (h : Cert.Pre_input_domain.fn (F := Ideal) a0 a1 a2 a3 = fun _ => 1#1) (j : Cert.Pre_input_domain.S16384x200.Idx) :
    (0 : Int) ≤ (a0 j).toInt ∧ (a0 j).toInt ≤ 3 := by
  haveI : Subsingleton Cert.Pre_input_domain.S_.Idx := ⟨fun a b => funext fun d => d.elim0⟩
  have h0 := congrFun h ix0
  dsimp only [Cert.Pre_input_domain.fn, Cert.Pre_input_domain.fn_part1] at h0
  have h1 := (IntOp.andi_eq_one.mp h0).2
  have h2 := Host.reduce_andi_all _ _ _ _ _ h1 j
  exact sle_sge_small (a0 j) h2

/-- Where the printed precondition holds, every table entry is a real number: the conjunct for the table is the
    and-reduce of `|x| < +∞` over its four entries. -/
theorem fn_table (a0 : IVec Cert.Pre_input_domain.S16384x200 32) (a1 : FVec Ideal Cert.Pre_input_domain.S16384 .f32)
    (a2 : FVec Ideal Cert.Pre_input_domain.S4 .f32) (a3 : FVec Ideal Cert.Pre_input_domain.S_ .f32)
    (h : Cert.Pre_input_domain.fn (F := Ideal) a0 a1 a2 a3 = fun _ => 1#1) (x : Cert.Pre_input_domain.S4.Idx) :
    ∃ r : ℝ, a2 x = (r : EReal) := by
  haveI : Subsingleton Cert.Pre_input_domain.S_.Idx := ⟨fun a b => funext fun d => d.elim0⟩
  have h0 := congrFun h ix0
  dsimp only [Cert.Pre_input_domain.fn, Cert.Pre_input_domain.fn_part1] at h0
  have h1 := (IntOp.andi_eq_one.mp (IntOp.andi_eq_one.mp (IntOp.andi_eq_one.mp h0).1).1).2
  have h2 := Host.reduce_andi_all _ _ _ _ _ h1 x
  exact real_of_cmpf_olt_inf (a2 x) h2

/-- The kernel's precondition bounds every species word of every device's species array. -/
theorem pre_species (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, (0 : Int) ≤ (m ((c.tc : Thread Cert.KernelIdeal.nD Cert.KernelIdeal.τ).loc Cert.KernelIdeal.main_arg0) j).toInt
      ∧ (m ((c.tc : Thread Cert.KernelIdeal.nD Cert.KernelIdeal.τ).loc Cert.KernelIdeal.main_arg0) j).toInt ≤ 3 :=
  fn_species _ _ _ _ (h c)

/-- The kernel's precondition makes every entry of every device's table a real number. -/
theorem pre_table (m : (ℓ : Loc Cert.KernelIdeal.nD Cert.KernelIdeal.τ Cert.KernelIdeal.sig) → Buf (Elt Ideal) ℓ)
    (h : Cert.Pre_KernelIdeal m) (c : Dev Cert.KernelIdeal.nD) :
    ∀ x, ∃ r : ℝ, m ((c.tc : Thread Cert.KernelIdeal.nD Cert.KernelIdeal.τ).loc Cert.KernelIdeal.main_arg2) x = (r : EReal) :=
  fn_table _ _ _ _ (h c)

/-! ## Words: sums of small words do not wrap -/

/-- The sum of a finite family of 32-bit words, each in `[0, 3]` read signed, reads signed as the sum of the
    readings, so long as three times the family's size is below `2^31`. -/
theorem toInt_sum_small {ι : Type} (A : Finset ι) (f : ι → BitVec 32)
    (hf : ∀ k, 0 ≤ (f k).toInt ∧ (f k).toInt ≤ 3) :
    (A.card : Int) * 3 < 2 ^ 31 →
      (∑ k ∈ A, f k).toInt = ∑ k ∈ A, (f k).toInt ∧ 0 ≤ (∑ k ∈ A, f k).toInt
        ∧ (∑ k ∈ A, f k).toInt ≤ (A.card : Int) * 3 := by
  classical
  refine Finset.induction_on A ?_ ?_
  · intro _
    rw [Finset.sum_empty, Finset.sum_empty, Finset.card_empty]
    exact ⟨by decide, by decide, by decide⟩
  · intro a A ha ih hA
    rw [Finset.card_insert_of_notMem ha] at hA ⊢
    obtain ⟨e, l, u⟩ := ih (by push_cast at hA ⊢; omega)
    have key := addi_toInt (f a) (∑ k ∈ A, f k) 3 ((A.card : Int) * 3) (hf a) ⟨l, u⟩ (by push_cast at hA; omega)
    have k1 : (f a + ∑ k ∈ A, f k).toInt = (f a).toInt + (∑ k ∈ A, f k).toInt := key.1
    have k2 : 0 ≤ (f a + ∑ k ∈ A, f k).toInt := key.2.1
    have k3 : (f a + ∑ k ∈ A, f k).toInt ≤ 3 + (A.card : Int) * 3 := key.2.2
    rw [Finset.sum_insert ha, Finset.sum_insert ha]
    refine ⟨?_, k2, ?_⟩
    · rw [← e]; exact k1
    · push_cast; omega

/-- A row's total: 200 words in `[0, 3]` sum without wrapping. -/
theorem toInt_rowSum (f : Fin 200 → BitVec 32) (hf : ∀ k, 0 ≤ (f k).toInt ∧ (f k).toInt ≤ 3) :
    (∑ k, f k).toInt = ∑ k, (f k).toInt :=
  (toInt_sum_small Finset.univ f hf (by rw [Finset.card_univ, Fintype.card_fin]; norm_num)).1

/-! ## The two float literals -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `200.0` denotes the real `200`. -/
theorem ofBits_200 : Ideal.ofBits .f32 0x43480000#32 = ((200 : ℝ) : EReal) := by
  simp [Ideal.ofBits, Ideal.ieee, -EReal.coe_mul]; norm_num

/-! ## The four scalars, at the table as a 16-lane vector -/

section Scalars
open Cert.KernelIdeal Cert.KernelIdeal.Gen
variable (tb : FVec Ideal Cert.KernelIdeal.S4 .f32)

/-- Lanes 0, 1, 2 of the table's vector are the table's first three entries. -/
theorem pay418_tb : k0_pay418 (F := Ideal) (tbVec tb) = tb (ix1 ⟨0, by decide⟩) := rfl
theorem pay419_tb : k0_pay419 (F := Ideal) (tbVec tb) = tb (ix1 ⟨1, by decide⟩) := rfl
theorem pay420_tb : k0_pay420 (F := Ideal) (tbVec tb) = tb (ix1 ⟨2, by decide⟩) := rfl

/-- `t1 - t0`. -/
theorem pay421_tb : k0_pay421 (F := Ideal) (tbVec tb) = tb (ix1 ⟨1, by decide⟩) - tb (ix1 ⟨0, by decide⟩) := by
  unfold k0_pay421
  rw [pay419_tb, pay418_tb]
  rfl

/-- `(t2 + t0) - 2·t1`. -/
theorem pay422_tb : k0_pay422 (F := Ideal) (tbVec tb)
    = (tb (ix1 ⟨2, by decide⟩) + tb (ix1 ⟨0, by decide⟩)) - ((2 : ℝ) : EReal) * tb (ix1 ⟨1, by decide⟩) := by
  unfold k0_pay422
  rw [pay420_tb, pay418_tb, pay419_tb]
  simp only [Ideal.scalar_subf_def, Ideal.scalar_addf_def, Ideal.scalar_mulf_def, Ideal.ofBits_def]
  rw [ofBits_two]

/-- `((t3 - t2) - t1) + t0`. -/
theorem pay423_tb : k0_pay423 (F := Ideal) (tbVec tb)
    = ((tb (ix1 ⟨3, by decide⟩) - tb (ix1 ⟨2, by decide⟩)) - tb (ix1 ⟨1, by decide⟩)) + tb (ix1 ⟨0, by decide⟩) := by
  unfold k0_pay423
  rw [pay420_tb, pay419_tb, pay418_tb]
  simp only [Ideal.scalar_subf_def, Ideal.scalar_addf_def]
  rfl

/-- `t0 · 200`. -/
theorem pay424_tb : k0_pay424 (F := Ideal) (tbVec tb) = tb (ix1 ⟨0, by decide⟩) * ((200 : ℝ) : EReal) := by
  unfold k0_pay424
  rw [pay418_tb]
  simp only [Ideal.scalar_mulf_def, Ideal.ofBits_def]
  rw [ofBits_200]

/-- The energy expression on the extended reals, over any 16-lane vector. -/
theorem energyOf_ideal (v9 : Vec Ideal S16 .f32) (T0 T1 T3 : BitVec 32) (e ic : Ideal .f32) :
    energyOf (F := Ideal) v9 T0 T1 T3 e ic
      = ((((k0_pay424 (F := Ideal) v9 + k0_pay421 (F := Ideal) v9 * (((T0.toInt : ℤ) : ℝ) : EReal))
          + k0_pay422 (F := Ideal) v9 * (((T1.toInt : ℤ) : ℝ) : EReal))
          + k0_pay423 (F := Ideal) v9 * (((T3.toInt : ℤ) : ℝ) : EReal)) + e) + ic := rfl

end Scalars

/-! ## The kernel's result is the reference's -/

/-- The table read at a word in `{0, 1, 2, 3}`, through a function on the integers. -/
theorem tab_at (tb : FVec Ideal Cert.KernelIdeal.S4 .f32) (r0 r1 r2 r3 : ℝ)
    (h0 : tb (ix1 ⟨0, by decide⟩) = (r0 : EReal)) (h1 : tb (ix1 ⟨1, by decide⟩) = (r1 : EReal))
    (h2 : tb (ix1 ⟨2, by decide⟩) = (r2 : EReal)) (h3 : tb (ix1 ⟨3, by decide⟩) = (r3 : EReal))
    (v : BitVec 32) (hv : v.toNat < 4) (l : 0 ≤ v.toInt) (u : v.toInt ≤ 3) :
    (((if v.toInt = 0 then r0 else if v.toInt = 1 then r1 else if v.toInt = 2 then r2 else r3 : ℝ)) : EReal)
      = tb (ix1 ⟨v.toNat, hv⟩) := by
  rcases eq_of_small v l u with rfl | rfl | rfl | rfl
  · exact h0.symm
  · exact h1.symm
  · exact h2.symm
  · exact h3.symm

theorem spec_eq_ref (sp : IVec Cert.KernelIdeal.S16384x200 32) (en : FVec Ideal Cert.KernelIdeal.S16384 .f32)
    (tb : FVec Ideal Cert.KernelIdeal.S4 .f32) (ic : FVec Ideal Cert.KernelIdeal.S_ .f32)
    (hs : ∀ j, (0 : Int) ≤ (sp j).toInt ∧ (sp j).toInt ≤ 3) (htb : ∀ x, ∃ r : ℝ, tb x = (r : EReal)) :
    outSpec (F := Ideal) sp en tb (broadcastInDim Cert.KernelIdeal.S16 ![] Cert.KernelIdeal.Gen.bcast_S_S16 ic)
      = Cert.Proof.RefRun.refOut sp en tb ic := by
  funext y
  obtain ⟨i, rfl⟩ : ∃ i, y = ix1 i := ⟨y 0, eq_ix1 y⟩
  rw [Cert.Proof.RefRun.refOut_apply sp en tb ic hs i]
  obtain ⟨r0, h0⟩ := htb (ix1 ⟨0, by decide⟩)
  obtain ⟨r1, h1⟩ := htb (ix1 ⟨1, by decide⟩)
  obtain ⟨r2, h2⟩ := htb (ix1 ⟨2, by decide⟩)
  obtain ⟨r3, h3⟩ := htb (ix1 ⟨3, by decide⟩)
  -- the three totals, as integers
  have hS : (colTot id sp i).toInt = ∑ k : Fin 200, (sp (ix2 i k)).toInt :=
    toInt_rowSum (fun k => id (sp (ix2 i k))) (fun k => hs _)
  have hS1 : (colTot shr1 sp i).toInt = ∑ k : Fin 200, (sp (ix2 i k)).toInt / 2 := by
    refine (toInt_rowSum (fun k => shr1 (sp (ix2 i k))) (fun k => ?_)).trans
      (Finset.sum_congr rfl fun k _ => shr_of_small _ (hs _).1 (hs _).2)
    have e : (shr1 (sp (ix2 i k))).toInt = (sp (ix2 i k)).toInt / 2 := shr_of_small _ (hs _).1 (hs _).2
    have := hs (ix2 i k)
    rw [e]; omega
  have hS3 : (colTot and1 sp i).toInt = ∑ k : Fin 200, if (sp (ix2 i k)).toInt = 3 then 1 else 0 := by
    refine (toInt_rowSum (fun k => and1 (sp (ix2 i k))) (fun k => ?_)).trans
      (Finset.sum_congr rfl fun k _ => and_shr_of_small _ (hs _).1 (hs _).2)
    have e : (and1 (sp (ix2 i k))).toInt = if (sp (ix2 i k)).toInt = 3 then 1 else 0 :=
      and_shr_of_small _ (hs _).1 (hs _).2
    rw [e]; split <;> omega
  -- the kernel's expression, on the extended reals
  show energyOf (F := Ideal) (tbVec tb) (colTot id sp i) (colTot shr1 sp i) (colTot and1 sp i) (en (ix1 i))
      (broadcastInDim Cert.KernelIdeal.S16 ![] Cert.KernelIdeal.Gen.bcast_S_S16 ic
        (ix1 ⟨i.val % 16, Nat.mod_lt _ (by decide)⟩)) = _
  rw [energyOf_ideal, pay424_tb, pay421_tb, pay422_tb, pay423_tb, broadcastInDim_scalar_apply, h0, h1, h2, h3]
  have key := energy_identity_ereal r0 r1 r2 r3 (fun k => (sp (ix2 i k)).toInt) (fun k => hs _)
    (fun n => if n = 0 then r0 else if n = 1 then r1 else if n = 2 then r2 else r3) rfl rfl rfl rfl
    _ _ _ hS hS1 hS3 (en (ix1 i)) (ic ix0)
  rw [key]
  exact congrArg (fun X : EReal => en (ix1 i) + (X + ic ix0)) (Finset.sum_congr rfl fun k _ =>
    tab_at tb r0 r1 r2 r3 h0 h1 h2 h3 (sp (ix2 i k)) (Cert.Proof.RefRun.species_lt hs _) (hs _).1 (hs _).2)

end Cert.Proof.KI

end
-- ==== Proof.lean ====
/-
  The energy adder's certificate. The kernel adds to each of 16384 energies the sum over its row's 200 species s in
  {0, 1, 2, 3} of the table's entry t_s and an intercept, through the identity
    t_s = t0 + (t1 - t0)·s + ((t2 + t0) - 2 t1)·(s >> 1) + (((t3 - t2) - t1) + t0)·(s & (s >> 1)),
  summing s, s >> 1 and s & (s >> 1) over the row as 32-bit words; the reference gathers t_s and sums. The two agree on
  the extended reals where the species lie in 0..3 and the table is finite (the identity distributes products over
  sums): the claim's precondition.
  Each kernel program's run ends with the arguments unchanged and the result at ONE function of the arguments (the
  energy expression at each row's three word totals); the frames are that run with the value dropped. The reference's
  run ends at its composed term, which under the precondition is the same function, index by index.
-/
import proofs.«206979_g57535381897292_cont_9to1_m_841_24_alg».proof.Defs
import proofs.«206979_g57535381897292_cont_9to1_m_841_24_alg».proof.Proof.Gen.Kernel
import proofs.«206979_g57535381897292_cont_9to1_m_841_24_alg».proof.Proof.Gen.Kernel.Skeleton
import proofs.«206979_g57535381897292_cont_9to1_m_841_24_alg».proof.Proof.Gen.KernelIdeal
import proofs.«206979_g57535381897292_cont_9to1_m_841_24_alg».proof.Proof.Gen.KernelIdeal.Skeleton
import proofs.«206979_g57535381897292_cont_9to1_m_841_24_alg».proof.Proof.Gen.ReferenceIdeal
import proofs.«206979_g57535381897292_cont_9to1_m_841_24_alg».proof.Proof.Gen.Pre_input_domain
import proofs.«206979_g57535381897292_cont_9to1_m_841_24_alg».proof.Proof.KIValue
import proofs.«206979_g57535381897292_cont_9to1_m_841_24_alg».proof.Proof.KBValue
import proofs.«206979_g57535381897292_cont_9to1_m_841_24_alg».proof.Proof.KIBridge
import proofs.«206979_g57535381897292_cont_9to1_m_841_24_alg».proof.Proof.RefValue
import Idealize.ShloMosaic.Adequacy
import Idealize.ShloMosaic.Init

noncomputable section

namespace Cert.Proof

open Idealize.ShloMosaic Idealize.SL.Sem

/-- The kernel as printed: every execution ends, nothing faulting, the arguments unchanged. -/
theorem frame_p : Cert.frame_Kernel := fun m ρ _ =>
  (θ_run Cert.Kernel.defs _ _).mono (fun _ h c => ⟨(h c).1, (h c).2.1, (h c).2.2.1, (h c).2.2.2.1⟩)
    (Cert.Proof.KB.run_main (F := Bits) m ρ (Cert.Proof.KB.Gout m) (Cert.Proof.KB.blockOK m))

/-- The idealized kernel likewise. -/
theorem frame_pi : Cert.frame_KernelIdeal := fun m ρ _ =>
  (θ_run Cert.KernelIdeal.defs _ _).mono (fun _ h c => ⟨(h c).1, (h c).2.1, (h c).2.2.1, (h c).2.2.2.1⟩)
    (Cert.Proof.KI.run_main (F := Ideal) m ρ (Cert.Proof.KI.Gout m) (Cert.Proof.KI.blockOK m))

/-- The reference: its run with the result dropped. -/
theorem frame_ri : Cert.frame_ReferenceIdeal := fun m ρ _ =>
  (θ_run Cert.ReferenceIdeal.defs _ _).mono (fun _ h c => (h c).2) (Cert.Proof.RefRun.run m ρ)

/-- The ideal pass rewrote nothing. -/
theorem preserves : Cert.preserves_Kernel_KernelIdeal := trivial

/-- The idealized kernel's result array ends at the energy expression of each row's word totals; the reference's at
    its composed term; under the precondition (species in 0..3, table finite) these are one function. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.Proof.KI.Gout m c, ?_, ?_⟩
  · exact (θ_run Cert.KernelIdeal.defs _ _).mono
      (fun _ h c => ⟨(h c).1, (h c).2.2.2.2, (h c).1, (h c).2.1, (h c).2.2.1, (h c).2.2.2.1⟩)
      (Cert.Proof.KI.run_main (F := Ideal) m ρ (Cert.Proof.KI.Gout m) (Cert.Proof.KI.blockOK m))
  · refine (θ_run Cert.ReferenceIdeal.defs _ _).mono (fun _ h c => ⟨?_, ?_, (h c).2⟩) (Cert.Proof.RefRun.run m' ρ')
    · rw [(h c).2.1, (hagree c).1]
    · rw [(h c).1, (hagree c).1, (hagree c).2.1, (hagree c).2.2.1, (hagree c).2.2.2]
      exact (Cert.Proof.KI.spec_eq_ref _ _ _ _ (Cert.Proof.KI.pre_species m hpre c) (Cert.Proof.KI.pre_table m hpre c)).symm

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
